-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192 : Shape := ⟨1, ![8192]⟩
abbrev S8192x8 : Shape := ⟨2, ![8192, 8]⟩
abbrev S8192x128 : Shape := ⟨2, ![8192, 128]⟩
abbrev S1 : Shape := ⟨1, ![1]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S8192x128 : S_.BroadcastsInDim S8192x128 (![] : Fin 0 → Fin S8192x128.rank)
  reducesTo_S8192x128_S_d0_1 : S8192x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x3 .f32) (main_arg1 : IVec S8192 32) (main_arg2 : FVec F S8192x8 .f32) (main_arg3 : FVec F S8192x128 .f32) (main_arg4 : FVec F S1 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x8 .f32 := Host.absf main_arg2
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x3 : Shape := ⟨2, ![8192, 3]⟩
abbrev S8192 : Shape := ⟨1, ![8192]⟩
abbrev S8192x8 : Shape := ⟨2, ![8192, 8]⟩
abbrev S8192x128 : Shape := ⟨2, ![8192, 128]⟩
abbrev S1 : Shape := ⟨1, ![1]⟩
abbrev S_ : Shape := ⟨0, ![]⟩
abbrev S8192x1 : Shape := ⟨2, ![8192, 1]⟩
abbrev S8192x1x1 : Shape := ⟨3, ![8192, 1, 1]⟩
abbrev S1x1x1 : Shape := ⟨3, ![1, 1, 1]⟩
abbrev S8 : Shape := ⟨1, ![8]⟩
abbrev S1x8192 : Shape := ⟨2, ![1, 8192]⟩
abbrev S1x1 : Shape := ⟨2, ![1, 1]⟩
abbrev S512x128 : Shape := ⟨2, ![512, 128]⟩
abbrev S512x8 : Shape := ⟨2, ![512, 8]⟩
abbrev S1x512 : Shape := ⟨2, ![1, 512]⟩
abbrev S128x512 : Shape := ⟨2, ![128, 512]⟩
abbrev S512x512 : Shape := ⟨2, ![512, 512]⟩
abbrev S512x1 : Shape := ⟨2, ![512, 1]⟩
abbrev S8x512 : Shape := ⟨2, ![8, 512]⟩
abbrev S1x512x512 : Shape := ⟨3, ![1, 512, 512]⟩

abbrev nBuf : Space → Nat
  | .hbm => 164
  | .vmem => 12
  | .smem => 0
  | _ => 0

abbrev hbmTy0_0 (i : Nat) : BufTy := match i % 128 with
  | 0 => ⟨S8192x3, .f32⟩
  | 1 => ⟨S8192, .i32⟩
  | 2 => ⟨S8192x8, .f32⟩
  | 3 => ⟨S8192x128, .f32⟩
  | 4 => ⟨S1, .f32⟩
  | 5 => ⟨S_, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192x3, .f32⟩
  | 12 => ⟨S8192x3, .f32⟩
  | 13 => ⟨S8192x3, .f32⟩
  | 14 => ⟨S_, .f32⟩
  | 15 => ⟨S8192, .f32⟩
  | 16 => ⟨S8192x1, .f32⟩
  | 17 => ⟨S8192x1, .f32⟩
  | 18 => ⟨S8192x3, .f32⟩
  | 19 => ⟨S8192x3, .f32⟩
  | 20 => ⟨S8192x1, .i32⟩
  | 21 => ⟨S_, .i32⟩
  | 22 => ⟨S8192x1, .i32⟩
  | 23 => ⟨S8192x1, .i1⟩
  | 24 => ⟨S_, .i32⟩
  | 25 => ⟨S8192x1, .i32⟩
  | 26 => ⟨S8192x1, .i32⟩
  | 27 => ⟨S8192x1, .i32⟩
  | 28 => ⟨S8192x1x1, .i32⟩
  | 29 => ⟨S1, .i32⟩
  | 30 => ⟨S_, .i32⟩
  | 31 => ⟨S8192x1x1, .i32⟩
  | 32 => ⟨S8192x1x1, .i1⟩
  | 33 => ⟨S1x1x1, .i32⟩
  | 34 => ⟨S8192x1x1, .i32⟩
  | 35 => ⟨S8192x1x1, .i1⟩
  | 36 => ⟨S8192x1x1, .i1⟩
  | 37 => ⟨S_, .i1⟩
  | 38 => ⟨S8192x1, .i1⟩
  | 39 => ⟨S8192x1, .f32⟩
  | 40 => ⟨S_, .f32⟩
  | 41 => ⟨S8192x1, .f32⟩
  | 42 => ⟨S8192x1, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S8, .f32⟩
  | 50 => ⟨S_, .f32⟩
  | 51 => ⟨S8, .f32⟩
  | 52 => ⟨S8, .f32⟩
  | 53 => ⟨S_, .i32⟩
  | 54 => ⟨S_, .f32⟩
  | 55 => ⟨S_, .f32⟩
  | 56 => ⟨S1, .f32⟩
  | 57 => ⟨S_, .f32⟩
  | 58 => ⟨S1, .f32⟩
  | 59 => ⟨S1, .f32⟩
  | 60 => ⟨S8, .f32⟩
  | 61 => ⟨S8, .f32⟩
  | 62 => ⟨S8, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .i1⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S8192x8, .f32⟩
  | 80 => ⟨S8192x8, .i1⟩
  | 81 => ⟨S_, .f32⟩
  | 82 => ⟨S_, .f32⟩
  | 83 => ⟨S8192x8, .f32⟩
  | 84 => ⟨S8192x8, .f32⟩
  | 85 => ⟨S_, .f32⟩
  | 86 => ⟨S8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8192x128, .f32⟩
  | 94 => ⟨S_, .f32⟩
  | 95 => ⟨S8192, .f32⟩
  | 96 => ⟨S8192x1, .f32⟩
  | 97 => ⟨S8192x1, .f32⟩
  | 98 => ⟨S8192x128, .f32⟩
  | 99 => ⟨S8192x128, .f32⟩
  | 100 => ⟨S_, .f32⟩
  | 101 => ⟨S8192, .f32⟩
  | 102 => ⟨S_, .f32⟩
  | 103 => ⟨S8192, .f32⟩
  | 104 => ⟨S8192, .f32⟩
  | 105 => ⟨S8192x1, .f32⟩
  | 106 => ⟨S8192x8, .f32⟩
  | 107 => ⟨S8192x8, .f32⟩
  | 108 => ⟨S8192x8, .f32⟩
  | 109 => ⟨S_, .f32⟩
  | 110 => ⟨S8192, .f32⟩
  | 111 => ⟨S8192x1, .f32⟩
  | 112 => ⟨S8192x1, .f32⟩
  | 113 => ⟨S8192x8, .f32⟩
  | 114 => ⟨S8192x8, .f32⟩
  | 115 => ⟨S8192x8, .f32⟩
  | 116 => ⟨S8192x8, .f32⟩
  | 117 => ⟨S_, .f32⟩
  | 118 => ⟨S8192, .f32⟩
  | 119 => ⟨S1x8192, .f32⟩
  | 120 => ⟨S1x1, .f32⟩
  | 121 => ⟨S1x1, .f32⟩
  | 122 => ⟨S_, .f32⟩
  | 123 => ⟨S_, .f32⟩
  | 124 => ⟨S_, .f32⟩
  | 125 => ⟨S_, .i1⟩
  | 126 => ⟨S_, .f32⟩
  | 127 => ⟨S_, .f32⟩
  | _ => ⟨S8192x3, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S8192x8, .f32⟩
  | 8 => ⟨S8192x8, .f32⟩
  | 9 => ⟨S8192x8, .f32⟩
  | 10 => ⟨S8192x8, .f32⟩
  | 11 => ⟨S_, .f32⟩
  | 12 => ⟨S8192, .f32⟩
  | 13 => ⟨S8192, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1, .f32⟩
  | 23 => ⟨S1, .f32⟩
  | 24 => ⟨S1, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x8, .f32⟩
  | .local _ .vmem, ⟨5, _⟩ => ⟨S512x8, .f32⟩
  | .local _ .vmem, ⟨6, _⟩ => ⟨S512x8, .f32⟩
  | .local _ .vmem, ⟨7, _⟩ => ⟨S512x8, .f32⟩
  | .local _ .vmem, ⟨8, _⟩ => ⟨S1x512, .f32⟩
  | .local _ .vmem, ⟨9, _⟩ => ⟨S1x512, .f32⟩
  | .local _ .vmem, ⟨10, _⟩ => ⟨S1x1, .f32⟩
  | .local _ .vmem, ⟨11, _⟩ => ⟨S1x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_cst_1 : Ref sig .tc := ⟨.hbm, 48, rfl⟩
abbrev main_v6 : Ref sig .tc := ⟨.hbm, 49, rfl⟩
abbrev main_cst_2 : Ref sig .tc := ⟨.hbm, 50, rfl⟩
abbrev main_v7 : Ref sig .tc := ⟨.hbm, 51, rfl⟩
abbrev main_v8 : Ref sig .tc := ⟨.hbm, 52, rfl⟩
abbrev main_c : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_cst_1 : Ref sig .tc := ⟨.hbm, 64, rfl⟩
abbrev main_call2_v8 : Ref sig .tc := ⟨.hbm, 65, rfl⟩
abbrev main_call2_cst_2 : Ref sig .tc := ⟨.hbm, 66, rfl⟩
abbrev main_call2_v9 : Ref sig .tc := ⟨.hbm, 67, rfl⟩
abbrev main_call2_v10 : Ref sig .tc := ⟨.hbm, 68, rfl⟩
abbrev main_call2_cst_3 : Ref sig .tc := ⟨.hbm, 69, rfl⟩
abbrev main_call2_v11 : Ref sig .tc := ⟨.hbm, 70, rfl⟩
abbrev main_call2_cst_4 : Ref sig .tc := ⟨.hbm, 71, rfl⟩
abbrev main_call2_call0_v0 : Ref sig .tc := ⟨.hbm, 72, rfl⟩
abbrev main_v9 : Ref sig .tc := ⟨.hbm, 73, rfl⟩
abbrev main_cst_3 : Ref sig .tc := ⟨.hbm, 74, rfl⟩
abbrev main_v10 : Ref sig .tc := ⟨.hbm, 75, rfl⟩
abbrev main_cst_4 : Ref sig .tc := ⟨.hbm, 76, rfl⟩
abbrev main_v11 : Ref sig .tc := ⟨.hbm, 77, rfl⟩
abbrev main_cst_5 : Ref sig .tc := ⟨.hbm, 78, rfl⟩
abbrev main_v12 : Ref sig .tc := ⟨.hbm, 79, rfl⟩
abbrev main_v13 : Ref sig .tc := ⟨.hbm, 80, rfl⟩
abbrev main_cst_6 : Ref sig .tc := ⟨.hbm, 81, rfl⟩
abbrev main_call3_v0 : Ref sig .tc := ⟨.hbm, 82, rfl⟩
abbrev main_call3_v1 : Ref sig .tc := ⟨.hbm, 83, rfl⟩
abbrev main_v14 : Ref sig .tc := ⟨.hbm, 84, rfl⟩
abbrev main_cst_7 : Ref sig .tc := ⟨.hbm, 85, rfl⟩
abbrev main_v15 : Ref sig .tc := ⟨.hbm, 86, rfl⟩
abbrev main_cst_8 : Ref sig .tc := ⟨.hbm, 87, rfl⟩
abbrev main_v16 : Ref sig .tc := ⟨.hbm, 88, rfl⟩
abbrev main_cst_9 : Ref sig .tc := ⟨.hbm, 89, rfl⟩
abbrev main_v17 : Ref sig .tc := ⟨.hbm, 90, rfl⟩
abbrev main_cst_10 : Ref sig .tc := ⟨.hbm, 91, rfl⟩
abbrev main_v18 : Ref sig .tc := ⟨.hbm, 92, rfl⟩
abbrev main_call4_v0 : Ref sig .tc := ⟨.hbm, 93, rfl⟩
abbrev main_call4_cst : Ref sig .tc := ⟨.hbm, 94, rfl⟩
abbrev main_call4_v1 : Ref sig .tc := ⟨.hbm, 95, rfl⟩
abbrev main_call4_v2 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_call5_cst : Ref sig .tc := ⟨.hbm, 100, rfl⟩
abbrev main_call5_v0 : Ref sig .tc := ⟨.hbm, 101, rfl⟩
abbrev main_call5_cst_0 : Ref sig .tc := ⟨.hbm, 102, rfl⟩
abbrev main_call5_v1 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_v6 : Ref sig .tc := ⟨.hbm, 108, rfl⟩
abbrev main_call5_cst_1 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_cst_11 : Ref sig .tc := ⟨.hbm, 117, rfl⟩
abbrev main_v25 : Ref sig .tc := ⟨.hbm, 118, rfl⟩
abbrev main_v26 : Ref sig .tc := ⟨.hbm, 119, rfl⟩
abbrev main_v27_0 : Ref sig .tc := ⟨.hbm, 120, rfl⟩
abbrev main_v27_1 : Ref sig .tc := ⟨.hbm, 121, rfl⟩
abbrev main_v28 : Ref sig .tc := ⟨.hbm, 122, rfl⟩
abbrev main_v29 : Ref sig .tc := ⟨.hbm, 123, rfl⟩
abbrev main_cst_12 : Ref sig .tc := ⟨.hbm, 124, rfl⟩
abbrev main_v30 : Ref sig .tc := ⟨.hbm, 125, rfl⟩
abbrev main_cst_13 : Ref sig .tc := ⟨.hbm, 126, rfl⟩
abbrev main_v31 : Ref sig .tc := ⟨.hbm, 127, rfl⟩
abbrev main_v32 : Ref sig .tc := ⟨.hbm, 128, rfl⟩
abbrev main_cst_14 : Ref sig .tc := ⟨.hbm, 129, rfl⟩
abbrev main_call6_v0 : Ref sig .tc := ⟨.hbm, 130, rfl⟩
abbrev main_v33 : Ref sig .tc := ⟨.hbm, 131, rfl⟩
abbrev main_cst_15 : Ref sig .tc := ⟨.hbm, 132, rfl⟩
abbrev main_v34 : Ref sig .tc := ⟨.hbm, 133, rfl⟩
abbrev main_cst_16 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_cst_17 : Ref sig .tc := ⟨.hbm, 139, rfl⟩
abbrev main_v39 : Ref sig .tc := ⟨.hbm, 140, rfl⟩
abbrev main_v40 : Ref sig .tc := ⟨.hbm, 141, rfl⟩
abbrev main_cst_18 : Ref sig .tc := ⟨.hbm, 142, rfl⟩
abbrev main_v41 : Ref sig .tc := ⟨.hbm, 143, rfl⟩
abbrev main_cst_19 : Ref sig .tc := ⟨.hbm, 144, rfl⟩
abbrev main_v42 : Ref sig .tc := ⟨.hbm, 145, rfl⟩
abbrev main_v43 : Ref sig .tc := ⟨.hbm, 146, rfl⟩
abbrev main_cst_20 : Ref sig .tc := ⟨.hbm, 147, rfl⟩
abbrev main_v44 : Ref sig .tc := ⟨.hbm, 148, rfl⟩
abbrev main_cst_21 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_cst_22 : Ref sig .tc := ⟨.hbm, 153, rfl⟩
abbrev main_v48 : Ref sig .tc := ⟨.hbm, 154, rfl⟩
abbrev main_cst_23 : Ref sig .tc := ⟨.hbm, 155, rfl⟩
abbrev main_v49 : Ref sig .tc := ⟨.hbm, 156, rfl⟩
abbrev main_cst_24 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  reducesTo_S8192x3_S8192_d1 : S8192x3.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x3_0_1 : S8192x1.BroadcastsInDim S8192x3 (![0, 1] : Fin 2 → Fin S8192x3.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  reducesTo_S8192x8_S8_d0 : S8192x8.ReducesTo [0] S8
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)
  bcast_S1_S8_0 : S1.BroadcastsInDim S8 (![0] : Fin 1 → Fin S8.rank)
  bcast_S_S8192x8 : S_.BroadcastsInDim S8192x8 (![] : Fin 0 → Fin S8192x8.rank)
  reducesTo_S8192x8_S8192_d1 : S8192x8.ReducesTo [1] S8192
  reducesTo_S8192_S_d0 : S8192.ReducesTo [0] S_
  reducesTo_S8192x128_S8192_d1 : S8192x128.ReducesTo [1] S8192
  bcast_S8192x1_S8192x128_0_1 : S8192x1.BroadcastsInDim S8192x128 (![0, 1] : Fin 2 → Fin S8192x128.rank)
  bcast_S8192x1_S8192x8_0_1 : S8192x1.BroadcastsInDim S8192x8 (![0, 1] : Fin 2 → Fin S8192x8.rank)
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x8_p1_0_S8x512 : S512x8.Transposes [1, 0] S8x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  shapeCasts_S1x1_S1x1 : S1x1.ShapeCasts S1x1
  shapeCasts_S1x1_S_ : S1x1.ShapeCasts S_
  reducesTo_S1_S_d0 : S1.ReducesTo [0] S_
  gather_S8192x3_S8192x1x1_S8192x1_n_1_0_0_1_2_11_wf : GatherDims.WF S8192x3 S8192x1x1 S8192x1 [] [1] [0] [1] [0] 2 ![1, 1]
  dot_S512x128_S128x512_S512x512_1_0_0_1_n_n_wf : DotDims.WF S512x128 S128x512 S512x512 [1] [0] [0] [1] [] []
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S8192x8.size a
  hwx0_2 : ∀ i : grid0.Coords, EltTy.bits .f32 = 32 ∨ (Rect.block (s := S8192x8) S512x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S8192x8.size a
  hwx0_3 : ∀ i : grid0.Coords, EltTy.bits .f32 = 32 ∨ (Rect.block (s := S8192x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S8192x3_S8192x1x1_S8192x1_n_1_0_0_1_2_11 : GatherDims S8192x3 S8192x1x1 S8192x1 where
  offsetDims := []
  collapsedSliceDims := [1]
  operandBatchingDims := [0]
  startIndicesBatchingDims := [0]
  startIndexMap := [1]
  indexVectorDim := 2
  sliceSizes := ![1, 1]
  wf := gather_S8192x3_S8192x1x1_S8192x1_n_1_0_0_1_2_11_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_v21) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192 : Shape := ⟨1, ![8192]⟩
abbrev S8192x8 : Shape := ⟨2, ![8192, 8]⟩
abbrev S8192x128 : Shape := ⟨2, ![8192, 128]⟩
abbrev S1 : Shape := ⟨1, ![1]⟩
abbrev S_ : Shape := ⟨0, ![]⟩
abbrev S8192x1 : Shape := ⟨2, ![8192, 1]⟩
abbrev S8192x1x1 : Shape := ⟨3, ![8192, 1, 1]⟩
abbrev S1x1x1 : Shape := ⟨3, ![1, 1, 1]⟩
abbrev S8 : Shape := ⟨1, ![8]⟩
abbrev S128x8192 : Shape := ⟨2, ![128, 8192]⟩
abbrev S8192x8192 : Shape := ⟨2, ![8192, 8192]⟩
abbrev S1x8192 : Shape := ⟨2, ![1, 8192]⟩
abbrev S8x8192 : Shape := ⟨2, ![8, 8192]⟩

abbrev nBuf : Space → Nat
  | .hbm => 187
  | .vmem => 0
  | .smem => 0
  | _ => 0

abbrev hbmTy0_0 (i : Nat) : BufTy := match i % 128 with
  | 0 => ⟨S8192x3, .f32⟩
  | 1 => ⟨S8192, .i32⟩
  | 2 => ⟨S8192x8, .f32⟩
  | 3 => ⟨S8192x128, .f32⟩
  | 4 => ⟨S1, .f32⟩
  | 5 => ⟨S_, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192x3, .f32⟩
  | 12 => ⟨S8192x3, .f32⟩
  | 13 => ⟨S8192x3, .f32⟩
  | 14 => ⟨S_, .f32⟩
  | 15 => ⟨S8192, .f32⟩
  | 16 => ⟨S8192x1, .f32⟩
  | 17 => ⟨S8192x1, .f32⟩
  | 18 => ⟨S8192x3, .f32⟩
  | 19 => ⟨S8192x3, .f32⟩
  | 20 => ⟨S8192x1, .i32⟩
  | 21 => ⟨S_, .i32⟩
  | 22 => ⟨S8192x1, .i32⟩
  | 23 => ⟨S8192x1, .i1⟩
  | 24 => ⟨S_, .i32⟩
  | 25 => ⟨S8192x1, .i32⟩
  | 26 => ⟨S8192x1, .i32⟩
  | 27 => ⟨S8192x1, .i32⟩
  | 28 => ⟨S8192x1x1, .i32⟩
  | 29 => ⟨S1, .i32⟩
  | 30 => ⟨S_, .i32⟩
  | 31 => ⟨S8192x1x1, .i32⟩
  | 32 => ⟨S8192x1x1, .i1⟩
  | 33 => ⟨S1x1x1, .i32⟩
  | 34 => ⟨S8192x1x1, .i32⟩
  | 35 => ⟨S8192x1x1, .i1⟩
  | 36 => ⟨S8192x1x1, .i1⟩
  | 37 => ⟨S_, .i1⟩
  | 38 => ⟨S8192x1, .i1⟩
  | 39 => ⟨S8192x1, .f32⟩
  | 40 => ⟨S_, .f32⟩
  | 41 => ⟨S8192x1, .f32⟩
  | 42 => ⟨S8192x1, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S8, .f32⟩
  | 50 => ⟨S_, .f32⟩
  | 51 => ⟨S8, .f32⟩
  | 52 => ⟨S8, .f32⟩
  | 53 => ⟨S_, .i32⟩
  | 54 => ⟨S_, .f32⟩
  | 55 => ⟨S_, .f32⟩
  | 56 => ⟨S1, .f32⟩
  | 57 => ⟨S_, .f32⟩
  | 58 => ⟨S1, .f32⟩
  | 59 => ⟨S1, .f32⟩
  | 60 => ⟨S8, .f32⟩
  | 61 => ⟨S8, .f32⟩
  | 62 => ⟨S8, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .i1⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S8192x8, .f32⟩
  | 80 => ⟨S8192x8, .i1⟩
  | 81 => ⟨S_, .f32⟩
  | 82 => ⟨S_, .f32⟩
  | 83 => ⟨S8192x8, .f32⟩
  | 84 => ⟨S8192x8, .f32⟩
  | 85 => ⟨S_, .f32⟩
  | 86 => ⟨S8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8192x128, .f32⟩
  | 94 => ⟨S_, .f32⟩
  | 95 => ⟨S8192, .f32⟩
  | 96 => ⟨S8192x1, .f32⟩
  | 97 => ⟨S8192x1, .f32⟩
  | 98 => ⟨S8192x128, .f32⟩
  | 99 => ⟨S8192x128, .f32⟩
  | 100 => ⟨S128x8192, .f32⟩
  | 101 => ⟨S8192x8192, .f32⟩
  | 102 => ⟨S_, .f32⟩
  | 103 => ⟨S8192x8192, .f32⟩
  | 104 => ⟨S8192x8192, .i1⟩
  | 105 => ⟨S8192x8192, .i32⟩
  | 106 => ⟨S8192x8192, .i32⟩
  | 107 => ⟨S_, .i32⟩
  | 108 => ⟨S8192x8192, .i32⟩
  | 109 => ⟨S8192x8192, .i32⟩
  | 110 => ⟨S8192x8192, .i1⟩
  | 111 => ⟨S8192x8192, .i1⟩
  | 112 => ⟨S8192x8192, .i1⟩
  | 113 => ⟨S_, .f32⟩
  | 114 => ⟨S8192, .f32⟩
  | 115 => ⟨S_, .f32⟩
  | 116 => ⟨S8192, .f32⟩
  | 117 => ⟨S8192, .f32⟩
  | 118 => ⟨S8192x1, .f32⟩
  | 119 => ⟨S8192x8, .f32⟩
  | 120 => ⟨S8192x8, .f32⟩
  | 121 => ⟨S8192x8, .f32⟩
  | 122 => ⟨S_, .f32⟩
  | 123 => ⟨S8192, .f32⟩
  | 124 => ⟨S8192x1, .f32⟩
  | 125 => ⟨S8192x1, .f32⟩
  | 126 => ⟨S8192x8, .f32⟩
  | 127 => ⟨S8192x8, .f32⟩
  | _ => ⟨S8192x3, .f32⟩

abbrev hbmTy0_1 (i : Nat) : BufTy := match i % 128 with
  | 0 => ⟨S8192x8, .f32⟩
  | 1 => ⟨S8192x8, .f32⟩
  | 2 => ⟨S_, .f32⟩
  | 3 => ⟨S8192, .f32⟩
  | 4 => ⟨S1x8192, .f32⟩
  | 5 => ⟨S8x8192, .f32⟩
  | 6 => ⟨S8192x8192, .f32⟩
  | 7 => ⟨S8192x8192, .f32⟩
  | 8 => ⟨S8192x8192, .f32⟩
  | 9 => ⟨S8192x8192, .i32⟩
  | 10 => ⟨S_, .i32⟩
  | 11 => ⟨S_, .i32⟩
  | 12 => ⟨S_, .f32⟩
  | 13 => ⟨S_, .f32⟩
  | 14 => ⟨S8192x8192, .f32⟩
  | 15 => ⟨S8192x8192, .f32⟩
  | 16 => ⟨S_, .f32⟩
  | 17 => ⟨S_, .f32⟩
  | 18 => ⟨S_, .i32⟩
  | 19 => ⟨S_, .i1⟩
  | 20 => ⟨S_, .i32⟩
  | 21 => ⟨S_, .i32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S8192x8, .f32⟩
  | 31 => ⟨S8192x8, .f32⟩
  | 32 => ⟨S8192x8, .f32⟩
  | 33 => ⟨S8192x8, .f32⟩
  | 34 => ⟨S_, .f32⟩
  | 35 => ⟨S8192, .f32⟩
  | 36 => ⟨S8192, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S1, .f32⟩
  | 46 => ⟨S1, .f32⟩
  | 47 => ⟨S1, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_cst_1 : Ref sig .tc := ⟨.hbm, 48, rfl⟩
abbrev main_v6 : Ref sig .tc := ⟨.hbm, 49, rfl⟩
abbrev main_cst_2 : Ref sig .tc := ⟨.hbm, 50, rfl⟩
abbrev main_v7 : Ref sig .tc := ⟨.hbm, 51, rfl⟩
abbrev main_v8 : Ref sig .tc := ⟨.hbm, 52, rfl⟩
abbrev main_c : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_cst_1 : Ref sig .tc := ⟨.hbm, 64, rfl⟩
abbrev main_call2_v8 : Ref sig .tc := ⟨.hbm, 65, rfl⟩
abbrev main_call2_cst_2 : Ref sig .tc := ⟨.hbm, 66, rfl⟩
abbrev main_call2_v9 : Ref sig .tc := ⟨.hbm, 67, rfl⟩
abbrev main_call2_v10 : Ref sig .tc := ⟨.hbm, 68, rfl⟩
abbrev main_call2_cst_3 : Ref sig .tc := ⟨.hbm, 69, rfl⟩
abbrev main_call2_v11 : Ref sig .tc := ⟨.hbm, 70, rfl⟩
abbrev main_call2_cst_4 : Ref sig .tc := ⟨.hbm, 71, rfl⟩
abbrev main_call2_call0_v0 : Ref sig .tc := ⟨.hbm, 72, rfl⟩
abbrev main_v9 : Ref sig .tc := ⟨.hbm, 73, rfl⟩
abbrev main_cst_3 : Ref sig .tc := ⟨.hbm, 74, rfl⟩
abbrev main_v10 : Ref sig .tc := ⟨.hbm, 75, rfl⟩
abbrev main_cst_4 : Ref sig .tc := ⟨.hbm, 76, rfl⟩
abbrev main_v11 : Ref sig .tc := ⟨.hbm, 77, rfl⟩
abbrev main_cst_5 : Ref sig .tc := ⟨.hbm, 78, rfl⟩
abbrev main_v12 : Ref sig .tc := ⟨.hbm, 79, rfl⟩
abbrev main_v13 : Ref sig .tc := ⟨.hbm, 80, rfl⟩
abbrev main_cst_6 : Ref sig .tc := ⟨.hbm, 81, rfl⟩
abbrev main_call3_v0 : Ref sig .tc := ⟨.hbm, 82, rfl⟩
abbrev main_call3_v1 : Ref sig .tc := ⟨.hbm, 83, rfl⟩
abbrev main_v14 : Ref sig .tc := ⟨.hbm, 84, rfl⟩
abbrev main_cst_7 : Ref sig .tc := ⟨.hbm, 85, rfl⟩
abbrev main_v15 : Ref sig .tc := ⟨.hbm, 86, rfl⟩
abbrev main_cst_8 : Ref sig .tc := ⟨.hbm, 87, rfl⟩
abbrev main_v16 : Ref sig .tc := ⟨.hbm, 88, rfl⟩
abbrev main_cst_9 : Ref sig .tc := ⟨.hbm, 89, rfl⟩
abbrev main_v17 : Ref sig .tc := ⟨.hbm, 90, rfl⟩
abbrev main_cst_10 : Ref sig .tc := ⟨.hbm, 91, rfl⟩
abbrev main_v18 : Ref sig .tc := ⟨.hbm, 92, rfl⟩
abbrev main_call4_v0 : Ref sig .tc := ⟨.hbm, 93, rfl⟩
abbrev main_call4_cst : Ref sig .tc := ⟨.hbm, 94, rfl⟩
abbrev main_call4_v1 : Ref sig .tc := ⟨.hbm, 95, rfl⟩
abbrev main_call4_v2 : Ref sig .tc := ⟨.hbm, 96, rfl⟩
abbrev main_v19 : Ref sig .tc := ⟨.hbm, 97, rfl⟩
abbrev main_v20 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_cst_11 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_c_12 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_call5_cst : Ref sig .tc := ⟨.hbm, 113, rfl⟩
abbrev main_call5_v0 : Ref sig .tc := ⟨.hbm, 114, rfl⟩
abbrev main_call5_cst_0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_call5_v5 : Ref sig .tc := ⟨.hbm, 120, rfl⟩
abbrev main_call5_v6 : Ref sig .tc := ⟨.hbm, 121, rfl⟩
abbrev main_call5_cst_1 : Ref sig .tc := ⟨.hbm, 122, rfl⟩
abbrev main_call5_v7 : Ref sig .tc := ⟨.hbm, 123, rfl⟩
abbrev main_call5_v8 : Ref sig .tc := ⟨.hbm, 124, rfl⟩
abbrev main_call5_v9 : Ref sig .tc := ⟨.hbm, 125, rfl⟩
abbrev main_call5_v10 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_cst_13 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_c_14 : Ref sig .tc := ⟨.hbm, 138, rfl⟩
abbrev main_v43 : Ref sig .tc := ⟨.hbm, 139, rfl⟩
abbrev main_cst_15 : Ref sig .tc := ⟨.hbm, 140, rfl⟩
abbrev main_call6_v0 : Ref sig .tc := ⟨.hbm, 141, rfl⟩
abbrev main_call6_v1 : Ref sig .tc := ⟨.hbm, 142, rfl⟩
abbrev main_v44 : Ref sig .tc := ⟨.hbm, 143, rfl⟩
abbrev main_cst_16 : Ref sig .tc := ⟨.hbm, 144, rfl⟩
abbrev main_v45 : Ref sig .tc := ⟨.hbm, 145, rfl⟩
abbrev main_c_17 : Ref sig .tc := ⟨.hbm, 146, rfl⟩
abbrev main_v46 : Ref sig .tc := ⟨.hbm, 147, rfl⟩
abbrev main_c_18 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_cst_19 : Ref sig .tc := ⟨.hbm, 152, rfl⟩
abbrev main_call7_v0 : Ref sig .tc := ⟨.hbm, 153, rfl⟩
abbrev main_v50 : Ref sig .tc := ⟨.hbm, 154, rfl⟩
abbrev main_cst_20 : Ref sig .tc := ⟨.hbm, 155, rfl⟩
abbrev main_v51 : Ref sig .tc := ⟨.hbm, 156, rfl⟩
abbrev main_cst_21 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_cst_22 : Ref sig .tc := ⟨.hbm, 162, rfl⟩
abbrev main_v56 : Ref sig .tc := ⟨.hbm, 163, rfl⟩
abbrev main_v57 : Ref sig .tc := ⟨.hbm, 164, rfl⟩
abbrev main_cst_23 : Ref sig .tc := ⟨.hbm, 165, rfl⟩
abbrev main_v58 : Ref sig .tc := ⟨.hbm, 166, rfl⟩
abbrev main_cst_24 : Ref sig .tc := ⟨.hbm, 167, rfl⟩
abbrev main_v59 : Ref sig .tc := ⟨.hbm, 168, rfl⟩
abbrev main_v60 : Ref sig .tc := ⟨.hbm, 169, rfl⟩
abbrev main_cst_25 : Ref sig .tc := ⟨.hbm, 170, rfl⟩
abbrev main_v61 : Ref sig .tc := ⟨.hbm, 171, rfl⟩
abbrev main_cst_26 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_cst_27 : Ref sig .tc := ⟨.hbm, 176, rfl⟩
abbrev main_v65 : Ref sig .tc := ⟨.hbm, 177, rfl⟩
abbrev main_cst_28 : Ref sig .tc := ⟨.hbm, 178, rfl⟩
abbrev main_v66 : Ref sig .tc := ⟨.hbm, 179, rfl⟩
abbrev main_cst_29 : Ref sig .tc := ⟨.hbm, 180, rfl⟩
abbrev main_v67 : Ref sig .tc := ⟨.hbm, 181, rfl⟩
abbrev main_v68 : Ref sig .tc := ⟨.hbm, 182, rfl⟩
abbrev main_v69 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x3_0_1 : S8192x1.BroadcastsInDim S8192x3 (![0, 1] : Fin 2 → Fin S8192x3.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  reducesTo_S8192x8_S8_d0 : S8192x8.ReducesTo [0] S8
  bcast_S_S8 : S_.BroadcastsInDim S8 (![] : Fin 0 → Fin S8.rank)
  reducesTo_S8_S_d0 : S8.ReducesTo [0] S_
  bcast_S_S1 : S_.BroadcastsInDim S1 (![] : Fin 0 → Fin S1.rank)
  bcast_S1_S8_0 : S1.BroadcastsInDim S8 (![0] : Fin 1 → Fin S8.rank)
  bcast_S_S8192x8 : S_.BroadcastsInDim S8192x8 (![] : Fin 0 → Fin S8192x8.rank)
  reducesTo_S8192x8_S8192_d1 : S8192x8.ReducesTo [1] S8192
  reducesTo_S8192_S_d0 : S8192.ReducesTo [0] S_
  reducesTo_S8192x128_S8192_d1 : S8192x128.ReducesTo [1] S8192
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192x1_S8192x8_0_1 : S8192x1.BroadcastsInDim S8192x8 (![0, 1] : Fin 2 → Fin S8192x8.rank)
  bcast_S8192_S1x8192_1 : S8192.BroadcastsInDim S1x8192 (![1] : Fin 1 → Fin S1x8192.rank)
  transposes_S8192x8_S8x8192_1_0 : S8192x8.Transposes [1, 0] S8x8192
  bcast_S1x8192_S8192x8192_0_1 : S1x8192.BroadcastsInDim S8192x8192 (![0, 1] : Fin 2 → Fin S8192x8192.rank)
  natLt_1_32 : 1 < 32
  reducesTo_S8192x8192_S_d0_1 : S8192x8192.ReducesTo [0, 1] S_
  reducesTo_S1_S_d0 : S1.ReducesTo [0] S_
  gather_S8192x3_S8192x1x1_S8192x1_n_1_0_0_1_2_11_wf : GatherDims.WF S8192x3 S8192x1x1 S8192x1 [] [1] [0] [1] [0] 2 ![1, 1]
  dot_S8192x128_S128x8192_S8192x8192_1_0_0_1_n_n_wf : DotDims.WF S8192x128 S128x8192 S8192x8192 [1] [0] [0] [1] [] []
  dot_S8192x8_S8x8192_S8192x8192_1_0_0_1_n_n_wf : DotDims.WF S8192x8 S8x8192 S8192x8192 [1] [0] [0] [1] [] []

variable [Facts₀]

def gather_S8192x3_S8192x1x1_S8192x1_n_1_0_0_1_2_11 : GatherDims S8192x3 S8192x1x1 S8192x1 where
  offsetDims := []
  collapsedSliceDims := [1]
  operandBatchingDims := [0]
  startIndicesBatchingDims := [0]
  startIndexMap := [1]
  indexVectorDim := 2
  sliceSizes := ![1, 1]
  wf := gather_S8192x3_S8192x1x1_S8192x1_n_1_0_0_1_2_11_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8_S8x8192_S8192x8192_1_0_0_1_n_n : DotDims S8192x8 S8x8192 S8192x8192 where
  lhsContracting := [1]
  rhsContracting := [0]
  lhsNonContracting := [0]
  rhsNonContracting := [1]
  lhsBatch := []
  rhsBatch := []
  wf := dot_S8192x8_S8x8192_S8192x8192_1_0_0_1_n_n_wf

class Facts : Prop extends Facts₀ where

variable [Facts]
-- ==== Proof.K.Launch.lean ====
/-
  The run of the whole program around its one kernel region.

  @main is twelve stretches of host operations (the three log-softmax / gather / variance / norm helpers inlined at
  their call sites), then the kernel region over a 16 × 16 grid, then three more stretches that read the region's two
  scalar results. Two of the region's input windows read ONE array (the normalised embeddings, once by row block and
  once by column block), so that array's points-to is split between them — left half to the row-block window, right
  half to the column-block window — at the region's entry and joined again at its exit; every other array goes in
  and comes out at the full share. Between segments each core holds every unscoped buffer at a valuation: the launch
  memory, then the fold of the stretches run so far, the region's two results overwritten at its exit.
-/
import proofs.«137117_j83648783057448_1_alg».proof.Proof.Gen.Kernel.Launch
import proofs.«137117_j83648783057448_1_alg».proof.Proof.Gen.Kernel.Points
import Idealize.ShloMosaic.Lib.Pipeline.Regions
import Idealize.ShloMosaic.Lib.Pipeline.Frame

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the segments -/

/-- Core `c`'s buffers at launch, as a valuation; -/
abbrev W0 (c : Dev nD) : Valuation τ sig (Elt F) := fun b => m ((c : Dev nD), b)
/-- after the first 1 stretch of host operations; -/
abbrev W1 (c : Dev nD) : Valuation τ sig (Elt F) := StableHlo.after hostOps0 (W0 m c)
/-- after the first 2 stretches of host operations; -/
abbrev W2 (c : Dev nD) : Valuation τ sig (Elt F) := StableHlo.after hostOps0_1 (W1 m c)
/-- after the first 3 stretches of host operations; -/
abbrev W3 (c : Dev nD) : Valuation τ sig (Elt F) := StableHlo.after hostOps0_2 (W2 m c)
/-- after the first 4 stretches of host operations; -/
abbrev W4 (c : Dev nD) : Valuation τ sig (Elt F) := StableHlo.after hostOps0_3 (W3 m c)
/-- after the first 5 stretches of host operations; -/
abbrev W5 (c : Dev nD) : Valuation τ sig (Elt F) := StableHlo.after hostOps0_4 (W4 m c)
/-- after the first 6 stretches of host operations; -/
abbrev W6 (c : Dev nD) : Valuation τ sig (Elt F) := StableHlo.after hostOps0_5 (W5 m c)
/-- after the first 7 stretches of host operations; -/
abbrev W7 (c : Dev nD) : Valuation τ sig (Elt F) := StableHlo.after hostOps0_6 (W6 m c)
/-- after the first 8 stretches of host operations; -/
abbrev W8 (c : Dev nD) : Valuation τ sig (Elt F) := StableHlo.after hostOps0_7 (W7 m c)
/-- after the first 9 stretches of host operations; -/
abbrev W9 (c : Dev nD) : Valuation τ sig (Elt F) := StableHlo.after hostOps0_8 (W8 m c)
/-- after the first 10 stretches of host operations; -/
abbrev W10 (c : Dev nD) : Valuation τ sig (Elt F) := StableHlo.after hostOps0_9 (W9 m c)
/-- after the first 11 stretches of host operations; -/
abbrev W11 (c : Dev nD) : Valuation τ sig (Elt F) := StableHlo.after hostOps0_10 (W10 m c)
/-- after the first 12 stretches of host operations; -/
abbrev W12 (c : Dev nD) : Valuation τ sig (Elt F) := StableHlo.after hostOps0_11 (W11 m c)

/-- The set the host operations run within: the TensorCore's unscoped references. -/
abbrev UCR : Finset (DevRef τ sig) := Pipeline.ucRefs τ sig

/-- What rides beside the buffers through the host stretches: the core owing nothing, and its generator register. -/
abbrev R (c : Dev nD) : sProp 𝕄 := iprop((∃ W, owes (c : Thread nD τ) (0 : CellTallies nD τ sig Unit) W) ∗ ∃ r, prngReg c r)

/-! ## The proof data, as hypotheses: the launch is stated for any data of this shape -/

variable (dats : (p : Fin 1) → (c : Dev nD) → Dat τ (Elt F) Unit ℕ (UR sig nD τ) ℕ cfg0 c)

/-- What the launch asks of the proof data: the arrays at the contents the twelve stretches leave; the shared
    array's two windows at complementary halves and the other inputs whole; the class invariant at every point;
    nothing owed; the body obligation. -/
structure DataOK : Prop where
  hA : ∀ c w, (dats 0 c).A w = W12 m c (Pipeline.arrRef spec0 w)
  hq0 : ∀ c, (dats 0 c).q 0 = fullShare.left
  hq1 : ∀ c, (dats 0 c).q 1 = fullShare.right
  hq2 : ∀ c, (dats 0 c).q 2 = fullShare
  hq3 : ∀ c, (dats 0 c).q 3 = fullShare
  hq4 : ∀ c, (dats 0 c).q 4 = fullShare
  hΦ : ∀ c t, (dats 0 c).Φ t = Pipeline.ΦA spec0 c
  howed : ∀ c t, (dats 0 c).owed t = 0
  hrec : ∀ c t, (dats 0 c).recorded t = Set.univ
  hbody : ∀ c, BodyObligation (dats 0 c) (defs₀ (F := F)) Variants.none () Set.univ

/-- The two results after the region, as the pipeline library computes them. -/
abbrev out5 (c : Dev nD) : Buf (Elt F) ((c : Thread nD τ).loc main_v27_0) := (dats 0 c).arrAt 5 cfg0.N
abbrev out6 (c : Dev nD) : Buf (Elt F) ((c : Thread nD τ).loc main_v27_1) := (dats 0 c).arrAt 6 cfg0.N

/-- The buffers at the region's exit: the two results overwritten, everything else as the twelve stretches left it; -/
abbrev WX (c : Dev nD) : Valuation τ sig (Elt F) :=
  Function.update (Function.update (W12 m c) (Proc.devRef .tc main_v27_0) (out5 dats c)) (Proc.devRef .tc main_v27_1) (out6 dats c)
/-- and after each of the three stretches that follow. -/
abbrev WT1 (c : Dev nD) : Valuation τ sig (Elt F) := StableHlo.after hostOps1 (WX m dats c)
abbrev WT2 (c : Dev nD) : Valuation τ sig (Elt F) := StableHlo.after hostOps1_1 (WT1 m dats c)
abbrev WT3 (c : Dev nD) : Valuation τ sig (Elt F) := StableHlo.after hostOps1_2 (WT2 m dats c)

/-! ## The host stretches as segments -/

abbrev 𝒱₀ : Variants := Variants.none
/-- No core owes another anything: no level is assigned. -/
abbrev LL : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- A stretch of host operations over the unscoped buffers held at `V`. -/
abbrev hostSeg (ops : List (HloOp τ sig (Elt F))) (hsub : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ 𝒱₀ LL lv :=
  Pipeline.HostSeg.ofOps _ _ _ _ _ UCR ops (fun op h => Pipeline.sub_ucRefs op ((List.forall_iff_forall_mem.mp hsub) op h)) hf V R

theorem fresh_hostOps0 : ∀ op ∈ (hostOps0 : List (HloOp τ sig (Elt F))), op.fresh = ∅ := (by intro _ h; (repeat (cases h with | head => rfl | tail _ h => ?_)); exact nomatch h)
theorem fresh_hostOps0_1 : ∀ op ∈ (hostOps0_1 : List (HloOp τ sig (Elt F))), op.fresh = ∅ := (by intro _ h; (repeat (cases h with | head => rfl | tail _ h => ?_)); exact nomatch h)
theorem fresh_hostOps0_2 : ∀ op ∈ (hostOps0_2 : List (HloOp τ sig (Elt F))), op.fresh = ∅ := (by intro _ h; (repeat (cases h with | head => rfl | tail _ h => ?_)); exact nomatch h)
theorem fresh_hostOps0_3 : ∀ op ∈ (hostOps0_3 : List (HloOp τ sig (Elt F))), op.fresh = ∅ := (by intro _ h; (repeat (cases h with | head => rfl | tail _ h => ?_)); exact nomatch h)
theorem fresh_hostOps0_4 : ∀ op ∈ (hostOps0_4 : List (HloOp τ sig (Elt F))), op.fresh = ∅ := (by intro _ h; (repeat (cases h with | head => rfl | tail _ h => ?_)); exact nomatch h)
theorem fresh_hostOps0_5 : ∀ op ∈ (hostOps0_5 : List (HloOp τ sig (Elt F))), op.fresh = ∅ := (by intro _ h; (repeat (cases h with | head => rfl | tail _ h => ?_)); exact nomatch h)
theorem fresh_hostOps0_6 : ∀ op ∈ (hostOps0_6 : List (HloOp τ sig (Elt F))), op.fresh = ∅ := (by intro _ h; (repeat (cases h with | head => rfl | tail _ h => ?_)); exact nomatch h)
theorem fresh_hostOps0_7 : ∀ op ∈ (hostOps0_7 : List (HloOp τ sig (Elt F))), op.fresh = ∅ := (by intro _ h; (repeat (cases h with | head => rfl | tail _ h => ?_)); exact nomatch h)
theorem fresh_hostOps0_8 : ∀ op ∈ (hostOps0_8 : List (HloOp τ sig (Elt F))), op.fresh = ∅ := (by intro _ h; (repeat (cases h with | head => rfl | tail _ h => ?_)); exact nomatch h)
theorem fresh_hostOps0_9 : ∀ op ∈ (hostOps0_9 : List (HloOp τ sig (Elt F))), op.fresh = ∅ := (by intro _ h; (repeat (cases h with | head => rfl | tail _ h => ?_)); exact nomatch h)
theorem fresh_hostOps0_10 : ∀ op ∈ (hostOps0_10 : List (HloOp τ sig (Elt F))), op.fresh = ∅ := (by intro _ h; (repeat (cases h with | head => rfl | tail _ h => ?_)); exact nomatch h)
theorem fresh_hostOps0_11 : ∀ op ∈ (hostOps0_11 : List (HloOp τ sig (Elt F))), op.fresh = ∅ := (by intro _ h; (repeat (cases h with | head => rfl | tail _ h => ?_)); exact nomatch h)
theorem fresh_hostOps1 : ∀ op ∈ (hostOps1 : List (HloOp τ sig (Elt F))), op.fresh = ∅ := (by intro _ h; (repeat (cases h with | head => rfl | tail _ h => ?_)); exact nomatch h)
theorem fresh_hostOps1_1 : ∀ op ∈ (hostOps1_1 : List (HloOp τ sig (Elt F))), op.fresh = ∅ := (by intro _ h; (repeat (cases h with | head => rfl | tail _ h => ?_)); exact nomatch h)
theorem fresh_hostOps1_2 : ∀ op ∈ (hostOps1_2 : List (HloOp τ sig (Elt F))), op.fresh = ∅ := (by intro _ h; (repeat (cases h with | head => rfl | tail _ h => ?_)); exact nomatch h)
abbrev segP0 := hostSeg (F := F) hostOps0 hostOps0_sub fresh_hostOps0 (W0 m)
abbrev segP1 := hostSeg (F := F) hostOps0_1 hostOps0_1_sub fresh_hostOps0_1 (W1 m)
abbrev segP2 := hostSeg (F := F) hostOps0_2 hostOps0_2_sub fresh_hostOps0_2 (W2 m)
abbrev segP3 := hostSeg (F := F) hostOps0_3 hostOps0_3_sub fresh_hostOps0_3 (W3 m)
abbrev segP4 := hostSeg (F := F) hostOps0_4 hostOps0_4_sub fresh_hostOps0_4 (W4 m)
abbrev segP5 := hostSeg (F := F) hostOps0_5 hostOps0_5_sub fresh_hostOps0_5 (W5 m)
abbrev segP6 := hostSeg (F := F) hostOps0_6 hostOps0_6_sub fresh_hostOps0_6 (W6 m)
abbrev segP7 := hostSeg (F := F) hostOps0_7 hostOps0_7_sub fresh_hostOps0_7 (W7 m)
abbrev segP8 := hostSeg (F := F) hostOps0_8 hostOps0_8_sub fresh_hostOps0_8 (W8 m)
abbrev segP9 := hostSeg (F := F) hostOps0_9 hostOps0_9_sub fresh_hostOps0_9 (W9 m)
abbrev segP10 := hostSeg (F := F) hostOps0_10 hostOps0_10_sub fresh_hostOps0_10 (W10 m)
abbrev segP11 := hostSeg (F := F) hostOps0_11 hostOps0_11_sub fresh_hostOps0_11 (W11 m)
abbrev segT0 := hostSeg (F := F) hostOps1 hostOps1_sub fresh_hostOps1 (WX m dats)
abbrev segT1 := hostSeg (F := F) hostOps1_1 hostOps1_1_sub fresh_hostOps1_1 (WT1 m dats)
abbrev segT2 := hostSeg (F := F) hostOps1_2 hostOps1_2_sub fresh_hostOps1_2 (WT2 m dats)
/-! ## The region's arrays, one by one -/

/-- A whole unscoped buffer of core `c` at the share `q`. -/
abbrev ptq (c : Dev nD) (q : PosShare TreeShare) (b : Ref sig .tc) (f : Buf (Elt F) ((c : Thread nD τ).loc b)) : sProp 𝕄 :=
  ((c : Thread nD τ).loc b) ↦{q} f

set_option maxRecDepth 4096 in
/-- The distinct buffers behind the seven windows are six: the normalised embeddings (two windows), the log-probabilities,
    the probabilities, the row of entropies, and the two results. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop(ptq c fullShare main_v21 (V main_v21) ∗ ptq c fullShare main_v22 (V main_v22) ∗ ptq c fullShare main_v23 (V main_v23)
          ∗ ptq c fullShare main_v26 (V main_v26) ∗ ptq c fullShare main_v27_0 (V main_v27_0) ∗ ptq c fullShare main_v27_1 (V main_v27_1)) := by
  unfold Pipeline.arrBufs
  exact bigSep_eq_bigSepL_of_eq [main_v21, main_v22, main_v23, main_v26, main_v27_0, main_v27_1] (by decide) (by decide) _

/-- A whole buffer's element set is every element. -/
theorem pt_whole (c : Dev nD) (b : Ref sig .tc) (q : PosShare TreeShare) (f : Buf (Elt F) ((c : Thread nD τ).loc b)) :
    ((((c : Thread nD τ).loc b) ↦[(Memref.whole b).view.set]{q} f : sProp 𝕄)) = ptq c q b f := by
  rw [(Memref.isWhole_whole b).set_eq_univ]

/-- The pipeline's `arrays` at contents `G`, window by window, each a whole buffer at the window's share. -/
theorem arrays_eq7 {c : Dev nD} (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop(ptq c (dat.share 0) main_v21 (G 0) ∗ ptq c (dat.share 1) main_v21 (G 1) ∗ ptq c (dat.share 2) main_v22 (G 2)
          ∗ ptq c (dat.share 3) main_v23 (G 3) ∗ ptq c (dat.share 4) main_v26 (G 4)
          ∗ ptq c (dat.share 5) main_v27_0 (G 5) ∗ ptq c (dat.share 6) main_v27_1 (G 6)) := by
  unfold Dat.arrays
  rw [bigSep_W0]
  exact congrArg₂ BI.sep (pt_whole c main_v21 _ (G 0)) (congrArg₂ BI.sep (pt_whole c main_v21 _ (G 1)) (congrArg₂ BI.sep (pt_whole c main_v22 _ (G 2))
    (congrArg₂ BI.sep (pt_whole c main_v23 _ (G 3)) (congrArg₂ BI.sep (pt_whole c main_v26 _ (G 4))
      (congrArg₂ BI.sep (pt_whole c main_v27_0 _ (G 5)) (pt_whole c main_v27_1 _ (G 6)))))))

/-- The shares the seven windows hold their arrays at: the two windows on the normalised embeddings complementary
    halves, every other window the whole. -/
structure SharesOK {c : Dev nD} (dat : Dat τ (Elt F) Unit ℕ (UR sig nD τ) ℕ cfg0 c) : Prop where
  s0 : dat.share 0 = fullShare.left
  s1 : dat.share 1 = fullShare.right
  s2 : dat.share 2 = fullShare
  s3 : dat.share 3 = fullShare
  s4 : dat.share 4 = fullShare
  s5 : dat.share 5 = fullShare
  s6 : dat.share 6 = fullShare

/-- Every unscoped buffer of a core held at a valuation `Vv` IS the pipeline's arrays at `Vv`'s contents — the
    normalised embeddings' points-to in its two halves, one per window that reads it — beside the buffers that are no
    window's array. -/
theorem held_iff_arrays {c : Dev nD} (dat : Dat τ (Elt F) Unit ℕ (UR sig nD τ) ℕ cfg0 c) (hs : SharesOK dat)
    (Vv : Valuation τ sig (Elt F)) :
    (StableHlo.held (c : Thread nD τ) UCR Vv : sProp 𝕄)
      ⊣⊢ iprop(dat.arrays (fun w => Vv (Proc.devRef .tc (Pipeline.arrRef spec0 w)))
          ∗ Pipeline.unscopedRest (Ix := Unit) (Name := ℕ) (U := UR sig nD τ) (Lvl := ℕ) spec0 c (fun b => Vv b)) := by
  rw [show StableHlo.held (c : Thread nD τ) UCR Vv = unscopedBufs c (fun b => Vv b) from (Pipeline.unscopedBufs_held c _).symm,
    Pipeline.unscopedBufs_split₀ cfgs 0 winFacts₀0.arr_unscoped c, arrBufs_eq, arrays_eq7, hs.s0, hs.s1, hs.s2, hs.s3, hs.s4, hs.s5, hs.s6]
  constructor
  · iintro ⟨⟨H21, H22, H23, H26, H270, H271⟩, HZ⟩
    ihave H := (pointsTo_share (PosShare.mem_left_op_right fullShare)).1 $$ H21
    icases H with ⟨HL, HR⟩
    isplitr [HZ]
    · isplitl [HL]; · iexact HL
      isplitl [HR]; · iexact HR
      isplitl [H22]; · iexact H22
      isplitl [H23]; · iexact H23
      isplitl [H26]; · iexact H26
      isplitl [H270]; · iexact H270
      iexact H271
    iexact HZ
  · iintro ⟨⟨HL, HR, H22, H23, H26, H270, H271⟩, HZ⟩
    ihave H21 := (pointsTo_share (PosShare.mem_left_op_right fullShare)).2 $$ [HL HR]
    · isplitl [HL] <;> iassumption
    isplitr [HZ]
    · isplitl [H21]; · iexact H21
      isplitl [H22]; · iexact H22
      isplitl [H23]; · iexact H23
      isplitl [H26]; · iexact H26
      isplitl [H270]; · iexact H270
      iexact H271
    iexact HZ

/-! ## The region as a segment -/

/-- What bypasses the region: every unscoped buffer that is no window's array, as the twelve stretches left it. -/
abbrev ZZ (c : Dev nD) : sProp 𝕄 :=
  Pipeline.unscopedRest (Ix := Unit) (Name := ℕ) (U := UR sig nD τ) (Lvl := ℕ) spec0 c (fun b => W12 m c b)

variable {m dats}

theorem DataOK.share0 (ok : DataOK m dats) (c : Dev nD) : (dats 0 c).share 0 = fullShare.left := by
  unfold Dat.share; rw [if_neg (by decide)]; exact ok.hq0 c
theorem DataOK.share1 (ok : DataOK m dats) (c : Dev nD) : (dats 0 c).share 1 = fullShare.right := by
  unfold Dat.share; rw [if_neg (by decide)]; exact ok.hq1 c
theorem DataOK.share2 (ok : DataOK m dats) (c : Dev nD) : (dats 0 c).share 2 = fullShare := by
  unfold Dat.share; rw [if_neg (by decide)]; exact ok.hq2 c
theorem DataOK.share3 (ok : DataOK m dats) (c : Dev nD) : (dats 0 c).share 3 = fullShare := by
  unfold Dat.share; rw [if_neg (by decide)]; exact ok.hq3 c
theorem DataOK.share4 (ok : DataOK m dats) (c : Dev nD) : (dats 0 c).share 4 = fullShare := by
  unfold Dat.share; rw [if_neg (by decide)]; exact ok.hq4 c
theorem DataOK.share5 (ok : DataOK m dats) (c : Dev nD) : (dats 0 c).share 5 = fullShare := by
  unfold Dat.share; rw [if_pos (by decide)]
theorem DataOK.share6 (ok : DataOK m dats) (c : Dev nD) : (dats 0 c).share 6 = fullShare := by
  unfold Dat.share; rw [if_pos (by decide)]

theorem DataOK.shares (ok : DataOK m dats) (c : Dev nD) : SharesOK (dats 0 c) :=
  ⟨ok.share0 c, ok.share1 c, ok.share2 c, ok.share3 c, ok.share4 c, ok.share5 c, ok.share6 c⟩

/-- The core's `owes` as a pipeline point's, for data that owe nothing and bound their recorded pairs by nothing; and back. -/
theorem owesAt_intro (ok : DataOK m dats) (c : Dev nD) (t : Fin (cfg0.N + 1)) :
    iprop(∃ W, owes (c : Thread nD τ) (0 : CellTallies nD τ sig Unit) W) ⊢ ((dats 0 c).owesAt () t : sProp 𝕄) := by
  unfold Pipeline.Dat.owesAt Pipeline.owesWithin Pipeline.Dat.bound; rw [ok.howed, ok.hrec]
  iintro ⟨%W, HO⟩; iexists W; isplitr; · ipureintro; exact fun _ _ => Or.inl trivial
  iexact HO
theorem owesAt_elim (ok : DataOK m dats) (c : Dev nD) (t : Fin (cfg0.N + 1)) :
    ((dats 0 c).owesAt () t : sProp 𝕄) ⊢ iprop(∃ W, owes (c : Thread nD τ) (0 : CellTallies nD τ sig Unit) W) := by
  unfold Pipeline.Dat.owesAt Pipeline.owesWithin; rw [ok.howed]
  iintro ⟨%W, -, HO⟩; iexists W; iexact HO

/-- The exit valuation off the two results is the entry valuation. -/
theorem WX_of_ne (c : Dev nD) (b : Ref sig .tc) (h5 : b ≠ main_v27_0) (h6 : b ≠ main_v27_1) :
    WX m dats c (Proc.devRef .tc b) = W12 m c (Proc.devRef .tc b) := by
  show Function.update (Function.update (W12 m c) (Proc.devRef .tc main_v27_0) (out5 dats c)) (Proc.devRef .tc main_v27_1) (out6 dats c) (Proc.devRef .tc b) = _
  rw [Function.update_of_ne (StableHlo.devRef_ne_of_ne h6), Function.update_of_ne (StableHlo.devRef_ne_of_ne h5)]
theorem WX_270 (c : Dev nD) : WX m dats c (Proc.devRef .tc main_v27_0) = out5 dats c := by
  show Function.update (Function.update (W12 m c) (Proc.devRef .tc main_v27_0) (out5 dats c)) (Proc.devRef .tc main_v27_1) (out6 dats c) (Proc.devRef .tc main_v27_0) = _
  rw [Function.update_of_ne (StableHlo.devRef_ne_of_ne (by decide)), Function.update_self]
theorem WX_271 (c : Dev nD) : WX m dats c (Proc.devRef .tc main_v27_1) = out6 dats c := by
  show Function.update (Function.update (W12 m c) (Proc.devRef .tc main_v27_0) (out5 dats c)) (Proc.devRef .tc main_v27_1) (out6 dats c) (Proc.devRef .tc main_v27_1) = _
  rw [Function.update_self]

/-- What bypasses the region is the same at the exit valuation: the region's two results are windows' arrays. -/
theorem unscopedRest_WX (c : Dev nD) :
    (Pipeline.unscopedRest (Ix := Unit) (Name := ℕ) (U := UR sig nD τ) (Lvl := ℕ) spec0 c (fun b => WX m dats c b) : sProp 𝕄) = ZZ m c := by
  unfold Pipeline.unscopedRest
  refine bigSep_congr fun b hb => ?_
  have h5 : b ≠ main_v27_0 := fun e => (Finset.mem_sdiff.mp hb).2 (by rw [e]; exact Finset.mem_image_of_mem (Pipeline.arrRef spec0) (Finset.mem_univ (5 : Fin 7)))
  have h6 : b ≠ main_v27_1 := fun e => (Finset.mem_sdiff.mp hb).2 (by rw [e]; exact Finset.mem_image_of_mem (Pipeline.arrRef spec0) (Finset.mem_univ (6 : Fin 7)))
  dsimp only
  rw [WX_of_ne c b h5 h6]

/-- ENTRY: the six buffers behind the windows, out of every unscoped buffer held at the entry valuation, make the
    pipeline's arrays at the proof data's entry contents — the normalised embeddings' points-to split in its two halves —;
    the generator register goes to the invariant; every other buffer bypasses. -/
theorem reg_hentry (ok : DataOK m dats) (c : Dev nD) :
    iprop(iprop(StableHlo.held (c : Thread nD τ) UCR (W12 m c) ∗ R c) ∗ Pipeline.ownSems0 (Ix := Unit) (Name := ℕ) (U := UR sig nD τ) (Lvl := ℕ) (Val := Elt F) (τ := τ) (fun k : PEmpty => k.elim) c ∗ levAts LL lv)
      ⊢ |={Set.univ}=> iprop((dats 0 c).arrays ((dats 0 c).arrAt · 0) ∗ Pipeline.prefHeld (pcfgs (F := F) 0).pre c (fun _ => fullShare) (adm (F := F) 0).1
          ∗ (dats 0 c).owesAt () 0 ∗ (∃ r, prngReg c r) ∗ ZZ m c) := by
  have hG : (fun w => W12 m c (Proc.devRef .tc (Pipeline.arrRef spec0 w))) = ((dats 0 c).arrAt · 0) := funext fun w => (ok.hA c w).symm
  have h := (held_iff_arrays (dats 0 c) (ok.shares c) (W12 m c)).1
  rw [hG] at h
  iintro ⟨⟨Hh, HO, Hp⟩, -, -⟩
  ihave H := h $$ Hh
  icases H with ⟨Ha, HZ⟩
  imodintro
  isplitl [Ha]; · iexact Ha
  isplitr; · unfold Pipeline.prefHeld; rw [show (Finset.univ : Finset (Fin 0)) = ∅ from rfl, BI.bigSep_empty]; iempintro
  isplitl [HO]; · iapply (owesAt_intro ok c 0); iexact HO
  isplitl [Hp]; · iexact Hp
  iexact HZ

/-- The class invariant at the first point: the generator register and the scoped buffers no window stages. -/
theorem reg_hin (ok : DataOK m dats) (c : Dev nD) :
    iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ ((dats 0 c).Φ 0 : sProp 𝕄) := by
  rw [ok.hΦ]; unfold Pipeline.ΦA
  iintro ⟨Hp, -, Hr⟩
  isplitl [Hr] <;> iassumption

/-- The class invariant at the last point gives them back. -/
theorem reg_hout (ok : DataOK m dats) (c : Dev nD) :
    ((dats 0 c).Φ (Fin.last cfg0.N) : sProp 𝕄) ⊢ iprop((∃ r, prngReg c r)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  rw [ok.hΦ, Pipeline.ownSems0_none]; unfold Pipeline.ΦA
  iintro ⟨Hr, Hp⟩
  isplitl [Hp]; · iexact Hp
  isplitr; · iempintro
  iexact Hr

/-- At the exit valuation every window's array holds what the pipeline library computes for it after the last point:
    an input is never written, and the two results are what was overwritten. -/
theorem WX_arr (ok : DataOK m dats) (c : Dev nD) :
    (fun w => WX m dats c (Proc.devRef .tc (Pipeline.arrRef spec0 w))) = ((dats 0 c).arrAt · cfg0.N) := by
  have key : ∀ w : Fin 7, WX m dats c (Proc.devRef .tc (Pipeline.arrRef spec0 w)) = (dats 0 c).arrAt w cfg0.N := fun
    | 0 => (WX_of_ne c main_v21 (by decide) (by decide)).trans (((dats 0 c).arrAt_in 0 rfl _).trans (ok.hA c 0)).symm
    | 1 => (WX_of_ne c main_v21 (by decide) (by decide)).trans (((dats 0 c).arrAt_in 1 rfl _).trans (ok.hA c 1)).symm
    | 2 => (WX_of_ne c main_v22 (by decide) (by decide)).trans (((dats 0 c).arrAt_in 2 rfl _).trans (ok.hA c 2)).symm
    | 3 => (WX_of_ne c main_v23 (by decide) (by decide)).trans (((dats 0 c).arrAt_in 3 rfl _).trans (ok.hA c 3)).symm
    | 4 => (WX_of_ne c main_v26 (by decide) (by decide)).trans (((dats 0 c).arrAt_in 4 rfl _).trans (ok.hA c 4)).symm
    | 5 => WX_270 c
    | 6 => WX_271 c
    | ⟨_ + 7, h⟩ => absurd h (Nat.not_lt.2 (Nat.le_add_left _ _))
  exact funext key

/-- EXIT: the input windows' arrays are as at entry, the two halves of the normalised embeddings join again, and with
    the two results at what the pipeline wrote back and the bypassing buffers they are every unscoped buffer held at the
    exit valuation. -/
theorem reg_hexit (ok : DataOK m dats) (c : Dev nD) :
    iprop((dats 0 c).arrays ((dats 0 c).arrAt · cfg0.N) ∗ (dats 0 c).owesAt () (Fin.last cfg0.N) ∗ (∃ r, prngReg c r) ∗ ZZ m c)
      ⊢ |={Set.univ}=> iprop(StableHlo.held (c : Thread nD τ) UCR (WX m dats c) ∗ R c) := by
  have h := (held_iff_arrays (dats 0 c) (ok.shares c) (WX m dats c)).2
  rw [WX_arr ok c, unscopedRest_WX] at h
  iintro ⟨Ha, HO, Hp, HZ⟩
  imodintro
  isplitl [Ha HZ]
  · iapply h; isplitl [Ha] <;> iassumption
  isplitl [HO]; · iapply (owesAt_elim ok c _); iexact HO
  iexact Hp

set_option backward.isDefEq.respectTransparency.types false in
/-- THE REGION as a segment: the decided layout, no semaphore of the kernel's own, the body obligation, and the four
    entailments above around the thread states before and after it. -/
def reg0 (ok : DataOK m dats) : Pipeline.RegionSeg (pcfgs (F := F)) adm dats () defs₀ 𝒱₀ LL lv 0 where
  win := winFacts₀0
  block_pos := block_pos0
  stage_whole := stage_whole0
  K := PEmpty
  osem k := k.elim
  ho := Pipeline.OwnSemFacts.none _
  hbody c := (ok.hbody c).loose
  hwaits := Pipeline.hwaits_of_owed_zero _ _ _ _ LL lv 0 fun c t => ok.howed c t
  pre c := iprop(StableHlo.held (c : Thread nD τ) UCR (W12 m c) ∗ R c)
  post c := iprop(StableHlo.held (c : Thread nD τ) UCR (WX m dats c) ∗ R c)
  X c := iprop(∃ r, prngReg c r)
  Y c := iprop(∃ r, prngReg c r)
  Z c := ZZ m c
  hentry c := reg_hentry ok c
  hin c := reg_hin ok c
  hout c := reg_hout ok c
  hexit c := reg_hexit ok c

/-! ## The run -/

/-- @main as the list of its sixteen segments. -/
abbrev segs (ok : DataOK m dats) : List (Pipeline.Seg (pcfgs (F := F)) adm dats () defs₀ 𝒱₀ LL lv) :=
  [.host (segP0 m), .host (segP1 m), .host (segP2 m), .host (segP3 m), .host (segP4 m), .host (segP5 m), .host (segP6 m), .host (segP7 m), .host (segP8 m), .host (segP9 m), .host (segP10 m), .host (segP11 m), .region (reg0 ok), .host (segT0 m dats), .host (segT1 m dats), .host (segT2 m dats)]

set_option maxRecDepth 200000 in
/-- The segments' run is @main's chain of items. -/
theorem segs_run (ok : DataOK m dats) : Pipeline.Seg.run (segs ok) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    Prog.lift (.customCall (Pipeline.entry 0) ()),
    StableHlo.seq hostOps1,
    StableHlo.seq hostOps1_1,
    StableHlo.seq hostOps1_2 ] : Prog (TpuEff nD τ sig (Elt F) (Pipeline.Sig Λ₀ (Fin 1) fun p => (pcfgs (F := F) p).Adm) .tc) PUnit) := by
  rw [Pipeline.Seg.run_eq_chain]
  rfl

set_option backward.isDefEq.respectTransparency.types false in
/-- At the compiled mesh, for any float values, from any memory with zero counters: every weakly fair execution of
    @main on the TensorCores terminates, nothing faulting, and in every final state each unscoped buffer of each core
    holds the fold of the sixteen segments — the host operations' pure terms, with the region's two results at what the
    pipeline wrote back. -/
theorem run_main (ok : DataOK m dats) (ρ : Dev nD → PrngReg) :
    θ_run defs (onTc (τ := τ) (main (F := F))) ⟨m, fun _ => 0, ρ⟩
      (fun r => ∀ c : Dev nD, ∀ b ∈ UCR, r.2.mem ((c : Thread nD τ).1, b) = WT3 m dats c b) :=
  Pipeline.θ_run_regions_kit (pcfgs (F := F)) adm dats () cellOf_inj emb₁ defs₀ 𝒱₀ LL lv m ρ main (segs ok)
    (fun c Q => by rw [main_chain, segs_run ok])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) UCR (W0 m c) ∗ R c))
    (Tₙ := fun c => iprop(StableHlo.held (c : Thread nD τ) UCR (WT3 m dats c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) UCR (WT3 m dats c) ∗ R c)
        ⊢ iprop((StableHlo.held (c : Thread nD τ) UCR (WT3 m dats c) ∗ ∃ r, prngReg c r) ∗ ∃ W, owes (c : Thread nD τ) (0 : CellTallies nD τ sig Unit) W) from by
      iintro ⟨Hh, HO, Hp⟩
      isplitl [Hh Hp]
      · isplitl [Hh] <;> iassumption
      iexact HO)⟩)
    (hinit := by
      refine Pipeline.initEach LL lv fun c => ?_
      rw [show unscopedBufs c (fun b => m ((c : Thread nD τ).loc b)) = StableHlo.held (c : Thread nD τ) UCR (W0 m c) from Pipeline.unscopedBufs_held c (W0 m c)]
      iintro ⟨⟨Hh, -, HO, -, Hp, -⟩, -⟩
      imodintro
      isplitl [Hh]; · iexact Hh
      isplitl [HO]; · iexists ∅; iexact HO
      iexists _; iexact Hp)
    (QY := fun c s => ∀ b ∈ UCR, s.mem ((c : Thread nD τ).1, b) = WT3 m dats c b)
    (hfin := fun c s' => by
      show iprop((StableHlo.held (c : Thread nD τ) UCR (WT3 m dats c) ∗ ∃ r, prngReg c r) ∗ SI s') ⊢ _
      unfold StableHlo.held
      iintro ⟨⟨Hh, -⟩, HSI⟩
      imodintro
      iapply (pointsTo_read_all UCR (fun b => ((c : Thread nD τ).1, b)) (WT3 m dats c) s')
      isplitl [Hh] <;> iassumption)
    (hQ := fun _ h => h)

end Cert.Kernel.Hand

end
-- ==== Proof.K.Runs.lean ====
import proofs.«137117_j83648783057448_1_alg».proof.Proof.Gen.Kernel.Launch
import proofs.«137117_j83648783057448_1_alg».proof.Proof.Gen.Kernel.Skeleton
import proofs.«137117_j83648783057448_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The windows' blocks -/

/-- The arrays a pipeline on core `c` is entered with, one buffer per window. -/
abbrev Arrs (F : FTy → Type) [FloatOps F] (c : Dev nD) : Type :=
  (w : Fin cfg0.W) → Buf (Elt F) ((cfg0.win w).arr.view.loc (c.tc : Thread nD τ))

/-- Window `w`'s block at point `t`, read off its array `A w`. -/
def iblk (c : Dev nD) (A : Arrs F c) (w : Fin cfg0.W) (t : Fin cfg0.N) :
    ((cfg0.win w).xblock (cfg0.grid.coords t)).Idx → Elt F (cfg0.win w).elt :=
  ((cfg0.win w).blk t).view.read (Elt F) (A w)

/-! ## Every input's staging buffer holds its block, fetched at the point or not

An input window the body only reads keeps its block between fetches; a point that does not fetch it has the block
index of the point before, so the buffer holds the point's block either way. Nothing is asked of the arrays or of
the shares: two windows on one array are two readings of one buffer. -/

theorem before_in_0 {c : Dev nD} (dat : Dat τ (Elt F) Unit ℕ (UR sig nD τ) ℕ cfg0 c)
    (hafter : ∀ t, dat.after 0 t = iblk c dat.A 0 t) (t : Fin cfg0.N) (d) : dat.before 0 t d = iblk c dat.A 0 t :=
  (dat.before_in_eq_fetched 0 rfl (fun _ => rfl) (fun _ _ _ => rfl) (fun t => by rw [hafter]; unfold Dat.blockOf iblk; rfl) t d).trans
    (by unfold Dat.fetched Dat.blockOf iblk; rfl)

theorem before_in_1 {c : Dev nD} (dat : Dat τ (Elt F) Unit ℕ (UR sig nD τ) ℕ cfg0 c)
    (hafter : ∀ t, dat.after 1 t = iblk c dat.A 1 t) (t : Fin cfg0.N) (d) : dat.before 1 t d = iblk c dat.A 1 t :=
  (dat.before_in_eq_fetched 1 rfl (fun _ => rfl) (fun _ _ _ => rfl) (fun t => by rw [hafter]; unfold Dat.blockOf iblk; rfl) t d).trans
    (by unfold Dat.fetched Dat.blockOf iblk; rfl)

theorem before_in_2 {c : Dev nD} (dat : Dat τ (Elt F) Unit ℕ (UR sig nD τ) ℕ cfg0 c)
    (hafter : ∀ t, dat.after 2 t = iblk c dat.A 2 t) (t : Fin cfg0.N) (d) : dat.before 2 t d = iblk c dat.A 2 t :=
  (dat.before_in_eq_fetched 2 rfl (fun _ => rfl) (fun _ _ _ => rfl) (fun t => by rw [hafter]; unfold Dat.blockOf iblk; rfl) t d).trans
    (by unfold Dat.fetched Dat.blockOf iblk; rfl)

theorem before_in_3 {c : Dev nD} (dat : Dat τ (Elt F) Unit ℕ (UR sig nD τ) ℕ cfg0 c)
    (hafter : ∀ t, dat.after 3 t = iblk c dat.A 3 t) (t : Fin cfg0.N) (d) : dat.before 3 t d = iblk c dat.A 3 t :=
  (dat.before_in_eq_fetched 3 rfl (fun _ => rfl) (fun _ _ _ => rfl) (fun t => by rw [hafter]; unfold Dat.blockOf iblk; rfl) t d).trans
    (by unfold Dat.fetched Dat.blockOf iblk; rfl)

theorem before_in_4 {c : Dev nD} (dat : Dat τ (Elt F) Unit ℕ (UR sig nD τ) ℕ cfg0 c)
    (hafter : ∀ t, dat.after 4 t = iblk c dat.A 4 t) (t : Fin cfg0.N) (d) : dat.before 4 t d = iblk c dat.A 4 t :=
  (dat.before_in_eq_fetched 4 rfl (fun _ => rfl) (fun _ _ _ => rfl) (fun t => by rw [hafter]; unfold Dat.blockOf iblk; rfl) t d).trans
    (by unfold Dat.fetched Dat.blockOf iblk; rfl)

/-! ## Whole-buffer loads and stores read back

A load through the unit rectangle at zero offsets of the buffer's own sizes reads the contents; a store through it
leaves its payload, whatever was stored before. -/

theorem zeros2 : (![0, 0] : Fin 2 → ℕ) = fun _ => 0 := by funext a; fin_cases a <;> rfl

/-- A load of a whole buffer held at the contents that read `X` reads `X`. -/
theorem load_whole {sp : Space} {S : Shape} {e : EltTy} {m : Memref sig .tc sp S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

/-- A store over the whole buffer, last, leaves its payload. -/
theorem store_whole_cons {sp : Space} {S : Shape} {e : EltTy} (v : View sig .tc sp S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero ho inb y⟩),
    View.canon_cons_unit_zero ho]

/-! ## The body's branch condition -/

/-- The condition of the body's `scf.if`, from the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only: decided over the 256 points of the grid. -/
theorem hcond0 : ∀ t : Fin cfg0.N, cond0 (grid0.coords t) ↔ t.val = 0 :=
  (by decide +kernel : ∀ t : Fin grid0.N, cond0 (grid0.coords t) ↔ t.val = 0)

/-! ## The staging memrefs at a point -/

/-- Each window's current staging memref at point `t`, spelled as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)

end Cert.Kernel.Hand

end
-- ==== Proof.K.RunA.lean ====
import proofs.«137117_j83648783057448_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body at the first point (the `scf.if` taken), on whole staging memrefs: the inputs' at their blocks `x·`, the
    outputs' at anything; it runs to the continuation holding the inputs' as they were and each output's buffer at
    its payload over the zero the branch has just stored. -/
theorem kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (hc0 : cond0 i)
    (x0 : Vec F S512x128 .f32) (x1 : Vec F S512x128 .f32) (x2 : Vec F S512x8 .f32) (x3 : Vec F S512x8 .f32) (x4 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay1 (k0_pay6 i x0 x1 x2 x3 x4) (k0_pay3 (F := F)))
            ∗ owns (c : Thread nD τ) arg8 fullShare (k0_pay2 (k0_pay5 i x0 x1) (k0_pay4 (F := F)))) -∗ K ⟨⟩))
      ⊢ wp frame (wpE (defs₀ (F := F)) Variants.none c none) E (cc0__pairwise_kernel i arg2 harg2 arg3 harg3 arg4 harg4 arg5 harg5 arg6 harg6 arg7 harg7 arg8 harg8) K := by
  simp only [cc0__pairwise_kernel_eq_skeleton]; unfold cc0__pairwise_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [store_whole_cons _ _ zeros2]
    rw [load_whole harg2 x0 zeros2, load_whole harg3 x1 zeros2, load_whole harg4 x2 zeros2, load_whole harg5 x3 zeros2, load_whole harg6 x4 zeros2, View.readCov_unit_zero _ zeros2]
  · iexists _; isplitr
    swap; · iexact H6
    ipureintro
    sl_unfold_run_names
    rw [store_whole_cons _ _ zeros2]
    rw [load_whole harg2 x0 zeros2, load_whole harg3 x1 zeros2, View.readCov_unit_zero _ zeros2]

end Cert.Kernel.Hand

end
-- ==== Proof.K.RunB.lean ====
import proofs.«137117_j83648783057448_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body at a point other than the first (the `scf.if` not taken), on whole staging memrefs: the inputs' at their
    blocks `x·`, the outputs' at their running contents `xo·`; it runs to the continuation holding the inputs' as they
    were and each output's buffer at its payload over what it held. -/
theorem kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (hc0 : ¬cond0 i)
    (x0 : Vec F S512x128 .f32) (x1 : Vec F S512x128 .f32) (x2 : Vec F S512x8 .f32) (x3 : Vec F S512x8 .f32) (x4 : Vec F S1x512 .f32) (xo5 : Vec F S1x1 .f32) (xo6 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xo5 ∗ owns (c : Thread nD τ) arg8 fullShare xo6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay1 (k0_pay6 i x0 x1 x2 x3 x4) xo5)
            ∗ owns (c : Thread nD τ) arg8 fullShare (k0_pay2 (k0_pay5 i x0 x1) xo6)) -∗ K ⟨⟩))
      ⊢ wp frame (wpE (defs₀ (F := F)) Variants.none c none) E (cc0__pairwise_kernel i arg2 harg2 arg3 harg3 arg4 harg4 arg5 harg5 arg6 harg6 arg7 harg7 arg8 harg8) K := by
  simp only [cc0__pairwise_kernel_eq_skeleton]; unfold cc0__pairwise_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hf6
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [store_whole_cons _ _ zeros2]
    rw [load_whole harg2 x0 zeros2, load_whole harg3 x1 zeros2, load_whole harg4 x2 zeros2, load_whole harg5 x3 zeros2, load_whole harg6 x4 zeros2, load_whole harg7 xo5 zeros2]
  · iexists _; isplitr
    swap; · iexact H6
    ipureintro
    sl_unfold_run_names
    rw [store_whole_cons _ _ zeros2]
    rw [load_whole harg2 x0 zeros2, load_whole harg3 x1 zeros2, load_whole harg8 xo6 zeros2]

end Cert.Kernel.Hand

end
-- ==== Proof.K.Body.lean ====
import proofs.«137117_j83648783057448_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What the outputs hold after each point

Output 5 accumulates `k0_pay1` of the point's masked block (`k0_pay6`) onto what it held, output 6 accumulates
`k0_pay2` of the point's mask (`k0_pay5`); the first point starts both from the zero it has just stored
(`k0_pay3`, `k0_pay4`). Neither buffer is written back before the last point, so each point finds what the point
before left. -/

/-- What output buffer 5 holds after the body at position `n`. -/
def outsAt5 (c : Dev nD) (A : Arrs F c) : (n : ℕ) → n < cfg0.N → Vec F S1x1 .f32
  | 0, hn => k0_pay1 (k0_pay6 (grid0.coords ⟨0, hn⟩) (iblk c A 0 ⟨0, hn⟩) (iblk c A 1 ⟨0, hn⟩) (iblk c A 2 ⟨0, hn⟩) (iblk c A 3 ⟨0, hn⟩) (iblk c A 4 ⟨0, hn⟩)) (k0_pay3 (F := F))
  | n + 1, hn => k0_pay1 (k0_pay6 (grid0.coords ⟨n + 1, hn⟩) (iblk c A 0 ⟨n + 1, hn⟩) (iblk c A 1 ⟨n + 1, hn⟩) (iblk c A 2 ⟨n + 1, hn⟩) (iblk c A 3 ⟨n + 1, hn⟩) (iblk c A 4 ⟨n + 1, hn⟩)) (outsAt5 c A n (Nat.lt_of_succ_lt hn))

/-- What output buffer 6 holds after the body at position `n`. -/
def outsAt6 (c : Dev nD) (A : Arrs F c) : (n : ℕ) → n < cfg0.N → Vec F S1x1 .f32
  | 0, hn => k0_pay2 (k0_pay5 (grid0.coords ⟨0, hn⟩) (iblk c A 0 ⟨0, hn⟩) (iblk c A 1 ⟨0, hn⟩)) (k0_pay4 (F := F))
  | n + 1, hn => k0_pay2 (k0_pay5 (grid0.coords ⟨n + 1, hn⟩) (iblk c A 0 ⟨n + 1, hn⟩) (iblk c A 1 ⟨n + 1, hn⟩)) (outsAt6 c A n (Nat.lt_of_succ_lt hn))

theorem outsAt5_zero (c : Dev nD) (A : Arrs F c) (h : 0 < cfg0.N) :
    outsAt5 c A 0 h = k0_pay1 (k0_pay6 (grid0.coords ⟨0, h⟩) (iblk c A 0 ⟨0, h⟩) (iblk c A 1 ⟨0, h⟩) (iblk c A 2 ⟨0, h⟩) (iblk c A 3 ⟨0, h⟩) (iblk c A 4 ⟨0, h⟩)) (k0_pay3 (F := F)) := rfl

theorem outsAt5_succ (c : Dev nD) (A : Arrs F c) (n : ℕ) (h : n + 1 < cfg0.N) :
    outsAt5 c A (n + 1) h = k0_pay1 (k0_pay6 (grid0.coords ⟨n + 1, h⟩) (iblk c A 0 ⟨n + 1, h⟩) (iblk c A 1 ⟨n + 1, h⟩) (iblk c A 2 ⟨n + 1, h⟩) (iblk c A 3 ⟨n + 1, h⟩) (iblk c A 4 ⟨n + 1, h⟩)) (outsAt5 c A n (Nat.lt_of_succ_lt h)) := rfl

theorem outsAt6_zero (c : Dev nD) (A : Arrs F c) (h : 0 < cfg0.N) :
    outsAt6 c A 0 h = k0_pay2 (k0_pay5 (grid0.coords ⟨0, h⟩) (iblk c A 0 ⟨0, h⟩) (iblk c A 1 ⟨0, h⟩)) (k0_pay4 (F := F)) := rfl

theorem outsAt6_succ (c : Dev nD) (A : Arrs F c) (n : ℕ) (h : n + 1 < cfg0.N) :
    outsAt6 c A (n + 1) h = k0_pay2 (k0_pay5 (grid0.coords ⟨n + 1, h⟩) (iblk c A 0 ⟨n + 1, h⟩) (iblk c A 1 ⟨n + 1, h⟩)) (outsAt6 c A n (Nat.lt_of_succ_lt h)) := rfl

/-- `outsAt5` at the first point. -/
theorem outsAt5_A (c : Dev nD) (A : Arrs F c) (t : Fin cfg0.N) (h0 : t.val = 0) :
    outsAt5 c A t.val t.isLt = k0_pay1 (k0_pay6 (grid0.coords t) (iblk c A 0 t) (iblk c A 1 t) (iblk c A 2 t) (iblk c A 3 t) (iblk c A 4 t)) (k0_pay3 (F := F)) := by
  obtain ⟨n, hn⟩ := t
  cases n with
  | zero => exact rfl
  | succ n => exact absurd h0 (Nat.succ_ne_zero n)

/-- `outsAt5` at a later point: over what the point before left. -/
theorem outsAt5_B (c : Dev nD) (A : Arrs F c) (t : Fin cfg0.N) (h0 : ¬t.val = 0) :
    outsAt5 c A t.val t.isLt = k0_pay1 (k0_pay6 (grid0.coords t) (iblk c A 0 t) (iblk c A 1 t) (iblk c A 2 t) (iblk c A 3 t) (iblk c A 4 t)) (outsAt5 c A (t.val - 1) (Nat.lt_of_le_of_lt (Nat.sub_le _ _) t.isLt)) := by
  obtain ⟨n, hn⟩ := t
  cases n with
  | zero => exact absurd rfl h0
  | succ n => exact rfl

/-- `outsAt6` at the first point. -/
theorem outsAt6_A (c : Dev nD) (A : Arrs F c) (t : Fin cfg0.N) (h0 : t.val = 0) :
    outsAt6 c A t.val t.isLt = k0_pay2 (k0_pay5 (grid0.coords t) (iblk c A 0 t) (iblk c A 1 t)) (k0_pay4 (F := F)) := by
  obtain ⟨n, hn⟩ := t
  cases n with
  | zero => exact rfl
  | succ n => exact absurd h0 (Nat.succ_ne_zero n)

/-- `outsAt6` at a later point: over what the point before left. -/
theorem outsAt6_B (c : Dev nD) (A : Arrs F c) (t : Fin cfg0.N) (h0 : ¬t.val = 0) :
    outsAt6 c A t.val t.isLt = k0_pay2 (k0_pay5 (grid0.coords t) (iblk c A 0 t) (iblk c A 1 t)) (outsAt6 c A (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the pipeline on core `c`, over any arrays `A` and any input shares `q`: after the body at
    point `t` each input's buffer holds its block and the outputs' hold `outsAt5` / `outsAt6`; the invariant is the
    scoped rest and the generator register; nothing is owed. -/
def dat (c : Dev nD) (A : Arrs F c) (q : Fin cfg0.W → PosShare TreeShare) : Dat τ (Elt F) Unit ℕ (UR sig nD τ) ℕ cfg0 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => outsAt5 c A t.val t.isLt
    | ⟨6, _⟩ => outsAt6 c A t.val t.isLt
  Φ _ := Pipeline.ΦA spec0 c
  q := q
  owed _ := 0

theorem dat_A (c : Dev nD) (A : Arrs F c) (q) : (dat c A q).A = A := by dsimp only [dat]
theorem dat_q (c : Dev nD) (A : Arrs F c) (q) : (dat c A q).q = q := by dsimp only [dat]
theorem dat_Φ (c : Dev nD) (A : Arrs F c) (q) (t) : (dat c A q).Φ t = Pipeline.ΦA spec0 c := by dsimp only [dat]
theorem dat_owed (c : Dev nD) (A : Arrs F c) (q) (t) : (dat c A q).owed t = 0 := by dsimp only [dat]

/-- What the body leaves, window by window. -/
theorem after_0 (c : Dev nD) (A : Arrs F c) (q) (t : Fin cfg0.N) : (dat c A q).after 0 t = iblk c A 0 t := by dsimp only [dat]
theorem after_1 (c : Dev nD) (A : Arrs F c) (q) (t : Fin cfg0.N) : (dat c A q).after 1 t = iblk c A 1 t := by dsimp only [dat]
theorem after_2 (c : Dev nD) (A : Arrs F c) (q) (t : Fin cfg0.N) : (dat c A q).after 2 t = iblk c A 2 t := by dsimp only [dat]
theorem after_3 (c : Dev nD) (A : Arrs F c) (q) (t : Fin cfg0.N) : (dat c A q).after 3 t = iblk c A 3 t := by dsimp only [dat]
theorem after_4 (c : Dev nD) (A : Arrs F c) (q) (t : Fin cfg0.N) : (dat c A q).after 4 t = iblk c A 4 t := by dsimp only [dat]
theorem after_5 (c : Dev nD) (A : Arrs F c) (q) (t : Fin cfg0.N) : (dat c A q).after 5 t = outsAt5 c A t.val t.isLt := by dsimp only [dat]
theorem after_6 (c : Dev nD) (A : Arrs F c) (q) (t : Fin cfg0.N) : (dat c A q).after 6 t = outsAt6 c A t.val t.isLt := by dsimp only [dat]

/-- What the outputs' buffers hold after the last point is what is written back. -/
theorem after5_last (c : Dev nD) (A : Arrs F c) (q) (t : Fin cfg0.N) : (dat c A q).after 5 t = outsAt5 c A t.val t.isLt := after_5 c A q t
theorem after6_last (c : Dev nD) (A : Arrs F c) (q) (t : Fin cfg0.N) : (dat c A q).after 6 t = outsAt6 c A t.val t.isLt := after_6 c A q t

/-- Each input's current staging buffer holds its block at every point. -/
theorem before_0 (c : Dev nD) (A : Arrs F c) (q) (t : Fin cfg0.N) (d) : (dat c A q).before 0 t d = iblk c A 0 t :=
  before_in_0 (dat c A q) (after_0 c A q) t d
theorem before_1 (c : Dev nD) (A : Arrs F c) (q) (t : Fin cfg0.N) (d) : (dat c A q).before 1 t d = iblk c A 1 t :=
  before_in_1 (dat c A q) (after_1 c A q) t d
theorem before_2 (c : Dev nD) (A : Arrs F c) (q) (t : Fin cfg0.N) (d) : (dat c A q).before 2 t d = iblk c A 2 t :=
  before_in_2 (dat c A q) (after_2 c A q) t d
theorem before_3 (c : Dev nD) (A : Arrs F c) (q) (t : Fin cfg0.N) (d) : (dat c A q).before 3 t d = iblk c A 3 t :=
  before_in_3 (dat c A q) (after_3 c A q) t d
theorem before_4 (c : Dev nD) (A : Arrs F c) (q) (t : Fin cfg0.N) (d) : (dat c A q).before 4 t d = iblk c A 4 t :=
  before_in_4 (dat c A q) (after_4 c A q) t d

/-- At the first point an output's staging buffer is fresh: it holds anything. -/
theorem before_5_A (c : Dev nD) (A : Arrs F c) (q) (t : Fin cfg0.N) (h0 : t.val = 0) (d) : (dat c A q).before 5 t d = d :=
  Dat.before_out_reset _ 5 rfl t (.inl h0) d
theorem before_6_A (c : Dev nD) (A : Arrs F c) (q) (t : Fin cfg0.N) (h0 : t.val = 0) (d) : (dat c A q).before 6 t d = d :=
  Dat.before_out_reset _ 6 rfl t (.inl h0) d

/-- At a later point output 5's staging buffer holds what the body left at the point before: the buffer is not written
    back before the last point. -/
theorem before_5_B (c : Dev nD) (A : Arrs F c) (q) (t : Fin cfg0.N) (h0 : ¬t.val = 0) (d) :
    (dat c A q).before 5 t d = outsAt5 c A (t.val - 1) (Nat.lt_of_le_of_lt (Nat.sub_le _ _) t.isLt) := by
  have hN : t.val < 256 := lt_of_lt_of_eq t.isLt (show cfg0.N = 256 from N_0)
  rw [Dat.before_out_kept _ 5 rfl t h0 (Bool.eq_false_iff.mpr fun h => by have := (flush0_5 _).mp h; dsimp only at this; omega)
    (fun _ => rfl) (fun _ _ => rfl)]
  dsimp only [dat]

theorem before_6_B (c : Dev nD) (A : Arrs F c) (q) (t : Fin cfg0.N) (h0 : ¬t.val = 0) (d) :
    (dat c A q).before 6 t d = outsAt6 c A (t.val - 1) (Nat.lt_of_le_of_lt (Nat.sub_le _ _) t.isLt) := by
  have hN : t.val < 256 := lt_of_lt_of_eq t.isLt (show cfg0.N = 256 from N_0)
  rw [Dat.before_out_kept _ 6 rfl t h0 (Bool.eq_false_iff.mpr fun h => by have := (flush0_6 _).mp h; dsimp only at this; omega)
    (fun _ => rfl) (fun _ _ => rfl)]
  dsimp only [dat]

/-! ## The body obligation, at a generic point -/

/-- What the body is called with at point `t`, the windows one by one, -/
def bodyPre (c : Dev nD) (A : Arrs F c) (q : Fin cfg0.W → PosShare TreeShare) (t : Fin cfg0.N) : sProp 𝕄 :=
  iprop((dat c A q).Φ t.castSucc ∗ (dat c A q).owesAt () t.castSucc
    ∗ (∃ d, owns (c : Thread nD τ) (ms0_0 t) fullShare ((dat c A q).before 0 t d))
    ∗ (∃ d, owns (c : Thread nD τ) (ms0_1 t) fullShare ((dat c A q).before 1 t d))
    ∗ (∃ d, owns (c : Thread nD τ) (ms0_2 t) fullShare ((dat c A q).before 2 t d))
    ∗ (∃ d, owns (c : Thread nD τ) (ms0_3 t) fullShare ((dat c A q).before 3 t d))
    ∗ (∃ d, owns (c : Thread nD τ) (ms0_4 t) fullShare ((dat c A q).before 4 t d))
    ∗ (∃ d, owns (c : Thread nD τ) (ms0_5 t) fullShare ((dat c A q).before 5 t d))
    ∗ (∃ d, owns (c : Thread nD τ) (ms0_6 t) fullShare ((dat c A q).before 6 t d)))

/-- and what it returns. -/
def bodyPost (c : Dev nD) (A : Arrs F c) (q : Fin cfg0.W → PosShare TreeShare) (t : Fin cfg0.N) : sProp 𝕄 :=
  iprop((dat c A q).Φ t.succ ∗ (dat c A q).owesAt () t.succ
    ∗ owns (c : Thread nD τ) (ms0_0 t) fullShare ((dat c A q).after 0 t)
    ∗ owns (c : Thread nD τ) (ms0_1 t) fullShare ((dat c A q).after 1 t)
    ∗ owns (c : Thread nD τ) (ms0_2 t) fullShare ((dat c A q).after 2 t)
    ∗ owns (c : Thread nD τ) (ms0_3 t) fullShare ((dat c A q).after 3 t)
    ∗ owns (c : Thread nD τ) (ms0_4 t) fullShare ((dat c A q).after 4 t)
    ∗ owns (c : Thread nD τ) (ms0_5 t) fullShare ((dat c A q).after 5 t)
    ∗ owns (c : Thread nD τ) (ms0_6 t) fullShare ((dat c A q).after 6 t))

set_option maxHeartbeats 800000 in
/-- The body at any point: the inputs' memrefs hold their blocks; at the first point the outputs' hold anything and the
    first case's run applies, at a later point they hold what the point before left and the second case's run applies;
    the invariant passes through unread; the core owes nothing throughout. -/
theorem sound_body (c : Dev nD) (A : Arrs F c) (q) (t : Fin cfg0.N) :
    bodyPre c A q t ⊢ wp frame (wpE (defs₀ (F := F)) Variants.none c none) Set.univ (bodyAt0 t) (fun _ => bodyPost c A q t) := by
  unfold bodyPre bodyPost bodyAt0
  simp only [before_0, before_1, before_2, before_3, before_4]
  rw [show (dat c A q).Φ t.succ = (dat c A q).Φ t.castSucc from rfl,
    show (dat c A q).owesAt () t.succ = (dat c A q).owesAt () t.castSucc from rfl,
    after_0, after_1, after_2, after_3, after_4, after_5, after_6]
  by_cases h0 : t.val = 0
  · rw [outsAt5_A c A t h0, outsAt6_A c A t h0]
    simp only [before_5_A c A q t h0, before_6_A c A q t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun0_A c (grid0.coords t) _ _ _ _ _ _ _ _ _ _ _ _ _ _ ((hcond0 t).mpr h0) (iblk c A 0 t) (iblk c A 1 t) (iblk c A 2 t) (iblk c A 3 t) (iblk c A 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt5_B c A t h0, outsAt6_B c A t h0]
    simp only [before_5_B c A q t h0, before_6_B c A q t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun0_B c (grid0.coords t) _ _ _ _ _ _ _ _ _ _ _ _ _ _ (fun h => h0 ((hcond0 t).mp h)) (iblk c A 0 t) (iblk c A 1 t) (iblk c A 2 t) (iblk c A 3 t) (iblk c A 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point, for any arrays and any input shares. -/
theorem body_obligation (c : Dev nD) (A : Arrs F c) (q : Fin cfg0.W → PosShare TreeShare) :
    BodyObligation (dat c A q) (defs₀ (F := F)) Variants.none () Set.univ := fun t => by
  rw [bigSep_W0, bigSep_W0]
  exact sound_body c A q t

/-- The same as the launch theorems take it. -/
theorem body_obligation_loose (c : Dev nD) (A : Arrs F c) (q : Fin cfg0.W → PosShare TreeShare) :
    Pipeline.BodyObligationLoose (dat c A q) (defs₀ (F := F)) Variants.none () Set.univ :=
  (body_obligation c A q).loose

end Cert.Kernel.Hand

end
-- ==== Proof.K.Frame.lean ====
/-
  The frame of the program: the proof data instantiated at the contents the twelve host stretches leave, the run, and
  the five argument arrays read back unchanged — no host operation and no window's write-back names one of them.
-/
import proofs.«137117_j83648783057448_1_alg».proof.Proof.K.Launch
import proofs.«137117_j83648783057448_1_alg».proof.Proof.K.Body
import Idealize.ShloMosaic.Lib.StableHlo.Run

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]
variable (m : (ℓ : Loc nD τ sig) → Buf (Elt F) ℓ)

/-- The windows' arrays when the region is entered: what the twelve stretches left. -/
def Aent (c : Dev nD) : Arrs F c := fun w => W12 m c (Proc.devRef .tc (Pipeline.arrRef spec0 w))

/-- The shares: the two windows that read the normalised embeddings hold complementary halves of it, every other
    input window its whole array. -/
def qsh : Fin cfg0.W → PosShare TreeShare := fun w => if w.val = 0 then fullShare.left else if w.val = 1 then fullShare.right else fullShare

/-- The proof data of the one pipeline, on every core. -/
def dats (_ : Fin 1) (c : Dev nD) : Dat τ (Elt F) Unit ℕ (UR sig nD τ) ℕ cfg0 c := dat c (Aent m c) qsh

theorem dataOK : DataOK m (dats m) where
  hA c w := congrFun (dat_A c (Aent m c) qsh) w
  hq0 c := congrFun (dat_q c (Aent m c) qsh) 0
  hq1 c := congrFun (dat_q c (Aent m c) qsh) 1
  hq2 c := congrFun (dat_q c (Aent m c) qsh) 2
  hq3 c := congrFun (dat_q c (Aent m c) qsh) 3
  hq4 c := congrFun (dat_q c (Aent m c) qsh) 4
  hΦ c t := dat_Φ c (Aent m c) qsh t
  howed c t := dat_owed c (Aent m c) qsh t
  hrec c t := rfl
  hbody c := body_obligation c (Aent m c) qsh

set_option backward.isDefEq.respectTransparency.types false in
/-- The run of the program at these data: every unscoped buffer ends at the fold of the sixteen segments. -/
theorem run (ρ : Dev nD → PrngReg) :
    θ_run defs (onTc (τ := τ) (main (F := F))) ⟨m, fun _ => 0, ρ⟩
      (fun r => ∀ c : Dev nD, ∀ b ∈ UCR, r.2.mem ((c : Thread nD τ).1, b) = WT3 m (dats m) c b) :=
  run_main (dataOK m) ρ

/-! ## The arguments are kept: no host operation writes one -/
theorem pre_keep0 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg0) = V0 (Proc.devRef .tc main_arg0) := by
  after_results
theorem tail_keep0 (VX : Valuation τ sig (Elt F)) :
    StableHlo.after hostOps1_2 (StableHlo.after hostOps1_1 (StableHlo.after hostOps1 (VX))) (Proc.devRef .tc main_arg0) = VX (Proc.devRef .tc main_arg0) := by
  after_results
/-- Argument 0 ends as launched. -/
theorem WT3_arg0 (c : Dev nD) : WT3 m (dats m) c (Proc.devRef .tc main_arg0) = m ((c : Thread nD τ).loc main_arg0) :=
  (tail_keep0 (WX m (dats m) c)).trans ((WX_of_ne c main_arg0 (by decide) (by decide)).trans (pre_keep0 (W0 m c)))
theorem pre_keep1 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg1) = V0 (Proc.devRef .tc main_arg1) := by
  after_results
theorem tail_keep1 (VX : Valuation τ sig (Elt F)) :
    StableHlo.after hostOps1_2 (StableHlo.after hostOps1_1 (StableHlo.after hostOps1 (VX))) (Proc.devRef .tc main_arg1) = VX (Proc.devRef .tc main_arg1) := by
  after_results
/-- Argument 1 ends as launched. -/
theorem WT3_arg1 (c : Dev nD) : WT3 m (dats m) c (Proc.devRef .tc main_arg1) = m ((c : Thread nD τ).loc main_arg1) :=
  (tail_keep1 (WX m (dats m) c)).trans ((WX_of_ne c main_arg1 (by decide) (by decide)).trans (pre_keep1 (W0 m c)))
theorem pre_keep2 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg2) = V0 (Proc.devRef .tc main_arg2) := by
  after_results
theorem tail_keep2 (VX : Valuation τ sig (Elt F)) :
    StableHlo.after hostOps1_2 (StableHlo.after hostOps1_1 (StableHlo.after hostOps1 (VX))) (Proc.devRef .tc main_arg2) = VX (Proc.devRef .tc main_arg2) := by
  after_results
/-- Argument 2 ends as launched. -/
theorem WT3_arg2 (c : Dev nD) : WT3 m (dats m) c (Proc.devRef .tc main_arg2) = m ((c : Thread nD τ).loc main_arg2) :=
  (tail_keep2 (WX m (dats m) c)).trans ((WX_of_ne c main_arg2 (by decide) (by decide)).trans (pre_keep2 (W0 m c)))
theorem pre_keep3 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg3) = V0 (Proc.devRef .tc main_arg3) := by
  after_results
theorem tail_keep3 (VX : Valuation τ sig (Elt F)) :
    StableHlo.after hostOps1_2 (StableHlo.after hostOps1_1 (StableHlo.after hostOps1 (VX))) (Proc.devRef .tc main_arg3) = VX (Proc.devRef .tc main_arg3) := by
  after_results
/-- Argument 3 ends as launched. -/
theorem WT3_arg3 (c : Dev nD) : WT3 m (dats m) c (Proc.devRef .tc main_arg3) = m ((c : Thread nD τ).loc main_arg3) :=
  (tail_keep3 (WX m (dats m) c)).trans ((WX_of_ne c main_arg3 (by decide) (by decide)).trans (pre_keep3 (W0 m c)))
theorem pre_keep4 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg4) = V0 (Proc.devRef .tc main_arg4) := by
  after_results
theorem tail_keep4 (VX : Valuation τ sig (Elt F)) :
    StableHlo.after hostOps1_2 (StableHlo.after hostOps1_1 (StableHlo.after hostOps1 (VX))) (Proc.devRef .tc main_arg4) = VX (Proc.devRef .tc main_arg4) := by
  after_results
/-- Argument 4 ends as launched. -/
theorem WT3_arg4 (c : Dev nD) : WT3 m (dats m) c (Proc.devRef .tc main_arg4) = m ((c : Thread nD τ).loc main_arg4) :=
  (tail_keep4 (WX m (dats m) c)).trans ((WX_of_ne c main_arg4 (by decide) (by decide)).trans (pre_keep4 (W0 m c)))

/-- THE FRAME: every weakly fair execution terminates, nothing faulting, the five argument arrays unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (Proc.devRef .tc main_arg0) (by decide)).trans (WT3_arg0 m c),
     (h c (Proc.devRef .tc main_arg1) (by decide)).trans (WT3_arg1 m c),
     (h c (Proc.devRef .tc main_arg2) (by decide)).trans (WT3_arg2 m c),
     (h c (Proc.devRef .tc main_arg3) (by decide)).trans (WT3_arg3 m c),
     (h c (Proc.devRef .tc main_arg4) (by decide)).trans (WT3_arg4 m c)⟩) (run m ρ)

end Cert.Kernel.Hand

end
-- ==== Proof.KI.Launch.lean ====
/-
  The run of the whole program around its one kernel region.

  @main is twelve stretches of host operations (the three log-softmax / gather / variance / norm helpers inlined at
  their call sites), then the kernel region over a 16 × 16 grid, then three more stretches that read the region's two
  scalar results. Two of the region's input windows read ONE array (the normalised embeddings, once by row block and
  once by column block), so that array's points-to is split between them — left half to the row-block window, right
  half to the column-block window — at the region's entry and joined again at its exit; every other array goes in
  and comes out at the full share. Between segments each core holds every unscoped buffer at a valuation: the launch
  memory, then the fold of the stretches run so far, the region's two results overwritten at its exit.
-/
import proofs.«137117_j83648783057448_1_alg».proof.Proof.Gen.KernelIdeal.Launch
import proofs.«137117_j83648783057448_1_alg».proof.Proof.Gen.KernelIdeal.Points
import Idealize.ShloMosaic.Lib.Pipeline.Regions
import Idealize.ShloMosaic.Lib.Pipeline.Frame

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the segments -/

/-- Core `c`'s buffers at launch, as a valuation; -/
abbrev W0 (c : Dev nD) : Valuation τ sig (Elt F) := fun b => m ((c : Dev nD), b)
/-- after the first 1 stretch of host operations; -/
abbrev W1 (c : Dev nD) : Valuation τ sig (Elt F) := StableHlo.after hostOps0 (W0 m c)
/-- after the first 2 stretches of host operations; -/
abbrev W2 (c : Dev nD) : Valuation τ sig (Elt F) := StableHlo.after hostOps0_1 (W1 m c)
/-- after the first 3 stretches of host operations; -/
abbrev W3 (c : Dev nD) : Valuation τ sig (Elt F) := StableHlo.after hostOps0_2 (W2 m c)
/-- after the first 4 stretches of host operations; -/
abbrev W4 (c : Dev nD) : Valuation τ sig (Elt F) := StableHlo.after hostOps0_3 (W3 m c)
/-- after the first 5 stretches of host operations; -/
abbrev W5 (c : Dev nD) : Valuation τ sig (Elt F) := StableHlo.after hostOps0_4 (W4 m c)
/-- after the first 6 stretches of host operations; -/
abbrev W6 (c : Dev nD) : Valuation τ sig (Elt F) := StableHlo.after hostOps0_5 (W5 m c)
/-- after the first 7 stretches of host operations; -/
abbrev W7 (c : Dev nD) : Valuation τ sig (Elt F) := StableHlo.after hostOps0_6 (W6 m c)
/-- after the first 8 stretches of host operations; -/
abbrev W8 (c : Dev nD) : Valuation τ sig (Elt F) := StableHlo.after hostOps0_7 (W7 m c)
/-- after the first 9 stretches of host operations; -/
abbrev W9 (c : Dev nD) : Valuation τ sig (Elt F) := StableHlo.after hostOps0_8 (W8 m c)
/-- after the first 10 stretches of host operations; -/
abbrev W10 (c : Dev nD) : Valuation τ sig (Elt F) := StableHlo.after hostOps0_9 (W9 m c)
/-- after the first 11 stretches of host operations; -/
abbrev W11 (c : Dev nD) : Valuation τ sig (Elt F) := StableHlo.after hostOps0_10 (W10 m c)
/-- after the first 12 stretches of host operations; -/
abbrev W12 (c : Dev nD) : Valuation τ sig (Elt F) := StableHlo.after hostOps0_11 (W11 m c)

/-- The set the host operations run within: the TensorCore's unscoped references. -/
abbrev UCR : Finset (DevRef τ sig) := Pipeline.ucRefs τ sig

/-- What rides beside the buffers through the host stretches: the core owing nothing, and its generator register. -/
abbrev R (c : Dev nD) : sProp 𝕄 := iprop((∃ W, owes (c : Thread nD τ) (0 : CellTallies nD τ sig Unit) W) ∗ ∃ r, prngReg c r)

/-! ## The proof data, as hypotheses: the launch is stated for any data of this shape -/

variable (dats : (p : Fin 1) → (c : Dev nD) → Dat τ (Elt F) Unit ℕ (UR sig nD τ) ℕ cfg0 c)

/-- What the launch asks of the proof data: the arrays at the contents the twelve stretches leave; the shared
    array's two windows at complementary halves and the other inputs whole; the class invariant at every point;
    nothing owed; the body obligation. -/
structure DataOK : Prop where
  hA : ∀ c w, (dats 0 c).A w = W12 m c (Pipeline.arrRef spec0 w)
  hq0 : ∀ c, (dats 0 c).q 0 = fullShare.left
  hq1 : ∀ c, (dats 0 c).q 1 = fullShare.right
  hq2 : ∀ c, (dats 0 c).q 2 = fullShare
  hq3 : ∀ c, (dats 0 c).q 3 = fullShare
  hq4 : ∀ c, (dats 0 c).q 4 = fullShare
  hΦ : ∀ c t, (dats 0 c).Φ t = Pipeline.ΦA spec0 c
  howed : ∀ c t, (dats 0 c).owed t = 0
  hrec : ∀ c t, (dats 0 c).recorded t = Set.univ
  hbody : ∀ c, BodyObligation (dats 0 c) (defs₀ (F := F)) Variants.none () Set.univ

/-- The two results after the region, as the pipeline library computes them. -/
abbrev out5 (c : Dev nD) : Buf (Elt F) ((c : Thread nD τ).loc main_v27_0) := (dats 0 c).arrAt 5 cfg0.N
abbrev out6 (c : Dev nD) : Buf (Elt F) ((c : Thread nD τ).loc main_v27_1) := (dats 0 c).arrAt 6 cfg0.N

/-- The buffers at the region's exit: the two results overwritten, everything else as the twelve stretches left it; -/
abbrev WX (c : Dev nD) : Valuation τ sig (Elt F) :=
  Function.update (Function.update (W12 m c) (Proc.devRef .tc main_v27_0) (out5 dats c)) (Proc.devRef .tc main_v27_1) (out6 dats c)
/-- and after each of the three stretches that follow. -/
abbrev WT1 (c : Dev nD) : Valuation τ sig (Elt F) := StableHlo.after hostOps1 (WX m dats c)
abbrev WT2 (c : Dev nD) : Valuation τ sig (Elt F) := StableHlo.after hostOps1_1 (WT1 m dats c)
abbrev WT3 (c : Dev nD) : Valuation τ sig (Elt F) := StableHlo.after hostOps1_2 (WT2 m dats c)

/-! ## The host stretches as segments -/

abbrev 𝒱₀ : Variants := Variants.none
/-- No core owes another anything: no level is assigned. -/
abbrev LL : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- A stretch of host operations over the unscoped buffers held at `V`. -/
abbrev hostSeg (ops : List (HloOp τ sig (Elt F))) (hsub : ops.Forall fun op => op.bufs ⊆ StableHlo.tcRefs τ sig)
    (hf : ∀ op ∈ ops, op.fresh = ∅) (V : Dev nD → Valuation τ sig (Elt F)) :
    Pipeline.HostSeg (Name := ℕ) (U := UR sig nD τ) (pcfgs (F := F)) defs₀ 𝒱₀ LL lv :=
  Pipeline.HostSeg.ofOps _ _ _ _ _ UCR ops (fun op h => Pipeline.sub_ucRefs op ((List.forall_iff_forall_mem.mp hsub) op h)) hf V R

theorem fresh_hostOps0 : ∀ op ∈ (hostOps0 : List (HloOp τ sig (Elt F))), op.fresh = ∅ := (by intro _ h; (repeat (cases h with | head => rfl | tail _ h => ?_)); exact nomatch h)
theorem fresh_hostOps0_1 : ∀ op ∈ (hostOps0_1 : List (HloOp τ sig (Elt F))), op.fresh = ∅ := (by intro _ h; (repeat (cases h with | head => rfl | tail _ h => ?_)); exact nomatch h)
theorem fresh_hostOps0_2 : ∀ op ∈ (hostOps0_2 : List (HloOp τ sig (Elt F))), op.fresh = ∅ := (by intro _ h; (repeat (cases h with | head => rfl | tail _ h => ?_)); exact nomatch h)
theorem fresh_hostOps0_3 : ∀ op ∈ (hostOps0_3 : List (HloOp τ sig (Elt F))), op.fresh = ∅ := (by intro _ h; (repeat (cases h with | head => rfl | tail _ h => ?_)); exact nomatch h)
theorem fresh_hostOps0_4 : ∀ op ∈ (hostOps0_4 : List (HloOp τ sig (Elt F))), op.fresh = ∅ := (by intro _ h; (repeat (cases h with | head => rfl | tail _ h => ?_)); exact nomatch h)
theorem fresh_hostOps0_5 : ∀ op ∈ (hostOps0_5 : List (HloOp τ sig (Elt F))), op.fresh = ∅ := (by intro _ h; (repeat (cases h with | head => rfl | tail _ h => ?_)); exact nomatch h)
theorem fresh_hostOps0_6 : ∀ op ∈ (hostOps0_6 : List (HloOp τ sig (Elt F))), op.fresh = ∅ := (by intro _ h; (repeat (cases h with | head => rfl | tail _ h => ?_)); exact nomatch h)
theorem fresh_hostOps0_7 : ∀ op ∈ (hostOps0_7 : List (HloOp τ sig (Elt F))), op.fresh = ∅ := (by intro _ h; (repeat (cases h with | head => rfl | tail _ h => ?_)); exact nomatch h)
theorem fresh_hostOps0_8 : ∀ op ∈ (hostOps0_8 : List (HloOp τ sig (Elt F))), op.fresh = ∅ := (by intro _ h; (repeat (cases h with | head => rfl | tail _ h => ?_)); exact nomatch h)
theorem fresh_hostOps0_9 : ∀ op ∈ (hostOps0_9 : List (HloOp τ sig (Elt F))), op.fresh = ∅ := (by intro _ h; (repeat (cases h with | head => rfl | tail _ h => ?_)); exact nomatch h)
theorem fresh_hostOps0_10 : ∀ op ∈ (hostOps0_10 : List (HloOp τ sig (Elt F))), op.fresh = ∅ := (by intro _ h; (repeat (cases h with | head => rfl | tail _ h => ?_)); exact nomatch h)
theorem fresh_hostOps0_11 : ∀ op ∈ (hostOps0_11 : List (HloOp τ sig (Elt F))), op.fresh = ∅ := (by intro _ h; (repeat (cases h with | head => rfl | tail _ h => ?_)); exact nomatch h)
theorem fresh_hostOps1 : ∀ op ∈ (hostOps1 : List (HloOp τ sig (Elt F))), op.fresh = ∅ := (by intro _ h; (repeat (cases h with | head => rfl | tail _ h => ?_)); exact nomatch h)
theorem fresh_hostOps1_1 : ∀ op ∈ (hostOps1_1 : List (HloOp τ sig (Elt F))), op.fresh = ∅ := (by intro _ h; (repeat (cases h with | head => rfl | tail _ h => ?_)); exact nomatch h)
theorem fresh_hostOps1_2 : ∀ op ∈ (hostOps1_2 : List (HloOp τ sig (Elt F))), op.fresh = ∅ := (by intro _ h; (repeat (cases h with | head => rfl | tail _ h => ?_)); exact nomatch h)
abbrev segP0 := hostSeg (F := F) hostOps0 hostOps0_sub fresh_hostOps0 (W0 m)
abbrev segP1 := hostSeg (F := F) hostOps0_1 hostOps0_1_sub fresh_hostOps0_1 (W1 m)
abbrev segP2 := hostSeg (F := F) hostOps0_2 hostOps0_2_sub fresh_hostOps0_2 (W2 m)
abbrev segP3 := hostSeg (F := F) hostOps0_3 hostOps0_3_sub fresh_hostOps0_3 (W3 m)
abbrev segP4 := hostSeg (F := F) hostOps0_4 hostOps0_4_sub fresh_hostOps0_4 (W4 m)
abbrev segP5 := hostSeg (F := F) hostOps0_5 hostOps0_5_sub fresh_hostOps0_5 (W5 m)
abbrev segP6 := hostSeg (F := F) hostOps0_6 hostOps0_6_sub fresh_hostOps0_6 (W6 m)
abbrev segP7 := hostSeg (F := F) hostOps0_7 hostOps0_7_sub fresh_hostOps0_7 (W7 m)
abbrev segP8 := hostSeg (F := F) hostOps0_8 hostOps0_8_sub fresh_hostOps0_8 (W8 m)
abbrev segP9 := hostSeg (F := F) hostOps0_9 hostOps0_9_sub fresh_hostOps0_9 (W9 m)
abbrev segP10 := hostSeg (F := F) hostOps0_10 hostOps0_10_sub fresh_hostOps0_10 (W10 m)
abbrev segP11 := hostSeg (F := F) hostOps0_11 hostOps0_11_sub fresh_hostOps0_11 (W11 m)
abbrev segT0 := hostSeg (F := F) hostOps1 hostOps1_sub fresh_hostOps1 (WX m dats)
abbrev segT1 := hostSeg (F := F) hostOps1_1 hostOps1_1_sub fresh_hostOps1_1 (WT1 m dats)
abbrev segT2 := hostSeg (F := F) hostOps1_2 hostOps1_2_sub fresh_hostOps1_2 (WT2 m dats)
/-! ## The region's arrays, one by one -/

/-- A whole unscoped buffer of core `c` at the share `q`. -/
abbrev ptq (c : Dev nD) (q : PosShare TreeShare) (b : Ref sig .tc) (f : Buf (Elt F) ((c : Thread nD τ).loc b)) : sProp 𝕄 :=
  ((c : Thread nD τ).loc b) ↦{q} f

set_option maxRecDepth 4096 in
/-- The distinct buffers behind the seven windows are six: the normalised embeddings (two windows), the log-probabilities,
    the probabilities, the row of entropies, and the two results. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop(ptq c fullShare main_v21 (V main_v21) ∗ ptq c fullShare main_v22 (V main_v22) ∗ ptq c fullShare main_v23 (V main_v23)
          ∗ ptq c fullShare main_v26 (V main_v26) ∗ ptq c fullShare main_v27_0 (V main_v27_0) ∗ ptq c fullShare main_v27_1 (V main_v27_1)) := by
  unfold Pipeline.arrBufs
  exact bigSep_eq_bigSepL_of_eq [main_v21, main_v22, main_v23, main_v26, main_v27_0, main_v27_1] (by decide) (by decide) _

/-- A whole buffer's element set is every element. -/
theorem pt_whole (c : Dev nD) (b : Ref sig .tc) (q : PosShare TreeShare) (f : Buf (Elt F) ((c : Thread nD τ).loc b)) :
    ((((c : Thread nD τ).loc b) ↦[(Memref.whole b).view.set]{q} f : sProp 𝕄)) = ptq c q b f := by
  rw [(Memref.isWhole_whole b).set_eq_univ]

/-- The pipeline's `arrays` at contents `G`, window by window, each a whole buffer at the window's share. -/
theorem arrays_eq7 {c : Dev nD} (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop(ptq c (dat.share 0) main_v21 (G 0) ∗ ptq c (dat.share 1) main_v21 (G 1) ∗ ptq c (dat.share 2) main_v22 (G 2)
          ∗ ptq c (dat.share 3) main_v23 (G 3) ∗ ptq c (dat.share 4) main_v26 (G 4)
          ∗ ptq c (dat.share 5) main_v27_0 (G 5) ∗ ptq c (dat.share 6) main_v27_1 (G 6)) := by
  unfold Dat.arrays
  rw [bigSep_W0]
  exact congrArg₂ BI.sep (pt_whole c main_v21 _ (G 0)) (congrArg₂ BI.sep (pt_whole c main_v21 _ (G 1)) (congrArg₂ BI.sep (pt_whole c main_v22 _ (G 2))
    (congrArg₂ BI.sep (pt_whole c main_v23 _ (G 3)) (congrArg₂ BI.sep (pt_whole c main_v26 _ (G 4))
      (congrArg₂ BI.sep (pt_whole c main_v27_0 _ (G 5)) (pt_whole c main_v27_1 _ (G 6)))))))

/-- The shares the seven windows hold their arrays at: the two windows on the normalised embeddings complementary
    halves, every other window the whole. -/
structure SharesOK {c : Dev nD} (dat : Dat τ (Elt F) Unit ℕ (UR sig nD τ) ℕ cfg0 c) : Prop where
  s0 : dat.share 0 = fullShare.left
  s1 : dat.share 1 = fullShare.right
  s2 : dat.share 2 = fullShare
  s3 : dat.share 3 = fullShare
  s4 : dat.share 4 = fullShare
  s5 : dat.share 5 = fullShare
  s6 : dat.share 6 = fullShare

/-- Every unscoped buffer of a core held at a valuation `Vv` IS the pipeline's arrays at `Vv`'s contents — the
    normalised embeddings' points-to in its two halves, one per window that reads it — beside the buffers that are no
    window's array. -/
theorem held_iff_arrays {c : Dev nD} (dat : Dat τ (Elt F) Unit ℕ (UR sig nD τ) ℕ cfg0 c) (hs : SharesOK dat)
    (Vv : Valuation τ sig (Elt F)) :
    (StableHlo.held (c : Thread nD τ) UCR Vv : sProp 𝕄)
      ⊣⊢ iprop(dat.arrays (fun w => Vv (Proc.devRef .tc (Pipeline.arrRef spec0 w)))
          ∗ Pipeline.unscopedRest (Ix := Unit) (Name := ℕ) (U := UR sig nD τ) (Lvl := ℕ) spec0 c (fun b => Vv b)) := by
  rw [show StableHlo.held (c : Thread nD τ) UCR Vv = unscopedBufs c (fun b => Vv b) from (Pipeline.unscopedBufs_held c _).symm,
    Pipeline.unscopedBufs_split₀ cfgs 0 winFacts₀0.arr_unscoped c, arrBufs_eq, arrays_eq7, hs.s0, hs.s1, hs.s2, hs.s3, hs.s4, hs.s5, hs.s6]
  constructor
  · iintro ⟨⟨H21, H22, H23, H26, H270, H271⟩, HZ⟩
    ihave H := (pointsTo_share (PosShare.mem_left_op_right fullShare)).1 $$ H21
    icases H with ⟨HL, HR⟩
    isplitr [HZ]
    · isplitl [HL]; · iexact HL
      isplitl [HR]; · iexact HR
      isplitl [H22]; · iexact H22
      isplitl [H23]; · iexact H23
      isplitl [H26]; · iexact H26
      isplitl [H270]; · iexact H270
      iexact H271
    iexact HZ
  · iintro ⟨⟨HL, HR, H22, H23, H26, H270, H271⟩, HZ⟩
    ihave H21 := (pointsTo_share (PosShare.mem_left_op_right fullShare)).2 $$ [HL HR]
    · isplitl [HL] <;> iassumption
    isplitr [HZ]
    · isplitl [H21]; · iexact H21
      isplitl [H22]; · iexact H22
      isplitl [H23]; · iexact H23
      isplitl [H26]; · iexact H26
      isplitl [H270]; · iexact H270
      iexact H271
    iexact HZ

/-! ## The region as a segment -/

/-- What bypasses the region: every unscoped buffer that is no window's array, as the twelve stretches left it. -/
abbrev ZZ (c : Dev nD) : sProp 𝕄 :=
  Pipeline.unscopedRest (Ix := Unit) (Name := ℕ) (U := UR sig nD τ) (Lvl := ℕ) spec0 c (fun b => W12 m c b)

variable {m dats}

theorem DataOK.share0 (ok : DataOK m dats) (c : Dev nD) : (dats 0 c).share 0 = fullShare.left := by
  unfold Dat.share; rw [if_neg (by decide)]; exact ok.hq0 c
theorem DataOK.share1 (ok : DataOK m dats) (c : Dev nD) : (dats 0 c).share 1 = fullShare.right := by
  unfold Dat.share; rw [if_neg (by decide)]; exact ok.hq1 c
theorem DataOK.share2 (ok : DataOK m dats) (c : Dev nD) : (dats 0 c).share 2 = fullShare := by
  unfold Dat.share; rw [if_neg (by decide)]; exact ok.hq2 c
theorem DataOK.share3 (ok : DataOK m dats) (c : Dev nD) : (dats 0 c).share 3 = fullShare := by
  unfold Dat.share; rw [if_neg (by decide)]; exact ok.hq3 c
theorem DataOK.share4 (ok : DataOK m dats) (c : Dev nD) : (dats 0 c).share 4 = fullShare := by
  unfold Dat.share; rw [if_neg (by decide)]; exact ok.hq4 c
theorem DataOK.share5 (ok : DataOK m dats) (c : Dev nD) : (dats 0 c).share 5 = fullShare := by
  unfold Dat.share; rw [if_pos (by decide)]
theorem DataOK.share6 (ok : DataOK m dats) (c : Dev nD) : (dats 0 c).share 6 = fullShare := by
  unfold Dat.share; rw [if_pos (by decide)]

theorem DataOK.shares (ok : DataOK m dats) (c : Dev nD) : SharesOK (dats 0 c) :=
  ⟨ok.share0 c, ok.share1 c, ok.share2 c, ok.share3 c, ok.share4 c, ok.share5 c, ok.share6 c⟩

/-- The core's `owes` as a pipeline point's, for data that owe nothing and bound their recorded pairs by nothing; and back. -/
theorem owesAt_intro (ok : DataOK m dats) (c : Dev nD) (t : Fin (cfg0.N + 1)) :
    iprop(∃ W, owes (c : Thread nD τ) (0 : CellTallies nD τ sig Unit) W) ⊢ ((dats 0 c).owesAt () t : sProp 𝕄) := by
  unfold Pipeline.Dat.owesAt Pipeline.owesWithin Pipeline.Dat.bound; rw [ok.howed, ok.hrec]
  iintro ⟨%W, HO⟩; iexists W; isplitr; · ipureintro; exact fun _ _ => Or.inl trivial
  iexact HO
theorem owesAt_elim (ok : DataOK m dats) (c : Dev nD) (t : Fin (cfg0.N + 1)) :
    ((dats 0 c).owesAt () t : sProp 𝕄) ⊢ iprop(∃ W, owes (c : Thread nD τ) (0 : CellTallies nD τ sig Unit) W) := by
  unfold Pipeline.Dat.owesAt Pipeline.owesWithin; rw [ok.howed]
  iintro ⟨%W, -, HO⟩; iexists W; iexact HO

/-- The exit valuation off the two results is the entry valuation. -/
theorem WX_of_ne (c : Dev nD) (b : Ref sig .tc) (h5 : b ≠ main_v27_0) (h6 : b ≠ main_v27_1) :
    WX m dats c (Proc.devRef .tc b) = W12 m c (Proc.devRef .tc b) := by
  show Function.update (Function.update (W12 m c) (Proc.devRef .tc main_v27_0) (out5 dats c)) (Proc.devRef .tc main_v27_1) (out6 dats c) (Proc.devRef .tc b) = _
  rw [Function.update_of_ne (StableHlo.devRef_ne_of_ne h6), Function.update_of_ne (StableHlo.devRef_ne_of_ne h5)]
theorem WX_270 (c : Dev nD) : WX m dats c (Proc.devRef .tc main_v27_0) = out5 dats c := by
  show Function.update (Function.update (W12 m c) (Proc.devRef .tc main_v27_0) (out5 dats c)) (Proc.devRef .tc main_v27_1) (out6 dats c) (Proc.devRef .tc main_v27_0) = _
  rw [Function.update_of_ne (StableHlo.devRef_ne_of_ne (by decide)), Function.update_self]
theorem WX_271 (c : Dev nD) : WX m dats c (Proc.devRef .tc main_v27_1) = out6 dats c := by
  show Function.update (Function.update (W12 m c) (Proc.devRef .tc main_v27_0) (out5 dats c)) (Proc.devRef .tc main_v27_1) (out6 dats c) (Proc.devRef .tc main_v27_1) = _
  rw [Function.update_self]

/-- What bypasses the region is the same at the exit valuation: the region's two results are windows' arrays. -/
theorem unscopedRest_WX (c : Dev nD) :
    (Pipeline.unscopedRest (Ix := Unit) (Name := ℕ) (U := UR sig nD τ) (Lvl := ℕ) spec0 c (fun b => WX m dats c b) : sProp 𝕄) = ZZ m c := by
  unfold Pipeline.unscopedRest
  refine bigSep_congr fun b hb => ?_
  have h5 : b ≠ main_v27_0 := fun e => (Finset.mem_sdiff.mp hb).2 (by rw [e]; exact Finset.mem_image_of_mem (Pipeline.arrRef spec0) (Finset.mem_univ (5 : Fin 7)))
  have h6 : b ≠ main_v27_1 := fun e => (Finset.mem_sdiff.mp hb).2 (by rw [e]; exact Finset.mem_image_of_mem (Pipeline.arrRef spec0) (Finset.mem_univ (6 : Fin 7)))
  dsimp only
  rw [WX_of_ne c b h5 h6]

/-- ENTRY: the six buffers behind the windows, out of every unscoped buffer held at the entry valuation, make the
    pipeline's arrays at the proof data's entry contents — the normalised embeddings' points-to split in its two halves —;
    the generator register goes to the invariant; every other buffer bypasses. -/
theorem reg_hentry (ok : DataOK m dats) (c : Dev nD) :
    iprop(iprop(StableHlo.held (c : Thread nD τ) UCR (W12 m c) ∗ R c) ∗ Pipeline.ownSems0 (Ix := Unit) (Name := ℕ) (U := UR sig nD τ) (Lvl := ℕ) (Val := Elt F) (τ := τ) (fun k : PEmpty => k.elim) c ∗ levAts LL lv)
      ⊢ |={Set.univ}=> iprop((dats 0 c).arrays ((dats 0 c).arrAt · 0) ∗ Pipeline.prefHeld (pcfgs (F := F) 0).pre c (fun _ => fullShare) (adm (F := F) 0).1
          ∗ (dats 0 c).owesAt () 0 ∗ (∃ r, prngReg c r) ∗ ZZ m c) := by
  have hG : (fun w => W12 m c (Proc.devRef .tc (Pipeline.arrRef spec0 w))) = ((dats 0 c).arrAt · 0) := funext fun w => (ok.hA c w).symm
  have h := (held_iff_arrays (dats 0 c) (ok.shares c) (W12 m c)).1
  rw [hG] at h
  iintro ⟨⟨Hh, HO, Hp⟩, -, -⟩
  ihave H := h $$ Hh
  icases H with ⟨Ha, HZ⟩
  imodintro
  isplitl [Ha]; · iexact Ha
  isplitr; · unfold Pipeline.prefHeld; rw [show (Finset.univ : Finset (Fin 0)) = ∅ from rfl, BI.bigSep_empty]; iempintro
  isplitl [HO]; · iapply (owesAt_intro ok c 0); iexact HO
  isplitl [Hp]; · iexact Hp
  iexact HZ

/-- The class invariant at the first point: the generator register and the scoped buffers no window stages. -/
theorem reg_hin (ok : DataOK m dats) (c : Dev nD) :
    iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ ((dats 0 c).Φ 0 : sProp 𝕄) := by
  rw [ok.hΦ]; unfold Pipeline.ΦA
  iintro ⟨Hp, -, Hr⟩
  isplitl [Hr] <;> iassumption

/-- The class invariant at the last point gives them back. -/
theorem reg_hout (ok : DataOK m dats) (c : Dev nD) :
    ((dats 0 c).Φ (Fin.last cfg0.N) : sProp 𝕄) ⊢ iprop((∃ r, prngReg c r)
        ∗ Pipeline.ownSems0 (Ix := Unit) (Name := ℕ) (U := UR sig nD τ) (Lvl := ℕ) (Val := Elt F) (τ := τ) (fun k : PEmpty => k.elim) c
        ∗ Pipeline.scopedRest (Ix := Unit) (Name := ℕ) (U := UR sig nD τ) (Lvl := ℕ) (Val := Elt F) spec0 c) := by
  rw [ok.hΦ, Pipeline.ownSems0_none]; unfold Pipeline.ΦA
  iintro ⟨Hr, Hp⟩
  isplitl [Hp]; · iexact Hp
  isplitr; · iempintro
  iexact Hr

/-- At the exit valuation every window's array holds what the pipeline library computes for it after the last point:
    an input is never written, and the two results are what was overwritten. -/
theorem WX_arr (ok : DataOK m dats) (c : Dev nD) :
    (fun w => WX m dats c (Proc.devRef .tc (Pipeline.arrRef spec0 w))) = ((dats 0 c).arrAt · cfg0.N) := by
  have key : ∀ w : Fin 7, WX m dats c (Proc.devRef .tc (Pipeline.arrRef spec0 w)) = (dats 0 c).arrAt w cfg0.N := fun
    | 0 => (WX_of_ne c main_v21 (by decide) (by decide)).trans (((dats 0 c).arrAt_in 0 rfl _).trans (ok.hA c 0)).symm
    | 1 => (WX_of_ne c main_v21 (by decide) (by decide)).trans (((dats 0 c).arrAt_in 1 rfl _).trans (ok.hA c 1)).symm
    | 2 => (WX_of_ne c main_v22 (by decide) (by decide)).trans (((dats 0 c).arrAt_in 2 rfl _).trans (ok.hA c 2)).symm
    | 3 => (WX_of_ne c main_v23 (by decide) (by decide)).trans (((dats 0 c).arrAt_in 3 rfl _).trans (ok.hA c 3)).symm
    | 4 => (WX_of_ne c main_v26 (by decide) (by decide)).trans (((dats 0 c).arrAt_in 4 rfl _).trans (ok.hA c 4)).symm
    | 5 => WX_270 c
    | 6 => WX_271 c
    | ⟨_ + 7, h⟩ => absurd h (Nat.not_lt.2 (Nat.le_add_left _ _))
  exact funext key

/-- EXIT: the input windows' arrays are as at entry, the two halves of the normalised embeddings join again, and with
    the two results at what the pipeline wrote back and the bypassing buffers they are every unscoped buffer held at the
    exit valuation. -/
theorem reg_hexit (ok : DataOK m dats) (c : Dev nD) :
    iprop((dats 0 c).arrays ((dats 0 c).arrAt · cfg0.N) ∗ (dats 0 c).owesAt () (Fin.last cfg0.N) ∗ (∃ r, prngReg c r) ∗ ZZ m c)
      ⊢ |={Set.univ}=> iprop(StableHlo.held (c : Thread nD τ) UCR (WX m dats c) ∗ R c) := by
  have h := (held_iff_arrays (dats 0 c) (ok.shares c) (WX m dats c)).2
  rw [WX_arr ok c, unscopedRest_WX] at h
  iintro ⟨Ha, HO, Hp, HZ⟩
  imodintro
  isplitl [Ha HZ]
  · iapply h; isplitl [Ha] <;> iassumption
  isplitl [HO]; · iapply (owesAt_elim ok c _); iexact HO
  iexact Hp

set_option backward.isDefEq.respectTransparency.types false in
/-- THE REGION as a segment: the decided layout, no semaphore of the kernel's own, the body obligation, and the four
    entailments above around the thread states before and after it. -/
def reg0 (ok : DataOK m dats) : Pipeline.RegionSeg (pcfgs (F := F)) adm dats () defs₀ 𝒱₀ LL lv 0 where
  win := winFacts₀0
  block_pos := block_pos0
  stage_whole := stage_whole0
  K := PEmpty
  osem k := k.elim
  ho := Pipeline.OwnSemFacts.none _
  hbody c := (ok.hbody c).loose
  hwaits := Pipeline.hwaits_of_owed_zero _ _ _ _ LL lv 0 fun c t => ok.howed c t
  pre c := iprop(StableHlo.held (c : Thread nD τ) UCR (W12 m c) ∗ R c)
  post c := iprop(StableHlo.held (c : Thread nD τ) UCR (WX m dats c) ∗ R c)
  X c := iprop(∃ r, prngReg c r)
  Y c := iprop(∃ r, prngReg c r)
  Z c := ZZ m c
  hentry c := reg_hentry ok c
  hin c := reg_hin ok c
  hout c := reg_hout ok c
  hexit c := reg_hexit ok c

/-! ## The run -/

/-- @main as the list of its sixteen segments. -/
abbrev segs (ok : DataOK m dats) : List (Pipeline.Seg (pcfgs (F := F)) adm dats () defs₀ 𝒱₀ LL lv) :=
  [.host (segP0 m), .host (segP1 m), .host (segP2 m), .host (segP3 m), .host (segP4 m), .host (segP5 m), .host (segP6 m), .host (segP7 m), .host (segP8 m), .host (segP9 m), .host (segP10 m), .host (segP11 m), .region (reg0 ok), .host (segT0 m dats), .host (segT1 m dats), .host (segT2 m dats)]

set_option maxRecDepth 200000 in
/-- The segments' run is @main's chain of items. -/
theorem segs_run (ok : DataOK m dats) : Pipeline.Seg.run (segs ok) = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    Prog.lift (.customCall (Pipeline.entry 0) ()),
    StableHlo.seq hostOps1,
    StableHlo.seq hostOps1_1,
    StableHlo.seq hostOps1_2 ] : Prog (TpuEff nD τ sig (Elt F) (Pipeline.Sig Λ₀ (Fin 1) fun p => (pcfgs (F := F) p).Adm) .tc) PUnit) := by
  rw [Pipeline.Seg.run_eq_chain]
  rfl

set_option backward.isDefEq.respectTransparency.types false in
/-- At the compiled mesh, for any float values, from any memory with zero counters: every weakly fair execution of
    @main on the TensorCores terminates, nothing faulting, and in every final state each unscoped buffer of each core
    holds the fold of the sixteen segments — the host operations' pure terms, with the region's two results at what the
    pipeline wrote back. -/
theorem run_main (ok : DataOK m dats) (ρ : Dev nD → PrngReg) :
    θ_run defs (onTc (τ := τ) (main (F := F))) ⟨m, fun _ => 0, ρ⟩
      (fun r => ∀ c : Dev nD, ∀ b ∈ UCR, r.2.mem ((c : Thread nD τ).1, b) = WT3 m dats c b) :=
  Pipeline.θ_run_regions_kit (pcfgs (F := F)) adm dats () cellOf_inj emb₁ defs₀ 𝒱₀ LL lv m ρ main (segs ok)
    (fun c Q => by rw [main_chain, segs_run ok])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) UCR (W0 m c) ∗ R c))
    (Tₙ := fun c => iprop(StableHlo.held (c : Thread nD τ) UCR (WT3 m dats c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => (show iprop(StableHlo.held (c : Thread nD τ) UCR (WT3 m dats c) ∗ R c)
        ⊢ iprop((StableHlo.held (c : Thread nD τ) UCR (WT3 m dats c) ∗ ∃ r, prngReg c r) ∗ ∃ W, owes (c : Thread nD τ) (0 : CellTallies nD τ sig Unit) W) from by
      iintro ⟨Hh, HO, Hp⟩
      isplitl [Hh Hp]
      · isplitl [Hh] <;> iassumption
      iexact HO)⟩)
    (hinit := by
      refine Pipeline.initEach LL lv fun c => ?_
      rw [show unscopedBufs c (fun b => m ((c : Thread nD τ).loc b)) = StableHlo.held (c : Thread nD τ) UCR (W0 m c) from Pipeline.unscopedBufs_held c (W0 m c)]
      iintro ⟨⟨Hh, -, HO, -, Hp, -⟩, -⟩
      imodintro
      isplitl [Hh]; · iexact Hh
      isplitl [HO]; · iexists ∅; iexact HO
      iexists _; iexact Hp)
    (QY := fun c s => ∀ b ∈ UCR, s.mem ((c : Thread nD τ).1, b) = WT3 m dats c b)
    (hfin := fun c s' => by
      show iprop((StableHlo.held (c : Thread nD τ) UCR (WT3 m dats c) ∗ ∃ r, prngReg c r) ∗ SI s') ⊢ _
      unfold StableHlo.held
      iintro ⟨⟨Hh, -⟩, HSI⟩
      imodintro
      iapply (pointsTo_read_all UCR (fun b => ((c : Thread nD τ).1, b)) (WT3 m dats c) s')
      isplitl [Hh] <;> iassumption)
    (hQ := fun _ h => h)

end Cert.KernelIdeal.Hand

end
-- ==== Proof.KI.Runs.lean ====
import proofs.«137117_j83648783057448_1_alg».proof.Proof.Gen.KernelIdeal.Launch
import proofs.«137117_j83648783057448_1_alg».proof.Proof.Gen.KernelIdeal.Skeleton
import proofs.«137117_j83648783057448_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The windows' blocks -/

/-- The arrays a pipeline on core `c` is entered with, one buffer per window. -/
abbrev Arrs (F : FTy → Type) [FloatOps F] (c : Dev nD) : Type :=
  (w : Fin cfg0.W) → Buf (Elt F) ((cfg0.win w).arr.view.loc (c.tc : Thread nD τ))

/-- Window `w`'s block at point `t`, read off its array `A w`. -/
def iblk (c : Dev nD) (A : Arrs F c) (w : Fin cfg0.W) (t : Fin cfg0.N) :
    ((cfg0.win w).xblock (cfg0.grid.coords t)).Idx → Elt F (cfg0.win w).elt :=
  ((cfg0.win w).blk t).view.read (Elt F) (A w)

/-! ## Every input's staging buffer holds its block, fetched at the point or not

An input window the body only reads keeps its block between fetches; a point that does not fetch it has the block
index of the point before, so the buffer holds the point's block either way. Nothing is asked of the arrays or of
the shares: two windows on one array are two readings of one buffer. -/

theorem before_in_0 {c : Dev nD} (dat : Dat τ (Elt F) Unit ℕ (UR sig nD τ) ℕ cfg0 c)
    (hafter : ∀ t, dat.after 0 t = iblk c dat.A 0 t) (t : Fin cfg0.N) (d) : dat.before 0 t d = iblk c dat.A 0 t :=
  (dat.before_in_eq_fetched 0 rfl (fun _ => rfl) (fun _ _ _ => rfl) (fun t => by rw [hafter]; unfold Dat.blockOf iblk; rfl) t d).trans
    (by unfold Dat.fetched Dat.blockOf iblk; rfl)

theorem before_in_1 {c : Dev nD} (dat : Dat τ (Elt F) Unit ℕ (UR sig nD τ) ℕ cfg0 c)
    (hafter : ∀ t, dat.after 1 t = iblk c dat.A 1 t) (t : Fin cfg0.N) (d) : dat.before 1 t d = iblk c dat.A 1 t :=
  (dat.before_in_eq_fetched 1 rfl (fun _ => rfl) (fun _ _ _ => rfl) (fun t => by rw [hafter]; unfold Dat.blockOf iblk; rfl) t d).trans
    (by unfold Dat.fetched Dat.blockOf iblk; rfl)

theorem before_in_2 {c : Dev nD} (dat : Dat τ (Elt F) Unit ℕ (UR sig nD τ) ℕ cfg0 c)
    (hafter : ∀ t, dat.after 2 t = iblk c dat.A 2 t) (t : Fin cfg0.N) (d) : dat.before 2 t d = iblk c dat.A 2 t :=
  (dat.before_in_eq_fetched 2 rfl (fun _ => rfl) (fun _ _ _ => rfl) (fun t => by rw [hafter]; unfold Dat.blockOf iblk; rfl) t d).trans
    (by unfold Dat.fetched Dat.blockOf iblk; rfl)

theorem before_in_3 {c : Dev nD} (dat : Dat τ (Elt F) Unit ℕ (UR sig nD τ) ℕ cfg0 c)
    (hafter : ∀ t, dat.after 3 t = iblk c dat.A 3 t) (t : Fin cfg0.N) (d) : dat.before 3 t d = iblk c dat.A 3 t :=
  (dat.before_in_eq_fetched 3 rfl (fun _ => rfl) (fun _ _ _ => rfl) (fun t => by rw [hafter]; unfold Dat.blockOf iblk; rfl) t d).trans
    (by unfold Dat.fetched Dat.blockOf iblk; rfl)

theorem before_in_4 {c : Dev nD} (dat : Dat τ (Elt F) Unit ℕ (UR sig nD τ) ℕ cfg0 c)
    (hafter : ∀ t, dat.after 4 t = iblk c dat.A 4 t) (t : Fin cfg0.N) (d) : dat.before 4 t d = iblk c dat.A 4 t :=
  (dat.before_in_eq_fetched 4 rfl (fun _ => rfl) (fun _ _ _ => rfl) (fun t => by rw [hafter]; unfold Dat.blockOf iblk; rfl) t d).trans
    (by unfold Dat.fetched Dat.blockOf iblk; rfl)

/-! ## Whole-buffer loads and stores read back

A load through the unit rectangle at zero offsets of the buffer's own sizes reads the contents; a store through it
leaves its payload, whatever was stored before. -/

theorem zeros2 : (![0, 0] : Fin 2 → ℕ) = fun _ => 0 := by funext a; fin_cases a <;> rfl

/-- A load of a whole buffer held at the contents that read `X` reads `X`. -/
theorem load_whole {sp : Space} {S : Shape} {e : EltTy} {m : Memref sig .tc sp S e} (h : m.IsWhole) (X : S.Idx → Elt F e)
    {off : Fin S.rank → ℕ} (ho : off = fun _ => 0) (inb : ∀ a, off a + S.size a ≤ S.size a) :
    View.readAt (Elt F) m.view (Rect.unit off S.size inb).toLoadRect (h.unread X) = X := by
  rw [View.readAt_eq_ld, h.read_unread, View.ld_unit_zero ho]

/-- A store over the whole buffer, last, leaves its payload. -/
theorem store_whole_cons {sp : Space} {S : Shape} {e : EltTy} (v : View sig .tc sp S e) (f : v.ty.Contents (Elt F))
    {off : Fin S.rank → ℕ} (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero ho inb y⟩),
    View.canon_cons_unit_zero ho]

/-! ## The body's branch condition -/

/-- The condition of the body's `scf.if`, from the grid coordinates: both coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only: decided over the 256 points of the grid. -/
theorem hcond0 : ∀ t : Fin cfg0.N, cond0 (grid0.coords t) ↔ t.val = 0 :=
  (by decide +kernel : ∀ t : Fin grid0.N, cond0 (grid0.coords t) ↔ t.val = 0)

/-! ## The staging memrefs at a point -/

/-- Each window's current staging memref at point `t`, spelled as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)

end Cert.KernelIdeal.Hand

end
-- ==== Proof.KI.RunA.lean ====
import proofs.«137117_j83648783057448_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at the first point (the `scf.if` taken), on whole staging memrefs: the inputs' at their blocks `x·`, the
    outputs' at anything; it runs to the continuation holding the inputs' as they were and each output's buffer at
    its payload over the zero the branch has just stored. -/
theorem kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (hc0 : cond0 i)
    (x0 : Vec F S512x128 .f32) (x1 : Vec F S512x128 .f32) (x2 : Vec F S512x8 .f32) (x3 : Vec F S512x8 .f32) (x4 : Vec F S1x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay1 (k0_pay6 i x0 x1 x2 x3 x4) (k0_pay3 (F := F)))
            ∗ owns (c : Thread nD τ) arg8 fullShare (k0_pay2 (k0_pay5 i x0 x1) (k0_pay4 (F := F)))) -∗ K ⟨⟩))
      ⊢ wp frame (wpE (defs₀ (F := F)) Variants.none c none) E (cc0__pairwise_kernel i arg2 harg2 arg3 harg3 arg4 harg4 arg5 harg5 arg6 harg6 arg7 harg7 arg8 harg8) K := by
  simp only [cc0__pairwise_kernel_eq_skeleton]; unfold cc0__pairwise_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [store_whole_cons _ _ zeros2]
    rw [load_whole harg2 x0 zeros2, load_whole harg3 x1 zeros2, load_whole harg4 x2 zeros2, load_whole harg5 x3 zeros2, load_whole harg6 x4 zeros2, View.readCov_unit_zero _ zeros2]
  · iexists _; isplitr
    swap; · iexact H6
    ipureintro
    sl_unfold_run_names
    rw [store_whole_cons _ _ zeros2]
    rw [load_whole harg2 x0 zeros2, load_whole harg3 x1 zeros2, View.readCov_unit_zero _ zeros2]

end Cert.KernelIdeal.Hand

end
-- ==== Proof.KI.RunB.lean ====
import proofs.«137117_j83648783057448_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at a point other than the first (the `scf.if` not taken), on whole staging memrefs: the inputs' at their
    blocks `x·`, the outputs' at their running contents `xo·`; it runs to the continuation holding the inputs' as they
    were and each output's buffer at its payload over what it held. -/
theorem kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x8 .f32) (harg4 : arg4.IsWhole) (arg5 : Memref sig .tc .vmem S512x8 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x1 .f32) (harg8 : arg8.IsWhole) (hc0 : ¬cond0 i)
    (x0 : Vec F S512x128 .f32) (x1 : Vec F S512x128 .f32) (x2 : Vec F S512x8 .f32) (x3 : Vec F S512x8 .f32) (x4 : Vec F S1x512 .f32) (xo5 : Vec F S1x1 .f32) (xo6 : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xo5 ∗ owns (c : Thread nD τ) arg8 fullShare xo6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay1 (k0_pay6 i x0 x1 x2 x3 x4) xo5)
            ∗ owns (c : Thread nD τ) arg8 fullShare (k0_pay2 (k0_pay5 i x0 x1) xo6)) -∗ K ⟨⟩))
      ⊢ wp frame (wpE (defs₀ (F := F)) Variants.none c none) E (cc0__pairwise_kernel i arg2 harg2 arg3 harg3 arg4 harg4 arg5 harg5 arg6 harg6 arg7 harg7 arg8 harg8) K := by
  simp only [cc0__pairwise_kernel_eq_skeleton]; unfold cc0__pairwise_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg8.eq_unread hf6
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [store_whole_cons _ _ zeros2]
    rw [load_whole harg2 x0 zeros2, load_whole harg3 x1 zeros2, load_whole harg4 x2 zeros2, load_whole harg5 x3 zeros2, load_whole harg6 x4 zeros2, load_whole harg7 xo5 zeros2]
  · iexists _; isplitr
    swap; · iexact H6
    ipureintro
    sl_unfold_run_names
    rw [store_whole_cons _ _ zeros2]
    rw [load_whole harg2 x0 zeros2, load_whole harg3 x1 zeros2, load_whole harg8 xo6 zeros2]

end Cert.KernelIdeal.Hand

end
-- ==== Proof.KI.Body.lean ====
import proofs.«137117_j83648783057448_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the outputs hold after each point

Output 5 accumulates `k0_pay1` of the point's masked block (`k0_pay6`) onto what it held, output 6 accumulates
`k0_pay2` of the point's mask (`k0_pay5`); the first point starts both from the zero it has just stored
(`k0_pay3`, `k0_pay4`). Neither buffer is written back before the last point, so each point finds what the point
before left. -/

/-- What output buffer 5 holds after the body at position `n`. -/
def outsAt5 (c : Dev nD) (A : Arrs F c) : (n : ℕ) → n < cfg0.N → Vec F S1x1 .f32
  | 0, hn => k0_pay1 (k0_pay6 (grid0.coords ⟨0, hn⟩) (iblk c A 0 ⟨0, hn⟩) (iblk c A 1 ⟨0, hn⟩) (iblk c A 2 ⟨0, hn⟩) (iblk c A 3 ⟨0, hn⟩) (iblk c A 4 ⟨0, hn⟩)) (k0_pay3 (F := F))
  | n + 1, hn => k0_pay1 (k0_pay6 (grid0.coords ⟨n + 1, hn⟩) (iblk c A 0 ⟨n + 1, hn⟩) (iblk c A 1 ⟨n + 1, hn⟩) (iblk c A 2 ⟨n + 1, hn⟩) (iblk c A 3 ⟨n + 1, hn⟩) (iblk c A 4 ⟨n + 1, hn⟩)) (outsAt5 c A n (Nat.lt_of_succ_lt hn))

/-- What output buffer 6 holds after the body at position `n`. -/
def outsAt6 (c : Dev nD) (A : Arrs F c) : (n : ℕ) → n < cfg0.N → Vec F S1x1 .f32
  | 0, hn => k0_pay2 (k0_pay5 (grid0.coords ⟨0, hn⟩) (iblk c A 0 ⟨0, hn⟩) (iblk c A 1 ⟨0, hn⟩)) (k0_pay4 (F := F))
  | n + 1, hn => k0_pay2 (k0_pay5 (grid0.coords ⟨n + 1, hn⟩) (iblk c A 0 ⟨n + 1, hn⟩) (iblk c A 1 ⟨n + 1, hn⟩)) (outsAt6 c A n (Nat.lt_of_succ_lt hn))

theorem outsAt5_zero (c : Dev nD) (A : Arrs F c) (h : 0 < cfg0.N) :
    outsAt5 c A 0 h = k0_pay1 (k0_pay6 (grid0.coords ⟨0, h⟩) (iblk c A 0 ⟨0, h⟩) (iblk c A 1 ⟨0, h⟩) (iblk c A 2 ⟨0, h⟩) (iblk c A 3 ⟨0, h⟩) (iblk c A 4 ⟨0, h⟩)) (k0_pay3 (F := F)) := rfl

theorem outsAt5_succ (c : Dev nD) (A : Arrs F c) (n : ℕ) (h : n + 1 < cfg0.N) :
    outsAt5 c A (n + 1) h = k0_pay1 (k0_pay6 (grid0.coords ⟨n + 1, h⟩) (iblk c A 0 ⟨n + 1, h⟩) (iblk c A 1 ⟨n + 1, h⟩) (iblk c A 2 ⟨n + 1, h⟩) (iblk c A 3 ⟨n + 1, h⟩) (iblk c A 4 ⟨n + 1, h⟩)) (outsAt5 c A n (Nat.lt_of_succ_lt h)) := rfl

theorem outsAt6_zero (c : Dev nD) (A : Arrs F c) (h : 0 < cfg0.N) :
    outsAt6 c A 0 h = k0_pay2 (k0_pay5 (grid0.coords ⟨0, h⟩) (iblk c A 0 ⟨0, h⟩) (iblk c A 1 ⟨0, h⟩)) (k0_pay4 (F := F)) := rfl

theorem outsAt6_succ (c : Dev nD) (A : Arrs F c) (n : ℕ) (h : n + 1 < cfg0.N) :
    outsAt6 c A (n + 1) h = k0_pay2 (k0_pay5 (grid0.coords ⟨n + 1, h⟩) (iblk c A 0 ⟨n + 1, h⟩) (iblk c A 1 ⟨n + 1, h⟩)) (outsAt6 c A n (Nat.lt_of_succ_lt h)) := rfl

/-- `outsAt5` at the first point. -/
theorem outsAt5_A (c : Dev nD) (A : Arrs F c) (t : Fin cfg0.N) (h0 : t.val = 0) :
    outsAt5 c A t.val t.isLt = k0_pay1 (k0_pay6 (grid0.coords t) (iblk c A 0 t) (iblk c A 1 t) (iblk c A 2 t) (iblk c A 3 t) (iblk c A 4 t)) (k0_pay3 (F := F)) := by
  obtain ⟨n, hn⟩ := t
  cases n with
  | zero => exact rfl
  | succ n => exact absurd h0 (Nat.succ_ne_zero n)

/-- `outsAt5` at a later point: over what the point before left. -/
theorem outsAt5_B (c : Dev nD) (A : Arrs F c) (t : Fin cfg0.N) (h0 : ¬t.val = 0) :
    outsAt5 c A t.val t.isLt = k0_pay1 (k0_pay6 (grid0.coords t) (iblk c A 0 t) (iblk c A 1 t) (iblk c A 2 t) (iblk c A 3 t) (iblk c A 4 t)) (outsAt5 c A (t.val - 1) (Nat.lt_of_le_of_lt (Nat.sub_le _ _) t.isLt)) := by
  obtain ⟨n, hn⟩ := t
  cases n with
  | zero => exact absurd rfl h0
  | succ n => exact rfl

/-- `outsAt6` at the first point. -/
theorem outsAt6_A (c : Dev nD) (A : Arrs F c) (t : Fin cfg0.N) (h0 : t.val = 0) :
    outsAt6 c A t.val t.isLt = k0_pay2 (k0_pay5 (grid0.coords t) (iblk c A 0 t) (iblk c A 1 t)) (k0_pay4 (F := F)) := by
  obtain ⟨n, hn⟩ := t
  cases n with
  | zero => exact rfl
  | succ n => exact absurd h0 (Nat.succ_ne_zero n)

/-- `outsAt6` at a later point: over what the point before left. -/
theorem outsAt6_B (c : Dev nD) (A : Arrs F c) (t : Fin cfg0.N) (h0 : ¬t.val = 0) :
    outsAt6 c A t.val t.isLt = k0_pay2 (k0_pay5 (grid0.coords t) (iblk c A 0 t) (iblk c A 1 t)) (outsAt6 c A (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the pipeline on core `c`, over any arrays `A` and any input shares `q`: after the body at
    point `t` each input's buffer holds its block and the outputs' hold `outsAt5` / `outsAt6`; the invariant is the
    scoped rest and the generator register; nothing is owed. -/
def dat (c : Dev nD) (A : Arrs F c) (q : Fin cfg0.W → PosShare TreeShare) : Dat τ (Elt F) Unit ℕ (UR sig nD τ) ℕ cfg0 c where
  A := A
  after w t := match w with
    | ⟨0, _⟩ => iblk c A 0 t
    | ⟨1, _⟩ => iblk c A 1 t
    | ⟨2, _⟩ => iblk c A 2 t
    | ⟨3, _⟩ => iblk c A 3 t
    | ⟨4, _⟩ => iblk c A 4 t
    | ⟨5, _⟩ => outsAt5 c A t.val t.isLt
    | ⟨6, _⟩ => outsAt6 c A t.val t.isLt
  Φ _ := Pipeline.ΦA spec0 c
  q := q
  owed _ := 0

theorem dat_A (c : Dev nD) (A : Arrs F c) (q) : (dat c A q).A = A := by dsimp only [dat]
theorem dat_q (c : Dev nD) (A : Arrs F c) (q) : (dat c A q).q = q := by dsimp only [dat]
theorem dat_Φ (c : Dev nD) (A : Arrs F c) (q) (t) : (dat c A q).Φ t = Pipeline.ΦA spec0 c := by dsimp only [dat]
theorem dat_owed (c : Dev nD) (A : Arrs F c) (q) (t) : (dat c A q).owed t = 0 := by dsimp only [dat]

/-- What the body leaves, window by window. -/
theorem after_0 (c : Dev nD) (A : Arrs F c) (q) (t : Fin cfg0.N) : (dat c A q).after 0 t = iblk c A 0 t := by dsimp only [dat]
theorem after_1 (c : Dev nD) (A : Arrs F c) (q) (t : Fin cfg0.N) : (dat c A q).after 1 t = iblk c A 1 t := by dsimp only [dat]
theorem after_2 (c : Dev nD) (A : Arrs F c) (q) (t : Fin cfg0.N) : (dat c A q).after 2 t = iblk c A 2 t := by dsimp only [dat]
theorem after_3 (c : Dev nD) (A : Arrs F c) (q) (t : Fin cfg0.N) : (dat c A q).after 3 t = iblk c A 3 t := by dsimp only [dat]
theorem after_4 (c : Dev nD) (A : Arrs F c) (q) (t : Fin cfg0.N) : (dat c A q).after 4 t = iblk c A 4 t := by dsimp only [dat]
theorem after_5 (c : Dev nD) (A : Arrs F c) (q) (t : Fin cfg0.N) : (dat c A q).after 5 t = outsAt5 c A t.val t.isLt := by dsimp only [dat]
theorem after_6 (c : Dev nD) (A : Arrs F c) (q) (t : Fin cfg0.N) : (dat c A q).after 6 t = outsAt6 c A t.val t.isLt := by dsimp only [dat]

/-- What the outputs' buffers hold after the last point is what is written back. -/
theorem after5_last (c : Dev nD) (A : Arrs F c) (q) (t : Fin cfg0.N) : (dat c A q).after 5 t = outsAt5 c A t.val t.isLt := after_5 c A q t
theorem after6_last (c : Dev nD) (A : Arrs F c) (q) (t : Fin cfg0.N) : (dat c A q).after 6 t = outsAt6 c A t.val t.isLt := after_6 c A q t

/-- Each input's current staging buffer holds its block at every point. -/
theorem before_0 (c : Dev nD) (A : Arrs F c) (q) (t : Fin cfg0.N) (d) : (dat c A q).before 0 t d = iblk c A 0 t :=
  before_in_0 (dat c A q) (after_0 c A q) t d
theorem before_1 (c : Dev nD) (A : Arrs F c) (q) (t : Fin cfg0.N) (d) : (dat c A q).before 1 t d = iblk c A 1 t :=
  before_in_1 (dat c A q) (after_1 c A q) t d
theorem before_2 (c : Dev nD) (A : Arrs F c) (q) (t : Fin cfg0.N) (d) : (dat c A q).before 2 t d = iblk c A 2 t :=
  before_in_2 (dat c A q) (after_2 c A q) t d
theorem before_3 (c : Dev nD) (A : Arrs F c) (q) (t : Fin cfg0.N) (d) : (dat c A q).before 3 t d = iblk c A 3 t :=
  before_in_3 (dat c A q) (after_3 c A q) t d
theorem before_4 (c : Dev nD) (A : Arrs F c) (q) (t : Fin cfg0.N) (d) : (dat c A q).before 4 t d = iblk c A 4 t :=
  before_in_4 (dat c A q) (after_4 c A q) t d

/-- At the first point an output's staging buffer is fresh: it holds anything. -/
theorem before_5_A (c : Dev nD) (A : Arrs F c) (q) (t : Fin cfg0.N) (h0 : t.val = 0) (d) : (dat c A q).before 5 t d = d :=
  Dat.before_out_reset _ 5 rfl t (.inl h0) d
theorem before_6_A (c : Dev nD) (A : Arrs F c) (q) (t : Fin cfg0.N) (h0 : t.val = 0) (d) : (dat c A q).before 6 t d = d :=
  Dat.before_out_reset _ 6 rfl t (.inl h0) d

/-- At a later point output 5's staging buffer holds what the body left at the point before: the buffer is not written
    back before the last point. -/
theorem before_5_B (c : Dev nD) (A : Arrs F c) (q) (t : Fin cfg0.N) (h0 : ¬t.val = 0) (d) :
    (dat c A q).before 5 t d = outsAt5 c A (t.val - 1) (Nat.lt_of_le_of_lt (Nat.sub_le _ _) t.isLt) := by
  have hN : t.val < 256 := lt_of_lt_of_eq t.isLt (show cfg0.N = 256 from N_0)
  rw [Dat.before_out_kept _ 5 rfl t h0 (Bool.eq_false_iff.mpr fun h => by have := (flush0_5 _).mp h; dsimp only at this; omega)
    (fun _ => rfl) (fun _ _ => rfl)]
  dsimp only [dat]

theorem before_6_B (c : Dev nD) (A : Arrs F c) (q) (t : Fin cfg0.N) (h0 : ¬t.val = 0) (d) :
    (dat c A q).before 6 t d = outsAt6 c A (t.val - 1) (Nat.lt_of_le_of_lt (Nat.sub_le _ _) t.isLt) := by
  have hN : t.val < 256 := lt_of_lt_of_eq t.isLt (show cfg0.N = 256 from N_0)
  rw [Dat.before_out_kept _ 6 rfl t h0 (Bool.eq_false_iff.mpr fun h => by have := (flush0_6 _).mp h; dsimp only at this; omega)
    (fun _ => rfl) (fun _ _ => rfl)]
  dsimp only [dat]

/-! ## The body obligation, at a generic point -/

/-- What the body is called with at point `t`, the windows one by one, -/
def bodyPre (c : Dev nD) (A : Arrs F c) (q : Fin cfg0.W → PosShare TreeShare) (t : Fin cfg0.N) : sProp 𝕄 :=
  iprop((dat c A q).Φ t.castSucc ∗ (dat c A q).owesAt () t.castSucc
    ∗ (∃ d, owns (c : Thread nD τ) (ms0_0 t) fullShare ((dat c A q).before 0 t d))
    ∗ (∃ d, owns (c : Thread nD τ) (ms0_1 t) fullShare ((dat c A q).before 1 t d))
    ∗ (∃ d, owns (c : Thread nD τ) (ms0_2 t) fullShare ((dat c A q).before 2 t d))
    ∗ (∃ d, owns (c : Thread nD τ) (ms0_3 t) fullShare ((dat c A q).before 3 t d))
    ∗ (∃ d, owns (c : Thread nD τ) (ms0_4 t) fullShare ((dat c A q).before 4 t d))
    ∗ (∃ d, owns (c : Thread nD τ) (ms0_5 t) fullShare ((dat c A q).before 5 t d))
    ∗ (∃ d, owns (c : Thread nD τ) (ms0_6 t) fullShare ((dat c A q).before 6 t d)))

/-- and what it returns. -/
def bodyPost (c : Dev nD) (A : Arrs F c) (q : Fin cfg0.W → PosShare TreeShare) (t : Fin cfg0.N) : sProp 𝕄 :=
  iprop((dat c A q).Φ t.succ ∗ (dat c A q).owesAt () t.succ
    ∗ owns (c : Thread nD τ) (ms0_0 t) fullShare ((dat c A q).after 0 t)
    ∗ owns (c : Thread nD τ) (ms0_1 t) fullShare ((dat c A q).after 1 t)
    ∗ owns (c : Thread nD τ) (ms0_2 t) fullShare ((dat c A q).after 2 t)
    ∗ owns (c : Thread nD τ) (ms0_3 t) fullShare ((dat c A q).after 3 t)
    ∗ owns (c : Thread nD τ) (ms0_4 t) fullShare ((dat c A q).after 4 t)
    ∗ owns (c : Thread nD τ) (ms0_5 t) fullShare ((dat c A q).after 5 t)
    ∗ owns (c : Thread nD τ) (ms0_6 t) fullShare ((dat c A q).after 6 t))

set_option maxHeartbeats 800000 in
/-- The body at any point: the inputs' memrefs hold their blocks; at the first point the outputs' hold anything and the
    first case's run applies, at a later point they hold what the point before left and the second case's run applies;
    the invariant passes through unread; the core owes nothing throughout. -/
theorem sound_body (c : Dev nD) (A : Arrs F c) (q) (t : Fin cfg0.N) :
    bodyPre c A q t ⊢ wp frame (wpE (defs₀ (F := F)) Variants.none c none) Set.univ (bodyAt0 t) (fun _ => bodyPost c A q t) := by
  unfold bodyPre bodyPost bodyAt0
  simp only [before_0, before_1, before_2, before_3, before_4]
  rw [show (dat c A q).Φ t.succ = (dat c A q).Φ t.castSucc from rfl,
    show (dat c A q).owesAt () t.succ = (dat c A q).owesAt () t.castSucc from rfl,
    after_0, after_1, after_2, after_3, after_4, after_5, after_6]
  by_cases h0 : t.val = 0
  · rw [outsAt5_A c A t h0, outsAt6_A c A t h0]
    simp only [before_5_A c A q t h0, before_6_A c A q t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun0_A c (grid0.coords t) _ _ _ _ _ _ _ _ _ _ _ _ _ _ ((hcond0 t).mpr h0) (iblk c A 0 t) (iblk c A 1 t) (iblk c A 2 t) (iblk c A 3 t) (iblk c A 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt5_B c A t h0, outsAt6_B c A t h0]
    simp only [before_5_B c A q t h0, before_6_B c A q t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun0_B c (grid0.coords t) _ _ _ _ _ _ _ _ _ _ _ _ _ _ (fun h => h0 ((hcond0 t).mp h)) (iblk c A 0 t) (iblk c A 1 t) (iblk c A 2 t) (iblk c A 3 t) (iblk c A 4 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point, for any arrays and any input shares. -/
theorem body_obligation (c : Dev nD) (A : Arrs F c) (q : Fin cfg0.W → PosShare TreeShare) :
    BodyObligation (dat c A q) (defs₀ (F := F)) Variants.none () Set.univ := fun t => by
  rw [bigSep_W0, bigSep_W0]
  exact sound_body c A q t

/-- The same as the launch theorems take it. -/
theorem body_obligation_loose (c : Dev nD) (A : Arrs F c) (q : Fin cfg0.W → PosShare TreeShare) :
    Pipeline.BodyObligationLoose (dat c A q) (defs₀ (F := F)) Variants.none () Set.univ :=
  (body_obligation c A q).loose

end Cert.KernelIdeal.Hand

end
-- ==== Proof.KI.Frame.lean ====
/-
  The frame of the program: the proof data instantiated at the contents the twelve host stretches leave, the run, and
  the five argument arrays read back unchanged — no host operation and no window's write-back names one of them.
-/
import proofs.«137117_j83648783057448_1_alg».proof.Proof.KI.Launch
import proofs.«137117_j83648783057448_1_alg».proof.Proof.KI.Body
import Idealize.ShloMosaic.Lib.StableHlo.Run

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]
variable (m : (ℓ : Loc nD τ sig) → Buf (Elt F) ℓ)

/-- The windows' arrays when the region is entered: what the twelve stretches left. -/
def Aent (c : Dev nD) : Arrs F c := fun w => W12 m c (Proc.devRef .tc (Pipeline.arrRef spec0 w))

/-- The shares: the two windows that read the normalised embeddings hold complementary halves of it, every other
    input window its whole array. -/
def qsh : Fin cfg0.W → PosShare TreeShare := fun w => if w.val = 0 then fullShare.left else if w.val = 1 then fullShare.right else fullShare

/-- The proof data of the one pipeline, on every core. -/
def dats (_ : Fin 1) (c : Dev nD) : Dat τ (Elt F) Unit ℕ (UR sig nD τ) ℕ cfg0 c := dat c (Aent m c) qsh

theorem dataOK : DataOK m (dats m) where
  hA c w := congrFun (dat_A c (Aent m c) qsh) w
  hq0 c := congrFun (dat_q c (Aent m c) qsh) 0
  hq1 c := congrFun (dat_q c (Aent m c) qsh) 1
  hq2 c := congrFun (dat_q c (Aent m c) qsh) 2
  hq3 c := congrFun (dat_q c (Aent m c) qsh) 3
  hq4 c := congrFun (dat_q c (Aent m c) qsh) 4
  hΦ c t := dat_Φ c (Aent m c) qsh t
  howed c t := dat_owed c (Aent m c) qsh t
  hrec c t := rfl
  hbody c := body_obligation c (Aent m c) qsh

set_option backward.isDefEq.respectTransparency.types false in
/-- The run of the program at these data: every unscoped buffer ends at the fold of the sixteen segments. -/
theorem run (ρ : Dev nD → PrngReg) :
    θ_run defs (onTc (τ := τ) (main (F := F))) ⟨m, fun _ => 0, ρ⟩
      (fun r => ∀ c : Dev nD, ∀ b ∈ UCR, r.2.mem ((c : Thread nD τ).1, b) = WT3 m (dats m) c b) :=
  run_main (dataOK m) ρ

/-! ## The arguments are kept: no host operation writes one -/
theorem pre_keep0 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg0) = V0 (Proc.devRef .tc main_arg0) := by
  after_results
theorem tail_keep0 (VX : Valuation τ sig (Elt F)) :
    StableHlo.after hostOps1_2 (StableHlo.after hostOps1_1 (StableHlo.after hostOps1 (VX))) (Proc.devRef .tc main_arg0) = VX (Proc.devRef .tc main_arg0) := by
  after_results
/-- Argument 0 ends as launched. -/
theorem WT3_arg0 (c : Dev nD) : WT3 m (dats m) c (Proc.devRef .tc main_arg0) = m ((c : Thread nD τ).loc main_arg0) :=
  (tail_keep0 (WX m (dats m) c)).trans ((WX_of_ne c main_arg0 (by decide) (by decide)).trans (pre_keep0 (W0 m c)))
theorem pre_keep1 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg1) = V0 (Proc.devRef .tc main_arg1) := by
  after_results
theorem tail_keep1 (VX : Valuation τ sig (Elt F)) :
    StableHlo.after hostOps1_2 (StableHlo.after hostOps1_1 (StableHlo.after hostOps1 (VX))) (Proc.devRef .tc main_arg1) = VX (Proc.devRef .tc main_arg1) := by
  after_results
/-- Argument 1 ends as launched. -/
theorem WT3_arg1 (c : Dev nD) : WT3 m (dats m) c (Proc.devRef .tc main_arg1) = m ((c : Thread nD τ).loc main_arg1) :=
  (tail_keep1 (WX m (dats m) c)).trans ((WX_of_ne c main_arg1 (by decide) (by decide)).trans (pre_keep1 (W0 m c)))
theorem pre_keep2 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg2) = V0 (Proc.devRef .tc main_arg2) := by
  after_results
theorem tail_keep2 (VX : Valuation τ sig (Elt F)) :
    StableHlo.after hostOps1_2 (StableHlo.after hostOps1_1 (StableHlo.after hostOps1 (VX))) (Proc.devRef .tc main_arg2) = VX (Proc.devRef .tc main_arg2) := by
  after_results
/-- Argument 2 ends as launched. -/
theorem WT3_arg2 (c : Dev nD) : WT3 m (dats m) c (Proc.devRef .tc main_arg2) = m ((c : Thread nD τ).loc main_arg2) :=
  (tail_keep2 (WX m (dats m) c)).trans ((WX_of_ne c main_arg2 (by decide) (by decide)).trans (pre_keep2 (W0 m c)))
theorem pre_keep3 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg3) = V0 (Proc.devRef .tc main_arg3) := by
  after_results
theorem tail_keep3 (VX : Valuation τ sig (Elt F)) :
    StableHlo.after hostOps1_2 (StableHlo.after hostOps1_1 (StableHlo.after hostOps1 (VX))) (Proc.devRef .tc main_arg3) = VX (Proc.devRef .tc main_arg3) := by
  after_results
/-- Argument 3 ends as launched. -/
theorem WT3_arg3 (c : Dev nD) : WT3 m (dats m) c (Proc.devRef .tc main_arg3) = m ((c : Thread nD τ).loc main_arg3) :=
  (tail_keep3 (WX m (dats m) c)).trans ((WX_of_ne c main_arg3 (by decide) (by decide)).trans (pre_keep3 (W0 m c)))
theorem pre_keep4 (V0 : Valuation τ sig (Elt F)) :
    StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (V0)))))))))))) (Proc.devRef .tc main_arg4) = V0 (Proc.devRef .tc main_arg4) := by
  after_results
theorem tail_keep4 (VX : Valuation τ sig (Elt F)) :
    StableHlo.after hostOps1_2 (StableHlo.after hostOps1_1 (StableHlo.after hostOps1 (VX))) (Proc.devRef .tc main_arg4) = VX (Proc.devRef .tc main_arg4) := by
  after_results
/-- Argument 4 ends as launched. -/
theorem WT3_arg4 (c : Dev nD) : WT3 m (dats m) c (Proc.devRef .tc main_arg4) = m ((c : Thread nD τ).loc main_arg4) :=
  (tail_keep4 (WX m (dats m) c)).trans ((WX_of_ne c main_arg4 (by decide) (by decide)).trans (pre_keep4 (W0 m c)))

/-- THE FRAME: every weakly fair execution terminates, nothing faulting, the five argument arrays unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c (Proc.devRef .tc main_arg0) (by decide)).trans (WT3_arg0 m c),
     (h c (Proc.devRef .tc main_arg1) (by decide)).trans (WT3_arg1 m c),
     (h c (Proc.devRef .tc main_arg2) (by decide)).trans (WT3_arg2 m c),
     (h c (Proc.devRef .tc main_arg3) (by decide)).trans (WT3_arg3 m c),
     (h c (Proc.devRef .tc main_arg4) (by decide)).trans (WT3_arg4 m c)⟩) (run m ρ)

end Cert.KernelIdeal.Hand

end
-- ==== Proof.Ref.Ops.lean ====
/- The reference program's @main as a list of host operations in program order: every call of an outlined
   function is replaced by the callee's operations over that call's buffer record (a nested call likewise), so the
   list is a straight line. It is cut where the calls are: one segment per call, one per stretch of @main between
   two calls; `ops` is their concatenation. -/
import proofs.«137117_j83648783057448_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.SL.Sem

variable {F : FTy → Type} [FloatOps F]

/-- The 15 operations of @log_softmax run on the buffers of record main_call0 (the call `fn_log_softmax.body (.of main_arg0) main_call0`), in order. -/
abbrev seg0 : List (HloOp τ sig (Elt F)) :=
  [ StableHlo.TRef.nullary (.of main_call0_cst : StableHlo.TRef sig ⟨S_, .f32⟩) (constant S_ .f32 0xFF800000#32),
    StableHlo.TRef.binary (.of main_arg0 : StableHlo.TRef sig ⟨S8192x3, .f32⟩) (.of main_call0_cst : StableHlo.TRef sig ⟨S_, .f32⟩) (.of main_call0_v0 : StableHlo.TRef sig ⟨S8192, .f32⟩) (fun x v => Host.reduce FloatOps.maximumf x v reducesTo_S8192x3_S8192_d1 h_S_),
    StableHlo.TRef.nullary (.of main_call0_cst_0 : StableHlo.TRef sig ⟨S_, .f32⟩) (constant S_ .f32 0xFF800000#32),
    StableHlo.TRef.unary (.of main_call0_cst_0 : StableHlo.TRef sig ⟨S_, .f32⟩) (.of main_call0_v1 : StableHlo.TRef sig ⟨S8192, .f32⟩) (broadcastInDim S8192 ![] bcast_S_S8192),
    StableHlo.TRef.binary (.of main_call0_v1 : StableHlo.TRef sig ⟨S8192, .f32⟩) (.of main_call0_v0 : StableHlo.TRef sig ⟨S8192, .f32⟩) (.of main_call0_v2 : StableHlo.TRef sig ⟨S8192, .f32⟩) maximumf,
    StableHlo.TRef.unary (.of main_call0_v2 : StableHlo.TRef sig ⟨S8192, .f32⟩) (.of main_call0_v3 : StableHlo.TRef sig ⟨S8192x1, .f32⟩) (broadcastInDim S8192x1 ![0] bcast_S8192_S8192x1_0),
    StableHlo.TRef.unary (.of main_call0_v3 : StableHlo.TRef sig ⟨S8192x1, .f32⟩) (.of main_call0_v4 : StableHlo.TRef sig ⟨S8192x3, .f32⟩) (broadcastInDim S8192x3 ![0, 1] bcast_S8192x1_S8192x3_0_1),
    StableHlo.TRef.binary (.of main_arg0 : StableHlo.TRef sig ⟨S8192x3, .f32⟩) (.of main_call0_v4 : StableHlo.TRef sig ⟨S8192x3, .f32⟩) (.of main_call0_v5 : StableHlo.TRef sig ⟨S8192x3, .f32⟩) subf,
    StableHlo.TRef.unary (.of main_call0_v5 : StableHlo.TRef sig ⟨S8192x3, .f32⟩) (.of main_call0_v6 : StableHlo.TRef sig ⟨S8192x3, .f32⟩) Host.exp,
    StableHlo.TRef.nullary (.of main_call0_cst_1 : StableHlo.TRef sig ⟨S_, .f32⟩) (constant S_ .f32 0x00000000#32),
    StableHlo.TRef.binary (.of main_call0_v6 : StableHlo.TRef sig ⟨S8192x3, .f32⟩) (.of main_call0_cst_1 : StableHlo.TRef sig ⟨S_, .f32⟩) (.of main_call0_v7 : StableHlo.TRef sig ⟨S8192, .f32⟩) (fun x v => Host.reduceAdd x v reducesTo_S8192x3_S8192_d1 h_S_),
    StableHlo.TRef.unary (.of main_call0_v7 : StableHlo.TRef sig ⟨S8192, .f32⟩) (.of main_call0_v8 : StableHlo.TRef sig ⟨S8192x1, .f32⟩) (broadcastInDim S8192x1 ![0] bcast_S8192_S8192x1_0),
    StableHlo.TRef.unary (.of main_call0_v8 : StableHlo.TRef sig ⟨S8192x1, .f32⟩) (.of main_call0_v9 : StableHlo.TRef sig ⟨S8192x1, .f32⟩) Host.log,
    StableHlo.TRef.unary (.of main_call0_v9 : StableHlo.TRef sig ⟨S8192x1, .f32⟩) (.of main_call0_v10 : StableHlo.TRef sig ⟨S8192x3, .f32⟩) (broadcastInDim S8192x3 ![0, 1] bcast_S8192x1_S8192x3_0_1),
    StableHlo.TRef.binary (.of main_call0_v5 : StableHlo.TRef sig ⟨S8192x3, .f32⟩) (.of main_call0_v10 : StableHlo.TRef sig ⟨S8192x3, .f32⟩) (.of main_v0 : StableHlo.TRef sig ⟨S8192x3, .f32⟩) subf ]

/-- 1 consecutive operation of @main itself (main_part0), in order. -/
abbrev seg1 : List (HloOp τ sig (Elt F)) :=
  [ StableHlo.unary main_arg1 main_v1 (broadcastInDim S8192x1 ![0] bcast_S8192_S8192x1_0 : (⟨S8192, .i32⟩ : BufTy).Contents (Elt F) → (⟨S8192x1, .i32⟩ : BufTy).Contents (Elt F)) ]

/-- The 22 operations of @take_along_axis run on the buffers of record main_call1 (the call `fn_take_along_axis.body (.of main_v0) (.of main_v1) main_call1`), in order. -/
abbrev seg2 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8192x1, .i32⟩) (broadcastInDim S8192x1 ![] bcast_S_S8192x1),
    StableHlo.TRef.binary (.of main_v1 : StableHlo.TRef sig ⟨S8192x1, .i32⟩) (.of main_call1_v0 : StableHlo.TRef sig ⟨S8192x1, .i32⟩) (.of main_call1_v1 : StableHlo.TRef sig ⟨S8192x1, .i1⟩) (cmpi .slt),
    StableHlo.TRef.nullary (.of main_call1_c_0 : StableHlo.TRef sig ⟨S_, .i32⟩) (constantI S_ 32 3#32),
    StableHlo.TRef.unary (.of main_call1_c_0 : StableHlo.TRef sig ⟨S_, .i32⟩) (.of main_call1_v2 : StableHlo.TRef sig ⟨S8192x1, .i32⟩) (broadcastInDim S8192x1 ![] bcast_S_S8192x1),
    StableHlo.TRef.binary (.of main_v1 : StableHlo.TRef sig ⟨S8192x1, .i32⟩) (.of main_call1_v2 : StableHlo.TRef sig ⟨S8192x1, .i32⟩) (.of main_call1_v3 : StableHlo.TRef sig ⟨S8192x1, .i32⟩) addi,
    StableHlo.TRef.ternary (.of main_call1_v1 : StableHlo.TRef sig ⟨S8192x1, .i1⟩) (.of main_call1_v3 : StableHlo.TRef sig ⟨S8192x1, .i32⟩) (.of main_v1 : StableHlo.TRef sig ⟨S8192x1, .i32⟩) (.of main_call1_v4 : StableHlo.TRef sig ⟨S8192x1, .i32⟩) select,
    StableHlo.TRef.reshape (.of main_call1_v4 : StableHlo.TRef sig ⟨S8192x1, .i32⟩) (.of main_call1_v5 : StableHlo.TRef sig ⟨S8192x1x1, .i32⟩) rfl shapeCasts_S8192x1_S8192x1x1,
    StableHlo.TRef.nullary (.of main_call1_c_1 : StableHlo.TRef sig ⟨S1, .i32⟩) (constantI S1 32 2#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8192x1x1, .i32⟩) (broadcastInDim S8192x1x1 ![] bcast_S_S8192x1x1),
    StableHlo.TRef.binary (.of main_call1_v5 : StableHlo.TRef sig ⟨S8192x1x1, .i32⟩) (.of main_call1_v6 : StableHlo.TRef sig ⟨S8192x1x1, .i32⟩) (.of main_call1_v7 : StableHlo.TRef sig ⟨S8192x1x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S8192x1x1, .i32⟩) (broadcastInDim S8192x1x1 ![0, 1, 2] bcast_S1x1x1_S8192x1x1_0_1_2),
    StableHlo.TRef.binary (.of main_call1_v5 : StableHlo.TRef sig ⟨S8192x1x1, .i32⟩) (.of main_call1_v9 : StableHlo.TRef sig ⟨S8192x1x1, .i32⟩) (.of main_call1_v10 : StableHlo.TRef sig ⟨S8192x1x1, .i1⟩) (cmpi .sle),
    StableHlo.TRef.binary (.of main_call1_v7 : StableHlo.TRef sig ⟨S8192x1x1, .i1⟩) (.of main_call1_v10 : StableHlo.TRef sig ⟨S8192x1x1, .i1⟩) (.of main_call1_v11 : StableHlo.TRef sig ⟨S8192x1x1, .i1⟩) andi,
    StableHlo.TRef.nullary (.of main_call1_c_3 : StableHlo.TRef sig ⟨S_, .i1⟩) (constantI S_ 1 1#1),
    StableHlo.TRef.binary (.of main_call1_v11 : StableHlo.TRef sig ⟨S8192x1x1, .i1⟩) (.of main_call1_c_3 : StableHlo.TRef sig ⟨S_, .i1⟩) (.of main_call1_v12 : StableHlo.TRef sig ⟨S8192x1, .i1⟩) (fun x v => Host.reduce IntOp.andi x v reducesTo_S8192x1x1_S8192x1_d2 h_S_),
    StableHlo.TRef.binary (.of main_v0 : StableHlo.TRef sig ⟨S8192x3, .f32⟩) (.of main_call1_v5 : StableHlo.TRef sig ⟨S8192x1x1, .i32⟩) (.of main_call1_v13 : StableHlo.TRef sig ⟨S8192x1, .f32⟩) (fun x i => Host.gather gather_S8192x3_S8192x1x1_S8192x1_n_1_0_0_1_2_11 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S8192x1, .f32⟩) (broadcastInDim S8192x1 ![] bcast_S_S8192x1),
    StableHlo.TRef.ternary (.of main_call1_v12 : StableHlo.TRef sig ⟨S8192x1, .i1⟩) (.of main_call1_v13 : StableHlo.TRef sig ⟨S8192x1, .f32⟩) (.of main_call1_v14 : StableHlo.TRef sig ⟨S8192x1, .f32⟩) (.of main_v2 : StableHlo.TRef sig ⟨S8192x1, .f32⟩) select ]

/-- 11 consecutive operations of @main itself (main_part0), in order. -/
abbrev seg3 : List (HloOp τ sig (Elt F)) :=
  [ StableHlo.nullary main_cst (constant S_ .f32 0x00000000#32),
    StableHlo.binary main_v2 main_cst main_v3 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    StableHlo.nullary main_cst_0 (constant S_ .f32 0x46000000#32),
    StableHlo.binary main_v3 main_cst_0 main_v4 (Host.divf : (⟨S_, .f32⟩ : BufTy).Contents (Elt F) → (⟨S_, .f32⟩ : BufTy).Contents (Elt F) → (⟨S_, .f32⟩ : BufTy).Contents (Elt F)),
    StableHlo.unary main_v4 main_v5 (Host.negf : (⟨S_, .f32⟩ : BufTy).Contents (Elt F) → (⟨S_, .f32⟩ : BufTy).Contents (Elt F)),
    StableHlo.nullary main_cst_1 (constant S_ .f32 0x00000000#32),
    StableHlo.binary main_arg2 main_cst_1 main_v6 ((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)),
    StableHlo.nullary main_cst_2 (constant S_ .f32 0x46000000#32),
    StableHlo.unary main_cst_2 main_v7 (broadcastInDim S8 ![] bcast_S_S8 : (⟨S_, .f32⟩ : BufTy).Contents (Elt F) → (⟨S8, .f32⟩ : BufTy).Contents (Elt F)),
    StableHlo.binary main_v6 main_v7 main_v8 (Host.divf : (⟨S8, .f32⟩ : BufTy).Contents (Elt F) → (⟨S8, .f32⟩ : BufTy).Contents (Elt F) → (⟨S8, .f32⟩ : BufTy).Contents (Elt F)),
    StableHlo.nullary main_c (constantI S_ 32 1#32) ]

/-- The 20 operations of @_var run on the buffers of record main_call2 (the call `fn_var.body (.of main_v8) (.of main_c) main_call2`), in order; the last two are the nested @_where on record main_call2_call0. -/
abbrev seg4 : List (HloOp τ sig (Elt F)) :=
  [ StableHlo.TRef.nullary (.of main_call2_cst : StableHlo.TRef sig ⟨S_, .f32⟩) (constant S_ .f32 0x00000000#32),
    StableHlo.TRef.binary (.of main_v8 : StableHlo.TRef sig ⟨S8, .f32⟩) (.of main_call2_cst : StableHlo.TRef sig ⟨S_, .f32⟩) (.of main_call2_v0 : StableHlo.TRef sig ⟨S_, .f32⟩) (fun x v => Host.reduceAdd x v reducesTo_S8_S_d0 h_S_),
    StableHlo.TRef.unary (.of main_call2_v0 : StableHlo.TRef sig ⟨S_, .f32⟩) (.of main_call2_v1 : StableHlo.TRef sig ⟨S1, .f32⟩) (broadcastInDim S1 ![] bcast_S_S1),
    StableHlo.TRef.nullary (.of main_call2_cst_0 : StableHlo.TRef sig ⟨S_, .f32⟩) (constant S_ .f32 0x41000000#32),
    StableHlo.TRef.unary (.of main_call2_cst_0 : StableHlo.TRef sig ⟨S_, .f32⟩) (.of main_call2_v2 : StableHlo.TRef sig ⟨S1, .f32⟩) (broadcastInDim S1 ![] bcast_S_S1),
    StableHlo.TRef.binary (.of main_call2_v1 : StableHlo.TRef sig ⟨S1, .f32⟩) (.of main_call2_v2 : StableHlo.TRef sig ⟨S1, .f32⟩) (.of main_call2_v3 : StableHlo.TRef sig ⟨S1, .f32⟩) Host.divf,
    StableHlo.TRef.unary (.of main_call2_v3 : StableHlo.TRef sig ⟨S1, .f32⟩) (.of main_call2_v4 : StableHlo.TRef sig ⟨S8, .f32⟩) (broadcastInDim S8 ![0] bcast_S1_S8_0),
    StableHlo.TRef.binary (.of main_v8 : StableHlo.TRef sig ⟨S8, .f32⟩) (.of main_call2_v4 : StableHlo.TRef sig ⟨S8, .f32⟩) (.of main_call2_v5 : StableHlo.TRef sig ⟨S8, .f32⟩) subf,
    StableHlo.TRef.binary (.of main_call2_v5 : StableHlo.TRef sig ⟨S8, .f32⟩) (.of main_call2_v5 : StableHlo.TRef sig ⟨S8, .f32⟩) (.of main_call2_v6 : StableHlo.TRef sig ⟨S8, .f32⟩) mulf,
    StableHlo.TRef.unary (.of main_c : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x41000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8, .f32⟩) (.of main_call2_cst_2 : StableHlo.TRef sig ⟨S_, .f32⟩) (.of main_call2_v9 : StableHlo.TRef sig ⟨S_, .f32⟩) (fun x v => Host.reduceAdd x v reducesTo_S8_S_d0 h_S_),
    StableHlo.TRef.binary (.of main_call2_v9 : StableHlo.TRef sig ⟨S_, .f32⟩) (.of main_call2_v8 : StableHlo.TRef sig ⟨S_, .f32⟩) (.of main_call2_v10 : StableHlo.TRef sig ⟨S_, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v11 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.ternary (.of main_call2_v11 : StableHlo.TRef sig ⟨S_, .i1⟩) (.of main_call2_v10 : StableHlo.TRef sig ⟨S_, .f32⟩) (.of main_call2_call0_v0 : StableHlo.TRef sig ⟨S_, .f32⟩) (.of main_v9 : StableHlo.TRef sig ⟨S_, .f32⟩) select ]

/-- 8 consecutive operations of @main itself (main_part0), in order. -/
abbrev seg5 : List (HloOp τ sig (Elt F)) :=
  [ StableHlo.nullary main_cst_3 (constant S_ .f32 0x3DCCCCCD#32),
    StableHlo.binary main_cst_3 main_v9 main_v10 (mulf : (⟨S_, .f32⟩ : BufTy).Contents (Elt F) → (⟨S_, .f32⟩ : BufTy).Contents (Elt F) → (⟨S_, .f32⟩ : BufTy).Contents (Elt F)),
    StableHlo.nullary main_cst_4 (constant S_ .f32 0x42800000#32),
    StableHlo.binary main_v10 main_cst_4 main_v11 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x3DCCCCCD#32),
    StableHlo.unary main_cst_5 main_v12 (broadcastInDim S8192x8 ![] bcast_S_S8192x8 : (⟨S_, .f32⟩ : BufTy).Contents (Elt F) → (⟨S8192x8, .f32⟩ : BufTy).Contents (Elt F)),
    StableHlo.binary main_arg2 main_v12 main_v13 (cmpf .olt : (⟨S8192x8, .f32⟩ : BufTy).Contents (Elt F) → (⟨S8192x8, .f32⟩ : BufTy).Contents (Elt F) → (⟨S8192x8, .i1⟩ : BufTy).Contents (Elt F)),
    StableHlo.nullary main_cst_6 (constant S_ .f32 0x00000000#32) ]

/-- The 3 operations of @_where_0 run on the buffers of record main_call3 (the call `fn_where_0.body (.of main_v13) (.of main_arg2) (.of main_cst_6) main_call3`), in order. -/
abbrev seg6 : List (HloOp τ sig (Elt F)) :=
  [ StableHlo.TRef.unary (.of main_cst_6 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8192x8, .f32⟩) (broadcastInDim S8192x8 ![] bcast_S_S8192x8),
    StableHlo.TRef.ternary (.of main_v13 : StableHlo.TRef sig ⟨S8192x8, .i1⟩) (.of main_arg2 : StableHlo.TRef sig ⟨S8192x8, .f32⟩) (.of main_call3_v1 : StableHlo.TRef sig ⟨S8192x8, .f32⟩) (.of main_v14 : StableHlo.TRef sig ⟨S8192x8, .f32⟩) select ]

/-- 8 consecutive operations of @main itself (main_part0), in order. -/
abbrev seg7 : List (HloOp τ sig (Elt F)) :=
  [ StableHlo.nullary main_cst_7 (constant S_ .f32 0x00000000#32),
    StableHlo.binary main_v14 main_cst_7 main_v15 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.nullary main_cst_8 (constant S_ .f32 0x00000000#32),
    StableHlo.binary main_v15 main_cst_8 main_v16 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_9 (constant S_ .f32 0x46000000#32),
    StableHlo.binary main_v16 main_cst_9 main_v17 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3D4CCCCD#32),
    StableHlo.binary main_cst_10 main_v17 main_v18 (mulf : (⟨S_, .f32⟩ : BufTy).Contents (Elt F) → (⟨S_, .f32⟩ : BufTy).Contents (Elt F) → (⟨S_, .f32⟩ : BufTy).Contents (Elt F)) ]

/-- The 5 operations of @norm run on the buffers of record main_call4 (the call `fn_norm.body (.of main_arg3) main_call4`), in order. -/
abbrev seg8 : List (HloOp τ sig (Elt F)) :=
  [ StableHlo.TRef.binary (.of main_arg3 : StableHlo.TRef sig ⟨S8192x128, .f32⟩) (.of main_arg3 : StableHlo.TRef sig ⟨S8192x128, .f32⟩) (.of main_call4_v0 : StableHlo.TRef sig ⟨S8192x128, .f32⟩) mulf,
    StableHlo.TRef.nullary (.of main_call4_cst : StableHlo.TRef sig ⟨S_, .f32⟩) (constant S_ .f32 0x00000000#32),
    StableHlo.TRef.binary (.of main_call4_v0 : StableHlo.TRef sig ⟨S8192x128, .f32⟩) (.of main_call4_cst : StableHlo.TRef sig ⟨S_, .f32⟩) (.of main_call4_v1 : StableHlo.TRef sig ⟨S8192, .f32⟩) (fun x v => Host.reduceAdd x v reducesTo_S8192x128_S8192_d1 h_S_),
    StableHlo.TRef.unary (.of main_call4_v1 : StableHlo.TRef sig ⟨S8192, .f32⟩) (.of main_call4_v2 : StableHlo.TRef sig ⟨S8192x1, .f32⟩) (broadcastInDim S8192x1 ![0] bcast_S8192_S8192x1_0),
    StableHlo.TRef.unary (.of main_call4_v2 : StableHlo.TRef sig ⟨S8192x1, .f32⟩) (.of main_v19 : StableHlo.TRef sig ⟨S8192x1, .f32⟩) Host.sqrt ]

/-- 15 consecutive operations of @main itself (main_part0), in order. -/
abbrev seg9 : List (HloOp τ sig (Elt F)) :=
  [ StableHlo.unary main_v19 main_v20 (broadcastInDim S8192x128 ![0, 1] bcast_S8192x1_S8192x128_0_1 : (⟨S8192x1, .f32⟩ : BufTy).Contents (Elt F) → (⟨S8192x128, .f32⟩ : BufTy).Contents (Elt F)),
    StableHlo.binary main_arg3 main_v20 main_v21 (Host.divf : (⟨S8192x128, .f32⟩ : BufTy).Contents (Elt F) → (⟨S8192x128, .f32⟩ : BufTy).Contents (Elt F) → (⟨S8192x128, .f32⟩ : BufTy).Contents (Elt F)),
    StableHlo.unary main_v21 main_v22 ((transpose S128x8192 [1, 0] · transposes_S8192x128_S128x8192_1_0) : (⟨S8192x128, .f32⟩ : BufTy).Contents (Elt F) → (⟨S128x8192, .f32⟩ : BufTy).Contents (Elt F)),
    StableHlo.binary main_v21 main_v22 main_v23 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    StableHlo.nullary main_cst_11 (constant S_ .f32 0x3F4CCCCD#32),
    StableHlo.unary main_cst_11 main_v24 (broadcastInDim S8192x8192 ![] bcast_S_S8192x8192 : (⟨S_, .f32⟩ : BufTy).Contents (Elt F) → (⟨S8192x8192, .f32⟩ : BufTy).Contents (Elt F)),
    StableHlo.binary main_v23 main_v24 main_v25 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_v26 (iotaInDim S8192x8192 32 0),
    StableHlo.nullary main_v27 (iotaInDim S8192x8192 32 1),
    StableHlo.nullary main_c_12 (constantI S_ 32 0#32),
    StableHlo.unary main_c_12 main_v28 (broadcastInDim S8192x8192 ![] bcast_S_S8192x8192 : (⟨S_, .i32⟩ : BufTy).Contents (Elt F) → (⟨S8192x8192, .i32⟩ : BufTy).Contents (Elt F)),
    StableHlo.binary main_v26 main_v28 main_v29 (addi : (⟨S8192x8192, .i32⟩ : BufTy).Contents (Elt F) → (⟨S8192x8192, .i32⟩ : BufTy).Contents (Elt F) → (⟨S8192x8192, .i32⟩ : BufTy).Contents (Elt F)),
    StableHlo.binary main_v29 main_v27 main_v30 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v30 main_v31 (noti : (⟨S8192x8192, .i1⟩ : BufTy).Contents (Elt F) → (⟨S8192x8192, .i1⟩ : BufTy).Contents (Elt F)),
    StableHlo.binary main_v25 main_v31 main_v32 (andi : (⟨S8192x8192, .i1⟩ : BufTy).Contents (Elt F) → (⟨S8192x8192, .i1⟩ : BufTy).Contents (Elt F) → (⟨S8192x8192, .i1⟩ : BufTy).Contents (Elt F)) ]

/-- The 15 operations of @log_softmax_1 run on the buffers of record main_call5 (the call `fn_log_softmax_1.body (.of main_arg2) main_call5`), in order. -/
abbrev seg10 : List (HloOp τ sig (Elt F)) :=
  [ StableHlo.TRef.nullary (.of main_call5_cst : StableHlo.TRef sig ⟨S_, .f32⟩) (constant S_ .f32 0xFF800000#32),
    StableHlo.TRef.binary (.of main_arg2 : StableHlo.TRef sig ⟨S8192x8, .f32⟩) (.of main_call5_cst : StableHlo.TRef sig ⟨S_, .f32⟩) (.of main_call5_v0 : StableHlo.TRef sig ⟨S8192, .f32⟩) (fun x v => Host.reduce FloatOps.maximumf x v reducesTo_S8192x8_S8192_d1 h_S_),
    StableHlo.TRef.nullary (.of main_call5_cst_0 : StableHlo.TRef sig ⟨S_, .f32⟩) (constant S_ .f32 0xFF800000#32),
    StableHlo.TRef.unary (.of main_call5_cst_0 : StableHlo.TRef sig ⟨S_, .f32⟩) (.of main_call5_v1 : StableHlo.TRef sig ⟨S8192, .f32⟩) (broadcastInDim S8192 ![] bcast_S_S8192),
    StableHlo.TRef.binary (.of main_call5_v1 : StableHlo.TRef sig ⟨S8192, .f32⟩) (.of main_call5_v0 : StableHlo.TRef sig ⟨S8192, .f32⟩) (.of main_call5_v2 : StableHlo.TRef sig ⟨S8192, .f32⟩) maximumf,
    StableHlo.TRef.unary (.of main_call5_v2 : StableHlo.TRef sig ⟨S8192, .f32⟩) (.of main_call5_v3 : StableHlo.TRef sig ⟨S8192x1, .f32⟩) (broadcastInDim S8192x1 ![0] bcast_S8192_S8192x1_0),
    StableHlo.TRef.unary (.of main_call5_v3 : StableHlo.TRef sig ⟨S8192x1, .f32⟩) (.of main_call5_v4 : StableHlo.TRef sig ⟨S8192x8, .f32⟩) (broadcastInDim S8192x8 ![0, 1] bcast_S8192x1_S8192x8_0_1),
    StableHlo.TRef.binary (.of main_arg2 : StableHlo.TRef sig ⟨S8192x8, .f32⟩) (.of main_call5_v4 : StableHlo.TRef sig ⟨S8192x8, .f32⟩) (.of main_call5_v5 : StableHlo.TRef sig ⟨S8192x8, .f32⟩) subf,
    StableHlo.TRef.unary (.of main_call5_v5 : StableHlo.TRef sig ⟨S8192x8, .f32⟩) (.of main_call5_v6 : StableHlo.TRef sig ⟨S8192x8, .f32⟩) Host.exp,
    StableHlo.TRef.nullary (.of main_call5_cst_1 : StableHlo.TRef sig ⟨S_, .f32⟩) (constant S_ .f32 0x00000000#32),
    StableHlo.TRef.binary (.of main_call5_v6 : StableHlo.TRef sig ⟨S8192x8, .f32⟩) (.of main_call5_cst_1 : StableHlo.TRef sig ⟨S_, .f32⟩) (.of main_call5_v7 : StableHlo.TRef sig ⟨S8192, .f32⟩) (fun x v => Host.reduceAdd x v reducesTo_S8192x8_S8192_d1 h_S_),
    StableHlo.TRef.unary (.of main_call5_v7 : StableHlo.TRef sig ⟨S8192, .f32⟩) (.of main_call5_v8 : StableHlo.TRef sig ⟨S8192x1, .f32⟩) (broadcastInDim S8192x1 ![0] bcast_S8192_S8192x1_0),
    StableHlo.TRef.unary (.of main_call5_v8 : StableHlo.TRef sig ⟨S8192x1, .f32⟩) (.of main_call5_v9 : StableHlo.TRef sig ⟨S8192x1, .f32⟩) Host.log,
    StableHlo.TRef.unary (.of main_call5_v9 : StableHlo.TRef sig ⟨S8192x1, .f32⟩) (.of main_call5_v10 : StableHlo.TRef sig ⟨S8192x8, .f32⟩) (broadcastInDim S8192x8 ![0, 1] bcast_S8192x1_S8192x8_0_1),
    StableHlo.TRef.binary (.of main_call5_v5 : StableHlo.TRef sig ⟨S8192x8, .f32⟩) (.of main_call5_v10 : StableHlo.TRef sig ⟨S8192x8, .f32⟩) (.of main_v33 : StableHlo.TRef sig ⟨S8192x8, .f32⟩) subf ]

/-- 11 consecutive operations of @main itself (main_part0), in order. -/
abbrev seg11 : List (HloOp τ sig (Elt F)) :=
  [ StableHlo.unary main_v33 main_v34 (Host.exp : (⟨S8192x8, .f32⟩ : BufTy).Contents (Elt F) → (⟨S8192x8, .f32⟩ : BufTy).Contents (Elt F)),
    StableHlo.binary main_v34 main_v33 main_v35 (mulf : (⟨S8192x8, .f32⟩ : BufTy).Contents (Elt F) → (⟨S8192x8, .f32⟩ : BufTy).Contents (Elt F) → (⟨S8192x8, .f32⟩ : BufTy).Contents (Elt F)),
    StableHlo.nullary main_cst_13 (constant S_ .f32 0x00000000#32),
    StableHlo.binary main_v35 main_cst_13 main_v36 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.unary main_v36 main_v37 (broadcastInDim S1x8192 ![1] bcast_S8192_S1x8192_1 : (⟨S8192, .f32⟩ : BufTy).Contents (Elt F) → (⟨S1x8192, .f32⟩ : BufTy).Contents (Elt F)),
    StableHlo.unary main_v34 main_v38 ((transpose S8x8192 [1, 0] · transposes_S8192x8_S8x8192_1_0) : (⟨S8192x8, .f32⟩ : BufTy).Contents (Elt F) → (⟨S8x8192, .f32⟩ : BufTy).Contents (Elt F)),
    StableHlo.binary main_v33 main_v38 main_v39 ((fun l r => Host.dotGeneral dot_S8192x8_S8x8192_S8192x8192_1_0_0_1_n_n none l r) : (⟨S8192x8, .f32⟩ : BufTy).Contents (Elt F) → (⟨S8x8192, .f32⟩ : BufTy).Contents (Elt F) → (⟨S8192x8192, .f32⟩ : BufTy).Contents (Elt F)),
    StableHlo.unary main_v37 main_v40 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v40 main_v39 main_v41 (subf : (⟨S8192x8192, .f32⟩ : BufTy).Contents (Elt F) → (⟨S8192x8192, .f32⟩ : BufTy).Contents (Elt F) → (⟨S8192x8192, .f32⟩ : BufTy).Contents (Elt F)),
    StableHlo.unary main_v32 main_v42 ((extui 32 · natLt_1_32) : (⟨S8192x8192, .i1⟩ : BufTy).Contents (Elt F) → (⟨S8192x8192, .i32⟩ : BufTy).Contents (Elt F)),
    StableHlo.nullary main_c_14 (constantI S_ 32 0#32) ]

/-- 2 consecutive operations of @main itself (main_part1), in order. -/
abbrev seg12 : List (HloOp τ sig (Elt F)) :=
  [ StableHlo.binary main_v42 main_c_14 main_v43 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    StableHlo.nullary main_cst_15 (constant S_ .f32 0x00000000#32) ]

/-- The 3 operations of @_where_2 run on the buffers of record main_call6 (the call `fn_where_2.body (.of main_v32) (.of main_v41) (.of main_cst_15) main_call6`), in order. -/
abbrev seg13 : List (HloOp τ sig (Elt F)) :=
  [ StableHlo.TRef.unary (.of main_cst_15 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S8192x8192, .f32⟩) (broadcastInDim S8192x8192 ![] bcast_S_S8192x8192),
    StableHlo.TRef.ternary (.of main_v32 : StableHlo.TRef sig ⟨S8192x8192, .i1⟩) (.of main_v41 : StableHlo.TRef sig ⟨S8192x8192, .f32⟩) (.of main_call6_v1 : StableHlo.TRef sig ⟨S8192x8192, .f32⟩) (.of main_v44 : StableHlo.TRef sig ⟨S8192x8192, .f32⟩) select ]

/-- 9 consecutive operations of @main itself (main_part1), in order. -/
abbrev seg14 : List (HloOp τ sig (Elt F)) :=
  [ StableHlo.nullary main_cst_16 (constant S_ .f32 0x00000000#32),
    StableHlo.binary main_v44 main_cst_16 main_v45 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_c_17 (constantI S_ 32 0#32),
    StableHlo.binary main_v43 main_c_17 main_v46 (cmpi .sgt : (⟨S_, .i32⟩ : BufTy).Contents (Elt F) → (⟨S_, .i32⟩ : BufTy).Contents (Elt F) → (⟨S_, .i1⟩ : BufTy).Contents (Elt F)),
    StableHlo.nullary main_c_18 (constantI S_ 32 1#32),
    StableHlo.binary main_v43 main_c_18 main_v47 (maxsi : (⟨S_, .i32⟩ : BufTy).Contents (Elt F) → (⟨S_, .i32⟩ : BufTy).Contents (Elt F) → (⟨S_, .i32⟩ : BufTy).Contents (Elt F)),
    StableHlo.unary main_v47 main_v48 (sitofp .f32 : (⟨S_, .i32⟩ : BufTy).Contents (Elt F) → (⟨S_, .f32⟩ : BufTy).Contents (Elt F)),
    StableHlo.binary main_v45 main_v48 main_v49 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x00000000#32) ]

/-- The 2 operations of @_where run on the buffers of record main_call7 (the call `fn_where.body (.of main_v46) (.of main_v49) (.of main_cst_19) main_call7`), in order. -/
abbrev seg15 : List (HloOp τ sig (Elt F)) :=
  [ StableHlo.TRef.unary (.of main_cst_19 : StableHlo.TRef sig ⟨S_, .f32⟩) (.of main_call7_v0 : StableHlo.TRef sig ⟨S_, .f32⟩) id,
    StableHlo.TRef.ternary (.of main_v46 : StableHlo.TRef sig ⟨S_, .i1⟩) (.of main_v49 : StableHlo.TRef sig ⟨S_, .f32⟩) (.of main_call7_v0 : StableHlo.TRef sig ⟨S_, .f32⟩) (.of main_v50 : StableHlo.TRef sig ⟨S_, .f32⟩) select ]

/-- 32 consecutive operations of @main itself (main_part1), in order. -/
abbrev seg16 : List (HloOp τ sig (Elt F)) :=
  [ StableHlo.nullary main_cst_20 (constant S_ .f32 0x3DCCCCCD#32),
    StableHlo.binary main_cst_20 main_v50 main_v51 (mulf : (⟨S_, .f32⟩ : BufTy).Contents (Elt F) → (⟨S_, .f32⟩ : BufTy).Contents (Elt F) → (⟨S_, .f32⟩ : BufTy).Contents (Elt F)),
    StableHlo.nullary main_cst_21 (constant S_ .f32 0x322BCC77#32),
    StableHlo.unary main_cst_21 main_v52 (broadcastInDim S8192x8 ![] bcast_S_S8192x8 : (⟨S_, .f32⟩ : BufTy).Contents (Elt F) → (⟨S8192x8, .f32⟩ : BufTy).Contents (Elt F)),
    StableHlo.binary main_arg2 main_v52 main_v53 (addf : (⟨S8192x8, .f32⟩ : BufTy).Contents (Elt F) → (⟨S8192x8, .f32⟩ : BufTy).Contents (Elt F) → (⟨S8192x8, .f32⟩ : BufTy).Contents (Elt F)),
    StableHlo.unary main_v53 main_v54 (Host.log : (⟨S8192x8, .f32⟩ : BufTy).Contents (Elt F) → (⟨S8192x8, .f32⟩ : BufTy).Contents (Elt F)),
    StableHlo.binary main_arg2 main_v54 main_v55 (mulf : (⟨S8192x8, .f32⟩ : BufTy).Contents (Elt F) → (⟨S8192x8, .f32⟩ : BufTy).Contents (Elt F) → (⟨S8192x8, .f32⟩ : BufTy).Contents (Elt F)),
    StableHlo.nullary main_cst_22 (constant S_ .f32 0x00000000#32),
    StableHlo.binary main_v55 main_cst_22 main_v56 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.unary main_v56 main_v57 (Host.negf : (⟨S8192, .f32⟩ : BufTy).Contents (Elt F) → (⟨S8192, .f32⟩ : BufTy).Contents (Elt F)),
    StableHlo.nullary main_cst_23 (constant S_ .f32 0x00000000#32),
    StableHlo.binary main_v57 main_cst_23 main_v58 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_24 (constant S_ .f32 0x46000000#32),
    StableHlo.binary main_v58 main_cst_24 main_v59 (Host.divf : (⟨S_, .f32⟩ : BufTy).Contents (Elt F) → (⟨S_, .f32⟩ : BufTy).Contents (Elt F) → (⟨S_, .f32⟩ : BufTy).Contents (Elt F)),
    StableHlo.unary main_v59 main_v60 (Host.negf : (⟨S_, .f32⟩ : BufTy).Contents (Elt F) → (⟨S_, .f32⟩ : BufTy).Contents (Elt F)),
    StableHlo.nullary main_cst_25 (constant S_ .f32 0x3C23D70A#32),
    StableHlo.binary main_cst_25 main_v60 main_v61 (mulf : (⟨S_, .f32⟩ : BufTy).Contents (Elt F) → (⟨S_, .f32⟩ : BufTy).Contents (Elt F) → (⟨S_, .f32⟩ : BufTy).Contents (Elt F)),
    StableHlo.nullary main_cst_26 (constant S_ .f32 0x3F800000#32),
    StableHlo.unary main_cst_26 main_v62 (broadcastInDim S1 ![] bcast_S_S1 : (⟨S_, .f32⟩ : BufTy).Contents (Elt F) → (⟨S1, .f32⟩ : BufTy).Contents (Elt F)),
    StableHlo.binary main_arg4 main_v62 main_v63 (subf : (⟨S1, .f32⟩ : BufTy).Contents (Elt F) → (⟨S1, .f32⟩ : BufTy).Contents (Elt F) → (⟨S1, .f32⟩ : BufTy).Contents (Elt F)),
    StableHlo.binary main_v63 main_v63 main_v64 (mulf : (⟨S1, .f32⟩ : BufTy).Contents (Elt F) → (⟨S1, .f32⟩ : BufTy).Contents (Elt F) → (⟨S1, .f32⟩ : BufTy).Contents (Elt F)),
    StableHlo.nullary main_cst_27 (constant S_ .f32 0x00000000#32),
    StableHlo.binary main_v64 main_cst_27 main_v65 ((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)),
    StableHlo.nullary main_cst_28 (constant S_ .f32 0x3F800000#32),
    StableHlo.binary main_v65 main_cst_28 main_v66 (Host.divf : (⟨S_, .f32⟩ : BufTy).Contents (Elt F) → (⟨S_, .f32⟩ : BufTy).Contents (Elt F) → (⟨S_, .f32⟩ : BufTy).Contents (Elt F)),
    StableHlo.nullary main_cst_29 (constant S_ .f32 0x3C23D70A#32),
    StableHlo.binary main_cst_29 main_v66 main_v67 (mulf : (⟨S_, .f32⟩ : BufTy).Contents (Elt F) → (⟨S_, .f32⟩ : BufTy).Contents (Elt F) → (⟨S_, .f32⟩ : BufTy).Contents (Elt F)),
    StableHlo.binary main_v5 main_v11 main_v68 (addf : (⟨S_, .f32⟩ : BufTy).Contents (Elt F) → (⟨S_, .f32⟩ : BufTy).Contents (Elt F) → (⟨S_, .f32⟩ : BufTy).Contents (Elt F)),
    StableHlo.binary main_v68 main_v18 main_v69 (addf : (⟨S_, .f32⟩ : BufTy).Contents (Elt F) → (⟨S_, .f32⟩ : BufTy).Contents (Elt F) → (⟨S_, .f32⟩ : BufTy).Contents (Elt F)),
    StableHlo.binary main_v69 main_v51 main_v70 (addf : (⟨S_, .f32⟩ : BufTy).Contents (Elt F) → (⟨S_, .f32⟩ : BufTy).Contents (Elt F) → (⟨S_, .f32⟩ : BufTy).Contents (Elt F)),
    StableHlo.binary main_v70 main_v61 main_v71 (addf : (⟨S_, .f32⟩ : BufTy).Contents (Elt F) → (⟨S_, .f32⟩ : BufTy).Contents (Elt F) → (⟨S_, .f32⟩ : BufTy).Contents (Elt F)),
    StableHlo.binary main_v71 main_v67 main_v72 (addf : (⟨S_, .f32⟩ : BufTy).Contents (Elt F) → (⟨S_, .f32⟩ : BufTy).Contents (Elt F) → (⟨S_, .f32⟩ : BufTy).Contents (Elt F)) ]

/-- The operations of @main's first window (statements 1 … 60), calls inlined. -/
abbrev ops0 : List (HloOp τ sig (Elt F)) :=
  seg0 ++ (seg1 ++ (seg2 ++ (seg3 ++ (seg4 ++ (seg5 ++ (seg6 ++ (seg7 ++ (seg8 ++ (seg9 ++ (seg10 ++ (seg11)))))))))))

/-- The operations of @main's second window (statements 61 … 106), calls inlined. -/
abbrev ops1 : List (HloOp τ sig (Elt F)) :=
  seg12 ++ (seg13 ++ (seg14 ++ (seg15 ++ (seg16))))

/-- @main's 182 operations, in program order, calls inlined. -/
abbrev ops : List (HloOp τ sig (Elt F)) := ops0 ++ ops1

end Cert.ReferenceIdeal.RefRun

end
-- ==== Proof.Ref.MainEq.lean ====
/- @main is the straight line of `ops`: each call of an outlined function is its body over the call's buffer record,
   the records' fields are the literal references, and sequencing re-associates (`bind_assoc`, `pure_bind`), so each
   window of @main is `seq` of its window's operations; the two windows run one after the other are `seq` of the
   concatenation (`seq_append`). -/
import proofs.«137117_j83648783057448_1_alg».proof.Proof.Ref.Ops

noncomputable section

namespace Cert.ReferenceIdeal.RefRun

open Cert.ReferenceIdeal Cert.ReferenceIdeal.Gen Idealize.ShloMosaic Idealize.SL.Sem

variable {F : FTy → Type} [FloatOps F]

/-- A call of an outlined function is the straight line of its segment (the body unfolded at the call's record). -/
theorem call_seg0 : fn_log_softmax.body (F := F) (.of main_arg0) main_call0 = StableHlo.seq seg0 := by
  simp only [fn_log_softmax.body, StableHlo.seq, bind_assoc, pure_bind] <;> rfl
theorem call_seg2 : fn_take_along_axis.body (F := F) (.of main_v0) (.of main_v1) main_call1 = StableHlo.seq seg2 := by
  simp only [fn_take_along_axis.body, StableHlo.seq, bind_assoc, pure_bind] <;> rfl
theorem call_seg4 : fn_var.body (F := F) (.of main_v8) (.of main_c) main_call2 = StableHlo.seq seg4 := by
  simp only [fn_var.body, fn_where.body, StableHlo.seq, bind_assoc, pure_bind] <;> rfl
theorem call_seg6 : fn_where_0.body (F := F) (.of main_v13) (.of main_arg2) (.of main_cst_6) main_call3 = StableHlo.seq seg6 := by
  simp only [fn_where_0.body, StableHlo.seq, bind_assoc, pure_bind] <;> rfl
theorem call_seg8 : fn_norm.body (F := F) (.of main_arg3) main_call4 = StableHlo.seq seg8 := by
  simp only [fn_norm.body, StableHlo.seq, bind_assoc, pure_bind] <;> rfl
theorem call_seg10 : fn_log_softmax_1.body (F := F) (.of main_arg2) main_call5 = StableHlo.seq seg10 := by
  simp only [fn_log_softmax_1.body, StableHlo.seq, bind_assoc, pure_bind] <;> rfl
theorem call_seg13 : fn_where_2.body (F := F) (.of main_v32) (.of main_v41) (.of main_cst_15) main_call6 = StableHlo.seq seg13 := by
  simp only [fn_where_2.body, StableHlo.seq, bind_assoc, pure_bind] <;> rfl
theorem call_seg15 : fn_where.body (F := F) (.of main_v46) (.of main_v49) (.of main_cst_19) main_call7 = StableHlo.seq seg15 := by
  simp only [fn_where.body, StableHlo.seq, bind_assoc, pure_bind] <;> rfl

set_option maxRecDepth 8192 in
/-- @main's first window is the straight line of its operations. -/
theorem main_part0_eq (c : Dev nD) : main_part0 (F := F) c = StableHlo.seq ops0 := by
  simp only [main_part0, call_seg0, call_seg2, call_seg4, call_seg6, call_seg8, call_seg10,
    ops0, seg1, seg3, seg5, seg7, seg9, seg11,
    StableHlo.seq_append, StableHlo.seq, bind_assoc, pure_bind] <;> rfl

set_option maxRecDepth 8192 in
/-- @main's second window is the straight line of its operations. -/
theorem main_part1_eq (c : Dev nD) : main_part1 (F := F) c = StableHlo.seq ops1 := by
  simp only [main_part1, call_seg13, call_seg15,
    ops1, seg12, seg14, seg16,
    StableHlo.seq_append, StableHlo.seq, bind_assoc, pure_bind] <;> rfl

/-- @main is the straight line of `ops`. -/
theorem main_eq (c : Dev nD) : main (F := F) c = StableHlo.seq ops := by
  rw [show (ops : List (HloOp τ sig (Elt F))) = ops0 ++ ops1 from rfl, StableHlo.seq_append, ← main_part0_eq c, ← main_part1_eq c]
  rfl

end Cert.ReferenceIdeal.RefRun

end
-- ==== Proof.Ref.Side.lean ====
/- Side facts of the operation list, segment by segment and then for the whole of `ops`: every operation touches
   TensorCore references only; every operation determines its results (none leaves a buffer's contents open); and no
   operation writes one of the five argument buffers, so the fold of the list leaves each argument as it found it. -/
import proofs.«137117_j83648783057448_1_alg».proof.Proof.Ref.Ops

noncomputable section

namespace Cert.ReferenceIdeal.RefRun

open Cert.ReferenceIdeal Cert.ReferenceIdeal.Gen Idealize.ShloMosaic Idealize.SL.Sem

variable {F : FTy → Type} [FloatOps F]

/-- The fold of a concatenation is the fold of the second list from the fold of the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## Every operation touches TensorCore references only -/
theorem seg0_sub : (seg0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
theorem seg1_sub : (seg1 : List (HloOp τ sig (Elt F))).Forall fun op => op.bufs ⊆ StableHlo.tcRefs τ sig :=
  StableHlo.unary_bufs_sub ..
theorem seg2_sub : (seg2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
theorem seg3_sub : (seg3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub ..⟩
theorem seg4_sub : (seg4 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub ..⟩
theorem seg5_sub : (seg5 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
theorem seg6_sub : (seg6 : List (HloOp τ sig (Elt F))).Forall fun op => op.bufs ⊆ StableHlo.tcRefs τ sig :=
  ⟨StableHlo.unary_bufs_sub .., StableHlo.unary_bufs_sub .., StableHlo.ternary_bufs_sub ..⟩
theorem seg7_sub : (seg7 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub ..⟩
theorem seg8_sub : (seg8 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub ..⟩
theorem seg9_sub : (seg9 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.binary_bufs_sub ..⟩
theorem seg10_sub : (seg10 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
theorem seg11_sub : (seg11 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub ..⟩
theorem seg12_sub : (seg12 : List (HloOp τ sig (Elt F))).Forall fun op => op.bufs ⊆ StableHlo.tcRefs τ sig :=
  ⟨StableHlo.binary_bufs_sub .., StableHlo.nullary_bufs_sub ..⟩
theorem seg13_sub : (seg13 : List (HloOp τ sig (Elt F))).Forall fun op => op.bufs ⊆ StableHlo.tcRefs τ sig :=
  ⟨StableHlo.unary_bufs_sub .., StableHlo.unary_bufs_sub .., StableHlo.ternary_bufs_sub ..⟩
theorem seg14_sub : (seg14 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub ..⟩
theorem seg15_sub : (seg15 : List (HloOp τ sig (Elt F))).Forall fun op => op.bufs ⊆ StableHlo.tcRefs τ sig :=
  ⟨StableHlo.unary_bufs_sub .., StableHlo.ternary_bufs_sub ..⟩
theorem seg16_sub : (seg16 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.binary_bufs_sub .., StableHlo.binary_bufs_sub .., StableHlo.binary_bufs_sub ..⟩

theorem ops_sub : (ops : List (HloOp τ sig (Elt F))).Forall fun op => op.bufs ⊆ StableHlo.tcRefs τ sig := by
  simp only [ops, ops0, ops1, List.forall_append]
  exact ⟨⟨seg0_sub, ⟨seg1_sub, ⟨seg2_sub, ⟨seg3_sub, ⟨seg4_sub, ⟨seg5_sub, ⟨seg6_sub, ⟨seg7_sub, ⟨seg8_sub, ⟨seg9_sub, ⟨seg10_sub, seg11_sub⟩⟩⟩⟩⟩⟩⟩⟩⟩⟩⟩, ⟨seg12_sub, ⟨seg13_sub, ⟨seg14_sub, ⟨seg15_sub, seg16_sub⟩⟩⟩⟩⟩

/-! ## Every operation determines its results -/
theorem seg0_fresh : (seg0 : List (HloOp τ sig (Elt F))).Forall fun op => op.fresh = ∅ :=
  ⟨rfl, rfl, rfl, rfl, rfl, rfl, rfl, rfl, rfl, rfl, rfl, rfl, rfl, rfl, rfl⟩
theorem seg1_fresh : (seg1 : List (HloOp τ sig (Elt F))).Forall fun op => op.fresh = ∅ :=
  rfl
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem seg3_fresh : (seg3 : List (HloOp τ sig (Elt F))).Forall fun op => op.fresh = ∅ :=
  ⟨rfl, rfl, rfl, rfl, rfl, rfl, rfl, rfl, rfl, rfl, rfl⟩
theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem seg5_fresh : (seg5 : List (HloOp τ sig (Elt F))).Forall fun op => op.fresh = ∅ :=
  ⟨rfl, rfl, rfl, rfl, rfl, rfl, rfl, rfl⟩
theorem seg6_fresh : (seg6 : List (HloOp τ sig (Elt F))).Forall fun op => op.fresh = ∅ :=
  ⟨rfl, rfl, rfl⟩
theorem seg7_fresh : (seg7 : List (HloOp τ sig (Elt F))).Forall fun op => op.fresh = ∅ :=
  ⟨rfl, rfl, rfl, rfl, rfl, rfl, rfl, rfl⟩
theorem seg8_fresh : (seg8 : List (HloOp τ sig (Elt F))).Forall fun op => op.fresh = ∅ :=
  ⟨rfl, rfl, rfl, rfl, rfl⟩
theorem seg9_fresh : (seg9 : List (HloOp τ sig (Elt F))).Forall fun op => op.fresh = ∅ :=
  ⟨rfl, rfl, rfl, rfl, rfl, rfl, rfl, rfl, rfl, rfl, rfl, rfl, rfl, rfl, rfl⟩
theorem seg10_fresh : (seg10 : List (HloOp τ sig (Elt F))).Forall fun op => op.fresh = ∅ :=
  ⟨rfl, rfl, rfl, rfl, rfl, rfl, rfl, rfl, rfl, rfl, rfl, rfl, rfl, rfl, rfl⟩
theorem seg11_fresh : (seg11 : List (HloOp τ sig (Elt F))).Forall fun op => op.fresh = ∅ :=
  ⟨rfl, rfl, rfl, rfl, rfl, rfl, rfl, rfl, rfl, rfl, rfl⟩
theorem seg12_fresh : (seg12 : List (HloOp τ sig (Elt F))).Forall fun op => op.fresh = ∅ :=
  ⟨rfl, rfl⟩
theorem seg13_fresh : (seg13 : List (HloOp τ sig (Elt F))).Forall fun op => op.fresh = ∅ :=
  ⟨rfl, rfl, rfl⟩
theorem seg14_fresh : (seg14 : List (HloOp τ sig (Elt F))).Forall fun op => op.fresh = ∅ :=
  ⟨rfl, rfl, rfl, rfl, rfl, rfl, rfl, rfl, rfl⟩
theorem seg15_fresh : (seg15 : List (HloOp τ sig (Elt F))).Forall fun op => op.fresh = ∅ :=
  ⟨rfl, rfl⟩
theorem seg16_fresh : (seg16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ := by
  refine List.forall_iff_forall_mem.1 ?_
  simp only [ops, ops0, ops1, List.forall_append]
  exact ⟨⟨seg0_fresh, ⟨seg1_fresh, ⟨seg2_fresh, ⟨seg3_fresh, ⟨seg4_fresh, ⟨seg5_fresh, ⟨seg6_fresh, ⟨seg7_fresh, ⟨seg8_fresh, ⟨seg9_fresh, ⟨seg10_fresh, seg11_fresh⟩⟩⟩⟩⟩⟩⟩⟩⟩⟩⟩, ⟨seg12_fresh, ⟨seg13_fresh, ⟨seg14_fresh, ⟨seg15_fresh, seg16_fresh⟩⟩⟩⟩⟩

/-! ## No operation writes an argument buffer -/
theorem seg0_arg0 (V : Valuation τ sig (Elt F)) : StableHlo.after seg0 V (Proc.devRef (τ := τ) .tc main_arg0) = V (Proc.devRef (τ := τ) .tc main_arg0) := by after_results_simp
theorem seg0_arg1 (V : Valuation τ sig (Elt F)) : StableHlo.after seg0 V (Proc.devRef (τ := τ) .tc main_arg1) = V (Proc.devRef (τ := τ) .tc main_arg1) := by after_results_simp
theorem seg0_arg2 (V : Valuation τ sig (Elt F)) : StableHlo.after seg0 V (Proc.devRef (τ := τ) .tc main_arg2) = V (Proc.devRef (τ := τ) .tc main_arg2) := by after_results_simp
theorem seg0_arg3 (V : Valuation τ sig (Elt F)) : StableHlo.after seg0 V (Proc.devRef (τ := τ) .tc main_arg3) = V (Proc.devRef (τ := τ) .tc main_arg3) := by after_results_simp
theorem seg0_arg4 (V : Valuation τ sig (Elt F)) : StableHlo.after seg0 V (Proc.devRef (τ := τ) .tc main_arg4) = V (Proc.devRef (τ := τ) .tc main_arg4) := by after_results_simp
theorem seg1_arg0 (V : Valuation τ sig (Elt F)) : StableHlo.after seg1 V (Proc.devRef (τ := τ) .tc main_arg0) = V (Proc.devRef (τ := τ) .tc main_arg0) := by after_results_simp
theorem seg1_arg1 (V : Valuation τ sig (Elt F)) : StableHlo.after seg1 V (Proc.devRef (τ := τ) .tc main_arg1) = V (Proc.devRef (τ := τ) .tc main_arg1) := by after_results_simp
theorem seg1_arg2 (V : Valuation τ sig (Elt F)) : StableHlo.after seg1 V (Proc.devRef (τ := τ) .tc main_arg2) = V (Proc.devRef (τ := τ) .tc main_arg2) := by after_results_simp
theorem seg1_arg3 (V : Valuation τ sig (Elt F)) : StableHlo.after seg1 V (Proc.devRef (τ := τ) .tc main_arg3) = V (Proc.devRef (τ := τ) .tc main_arg3) := by after_results_simp
theorem seg1_arg4 (V : Valuation τ sig (Elt F)) : StableHlo.after seg1 V (Proc.devRef (τ := τ) .tc main_arg4) = V (Proc.devRef (τ := τ) .tc main_arg4) := by after_results_simp
theorem seg2_arg0 (V : Valuation τ sig (Elt F)) : StableHlo.after seg2 V (Proc.devRef (τ := τ) .tc main_arg0) = V (Proc.devRef (τ := τ) .tc main_arg0) := by after_results_simp
theorem seg2_arg1 (V : Valuation τ sig (Elt F)) : StableHlo.after seg2 V (Proc.devRef (τ := τ) .tc main_arg1) = V (Proc.devRef (τ := τ) .tc main_arg1) := by after_results_simp
theorem seg2_arg2 (V : Valuation τ sig (Elt F)) : StableHlo.after seg2 V (Proc.devRef (τ := τ) .tc main_arg2) = V (Proc.devRef (τ := τ) .tc main_arg2) := by after_results_simp
theorem seg2_arg3 (V : Valuation τ sig (Elt F)) : StableHlo.after seg2 V (Proc.devRef (τ := τ) .tc main_arg3) = V (Proc.devRef (τ := τ) .tc main_arg3) := by after_results_simp
theorem seg2_arg4 (V : Valuation τ sig (Elt F)) : StableHlo.after seg2 V (Proc.devRef (τ := τ) .tc main_arg4) = V (Proc.devRef (τ := τ) .tc main_arg4) := by after_results_simp
theorem seg3_arg0 (V : Valuation τ sig (Elt F)) : StableHlo.after seg3 V (Proc.devRef (τ := τ) .tc main_arg0) = V (Proc.devRef (τ := τ) .tc main_arg0) := by after_results_simp
theorem seg3_arg1 (V : Valuation τ sig (Elt F)) : StableHlo.after seg3 V (Proc.devRef (τ := τ) .tc main_arg1) = V (Proc.devRef (τ := τ) .tc main_arg1) := by after_results_simp
theorem seg3_arg2 (V : Valuation τ sig (Elt F)) : StableHlo.after seg3 V (Proc.devRef (τ := τ) .tc main_arg2) = V (Proc.devRef (τ := τ) .tc main_arg2) := by after_results_simp
theorem seg3_arg3 (V : Valuation τ sig (Elt F)) : StableHlo.after seg3 V (Proc.devRef (τ := τ) .tc main_arg3) = V (Proc.devRef (τ := τ) .tc main_arg3) := by after_results_simp
theorem seg3_arg4 (V : Valuation τ sig (Elt F)) : StableHlo.after seg3 V (Proc.devRef (τ := τ) .tc main_arg4) = V (Proc.devRef (τ := τ) .tc main_arg4) := by after_results_simp
theorem seg4_arg0 (V : Valuation τ sig (Elt F)) : StableHlo.after seg4 V (Proc.devRef (τ := τ) .tc main_arg0) = V (Proc.devRef (τ := τ) .tc main_arg0) := by after_results_simp
theorem seg4_arg1 (V : Valuation τ sig (Elt F)) : StableHlo.after seg4 V (Proc.devRef (τ := τ) .tc main_arg1) = V (Proc.devRef (τ := τ) .tc main_arg1) := by after_results_simp
theorem seg4_arg2 (V : Valuation τ sig (Elt F)) : StableHlo.after seg4 V (Proc.devRef (τ := τ) .tc main_arg2) = V (Proc.devRef (τ := τ) .tc main_arg2) := by after_results_simp
theorem seg4_arg3 (V : Valuation τ sig (Elt F)) : StableHlo.after seg4 V (Proc.devRef (τ := τ) .tc main_arg3) = V (Proc.devRef (τ := τ) .tc main_arg3) := by after_results_simp
theorem seg4_arg4 (V : Valuation τ sig (Elt F)) : StableHlo.after seg4 V (Proc.devRef (τ := τ) .tc main_arg4) = V (Proc.devRef (τ := τ) .tc main_arg4) := by after_results_simp
theorem seg5_arg0 (V : Valuation τ sig (Elt F)) : StableHlo.after seg5 V (Proc.devRef (τ := τ) .tc main_arg0) = V (Proc.devRef (τ := τ) .tc main_arg0) := by after_results_simp
theorem seg5_arg1 (V : Valuation τ sig (Elt F)) : StableHlo.after seg5 V (Proc.devRef (τ := τ) .tc main_arg1) = V (Proc.devRef (τ := τ) .tc main_arg1) := by after_results_simp
theorem seg5_arg2 (V : Valuation τ sig (Elt F)) : StableHlo.after seg5 V (Proc.devRef (τ := τ) .tc main_arg2) = V (Proc.devRef (τ := τ) .tc main_arg2) := by after_results_simp
theorem seg5_arg3 (V : Valuation τ sig (Elt F)) : StableHlo.after seg5 V (Proc.devRef (τ := τ) .tc main_arg3) = V (Proc.devRef (τ := τ) .tc main_arg3) := by after_results_simp
theorem seg5_arg4 (V : Valuation τ sig (Elt F)) : StableHlo.after seg5 V (Proc.devRef (τ := τ) .tc main_arg4) = V (Proc.devRef (τ := τ) .tc main_arg4) := by after_results_simp
theorem seg6_arg0 (V : Valuation τ sig (Elt F)) : StableHlo.after seg6 V (Proc.devRef (τ := τ) .tc main_arg0) = V (Proc.devRef (τ := τ) .tc main_arg0) := by after_results_simp
theorem seg6_arg1 (V : Valuation τ sig (Elt F)) : StableHlo.after seg6 V (Proc.devRef (τ := τ) .tc main_arg1) = V (Proc.devRef (τ := τ) .tc main_arg1) := by after_results_simp
theorem seg6_arg2 (V : Valuation τ sig (Elt F)) : StableHlo.after seg6 V (Proc.devRef (τ := τ) .tc main_arg2) = V (Proc.devRef (τ := τ) .tc main_arg2) := by after_results_simp
theorem seg6_arg3 (V : Valuation τ sig (Elt F)) : StableHlo.after seg6 V (Proc.devRef (τ := τ) .tc main_arg3) = V (Proc.devRef (τ := τ) .tc main_arg3) := by after_results_simp
theorem seg6_arg4 (V : Valuation τ sig (Elt F)) : StableHlo.after seg6 V (Proc.devRef (τ := τ) .tc main_arg4) = V (Proc.devRef (τ := τ) .tc main_arg4) := by after_results_simp
theorem seg7_arg0 (V : Valuation τ sig (Elt F)) : StableHlo.after seg7 V (Proc.devRef (τ := τ) .tc main_arg0) = V (Proc.devRef (τ := τ) .tc main_arg0) := by after_results_simp
theorem seg7_arg1 (V : Valuation τ sig (Elt F)) : StableHlo.after seg7 V (Proc.devRef (τ := τ) .tc main_arg1) = V (Proc.devRef (τ := τ) .tc main_arg1) := by after_results_simp
theorem seg7_arg2 (V : Valuation τ sig (Elt F)) : StableHlo.after seg7 V (Proc.devRef (τ := τ) .tc main_arg2) = V (Proc.devRef (τ := τ) .tc main_arg2) := by after_results_simp
theorem seg7_arg3 (V : Valuation τ sig (Elt F)) : StableHlo.after seg7 V (Proc.devRef (τ := τ) .tc main_arg3) = V (Proc.devRef (τ := τ) .tc main_arg3) := by after_results_simp
theorem seg7_arg4 (V : Valuation τ sig (Elt F)) : StableHlo.after seg7 V (Proc.devRef (τ := τ) .tc main_arg4) = V (Proc.devRef (τ := τ) .tc main_arg4) := by after_results_simp
theorem seg8_arg0 (V : Valuation τ sig (Elt F)) : StableHlo.after seg8 V (Proc.devRef (τ := τ) .tc main_arg0) = V (Proc.devRef (τ := τ) .tc main_arg0) := by after_results_simp
theorem seg8_arg1 (V : Valuation τ sig (Elt F)) : StableHlo.after seg8 V (Proc.devRef (τ := τ) .tc main_arg1) = V (Proc.devRef (τ := τ) .tc main_arg1) := by after_results_simp
theorem seg8_arg2 (V : Valuation τ sig (Elt F)) : StableHlo.after seg8 V (Proc.devRef (τ := τ) .tc main_arg2) = V (Proc.devRef (τ := τ) .tc main_arg2) := by after_results_simp
theorem seg8_arg3 (V : Valuation τ sig (Elt F)) : StableHlo.after seg8 V (Proc.devRef (τ := τ) .tc main_arg3) = V (Proc.devRef (τ := τ) .tc main_arg3) := by after_results_simp
theorem seg8_arg4 (V : Valuation τ sig (Elt F)) : StableHlo.after seg8 V (Proc.devRef (τ := τ) .tc main_arg4) = V (Proc.devRef (τ := τ) .tc main_arg4) := by after_results_simp
theorem seg9_arg0 (V : Valuation τ sig (Elt F)) : StableHlo.after seg9 V (Proc.devRef (τ := τ) .tc main_arg0) = V (Proc.devRef (τ := τ) .tc main_arg0) := by after_results_simp
theorem seg9_arg1 (V : Valuation τ sig (Elt F)) : StableHlo.after seg9 V (Proc.devRef (τ := τ) .tc main_arg1) = V (Proc.devRef (τ := τ) .tc main_arg1) := by after_results_simp
theorem seg9_arg2 (V : Valuation τ sig (Elt F)) : StableHlo.after seg9 V (Proc.devRef (τ := τ) .tc main_arg2) = V (Proc.devRef (τ := τ) .tc main_arg2) := by after_results_simp
theorem seg9_arg3 (V : Valuation τ sig (Elt F)) : StableHlo.after seg9 V (Proc.devRef (τ := τ) .tc main_arg3) = V (Proc.devRef (τ := τ) .tc main_arg3) := by after_results_simp
theorem seg9_arg4 (V : Valuation τ sig (Elt F)) : StableHlo.after seg9 V (Proc.devRef (τ := τ) .tc main_arg4) = V (Proc.devRef (τ := τ) .tc main_arg4) := by after_results_simp
theorem seg10_arg0 (V : Valuation τ sig (Elt F)) : StableHlo.after seg10 V (Proc.devRef (τ := τ) .tc main_arg0) = V (Proc.devRef (τ := τ) .tc main_arg0) := by after_results_simp
theorem seg10_arg1 (V : Valuation τ sig (Elt F)) : StableHlo.after seg10 V (Proc.devRef (τ := τ) .tc main_arg1) = V (Proc.devRef (τ := τ) .tc main_arg1) := by after_results_simp
theorem seg10_arg2 (V : Valuation τ sig (Elt F)) : StableHlo.after seg10 V (Proc.devRef (τ := τ) .tc main_arg2) = V (Proc.devRef (τ := τ) .tc main_arg2) := by after_results_simp
theorem seg10_arg3 (V : Valuation τ sig (Elt F)) : StableHlo.after seg10 V (Proc.devRef (τ := τ) .tc main_arg3) = V (Proc.devRef (τ := τ) .tc main_arg3) := by after_results_simp
theorem seg10_arg4 (V : Valuation τ sig (Elt F)) : StableHlo.after seg10 V (Proc.devRef (τ := τ) .tc main_arg4) = V (Proc.devRef (τ := τ) .tc main_arg4) := by after_results_simp
theorem seg11_arg0 (V : Valuation τ sig (Elt F)) : StableHlo.after seg11 V (Proc.devRef (τ := τ) .tc main_arg0) = V (Proc.devRef (τ := τ) .tc main_arg0) := by after_results_simp
theorem seg11_arg1 (V : Valuation τ sig (Elt F)) : StableHlo.after seg11 V (Proc.devRef (τ := τ) .tc main_arg1) = V (Proc.devRef (τ := τ) .tc main_arg1) := by after_results_simp
theorem seg11_arg2 (V : Valuation τ sig (Elt F)) : StableHlo.after seg11 V (Proc.devRef (τ := τ) .tc main_arg2) = V (Proc.devRef (τ := τ) .tc main_arg2) := by after_results_simp
theorem seg11_arg3 (V : Valuation τ sig (Elt F)) : StableHlo.after seg11 V (Proc.devRef (τ := τ) .tc main_arg3) = V (Proc.devRef (τ := τ) .tc main_arg3) := by after_results_simp
theorem seg11_arg4 (V : Valuation τ sig (Elt F)) : StableHlo.after seg11 V (Proc.devRef (τ := τ) .tc main_arg4) = V (Proc.devRef (τ := τ) .tc main_arg4) := by after_results_simp
theorem seg12_arg0 (V : Valuation τ sig (Elt F)) : StableHlo.after seg12 V (Proc.devRef (τ := τ) .tc main_arg0) = V (Proc.devRef (τ := τ) .tc main_arg0) := by after_results_simp
theorem seg12_arg1 (V : Valuation τ sig (Elt F)) : StableHlo.after seg12 V (Proc.devRef (τ := τ) .tc main_arg1) = V (Proc.devRef (τ := τ) .tc main_arg1) := by after_results_simp
theorem seg12_arg2 (V : Valuation τ sig (Elt F)) : StableHlo.after seg12 V (Proc.devRef (τ := τ) .tc main_arg2) = V (Proc.devRef (τ := τ) .tc main_arg2) := by after_results_simp
theorem seg12_arg3 (V : Valuation τ sig (Elt F)) : StableHlo.after seg12 V (Proc.devRef (τ := τ) .tc main_arg3) = V (Proc.devRef (τ := τ) .tc main_arg3) := by after_results_simp
theorem seg12_arg4 (V : Valuation τ sig (Elt F)) : StableHlo.after seg12 V (Proc.devRef (τ := τ) .tc main_arg4) = V (Proc.devRef (τ := τ) .tc main_arg4) := by after_results_simp
theorem seg13_arg0 (V : Valuation τ sig (Elt F)) : StableHlo.after seg13 V (Proc.devRef (τ := τ) .tc main_arg0) = V (Proc.devRef (τ := τ) .tc main_arg0) := by after_results_simp
theorem seg13_arg1 (V : Valuation τ sig (Elt F)) : StableHlo.after seg13 V (Proc.devRef (τ := τ) .tc main_arg1) = V (Proc.devRef (τ := τ) .tc main_arg1) := by after_results_simp
theorem seg13_arg2 (V : Valuation τ sig (Elt F)) : StableHlo.after seg13 V (Proc.devRef (τ := τ) .tc main_arg2) = V (Proc.devRef (τ := τ) .tc main_arg2) := by after_results_simp
theorem seg13_arg3 (V : Valuation τ sig (Elt F)) : StableHlo.after seg13 V (Proc.devRef (τ := τ) .tc main_arg3) = V (Proc.devRef (τ := τ) .tc main_arg3) := by after_results_simp
theorem seg13_arg4 (V : Valuation τ sig (Elt F)) : StableHlo.after seg13 V (Proc.devRef (τ := τ) .tc main_arg4) = V (Proc.devRef (τ := τ) .tc main_arg4) := by after_results_simp
theorem seg14_arg0 (V : Valuation τ sig (Elt F)) : StableHlo.after seg14 V (Proc.devRef (τ := τ) .tc main_arg0) = V (Proc.devRef (τ := τ) .tc main_arg0) := by after_results_simp
theorem seg14_arg1 (V : Valuation τ sig (Elt F)) : StableHlo.after seg14 V (Proc.devRef (τ := τ) .tc main_arg1) = V (Proc.devRef (τ := τ) .tc main_arg1) := by after_results_simp
theorem seg14_arg2 (V : Valuation τ sig (Elt F)) : StableHlo.after seg14 V (Proc.devRef (τ := τ) .tc main_arg2) = V (Proc.devRef (τ := τ) .tc main_arg2) := by after_results_simp
theorem seg14_arg3 (V : Valuation τ sig (Elt F)) : StableHlo.after seg14 V (Proc.devRef (τ := τ) .tc main_arg3) = V (Proc.devRef (τ := τ) .tc main_arg3) := by after_results_simp
theorem seg14_arg4 (V : Valuation τ sig (Elt F)) : StableHlo.after seg14 V (Proc.devRef (τ := τ) .tc main_arg4) = V (Proc.devRef (τ := τ) .tc main_arg4) := by after_results_simp
theorem seg15_arg0 (V : Valuation τ sig (Elt F)) : StableHlo.after seg15 V (Proc.devRef (τ := τ) .tc main_arg0) = V (Proc.devRef (τ := τ) .tc main_arg0) := by after_results_simp
theorem seg15_arg1 (V : Valuation τ sig (Elt F)) : StableHlo.after seg15 V (Proc.devRef (τ := τ) .tc main_arg1) = V (Proc.devRef (τ := τ) .tc main_arg1) := by after_results_simp
theorem seg15_arg2 (V : Valuation τ sig (Elt F)) : StableHlo.after seg15 V (Proc.devRef (τ := τ) .tc main_arg2) = V (Proc.devRef (τ := τ) .tc main_arg2) := by after_results_simp
theorem seg15_arg3 (V : Valuation τ sig (Elt F)) : StableHlo.after seg15 V (Proc.devRef (τ := τ) .tc main_arg3) = V (Proc.devRef (τ := τ) .tc main_arg3) := by after_results_simp
theorem seg15_arg4 (V : Valuation τ sig (Elt F)) : StableHlo.after seg15 V (Proc.devRef (τ := τ) .tc main_arg4) = V (Proc.devRef (τ := τ) .tc main_arg4) := by after_results_simp
theorem seg16_arg0 (V : Valuation τ sig (Elt F)) : StableHlo.after seg16 V (Proc.devRef (τ := τ) .tc main_arg0) = V (Proc.devRef (τ := τ) .tc main_arg0) := by after_results_simp
theorem seg16_arg1 (V : Valuation τ sig (Elt F)) : StableHlo.after seg16 V (Proc.devRef (τ := τ) .tc main_arg1) = V (Proc.devRef (τ := τ) .tc main_arg1) := by after_results_simp
theorem seg16_arg2 (V : Valuation τ sig (Elt F)) : StableHlo.after seg16 V (Proc.devRef (τ := τ) .tc main_arg2) = V (Proc.devRef (τ := τ) .tc main_arg2) := by after_results_simp
theorem seg16_arg3 (V : Valuation τ sig (Elt F)) : StableHlo.after seg16 V (Proc.devRef (τ := τ) .tc main_arg3) = V (Proc.devRef (τ := τ) .tc main_arg3) := by after_results_simp
theorem seg16_arg4 (V : Valuation τ sig (Elt F)) : StableHlo.after seg16 V (Proc.devRef (τ := τ) .tc main_arg4) = V (Proc.devRef (τ := τ) .tc main_arg4) := by after_results_simp

/-- The fold of `ops` leaves %arg0's buffer as it found it. -/
theorem ops_arg0 (V : Valuation τ sig (Elt F)) : StableHlo.after ops V (Proc.devRef (τ := τ) .tc main_arg0) = V (Proc.devRef (τ := τ) .tc main_arg0) := by
  simp only [ops, ops0, ops1, after_append]
  rw [seg16_arg0, seg15_arg0, seg14_arg0, seg13_arg0, seg12_arg0, seg11_arg0, seg10_arg0, seg9_arg0, seg8_arg0, seg7_arg0, seg6_arg0, seg5_arg0, seg4_arg0, seg3_arg0, seg2_arg0, seg1_arg0, seg0_arg0]
/-- The fold of `ops` leaves %arg1's buffer as it found it. -/
theorem ops_arg1 (V : Valuation τ sig (Elt F)) : StableHlo.after ops V (Proc.devRef (τ := τ) .tc main_arg1) = V (Proc.devRef (τ := τ) .tc main_arg1) := by
  simp only [ops, ops0, ops1, after_append]
  rw [seg16_arg1, seg15_arg1, seg14_arg1, seg13_arg1, seg12_arg1, seg11_arg1, seg10_arg1, seg9_arg1, seg8_arg1, seg7_arg1, seg6_arg1, seg5_arg1, seg4_arg1, seg3_arg1, seg2_arg1, seg1_arg1, seg0_arg1]
/-- The fold of `ops` leaves %arg2's buffer as it found it. -/
theorem ops_arg2 (V : Valuation τ sig (Elt F)) : StableHlo.after ops V (Proc.devRef (τ := τ) .tc main_arg2) = V (Proc.devRef (τ := τ) .tc main_arg2) := by
  simp only [ops, ops0, ops1, after_append]
  rw [seg16_arg2, seg15_arg2, seg14_arg2, seg13_arg2, seg12_arg2, seg11_arg2, seg10_arg2, seg9_arg2, seg8_arg2, seg7_arg2, seg6_arg2, seg5_arg2, seg4_arg2, seg3_arg2, seg2_arg2, seg1_arg2, seg0_arg2]
/-- The fold of `ops` leaves %arg3's buffer as it found it. -/
theorem ops_arg3 (V : Valuation τ sig (Elt F)) : StableHlo.after ops V (Proc.devRef (τ := τ) .tc main_arg3) = V (Proc.devRef (τ := τ) .tc main_arg3) := by
  simp only [ops, ops0, ops1, after_append]
  rw [seg16_arg3, seg15_arg3, seg14_arg3, seg13_arg3, seg12_arg3, seg11_arg3, seg10_arg3, seg9_arg3, seg8_arg3, seg7_arg3, seg6_arg3, seg5_arg3, seg4_arg3, seg3_arg3, seg2_arg3, seg1_arg3, seg0_arg3]
/-- The fold of `ops` leaves %arg4's buffer as it found it. -/
theorem ops_arg4 (V : Valuation τ sig (Elt F)) : StableHlo.after ops V (Proc.devRef (τ := τ) .tc main_arg4) = V (Proc.devRef (τ := τ) .tc main_arg4) := by
  simp only [ops, ops0, ops1, after_append]
  rw [seg16_arg4, seg15_arg4, seg14_arg4, seg13_arg4, seg12_arg4, seg11_arg4, seg10_arg4, seg9_arg4, seg8_arg4, seg7_arg4, seg6_arg4, seg5_arg4, seg4_arg4, seg3_arg4, seg2_arg4, seg1_arg4, seg0_arg4]

end Cert.ReferenceIdeal.RefRun

end
-- ==== Proof.Ref.Run.lean ====
/- The run of the reference program: @main is the straight line of `ops` (Ref/MainEq.lean), every operation of which
   touches TensorCore references only and determines its results (Ref/Side.lean); the signature scopes no TensorCore
   buffer and no semaphore. Hence from any memory with zero counters every weakly fair execution terminates, and each
   TensorCore buffer ends at the fold of `ops` over the launch contents. No operation writes an argument buffer, so
   the five arguments end as they were launched: the frame claim. -/
import proofs.«137117_j83648783057448_1_alg».proof.Defs
import proofs.«137117_j83648783057448_1_alg».proof.Proof.Gen.ReferenceIdeal
import proofs.«137117_j83648783057448_1_alg».proof.Proof.Gen.Pre_finite_inputs
import proofs.«137117_j83648783057448_1_alg».proof.Proof.Ref.MainEq
import proofs.«137117_j83648783057448_1_alg».proof.Proof.Ref.Side

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The signature scopes no TensorCore buffer: every buffer is a tensor value of @main or of a call. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- On every device, for any float values, from any memory with zero counters: every weakly fair execution of
    @main terminates, and every TensorCore buffer ends at the fold of `ops` over the device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

/-- The same run, read at the five argument buffers: each ends holding what it was launched with. -/
theorem args_kept (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_arg0).trans (ops_arg0 _), (h c main_arg1).trans (ops_arg1 _),
      (h c main_arg2).trans (ops_arg2 _), (h c main_arg3).trans (ops_arg3 _), (h c main_arg4).trans (ops_arg4 _)⟩)
    (run m ρ)

/-- The reference program runs and its argument arrays end unchanged (at the ideal floats, for every launch memory:
    the precondition on the inputs is not needed for this). -/
theorem frame : Cert.frame_ReferenceIdeal := fun m g _ => args_kept (F := Ideal) m g

end Cert.ReferenceIdeal.RefRun

end
-- ==== Proof.Val.Defs.lean ====
/-
  The two sides of the value bridge, named.

  The kernel walks a 16 × 16 grid of 512 × 512 tiles of the 8192 × 8192 pair matrix. At the grid point with
  coordinates (i, j) its payload reads rows 512·i … 512·i + 511 of the normalised embeddings and of the log
  probabilities, rows 512·j … of the embeddings and of the probabilities, and columns 512·j … of the row of
  self terms, forms the tile's mask and masked terms, and adds the tile's two lane sums to two running scalars.
  The reference forms the whole matrices at once and reduces them. This module fixes the vocabulary: the block
  extractors, what one grid point adds (`tileKL`, `tileNP`), and the reference's whole-array terms (`refKL`,
  `refNP`), each written with the operations of the side it belongs to.
-/
import proofs.«137117_j83648783057448_1_alg».proof.Proof.Gen.KernelIdeal.Skeleton
import proofs.«137117_j83648783057448_1_alg».proof.Proof.Gen.ReferenceIdeal
import Idealize.ShloMosaic.Lib.ValueIdx
import Idealize.ShloMosaic.Lib.Pipeline.Value

noncomputable section

namespace Cert.Bridge

open Idealize.ShloMosaic Idealize.ShloMosaic.ValueIdx

/-- Rows `512·i … 512·i + 511` of an `[8192, 128]` array. -/
def rowsBlk128 (x : FVec Ideal Cert.KernelIdeal.S8192x128 .f32) (i : Fin 16) : Vec Ideal Cert.KernelIdeal.S512x128 .f32 :=
  fun y => x (ix2 (⟨512 * i.val + (y 0).val, by have := idx2_lt0 y; have := i.isLt; omega⟩ : Fin 8192) (⟨(y 1).val, idx2_lt1 y⟩ : Fin 128))

/-- Rows `512·i … 512·i + 511` of an `[8192, 8]` array. -/
def rowsBlk8 (x : FVec Ideal Cert.KernelIdeal.S8192x8 .f32) (i : Fin 16) : Vec Ideal Cert.KernelIdeal.S512x8 .f32 :=
  fun y => x (ix2 (⟨512 * i.val + (y 0).val, by have := idx2_lt0 y; have := i.isLt; omega⟩ : Fin 8192) (⟨(y 1).val, idx2_lt1 y⟩ : Fin 8))

/-- Columns `512·j … 512·j + 511` of a `[1, 8192]` row. -/
def colsBlk (x : FVec Ideal Cert.KernelIdeal.S1x8192 .f32) (j : Fin 16) : Vec Ideal Cert.KernelIdeal.S1x512 .f32 :=
  fun y => x (ix2 (⟨(y 0).val, idx2_lt0 y⟩ : Fin 1) (⟨512 * j.val + (y 1).val, by have := idx2_lt1 y; have := j.isLt; omega⟩ : Fin 8192))

/-- A grid point of the kernel's 16 × 16 grid, in the order the pipeline visits them. -/
abbrev Pt : Type := Fin Cert.KernelIdeal.grid0.N

/-- The tile's row block number at a grid point. -/
def ptI (t : Pt) : Fin 16 := Cert.KernelIdeal.grid0.coords t 0
/-- The tile's column block number at a grid point. -/
def ptJ (t : Pt) : Fin 16 := Cert.KernelIdeal.grid0.coords t 1

/-- The tile mask the kernel forms at a grid point: similarity above the threshold, off the diagonal. -/
def tileMask (nrm : FVec Ideal Cert.KernelIdeal.S8192x128 .f32) (t : Pt) : IVec Cert.KernelIdeal.S512x512 1 :=
  Cert.KernelIdeal.Gen.k0_pay5 (F := Ideal) (Cert.KernelIdeal.grid0.coords t) (rowsBlk128 nrm (ptI t)) (rowsBlk128 nrm (ptJ t))

/-- The masked terms the kernel forms at a grid point. -/
def tileTerms (nrm : FVec Ideal Cert.KernelIdeal.S8192x128 .f32) (logp p : FVec Ideal Cert.KernelIdeal.S8192x8 .f32)
    (a : FVec Ideal Cert.KernelIdeal.S1x8192 .f32) (t : Pt) : FVec Ideal Cert.KernelIdeal.S1x512x512 .f32 :=
  Cert.KernelIdeal.Gen.k0_pay6 (F := Ideal) (Cert.KernelIdeal.grid0.coords t) (rowsBlk128 nrm (ptI t)) (rowsBlk128 nrm (ptJ t))
    (rowsBlk8 logp (ptI t)) (rowsBlk8 p (ptJ t)) (colsBlk a (ptJ t))

/-- The lane sum of a tile of terms, as the kernel takes it: reduce the two tile axes, then extract the one element. -/
def laneSumKL (v37 : FVec Ideal Cert.KernelIdeal.S1x512x512 .f32) : EReal :=
  extractAt ![0, 0, 0] (shapeCast Cert.KernelIdeal.S1x1x1
    (multiReduction (F := Ideal) .add [1, 2] Cert.KernelIdeal.S1 v37 0x00000000#32 Cert.KernelIdeal.Gen.reduces_S1x512x512_S1 (.inl rfl) rfl)
    Cert.KernelIdeal.Gen.shapeCasts_S1_S1x1x1) Cert.KernelIdeal.Gen.inpos_S1x1x1_p0_0_0

/-- The lane sum of a tile mask, as the kernel takes it: each bit widened to a 32-bit integer, converted to a float, the
    tile viewed with a leading unit axis, the two tile axes reduced, the one element extracted. -/
def laneSumNP (v24 : IVec Cert.KernelIdeal.S512x512 1) : EReal :=
  extractAt ![0, 0, 0] (shapeCast Cert.KernelIdeal.S1x1x1
    (multiReduction (F := Ideal) .add [1, 2] Cert.KernelIdeal.S1
      (shapeCast Cert.KernelIdeal.S1x512x512 (sitofp (F := Ideal) .f32 (extui 32 v24 Cert.KernelIdeal.Gen.natLt_1_32))
        Cert.KernelIdeal.Gen.shapeCasts_S512x512_S1x512x512)
      0x00000000#32 Cert.KernelIdeal.Gen.reduces_S1x512x512_S1 (.inl rfl) rfl)
    Cert.KernelIdeal.Gen.shapeCasts_S1_S1x1x1) Cert.KernelIdeal.Gen.inpos_S1x1x1_p0_0_0

/-- What the grid point `t` adds to the running sum of masked terms. -/
def tileKL (nrm : FVec Ideal Cert.KernelIdeal.S8192x128 .f32) (logp p : FVec Ideal Cert.KernelIdeal.S8192x8 .f32)
    (a : FVec Ideal Cert.KernelIdeal.S1x8192 .f32) (t : Pt) : EReal :=
  laneSumKL (tileTerms nrm logp p a t)

/-- What the grid point `t` adds to the running count of pairs. -/
def tileNP (nrm : FVec Ideal Cert.KernelIdeal.S8192x128 .f32) (t : Pt) : EReal :=
  laneSumNP (tileMask nrm t)

/-- The first accumulating payload adds the tile's lane sum of terms to the value it read. -/
theorem k0_pay1_eq (v37 : FVec Ideal Cert.KernelIdeal.S1x512x512 .f32) (v47 : Vec Ideal Cert.KernelIdeal.S1x1 .f32) :
    Cert.KernelIdeal.Gen.k0_pay1 (F := Ideal) v37 v47 = fun y => v47 y + laneSumKL v37 := by
  funext y
  unfold Cert.KernelIdeal.Gen.k0_pay1 laneSumKL
  rw [Idealize.ShloMosaic.shapeCast_self, addf_apply, broadcast_apply]

/-- The second accumulating payload adds the tile's lane sum of the mask to the value it read. -/
theorem k0_pay2_eq (v24 : IVec Cert.KernelIdeal.S512x512 1) (v52 : Vec Ideal Cert.KernelIdeal.S1x1 .f32) :
    Cert.KernelIdeal.Gen.k0_pay2 (F := Ideal) v24 v52 = fun y => v52 y + laneSumNP v24 := by
  funext y
  unfold Cert.KernelIdeal.Gen.k0_pay2 laneSumNP
  rw [Idealize.ShloMosaic.shapeCast_self, addf_apply, broadcast_apply]

/-! ## The reference's whole-array terms -/

section Reference
open Cert.ReferenceIdeal Cert.ReferenceIdeal.Facts₀

/-- The reference's pair mask: the similarity matrix above the threshold, and not on the diagonal. -/
def refMask (nrm : FVec Ideal Cert.ReferenceIdeal.S8192x128 .f32) : IVec Cert.ReferenceIdeal.S8192x8192 1 :=
  andi
    (cmpf .ogt
      (Host.dotGeneral (F := Ideal) dot_S8192x128_S128x8192_S8192x8192_1_0_0_1_n_n none nrm
        (transpose Cert.ReferenceIdeal.S128x8192 [1, 0] nrm transposes_S8192x128_S128x8192_1_0))
      (broadcastInDim Cert.ReferenceIdeal.S8192x8192 ![] bcast_S_S8192x8192 (constant (F := Ideal) Cert.ReferenceIdeal.S_ .f32 0x3F4CCCCD#32)))
    (noti (cmpi .eq
      (addi (iotaInDim Cert.ReferenceIdeal.S8192x8192 32 0)
        (broadcastInDim Cert.ReferenceIdeal.S8192x8192 ![] bcast_S_S8192x8192 (constantI Cert.ReferenceIdeal.S_ 32 0#32)))
      (iotaInDim Cert.ReferenceIdeal.S8192x8192 32 1)))

/-- The reference's matrix of pair terms: the self term of the column minus the cross product. -/
def refKLmat (logp p : FVec Ideal Cert.ReferenceIdeal.S8192x8 .f32) (a : FVec Ideal Cert.ReferenceIdeal.S1x8192 .f32) :
    FVec Ideal Cert.ReferenceIdeal.S8192x8192 .f32 :=
  subf (broadcastInDim Cert.ReferenceIdeal.S8192x8192 ![0, 1] bcast_S1x8192_S8192x8192_0_1 a)
    (Host.dotGeneral (F := Ideal) dot_S8192x8_S8x8192_S8192x8192_1_0_0_1_n_n none logp
      (transpose Cert.ReferenceIdeal.S8x8192 [1, 0] p transposes_S8192x8_S8x8192_1_0))

/-- The reference's masked matrix: the pair term where the mask holds, zero elsewhere. -/
def refSel (nrm : FVec Ideal Cert.ReferenceIdeal.S8192x128 .f32) (logp p : FVec Ideal Cert.ReferenceIdeal.S8192x8 .f32)
    (a : FVec Ideal Cert.ReferenceIdeal.S1x8192 .f32) : FVec Ideal Cert.ReferenceIdeal.S8192x8192 .f32 :=
  select (refMask nrm) (refKLmat logp p a)
    (broadcastInDim Cert.ReferenceIdeal.S8192x8192 ![] bcast_S_S8192x8192 (id (constant (F := Ideal) Cert.ReferenceIdeal.S_ .f32 0x00000000#32)))

/-- The reference's sum of masked pair terms. -/
def refKL (nrm : FVec Ideal Cert.ReferenceIdeal.S8192x128 .f32) (logp p : FVec Ideal Cert.ReferenceIdeal.S8192x8 .f32)
    (a : FVec Ideal Cert.ReferenceIdeal.S1x8192 .f32) : FVec Ideal Cert.ReferenceIdeal.S_ .f32 :=
  Host.reduceAdd (F := Ideal) (refSel nrm logp p a) (constant (F := Ideal) Cert.ReferenceIdeal.S_ .f32 0x00000000#32)
    reducesTo_S8192x8192_S_d0_1 h_S_

/-- The reference's integer count of pairs: the mask widened to 32-bit integers and summed with wrapping addition. -/
def refNP (nrm : FVec Ideal Cert.ReferenceIdeal.S8192x128 .f32) : IVec Cert.ReferenceIdeal.S_ 32 :=
  Host.reduce IntOp.addi (extui 32 (refMask nrm) natLt_1_32) (constantI Cert.ReferenceIdeal.S_ 32 0#32)
    reducesTo_S8192x8192_S_d0_1 h_S_

end Reference

end Cert.Bridge

end
-- ==== Proof.KI.OutVal.lean ====
import proofs.«137117_j83648783057448_1_alg».proof.Proof.KI.Body
import proofs.«137117_j83648783057448_1_alg».proof.Proof.Val.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open scoped BigOperators

variable {F : FTy → Type} [FloatOps F]

local notation "𝕄" => MT nD τ sig Unit (Elt F) ℕ (UR sig nD τ) ℕ

/-! ## The last point, and the result arrays after the run

Windows 5 and 6 are single [1,1] blocks covering their [1,1] arrays, written back at the last point only: each result
array ends holding what its staging buffer held after the last point. -/

/-- The last point of the grid. -/
abbrev tLast : Fin cfg0.N := ⟨255, by rw [show cfg0.N = 256 from N_0]; decide⟩

/-- The running contents of output 5 after the last point, as contents of its result array: the one block is the array. -/
abbrev result5 (c : Dev nD) (A : Arrs F c) : Buf (Elt F) ((c : Thread nD τ).loc main_v27_0) := outsAt5 c A 255 tLast.isLt

/-- The one write-back of window 5, at the last point, writes it: block (0, 0) of the [1,1] array read through zero
    offsets is the array. -/
theorem flushed5_eq (c : Dev nD) (A : Arrs F c) (q) (t : Fin cfg0.N) (hf : (cfg0.win 5).flush t = true) :
    (dat c A q).flushed 5 t = ((cfg0.win 5).blk t).view.read (Elt F) (result5 c A) := by
  have hN : cfg0.N = 256 := N_0
  have h3 : t.val = 255 := by have := (flush0_5 t).mp hf; have := t.isLt; omega
  obtain rfl : t = tLast := Fin.ext h3
  show (cfg0.win 5).cut (grid0.coords tLast) ((dat c A q).after 5 tLast) = _
  rw [after_5]
  have hz' : (fun a => win0_5.index tLast a * main_v27_0.ty.shape.size a) = fun _ => 0 := funext fun a => by fin_cases a <;> decide +kernel
  exact (Memref.read_access_unit_zero (Elt F) main_v27_0 hz' (fun a => by rw [congrFun hz' a]; simp) (result5 c A)).symm

/-- So result array 5 ends holding the running contents after the last point. -/
theorem final5 (c : Dev nD) (A : Arrs F c) (q) : (dat c A q).arrAt 5 cfg0.N = result5 c A :=
  (dat c A q).arrAt_eq_of_cover 5 (result5 c A) (flushed5_eq c A q) fun i =>
    ⟨tLast, (flush0_5 tLast).mpr rfl, by
      show i ∈ ((View.whole main_v27_0).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The running contents of output 6 after the last point, as contents of its result array: the one block is the array. -/
abbrev result6 (c : Dev nD) (A : Arrs F c) : Buf (Elt F) ((c : Thread nD τ).loc main_v27_1) := outsAt6 c A 255 tLast.isLt

/-- The one write-back of window 6, at the last point, writes it: block (0, 0) of the [1,1] array read through zero
    offsets is the array. -/
theorem flushed6_eq (c : Dev nD) (A : Arrs F c) (q) (t : Fin cfg0.N) (hf : (cfg0.win 6).flush t = true) :
    (dat c A q).flushed 6 t = ((cfg0.win 6).blk t).view.read (Elt F) (result6 c A) := by
  have hN : cfg0.N = 256 := N_0
  have h3 : t.val = 255 := by have := (flush0_6 t).mp hf; have := t.isLt; omega
  obtain rfl : t = tLast := Fin.ext h3
  show (cfg0.win 6).cut (grid0.coords tLast) ((dat c A q).after 6 tLast) = _
  rw [after_6]
  have hz' : (fun a => win0_6.index tLast a * main_v27_1.ty.shape.size a) = fun _ => 0 := funext fun a => by fin_cases a <;> decide +kernel
  exact (Memref.read_access_unit_zero (Elt F) main_v27_1 hz' (fun a => by rw [congrFun hz' a]; simp) (result6 c A)).symm

/-- So result array 6 ends holding the running contents after the last point. -/
theorem final6 (c : Dev nD) (A : Arrs F c) (q) : (dat c A q).arrAt 6 cfg0.N = result6 c A :=
  (dat c A q).arrAt_eq_of_cover 6 (result6 c A) (flushed6_eq c A q) fun i =>
    ⟨tLast, (flush0_6 tLast).mpr rfl, by
      show i ∈ ((View.whole main_v27_1).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-! ## The accumulation unrolled over the extended reals

At `Ideal` each accumulating payload adds a scalar, the tile's lane sum, to what the buffer held, and the first point
starts from zero: after point `n` the buffer holds the sum of the lane sums of the points up to `n`. -/

theorem filter_le_zero {N : ℕ} (h : 0 < N) : Finset.univ.filter (fun t : Fin N => t.val ≤ 0) = {⟨0, h⟩} := by
  ext t; simp [Fin.ext_iff]

theorem filter_le_succ {N : ℕ} (n : ℕ) (h : n + 1 < N) :
    Finset.univ.filter (fun t : Fin N => t.val ≤ n + 1) = insert ⟨n + 1, h⟩ (Finset.univ.filter (fun t : Fin N => t.val ≤ n)) := by
  ext t; simp [Fin.ext_iff]; omega

theorem not_mem_filter_le {N : ℕ} (n : ℕ) (h : n + 1 < N) :
    (⟨n + 1, h⟩ : Fin N) ∉ Finset.univ.filter (fun t : Fin N => t.val ≤ n) := by simp

theorem filter_le_last {N : ℕ} (n : ℕ) (h : N ≤ n + 1) : Finset.univ.filter (fun t : Fin N => t.val ≤ n) = Finset.univ := by
  ext t; have := t.isLt; simp; omega

/-- The zero the first point stores, over the extended reals. -/
theorem k0_pay3_ideal : (k0_pay3 (F := Ideal)) = fun _ => (0 : EReal) := by
  funext y
  unfold k0_pay3
  rw [Idealize.ShloMosaic.ValueIdx.broadcast_apply]
  show Ideal.ofBits .f32 0x00000000#32 = 0
  simp [Ideal.ofBits, Ideal.ieee]

theorem k0_pay4_ideal : (k0_pay4 (F := Ideal)) = fun _ => (0 : EReal) := by
  funext y
  unfold k0_pay4
  rw [Idealize.ShloMosaic.ValueIdx.broadcast_apply]
  show Ideal.ofBits .f32 0x00000000#32 = 0
  simp [Ideal.ofBits, Ideal.ieee]

/-- What point `t` adds to output 5: the lane sum of its masked terms. -/
def add5 (c : Dev nD) (A : Arrs Ideal c) (t : Fin cfg0.N) : EReal :=
  Cert.Bridge.laneSumKL (k0_pay6 (F := Ideal) (grid0.coords t) (iblk c A 0 t) (iblk c A 1 t) (iblk c A 2 t) (iblk c A 3 t) (iblk c A 4 t))

/-- What point `t` adds to output 6: the lane sum of its mask. -/
def add6 (c : Dev nD) (A : Arrs Ideal c) (t : Fin cfg0.N) : EReal :=
  Cert.Bridge.laneSumNP (k0_pay5 (F := Ideal) (grid0.coords t) (iblk c A 0 t) (iblk c A 1 t))

theorem outsAt5_sum (c : Dev nD) (A : Arrs Ideal c) : ∀ (n : ℕ) (h : n < cfg0.N),
    outsAt5 (F := Ideal) c A n h = fun _ => ∑ t ∈ Finset.univ.filter (fun t : Fin cfg0.N => t.val ≤ n), add5 c A t
  | 0, h => by
    rw [outsAt5_zero, Cert.Bridge.k0_pay1_eq, k0_pay3_ideal]
    funext y
    rw [filter_le_zero h, Finset.sum_singleton]
    show (0 : EReal) + _ = _
    rw [zero_add]; rfl
  | n + 1, h => by
    rw [outsAt5_succ, Cert.Bridge.k0_pay1_eq, outsAt5_sum c A n]
    funext y
    rw [filter_le_succ n h, Finset.sum_insert (not_mem_filter_le n h), add_comm]; rfl

theorem outsAt6_sum (c : Dev nD) (A : Arrs Ideal c) : ∀ (n : ℕ) (h : n < cfg0.N),
    outsAt6 (F := Ideal) c A n h = fun _ => ∑ t ∈ Finset.univ.filter (fun t : Fin cfg0.N => t.val ≤ n), add6 c A t
  | 0, h => by
    rw [outsAt6_zero, Cert.Bridge.k0_pay2_eq, k0_pay4_ideal]
    funext y
    rw [filter_le_zero h, Finset.sum_singleton]
    show (0 : EReal) + _ = _
    rw [zero_add]; rfl
  | n + 1, h => by
    rw [outsAt6_succ, Cert.Bridge.k0_pay2_eq, outsAt6_sum c A n]
    funext y
    rw [filter_le_succ n h, Finset.sum_insert (not_mem_filter_le n h), add_comm]; rfl

/-- After the last point every point has been added. -/
theorem result5_sum (c : Dev nD) (A : Arrs Ideal c) : result5 (F := Ideal) c A = fun _ => ∑ t : Fin cfg0.N, add5 c A t := by
  show outsAt5 (F := Ideal) c A 255 tLast.isLt = _
  rw [outsAt5_sum, filter_le_last 255 (le_of_eq (show cfg0.N = 256 from N_0))]; rfl

theorem result6_sum (c : Dev nD) (A : Arrs Ideal c) : result6 (F := Ideal) c A = fun _ => ∑ t : Fin cfg0.N, add6 c A t := by
  show outsAt6 (F := Ideal) c A 255 tLast.isLt = _
  rw [outsAt6_sum, filter_le_last 255 (le_of_eq (show cfg0.N = 256 from N_0))]; rfl

/-! ## The windows' blocks are the blocks of the arrays

Window 0 reads the row block numbered by the first grid coordinate, window 1 the one numbered by the second, of the same
array; windows 2 and 3 likewise of theirs; window 4 the column block numbered by the second coordinate. An element of a
block sits in the array at the block number times the block size plus its own coordinate. -/

theorem idx_facts0 : ∀ t : Fin cfg0.N, win0_0.index t 0 = (grid0.coords t 0).val ∧ win0_0.index t 1 = 0 :=
  (by decide +kernel : ∀ t : Fin grid0.N, win0_0.index t 0 = (grid0.coords t 0).val ∧ win0_0.index t 1 = 0)

theorem idx_facts1 : ∀ t : Fin cfg0.N, win0_1.index t 0 = (grid0.coords t 1).val ∧ win0_1.index t 1 = 0 :=
  (by decide +kernel : ∀ t : Fin grid0.N, win0_1.index t 0 = (grid0.coords t 1).val ∧ win0_1.index t 1 = 0)

theorem idx_facts2 : ∀ t : Fin cfg0.N, win0_2.index t 0 = (grid0.coords t 0).val ∧ win0_2.index t 1 = 0 :=
  (by decide +kernel : ∀ t : Fin grid0.N, win0_2.index t 0 = (grid0.coords t 0).val ∧ win0_2.index t 1 = 0)

theorem idx_facts3 : ∀ t : Fin cfg0.N, win0_3.index t 0 = (grid0.coords t 1).val ∧ win0_3.index t 1 = 0 :=
  (by decide +kernel : ∀ t : Fin grid0.N, win0_3.index t 0 = (grid0.coords t 1).val ∧ win0_3.index t 1 = 0)

theorem idx_facts4 : ∀ t : Fin cfg0.N, win0_4.index t 0 = 0 ∧ win0_4.index t 1 = (grid0.coords t 1).val :=
  (by decide +kernel : ∀ t : Fin grid0.N, win0_4.index t 0 = 0 ∧ win0_4.index t 1 = (grid0.coords t 1).val)

theorem iblk0_eq (c : Dev nD) (A : Arrs Ideal c) (t : Fin cfg0.N) :
    (iblk c A 0 t : Vec Ideal S512x128 .f32) = Cert.Bridge.rowsBlk128 (A 0) (Cert.Bridge.ptI t) := by
  obtain ⟨h0, h1⟩ := idx_facts0 t
  funext j
  unfold iblk Cert.Bridge.rowsBlk128
  rw [View.read_apply]
  show A 0 _ = A 0 _
  congr 1
  funext a
  apply Fin.ext
  rw [show (((cfg0.win 0).blk t).view.emb j a : Nat) = ((win0_0.rect t).emb j a : Nat) from rfl, win0_0.rect_emb_val t j a]
  match a with
  | ⟨0, _⟩ => show win0_0.index t 0 * win0_0.size 0 + (j 0 : Nat) = 512 * (Cert.Bridge.ptI t).val + (j 0).val; rw [h0]; unfold Cert.Bridge.ptI; show _ * 512 + _ = _; omega
  | ⟨1, _⟩ => show win0_0.index t 1 * win0_0.size 1 + (j 1 : Nat) = (j 1).val; rw [h1]; omega

theorem iblk1_eq (c : Dev nD) (A : Arrs Ideal c) (t : Fin cfg0.N) :
    (iblk c A 1 t : Vec Ideal S512x128 .f32) = Cert.Bridge.rowsBlk128 (A 1) (Cert.Bridge.ptJ t) := by
  obtain ⟨h0, h1⟩ := idx_facts1 t
  funext j
  unfold iblk Cert.Bridge.rowsBlk128
  rw [View.read_apply]
  show A 1 _ = A 1 _
  congr 1
  funext a
  apply Fin.ext
  rw [show (((cfg0.win 1).blk t).view.emb j a : Nat) = ((win0_1.rect t).emb j a : Nat) from rfl, win0_1.rect_emb_val t j a]
  match a with
  | ⟨0, _⟩ => show win0_1.index t 0 * win0_1.size 0 + (j 0 : Nat) = 512 * (Cert.Bridge.ptJ t).val + (j 0).val; rw [h0]; unfold Cert.Bridge.ptJ; show _ * 512 + _ = _; omega
  | ⟨1, _⟩ => show win0_1.index t 1 * win0_1.size 1 + (j 1 : Nat) = (j 1).val; rw [h1]; omega

theorem iblk2_eq (c : Dev nD) (A : Arrs Ideal c) (t : Fin cfg0.N) :
    (iblk c A 2 t : Vec Ideal S512x8 .f32) = Cert.Bridge.rowsBlk8 (A 2) (Cert.Bridge.ptI t) := by
  obtain ⟨h0, h1⟩ := idx_facts2 t
  funext j
  unfold iblk Cert.Bridge.rowsBlk8
  rw [View.read_apply]
  show A 2 _ = A 2 _
  congr 1
  funext a
  apply Fin.ext
  rw [show (((cfg0.win 2).blk t).view.emb j a : Nat) = ((win0_2.rect t).emb j a : Nat) from rfl, win0_2.rect_emb_val t j a]
  match a with
  | ⟨0, _⟩ => show win0_2.index t 0 * win0_2.size 0 + (j 0 : Nat) = 512 * (Cert.Bridge.ptI t).val + (j 0).val; rw [h0]; unfold Cert.Bridge.ptI; show _ * 512 + _ = _; omega
  | ⟨1, _⟩ => show win0_2.index t 1 * win0_2.size 1 + (j 1 : Nat) = (j 1).val; rw [h1]; omega

theorem iblk3_eq (c : Dev nD) (A : Arrs Ideal c) (t : Fin cfg0.N) :
    (iblk c A 3 t : Vec Ideal S512x8 .f32) = Cert.Bridge.rowsBlk8 (A 3) (Cert.Bridge.ptJ t) := by
  obtain ⟨h0, h1⟩ := idx_facts3 t
  funext j
  unfold iblk Cert.Bridge.rowsBlk8
  rw [View.read_apply]
  show A 3 _ = A 3 _
  congr 1
  funext a
  apply Fin.ext
  rw [show (((cfg0.win 3).blk t).view.emb j a : Nat) = ((win0_3.rect t).emb j a : Nat) from rfl, win0_3.rect_emb_val t j a]
  match a with
  | ⟨0, _⟩ => show win0_3.index t 0 * win0_3.size 0 + (j 0 : Nat) = 512 * (Cert.Bridge.ptJ t).val + (j 0).val; rw [h0]; unfold Cert.Bridge.ptJ; show _ * 512 + _ = _; omega
  | ⟨1, _⟩ => show win0_3.index t 1 * win0_3.size 1 + (j 1 : Nat) = (j 1).val; rw [h1]; omega

theorem iblk4_eq (c : Dev nD) (A : Arrs Ideal c) (t : Fin cfg0.N) :
    (iblk c A 4 t : Vec Ideal S1x512 .f32) = Cert.Bridge.colsBlk (A 4) (Cert.Bridge.ptJ t) := by
  obtain ⟨h0, h1⟩ := idx_facts4 t
  funext j
  unfold iblk Cert.Bridge.colsBlk
  rw [View.read_apply]
  show A 4 _ = A 4 _
  congr 1
  funext a
  apply Fin.ext
  rw [show (((cfg0.win 4).blk t).view.emb j a : Nat) = ((win0_4.rect t).emb j a : Nat) from rfl, win0_4.rect_emb_val t j a]
  match a with
  | ⟨0, _⟩ => show win0_4.index t 0 * win0_4.size 0 + (j 0 : Nat) = (j 0).val; rw [h0]; omega
  | ⟨1, _⟩ => show win0_4.index t 1 * win0_4.size 1 + (j 1 : Nat) = 512 * (Cert.Bridge.ptJ t).val + (j 1).val; rw [h1]; unfold Cert.Bridge.ptJ; show _ * 512 + _ = _; omega

/-! ## The two results -/

/-- What a point adds to output 5 is the tile's sum of masked terms, the two windows on the embeddings reading one array. -/
theorem add5_eq (c : Dev nD) (A : Arrs Ideal c) (hA : A 1 = A 0) (t : Fin cfg0.N) :
    add5 c A t = Cert.Bridge.tileKL (A 0) (A 2) (A 3) (A 4) t := by
  unfold add5 Cert.Bridge.tileKL Cert.Bridge.tileTerms
  rw [iblk0_eq, iblk1_eq, iblk2_eq, iblk3_eq, iblk4_eq, hA]

/-- What a point adds to output 6 is the tile's count of pairs. -/
theorem add6_eq (c : Dev nD) (A : Arrs Ideal c) (hA : A 1 = A 0) (t : Fin cfg0.N) :
    add6 c A t = Cert.Bridge.tileNP (A 0) t := by
  unfold add6 Cert.Bridge.tileNP Cert.Bridge.tileMask
  rw [iblk0_eq, iblk1_eq, hA]

/-- Result array 5 after the run: the sum over the grid of the tiles' sums of masked terms. -/
theorem out5_val (c : Dev nD) (A : Arrs Ideal c) (q : Fin cfg0.W → PosShare TreeShare) (hA : A 1 = A 0) :
    (dat (F := Ideal) c A q).arrAt 5 cfg0.N = fun _ => ∑ t : Cert.Bridge.Pt, Cert.Bridge.tileKL (A 0) (A 2) (A 3) (A 4) t := by
  rw [final5, result5_sum]
  funext _
  exact Finset.sum_congr rfl fun t _ => add5_eq c A hA t

/-- Result array 6 after the run: the sum over the grid of the tiles' counts of pairs. -/
theorem out6_val (c : Dev nD) (A : Arrs Ideal c) (q : Fin cfg0.W → PosShare TreeShare) (hA : A 1 = A 0) :
    (dat (F := Ideal) c A q).arrAt 6 cfg0.N = fun _ => ∑ t : Cert.Bridge.Pt, Cert.Bridge.tileNP (A 0) t := by
  rw [final6, result6_sum]
  funext _
  exact Finset.sum_congr rfl fun t _ => add6_eq c A hA t

end Cert.KernelIdeal.Hand

end
-- ==== Proof.Ref.ValDefs.lean ====
/- The reference program's host arithmetic as pure functions of the argument arrays: each is the composition of the
   program's own operations (the same operation terms, in the same order), cut where the value bridge needs a name.
   Which values of @main each one composes is said at the definition; what the operations are is the program's text.
   The bodies are stated for any float values (`…F`); the names without the suffix are those at the ideal floats. -/
import proofs.«137117_j83648783057448_1_alg».proof.Proof.Gen.ReferenceIdeal
import Idealize.ShloMosaic.PureOps.Ideal

noncomputable section

namespace Cert.ReferenceIdeal.RefVal

open Cert.ReferenceIdeal Cert.ReferenceIdeal.Gen Idealize.ShloMosaic Idealize.SL.Sem

section Generic
variable {F : FTy → Type} [FloatOps F]

/-- The value %21 of @main as a function of %arg3: the composition of @norm's operations on it, then %20 and %21. -/
def nrmTF (x3 : FVec F S8192x128 .f32) : FVec F S8192x128 .f32 :=
  ((Host.divf : (⟨S8192x128, .f32⟩ : BufTy).Contents (Elt F) → (⟨S8192x128, .f32⟩ : BufTy).Contents (Elt F) → (⟨S8192x128, .f32⟩ : BufTy).Contents (Elt F)) x3 ((broadcastInDim S8192x128 ![0, 1] bcast_S8192x1_S8192x128_0_1 : (⟨S8192x1, .f32⟩ : BufTy).Contents (Elt F) → (⟨S8192x128, .f32⟩ : BufTy).Contents (Elt F)) ((Host.sqrt : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)) ((mulf : (⟨S8192x128, .f32⟩ : BufTy).Contents (Elt F) → (⟨S8192x128, .f32⟩ : BufTy).Contents (Elt F) → (⟨S8192x128, .f32⟩ : BufTy).Contents (Elt F)) x3 x3) (constant S_ .f32 0x00000000#32 : (⟨S_, .f32⟩ : BufTy).Contents (Elt F)))))))

/-- The value %33 of @main as a function of %arg2: the composition of @log_softmax_1's operations. -/
def logpTF (x2 : FVec F S8192x8 .f32) : FVec F S8192x8 .f32 :=
  ((subf : (⟨S8192x8, .f32⟩ : BufTy).Contents (Elt F) → (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) x2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) x2 (constant S_ .f32 0xFF800000#32 : (⟨S_, .f32⟩ : BufTy).Contents (Elt F))))))) (((broadcastInDim S8192x8 ![0, 1] bcast_S8192x1_S8192x8_0_1) : (⟨S8192x1, .f32⟩ : BufTy).Contents (Elt F) → (⟨S8192x8, .f32⟩ : BufTy).Contents (Elt F)) ((Host.log : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((Host.exp : (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) x2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) x2 (constant S_ .f32 0xFF800000#32 : (⟨S_, .f32⟩ : BufTy).Contents (Elt F)))))))) (constant S_ .f32 0x00000000#32 : (⟨S_, .f32⟩ : BufTy).Contents (Elt F)))))))

/-- The value %34 of @main as a function of %arg2: one operation on %33. -/
def pTF (x2 : FVec F S8192x8 .f32) : FVec F S8192x8 .f32 :=
  ((Host.exp : (⟨S8192x8, .f32⟩ : BufTy).Contents (Elt F) → (⟨S8192x8, .f32⟩ : BufTy).Contents (Elt F)) (logpTF x2))

/-- The value %37 of @main (shape [1, 8192]) as a function of %arg2: the composition of %35, %36, %37 over %33 and %34. -/
def aTF (x2 : FVec F S8192x8 .f32) : FVec F S1x8192 .f32 :=
  ((broadcastInDim S1x8192 ![1] bcast_S8192_S1x8192_1 : (⟨S8192, .f32⟩ : BufTy).Contents (Elt F) → (⟨S1x8192, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) (pTF x2) (logpTF x2)) (constant S_ .f32 0x00000000#32 : (⟨S_, .f32⟩ : BufTy).Contents (Elt F))))

/-- The value %5 of @main as a function of %arg0 and %arg1: the composition of @log_softmax, %1, @take_along_axis and %3 … %5. -/
def taskTF (x0 : FVec F S8192x3 .f32) (x1 : IVec S8192 32) : FVec F S_ .f32 :=
  ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)) ((select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) (((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) ((andi : (⟨S8192x1x1, .i1⟩ : BufTy).Contents (Elt F) → (⟨S8192x1x1, .i1⟩ : BufTy).Contents (Elt F) → (⟨S8192x1x1, .i1⟩ : BufTy).Contents (Elt F)) (((cmpi .sge) : (⟨S8192x1x1, .i32⟩ : BufTy).Contents (Elt F) → (⟨S8192x1x1, .i32⟩ : BufTy).Contents (Elt F) → (⟨S8192x1x1, .i1⟩ : BufTy).Contents (Elt F)) (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) ((broadcastInDim S8192x1 ![0] bcast_S8192_S8192x1_0 : (⟨S8192, .i32⟩ : BufTy).Contents (Elt F) → (⟨S8192x1, .i32⟩ : BufTy).Contents (Elt F)) x1) (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) ((broadcastInDim S8192x1 ![0] bcast_S8192_S8192x1_0 : (⟨S8192, .i32⟩ : BufTy).Contents (Elt F) → (⟨S8192x1, .i32⟩ : BufTy).Contents (Elt F)) x1) (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) ((broadcastInDim S8192x1 ![0] bcast_S8192_S8192x1_0 : (⟨S8192, .i32⟩ : BufTy).Contents (Elt F) → (⟨S8192x1, .i32⟩ : BufTy).Contents (Elt F)) x1)) shapeCasts_S8192x1_S8192x1x1 : (⟨S8192x1x1, .i32⟩ : BufTy).Contents (Elt F)) (((broadcastInDim S8192x1x1 ![] bcast_S_S8192x1x1) : (⟨S_, .i32⟩ : BufTy).Contents (Elt F) → (⟨S8192x1x1, .i32⟩ : BufTy).Contents (Elt F)) (constantI S_ 32 0#32 : (⟨S_, .i32⟩ : BufTy).Contents (Elt F)))) (((cmpi .sle) : (⟨S8192x1x1, .i32⟩ : BufTy).Contents (Elt F) → (⟨S8192x1x1, .i32⟩ : BufTy).Contents (Elt F) → (⟨S8192x1x1, .i1⟩ : BufTy).Contents (Elt F)) (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) ((broadcastInDim S8192x1 ![0] bcast_S8192_S8192x1_0 : (⟨S8192, .i32⟩ : BufTy).Contents (Elt F) → (⟨S8192x1, .i32⟩ : BufTy).Contents (Elt F)) x1) (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) ((broadcastInDim S8192x1 ![0] bcast_S8192_S8192x1_0 : (⟨S8192, .i32⟩ : BufTy).Contents (Elt F) → (⟨S8192x1, .i32⟩ : BufTy).Contents (Elt F)) x1) (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) ((broadcastInDim S8192x1 ![0] bcast_S8192_S8192x1_0 : (⟨S8192, .i32⟩ : BufTy).Contents (Elt F) → (⟨S8192x1, .i32⟩ : BufTy).Contents (Elt F)) x1)) shapeCasts_S8192x1_S8192x1x1 : (⟨S8192x1x1, .i32⟩ : BufTy).Contents (Elt F)) (((broadcastInDim S8192x1x1 ![0, 1, 2] bcast_S1x1x1_S8192x1x1_0_1_2) : (⟨S1x1x1, .i32⟩ : BufTy).Contents (Elt F) → (⟨S8192x1x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) (constantI S1 32 2#32 : (⟨S1, .i32⟩ : BufTy).Contents (Elt F)))))) (constantI S_ 1 1#1 : (⟨S_, .i1⟩ : BufTy).Contents (Elt F))) (((fun x i => Host.gather gather_S8192x3_S8192x1x1_S8192x1_n_1_0_0_1_2_11 x i) : (⟨S8192x3, .f32⟩ : BufTy).Contents (Elt F) → (⟨S8192x1x1, .i32⟩ : BufTy).Contents (Elt F) → (⟨S8192x1, .f32⟩ : BufTy).Contents (Elt F)) ((subf : (⟨S8192x3, .f32⟩ : BufTy).Contents (Elt F) → (⟨S8192x3, .f32⟩ : BufTy).Contents (Elt F) → (⟨S8192x3, .f32⟩ : BufTy).Contents (Elt F)) ((subf : (⟨S8192x3, .f32⟩ : BufTy).Contents (Elt F) → (⟨S8192x3, .f32⟩ : BufTy).Contents (Elt F) → (⟨S8192x3, .f32⟩ : BufTy).Contents (Elt F)) x0 (((broadcastInDim S8192x3 ![0, 1] bcast_S8192x1_S8192x3_0_1) : (⟨S8192x1, .f32⟩ : BufTy).Contents (Elt F) → (⟨S8192x3, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x3_S8192_d1 h_S_) : (⟨S8192x3, .f32⟩ : BufTy).Contents (Elt F) → (⟨S_, .f32⟩ : BufTy).Contents (Elt F) → (⟨S8192, .f32⟩ : BufTy).Contents (Elt F)) x0 (constant S_ .f32 0xFF800000#32 : (⟨S_, .f32⟩ : BufTy).Contents (Elt F))))))) (((broadcastInDim S8192x3 ![0, 1] bcast_S8192x1_S8192x3_0_1) : (⟨S8192x1, .f32⟩ : BufTy).Contents (Elt F) → (⟨S8192x3, .f32⟩ : BufTy).Contents (Elt F)) ((Host.log : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)) ((Host.exp : (⟨S8192x3, .f32⟩ : BufTy).Contents (Elt F) → (⟨S8192x3, .f32⟩ : BufTy).Contents (Elt F)) ((subf : (⟨S8192x3, .f32⟩ : BufTy).Contents (Elt F) → (⟨S8192x3, .f32⟩ : BufTy).Contents (Elt F) → (⟨S8192x3, .f32⟩ : BufTy).Contents (Elt F)) x0 (((broadcastInDim S8192x3 ![0, 1] bcast_S8192x1_S8192x3_0_1) : (⟨S8192x1, .f32⟩ : BufTy).Contents (Elt F) → (⟨S8192x3, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x3_S8192_d1 h_S_) : (⟨S8192x3, .f32⟩ : BufTy).Contents (Elt F) → (⟨S_, .f32⟩ : BufTy).Contents (Elt F) → (⟨S8192, .f32⟩ : BufTy).Contents (Elt F)) x0 (constant S_ .f32 0xFF800000#32 : (⟨S_, .f32⟩ : BufTy).Contents (Elt F)))))))) (constant S_ .f32 0x00000000#32 : (⟨S_, .f32⟩ : BufTy).Contents (Elt F))))))) (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) ((broadcastInDim S8192x1 ![0] bcast_S8192_S8192x1_0 : (⟨S8192, .i32⟩ : BufTy).Contents (Elt F) → (⟨S8192x1, .i32⟩ : BufTy).Contents (Elt F)) x1) (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) ((broadcastInDim S8192x1 ![0] bcast_S8192_S8192x1_0 : (⟨S8192, .i32⟩ : BufTy).Contents (Elt F) → (⟨S8192x1, .i32⟩ : BufTy).Contents (Elt F)) x1) (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) ((broadcastInDim S8192x1 ![0] bcast_S8192_S8192x1_0 : (⟨S8192, .i32⟩ : BufTy).Contents (Elt F) → (⟨S8192x1, .i32⟩ : BufTy).Contents (Elt F)) x1)) shapeCasts_S8192x1_S8192x1x1 : (⟨S8192x1x1, .i32⟩ : BufTy).Contents (Elt F))) (((broadcastInDim S8192x1 ![] bcast_S_S8192x1) : (⟨S_, .f32⟩ : BufTy).Contents (Elt F) → (⟨S8192x1, .f32⟩ : BufTy).Contents (Elt F)) (constant S_ .f32 0x7FC00000#32 : (⟨S_, .f32⟩ : BufTy).Contents (Elt F)))) (constant S_ .f32 0x00000000#32 : (⟨S_, .f32⟩ : BufTy).Contents (Elt F))) (constant S_ .f32 0x46000000#32 : (⟨S_, .f32⟩ : BufTy).Contents (Elt F))))

/-- The value %11 of @main as a function of %arg2: the composition of %6 … %8, @_var (with its nested @_where), %10 and %11. -/
def lbTF (x2 : FVec F S8192x8 .f32) : FVec F S_ .f32 :=
  ((mulf : (⟨S_, .f32⟩ : BufTy).Contents (Elt F) → (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) ((select : (⟨S_, .i1⟩ : BufTy).Contents (Elt F) → (⟨S_, .f32⟩ : BufTy).Contents (Elt F) → (⟨S_, .f32⟩ : BufTy).Contents (Elt F) → (⟨S_, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x41000000#32 : (⟨S_, .f32⟩ : BufTy).Contents (Elt F)) (((sitofp .f32) : (⟨S_, .i32⟩ : BufTy).Contents (Elt F) → (⟨S_, .f32⟩ : BufTy).Contents (Elt F)) (constantI S_ 32 1#32 : (⟨S_, .i32⟩ : BufTy).Contents (Elt F)))) (constant S_ .f32 0x00000000#32 : (⟨S_, .f32⟩ : BufTy).Contents (Elt F))) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ((mulf : (⟨S8, .f32⟩ : BufTy).Contents (Elt F) → (⟨S8, .f32⟩ : BufTy).Contents (Elt F) → (⟨S8, .f32⟩ : BufTy).Contents (Elt F)) ((subf : (⟨S8, .f32⟩ : BufTy).Contents (Elt F) → (⟨S8, .f32⟩ : BufTy).Contents (Elt F) → (⟨S8, .f32⟩ : BufTy).Contents (Elt F)) ((Host.divf : (⟨S8, .f32⟩ : BufTy).Contents (Elt F) → (⟨S8, .f32⟩ : BufTy).Contents (Elt F) → (⟨S8, .f32⟩ : BufTy).Contents (Elt F)) (((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)) x2 (constant S_ .f32 0x00000000#32 : (⟨S_, .f32⟩ : BufTy).Contents (Elt F))) ((broadcastInDim S8 ![] bcast_S_S8 : (⟨S_, .f32⟩ : BufTy).Contents (Elt F) → (⟨S8, .f32⟩ : BufTy).Contents (Elt F)) (constant S_ .f32 0x46000000#32 : (⟨S_, .f32⟩ : BufTy).Contents (Elt F)))) (((broadcastInDim S8 ![0] bcast_S1_S8_0) : (⟨S1, .f32⟩ : BufTy).Contents (Elt F) → (⟨S8, .f32⟩ : BufTy).Contents (Elt F)) ((Host.divf : (⟨S1, .f32⟩ : BufTy).Contents (Elt F) → (⟨S1, .f32⟩ : BufTy).Contents (Elt F) → (⟨S1, .f32⟩ : BufTy).Contents (Elt F)) (((broadcastInDim S1 ![] bcast_S_S1) : (⟨S_, .f32⟩ : BufTy).Contents (Elt F) → (⟨S1, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ((Host.divf : (⟨S8, .f32⟩ : BufTy).Contents (Elt F) → (⟨S8, .f32⟩ : BufTy).Contents (Elt F) → (⟨S8, .f32⟩ : BufTy).Contents (Elt F)) (((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)) x2 (constant S_ .f32 0x00000000#32 : (⟨S_, .f32⟩ : BufTy).Contents (Elt F))) ((broadcastInDim S8 ![] bcast_S_S8 : (⟨S_, .f32⟩ : BufTy).Contents (Elt F) → (⟨S8, .f32⟩ : BufTy).Contents (Elt F)) (constant S_ .f32 0x46000000#32 : (⟨S_, .f32⟩ : BufTy).Contents (Elt F)))) (constant S_ .f32 0x00000000#32 : (⟨S_, .f32⟩ : BufTy).Contents (Elt F)))) (((broadcastInDim S1 ![] bcast_S_S1) : (⟨S_, .f32⟩ : BufTy).Contents (Elt F) → (⟨S1, .f32⟩ : BufTy).Contents (Elt F)) (constant S_ .f32 0x41000000#32 : (⟨S_, .f32⟩ : BufTy).Contents (Elt F)))))) ((subf : (⟨S8, .f32⟩ : BufTy).Contents (Elt F) → (⟨S8, .f32⟩ : BufTy).Contents (Elt F) → (⟨S8, .f32⟩ : BufTy).Contents (Elt F)) ((Host.divf : (⟨S8, .f32⟩ : BufTy).Contents (Elt F) → (⟨S8, .f32⟩ : BufTy).Contents (Elt F) → (⟨S8, .f32⟩ : BufTy).Contents (Elt F)) (((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)) x2 (constant S_ .f32 0x00000000#32 : (⟨S_, .f32⟩ : BufTy).Contents (Elt F))) ((broadcastInDim S8 ![] bcast_S_S8 : (⟨S_, .f32⟩ : BufTy).Contents (Elt F) → (⟨S8, .f32⟩ : BufTy).Contents (Elt F)) (constant S_ .f32 0x46000000#32 : (⟨S_, .f32⟩ : BufTy).Contents (Elt F)))) (((broadcastInDim S8 ![0] bcast_S1_S8_0) : (⟨S1, .f32⟩ : BufTy).Contents (Elt F) → (⟨S8, .f32⟩ : BufTy).Contents (Elt F)) ((Host.divf : (⟨S1, .f32⟩ : BufTy).Contents (Elt F) → (⟨S1, .f32⟩ : BufTy).Contents (Elt F) → (⟨S1, .f32⟩ : BufTy).Contents (Elt F)) (((broadcastInDim S1 ![] bcast_S_S1) : (⟨S_, .f32⟩ : BufTy).Contents (Elt F) → (⟨S1, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ((Host.divf : (⟨S8, .f32⟩ : BufTy).Contents (Elt F) → (⟨S8, .f32⟩ : BufTy).Contents (Elt F) → (⟨S8, .f32⟩ : BufTy).Contents (Elt F)) (((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)) x2 (constant S_ .f32 0x00000000#32 : (⟨S_, .f32⟩ : BufTy).Contents (Elt F))) ((broadcastInDim S8 ![] bcast_S_S8 : (⟨S_, .f32⟩ : BufTy).Contents (Elt F) → (⟨S8, .f32⟩ : BufTy).Contents (Elt F)) (constant S_ .f32 0x46000000#32 : (⟨S_, .f32⟩ : BufTy).Contents (Elt F)))) (constant S_ .f32 0x00000000#32 : (⟨S_, .f32⟩ : BufTy).Contents (Elt F)))) (((broadcastInDim S1 ![] bcast_S_S1) : (⟨S_, .f32⟩ : BufTy).Contents (Elt F) → (⟨S1, .f32⟩ : BufTy).Contents (Elt F)) (constant S_ .f32 0x41000000#32 : (⟨S_, .f32⟩ : BufTy).Contents (Elt F))))))) (constant S_ .f32 0x00000000#32 : (⟨S_, .f32⟩ : BufTy).Contents (Elt F))) ((subf : (⟨S_, .f32⟩ : BufTy).Contents (Elt F) → (⟨S_, .f32⟩ : BufTy).Contents (Elt F) → (⟨S_, .f32⟩ : BufTy).Contents (Elt F)) (constant S_ .f32 0x41000000#32 : (⟨S_, .f32⟩ : BufTy).Contents (Elt F)) (((sitofp .f32) : (⟨S_, .i32⟩ : BufTy).Contents (Elt F) → (⟨S_, .f32⟩ : BufTy).Contents (Elt F)) (constantI S_ 32 1#32 : (⟨S_, .i32⟩ : BufTy).Contents (Elt F))))) ((id : (⟨S_, .f32⟩ : BufTy).Contents (Elt F) → (⟨S_, .f32⟩ : BufTy).Contents (Elt F)) (constant S_ .f32 0x7FC00000#32 : (⟨S_, .f32⟩ : BufTy).Contents (Elt F))))) (constant S_ .f32 0x42800000#32 : (⟨S_, .f32⟩ : BufTy).Contents (Elt F)))

/-- The value %18 of @main as a function of %arg2: the composition of %12, %13, @_where_0 and %15 … %18. -/
def effTF (x2 : FVec F S8192x8 .f32) : FVec F S_ .f32 :=
  ((mulf : (⟨S_, .f32⟩ : BufTy).Contents (Elt F) → (⟨S_, .f32⟩ : BufTy).Contents (Elt F) → (⟨S_, .f32⟩ : BufTy).Contents (Elt F)) (constant S_ .f32 0x3D4CCCCD#32 : (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((select : (⟨S8192x8, .i1⟩ : BufTy).Contents (Elt F) → (⟨S8192x8, .f32⟩ : BufTy).Contents (Elt F) → (⟨S8192x8, .f32⟩ : BufTy).Contents (Elt F) → (⟨S8192x8, .f32⟩ : BufTy).Contents (Elt F)) ((cmpf .olt : (⟨S8192x8, .f32⟩ : BufTy).Contents (Elt F) → (⟨S8192x8, .f32⟩ : BufTy).Contents (Elt F) → (⟨S8192x8, .i1⟩ : BufTy).Contents (Elt F)) x2 ((broadcastInDim S8192x8 ![] bcast_S_S8192x8 : (⟨S_, .f32⟩ : BufTy).Contents (Elt F) → (⟨S8192x8, .f32⟩ : BufTy).Contents (Elt F)) (constant S_ .f32 0x3DCCCCCD#32 : (⟨S_, .f32⟩ : BufTy).Contents (Elt F)))) x2 (((broadcastInDim S8192x8 ![] bcast_S_S8192x8) : (⟨S_, .f32⟩ : BufTy).Contents (Elt F) → (⟨S8192x8, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F))))) (constant S_ .f32 0x00000000#32 : (⟨S_, .f32⟩ : BufTy).Contents (Elt F))) (constant S_ .f32 0x00000000#32 : (⟨S_, .f32⟩ : BufTy).Contents (Elt F))) (constant S_ .f32 0x46000000#32 : (⟨S_, .f32⟩ : BufTy).Contents (Elt F))))

/-- The value %61 of @main as a function of %arg2: the composition of %52 … %61. -/
def entTF (x2 : FVec F S8192x8 .f32) : FVec F S_ .f32 :=
  ((mulf : (⟨S_, .f32⟩ : BufTy).Contents (Elt F) → (⟨S_, .f32⟩ : BufTy).Contents (Elt F) → (⟨S_, .f32⟩ : BufTy).Contents (Elt F)) (constant S_ .f32 0x3C23D70A#32 : (⟨S_, .f32⟩ : BufTy).Contents (Elt F)) ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ((Host.negf : (⟨S8192, .f32⟩ : BufTy).Contents (Elt F) → (⟨S8192, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) x2 ((Host.log : (⟨S8192x8, .f32⟩ : BufTy).Contents (Elt F) → (⟨S8192x8, .f32⟩ : BufTy).Contents (Elt F)) ((addf : (⟨S8192x8, .f32⟩ : BufTy).Contents (Elt F) → (⟨S8192x8, .f32⟩ : BufTy).Contents (Elt F) → (⟨S8192x8, .f32⟩ : BufTy).Contents (Elt F)) x2 ((broadcastInDim S8192x8 ![] bcast_S_S8192x8 : (⟨S_, .f32⟩ : BufTy).Contents (Elt F) → (⟨S8192x8, .f32⟩ : BufTy).Contents (Elt F)) (constant S_ .f32 0x322BCC77#32 : (⟨S_, .f32⟩ : BufTy).Contents (Elt F)))))) (constant S_ .f32 0x00000000#32 : (⟨S_, .f32⟩ : BufTy).Contents (Elt F)))) (constant S_ .f32 0x00000000#32 : (⟨S_, .f32⟩ : BufTy).Contents (Elt F))) (constant S_ .f32 0x46000000#32 : (⟨S_, .f32⟩ : BufTy).Contents (Elt F)))))

/-- The value %67 of @main as a function of %arg4: the composition of %62 … %67. -/
def tempTF (x4 : FVec F S1 .f32) : FVec F S_ .f32 :=
  ((mulf : (⟨S_, .f32⟩ : BufTy).Contents (Elt F) → (⟨S_, .f32⟩ : BufTy).Contents (Elt F) → (⟨S_, .f32⟩ : BufTy).Contents (Elt F)) (constant S_ .f32 0x3C23D70A#32 : (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)) ((mulf : (⟨S1, .f32⟩ : BufTy).Contents (Elt F) → (⟨S1, .f32⟩ : BufTy).Contents (Elt F) → (⟨S1, .f32⟩ : BufTy).Contents (Elt F)) ((subf : (⟨S1, .f32⟩ : BufTy).Contents (Elt F) → (⟨S1, .f32⟩ : BufTy).Contents (Elt F) → (⟨S1, .f32⟩ : BufTy).Contents (Elt F)) x4 ((broadcastInDim S1 ![] bcast_S_S1 : (⟨S_, .f32⟩ : BufTy).Contents (Elt F) → (⟨S1, .f32⟩ : BufTy).Contents (Elt F)) (constant S_ .f32 0x3F800000#32 : (⟨S_, .f32⟩ : BufTy).Contents (Elt F)))) ((subf : (⟨S1, .f32⟩ : BufTy).Contents (Elt F) → (⟨S1, .f32⟩ : BufTy).Contents (Elt F) → (⟨S1, .f32⟩ : BufTy).Contents (Elt F)) x4 ((broadcastInDim S1 ![] bcast_S_S1 : (⟨S_, .f32⟩ : BufTy).Contents (Elt F) → (⟨S1, .f32⟩ : BufTy).Contents (Elt F)) (constant S_ .f32 0x3F800000#32 : (⟨S_, .f32⟩ : BufTy).Contents (Elt F))))) (constant S_ .f32 0x00000000#32 : (⟨S_, .f32⟩ : BufTy).Contents (Elt F))) (constant S_ .f32 0x3F800000#32 : (⟨S_, .f32⟩ : BufTy).Contents (Elt F))))

/-- The value %51 of @main as a function of %45 (`kl`) and %43 (`np`): the composition of %46 … %49, the second @_where and %51. -/
def consRF (kl : FVec F S_ .f32) (np : IVec S_ 32) : FVec F S_ .f32 :=
  ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) ((select : (⟨S_, .i1⟩ : BufTy).Contents (Elt F) → (⟨S_, .f32⟩ : BufTy).Contents (Elt F) → (⟨S_, .f32⟩ : BufTy).Contents (Elt F) → (⟨S_, .f32⟩ : BufTy).Contents (Elt F)) ((cmpi .sgt : (⟨S_, .i32⟩ : BufTy).Contents (Elt F) → (⟨S_, .i32⟩ : BufTy).Contents (Elt F) → (⟨S_, .i1⟩ : BufTy).Contents (Elt F)) np (constantI S_ 32 0#32 : (⟨S_, .i32⟩ : BufTy).Contents (Elt F))) ((Host.divf : (⟨S_, .f32⟩ : BufTy).Contents (Elt F) → (⟨S_, .f32⟩ : BufTy).Contents (Elt F) → (⟨S_, .f32⟩ : BufTy).Contents (Elt F)) kl ((sitofp .f32 : (⟨S_, .i32⟩ : BufTy).Contents (Elt F) → (⟨S_, .f32⟩ : BufTy).Contents (Elt F)) ((maxsi : (⟨S_, .i32⟩ : BufTy).Contents (Elt F) → (⟨S_, .i32⟩ : BufTy).Contents (Elt F) → (⟨S_, .i32⟩ : BufTy).Contents (Elt F)) np (constantI S_ 32 1#32 : (⟨S_, .i32⟩ : BufTy).Contents (Elt F))))) ((id : (⟨S_, .f32⟩ : BufTy).Contents (Elt F) → (⟨S_, .f32⟩ : BufTy).Contents (Elt F)) (constant S_ .f32 0x00000000#32 : (⟨S_, .f32⟩ : BufTy).Contents (Elt F)))))

/-- The value %72 of @main: the five additions %68 … %72 over the terms above, in program order, the fourth term (%51) given. -/
def totalF (x0 : FVec F S8192x3 .f32) (x1 : IVec S8192 32) (x2 : FVec F S8192x8 .f32) (x4 : FVec F S1 .f32) (cons : FVec F S_ .f32) : FVec F S_ .f32 :=
  ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) (taskTF x0 x1) (lbTF x2)) (effTF x2)) cons) (entTF x2)) (tempTF x4))

end Generic

/-! ## At the ideal floats -/

/-- `nrmTF` at the ideal floats. -/
def nrmT (x3 : FVec Ideal S8192x128 .f32) : FVec Ideal S8192x128 .f32 :=
  nrmTF (F := Ideal) x3

/-- `logpTF` at the ideal floats. -/
def logpT (x2 : FVec Ideal S8192x8 .f32) : FVec Ideal S8192x8 .f32 :=
  logpTF (F := Ideal) x2

/-- `pTF` at the ideal floats. -/
def pT (x2 : FVec Ideal S8192x8 .f32) : FVec Ideal S8192x8 .f32 :=
  pTF (F := Ideal) x2

/-- `aTF` at the ideal floats. -/
def aT (x2 : FVec Ideal S8192x8 .f32) : FVec Ideal S1x8192 .f32 :=
  aTF (F := Ideal) x2

/-- `taskTF` at the ideal floats. -/
def taskT (x0 : FVec Ideal S8192x3 .f32) (x1 : IVec S8192 32) : FVec Ideal S_ .f32 :=
  taskTF (F := Ideal) x0 x1

/-- `lbTF` at the ideal floats. -/
def lbT (x2 : FVec Ideal S8192x8 .f32) : FVec Ideal S_ .f32 :=
  lbTF (F := Ideal) x2

/-- `effTF` at the ideal floats. -/
def effT (x2 : FVec Ideal S8192x8 .f32) : FVec Ideal S_ .f32 :=
  effTF (F := Ideal) x2

/-- `entTF` at the ideal floats. -/
def entT (x2 : FVec Ideal S8192x8 .f32) : FVec Ideal S_ .f32 :=
  entTF (F := Ideal) x2

/-- `tempTF` at the ideal floats. -/
def tempT (x4 : FVec Ideal S1 .f32) : FVec Ideal S_ .f32 :=
  tempTF (F := Ideal) x4

/-- `consRF` at the ideal floats. -/
def consR (kl : FVec Ideal S_ .f32) (np : IVec S_ 32) : FVec Ideal S_ .f32 :=
  consRF (F := Ideal) kl np

/-- `totalF` at the ideal floats. -/
def total (x0 : FVec Ideal S8192x3 .f32) (x1 : IVec S8192 32) (x2 : FVec Ideal S8192x8 .f32) (x4 : FVec Ideal S1 .f32) (cons : FVec Ideal S_ .f32) : FVec Ideal S_ .f32 :=
  totalF (F := Ideal) x0 x1 x2 x4 cons

end Cert.ReferenceIdeal.RefVal

end
-- ==== Proof.Ref.ValSum.lean ====
/- The result's outer shape, shared by the two programs: six scalar terms added left to right. The reference's
   `total` is that sum of its six terms. -/
import proofs.«137117_j83648783057448_1_alg».proof.Proof.Ref.ValDefs

noncomputable section

namespace Cert.ReferenceIdeal.RefVal

open Cert.ReferenceIdeal Cert.ReferenceIdeal.Gen Idealize.ShloMosaic Idealize.SL.Sem

/-- Six scalars added left to right, as both programs add their six terms. -/
def sum6F {F : FTy → Type} [FloatOps F] (a b c d e f : FVec F S_ .f32) : FVec F S_ .f32 :=
  ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) a b) c) d) e) f)

/-- `sum6F` at the ideal floats. -/
def sum6 (a b c d e f : FVec Ideal S_ .f32) : FVec Ideal S_ .f32 := sum6F (F := Ideal) a b c d e f

/-- The reference's result is the sum of its six terms. -/
theorem total_eq_sum6 (x0 : FVec Ideal S8192x3 .f32) (x1 : IVec S8192 32) (x2 : FVec Ideal S8192x8 .f32) (x4 : FVec Ideal S1 .f32)
    (cons : FVec Ideal S_ .f32) :
    total x0 x1 x2 x4 cons = sum6 (taskT x0 x1) (lbT x2) (effT x2) cons (entT x2) (tempT x4) := rfl

end Cert.ReferenceIdeal.RefVal

end
-- ==== Proof.KI.HostVal.lean ====
/- The kernel program's host arithmetic as values, at the ideal floats.

   Before the kernel region the program runs twelve stretches of host operations; after it, three. Folded from any
   contents `V0`, the twelve leave at %21, %22, %23, %5, %11, %18 the reference's functions `nrmT`, `logpT`, `pT`, `taskT`,
   `lbT`, `effT` of the arguments (the operations are the same terms), and at %26 the row of self terms as this program
   lays it out (`aK`: a reshape where the reference broadcasts). Folded from any contents `VX`, the three after the region
   leave at %55 the six-term sum of what `VX` holds at %5, %11, %18, of `consK` of the region's two results, and of the
   reference's `entT`, `tempT` of the arguments. Same method as for the reference: each stretch's results as functions of
   what it reads (`pfK_*`, `tfK_*`), chained stretch by stretch (`pstK_*`, `tstK_*`). -/
import proofs.«137117_j83648783057448_1_alg».proof.Proof.Gen.KernelIdeal.Launch
import Idealize.ShloMosaic.Lib.StableHlo.Run
import proofs.«137117_j83648783057448_1_alg».proof.Proof.Ref.ValDefs
import proofs.«137117_j83648783057448_1_alg».proof.Proof.Ref.ValSum

noncomputable section

namespace Cert.KernelIdeal.HostVal

open Cert.KernelIdeal Cert.KernelIdeal.Gen Idealize.ShloMosaic Idealize.SL.Sem

-- the whole-array operations are compared as they stand, never opened
attribute [local irreducible] Host.reduceAdd Host.reduce Host.gather transpose broadcastInDim shapeCast iotaInDim

section Generic
variable {F : FTy → Type} [FloatOps F]

/-- The row of self terms as this program lays it out (%26): the row sums of p · log p, reshaped to [1, 8192]. -/
def aKF (x2 : FVec F S8192x8 .f32) : FVec F S1x8192 .f32 :=
  (shapeCast S1x8192 (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) (Cert.ReferenceIdeal.RefVal.pTF x2) (Cert.ReferenceIdeal.RefVal.logpTF x2)) (constant S_ .f32 0x00000000#32 : (⟨S_, .f32⟩ : BufTy).Contents (Elt F))) shapeCasts_S8192_S1x8192 : (⟨S1x8192, .f32⟩ : BufTy).Contents (Elt F))

/-- The fourth term from the region's two [1, 1] results (%34): the composition of %28 … %32, the @_where and %34. -/
def consKF (kl11 np11 : FVec F S1x1 .f32) : FVec F S_ .f32 :=
  ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) ((select : (⟨S_, .i1⟩ : BufTy).Contents (Elt F) → (⟨S_, .f32⟩ : BufTy).Contents (Elt F) → (⟨S_, .f32⟩ : BufTy).Contents (Elt F) → (⟨S_, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) (shapeCast S_ np11 shapeCasts_S1x1_S_ : (⟨S_, .f32⟩ : BufTy).Contents (Elt F)) (constant S_ .f32 0x00000000#32 : (⟨S_, .f32⟩ : BufTy).Contents (Elt F))) ((Host.divf : (⟨S_, .f32⟩ : BufTy).Contents (Elt F) → (⟨S_, .f32⟩ : BufTy).Contents (Elt F) → (⟨S_, .f32⟩ : BufTy).Contents (Elt F)) (shapeCast S_ kl11 shapeCasts_S1x1_S_ : (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (shapeCast S_ np11 shapeCasts_S1x1_S_ : (⟨S_, .f32⟩ : BufTy).Contents (Elt F)) (constant S_ .f32 0x3F800000#32 : (⟨S_, .f32⟩ : BufTy).Contents (Elt F)))) ((id : (⟨S_, .f32⟩ : BufTy).Contents (Elt F) → (⟨S_, .f32⟩ : BufTy).Contents (Elt F)) (constant S_ .f32 0x00000000#32 : (⟨S_, .f32⟩ : BufTy).Contents (Elt F)))))

/-! ## Each stretch's results, and what it leaves alone -/

/-- %v0 from what `hostOps0` reads: the composition of that stretch's operations leading to it. -/
def pf0_v0 (u_arg0 : (⟨S8192x3, .f32⟩ : BufTy).Contents (Elt F)) : (⟨S8192x3, .f32⟩ : BufTy).Contents (Elt F) :=
  ((subf : (⟨S8192x3, .f32⟩ : BufTy).Contents (Elt F) → (⟨S8192x3, .f32⟩ : BufTy).Contents (Elt F) → (⟨S8192x3, .f32⟩ : BufTy).Contents (Elt F)) ((subf : (⟨S8192x3, .f32⟩ : BufTy).Contents (Elt F) → (⟨S8192x3, .f32⟩ : BufTy).Contents (Elt F) → (⟨S8192x3, .f32⟩ : BufTy).Contents (Elt F)) u_arg0 (((broadcastInDim S8192x3 ![0, 1] bcast_S8192x1_S8192x3_0_1) : (⟨S8192x1, .f32⟩ : BufTy).Contents (Elt F) → (⟨S8192x3, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x3_S8192_d1 h_S_) : (⟨S8192x3, .f32⟩ : BufTy).Contents (Elt F) → (⟨S_, .f32⟩ : BufTy).Contents (Elt F) → (⟨S8192, .f32⟩ : BufTy).Contents (Elt F)) u_arg0 (constant S_ .f32 0xFF800000#32 : (⟨S_, .f32⟩ : BufTy).Contents (Elt F))))))) (((broadcastInDim S8192x3 ![0, 1] bcast_S8192x1_S8192x3_0_1) : (⟨S8192x1, .f32⟩ : BufTy).Contents (Elt F) → (⟨S8192x3, .f32⟩ : BufTy).Contents (Elt F)) ((Host.log : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)) ((Host.exp : (⟨S8192x3, .f32⟩ : BufTy).Contents (Elt F) → (⟨S8192x3, .f32⟩ : BufTy).Contents (Elt F)) ((subf : (⟨S8192x3, .f32⟩ : BufTy).Contents (Elt F) → (⟨S8192x3, .f32⟩ : BufTy).Contents (Elt F) → (⟨S8192x3, .f32⟩ : BufTy).Contents (Elt F)) u_arg0 (((broadcastInDim S8192x3 ![0, 1] bcast_S8192x1_S8192x3_0_1) : (⟨S8192x1, .f32⟩ : BufTy).Contents (Elt F) → (⟨S8192x3, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x3_S8192_d1 h_S_) : (⟨S8192x3, .f32⟩ : BufTy).Contents (Elt F) → (⟨S_, .f32⟩ : BufTy).Contents (Elt F) → (⟨S8192, .f32⟩ : BufTy).Contents (Elt F)) u_arg0 (constant S_ .f32 0xFF800000#32 : (⟨S_, .f32⟩ : BufTy).Contents (Elt F)))))))) (constant S_ .f32 0x00000000#32 : (⟨S_, .f32⟩ : BufTy).Contents (Elt F)))))))
theorem p0_out_main_v0 (V : Valuation τ sig (Elt F)) :
    StableHlo.after hostOps0 V (Proc.devRef (τ := τ) .tc main_v0) = pf0_v0 (V (Proc.devRef (τ := τ) .tc main_arg0)) := by
  after_results_simp <;> rfl
theorem p0_keep_main_arg1 (V : Valuation τ sig (Elt F)) : StableHlo.after hostOps0 V (Proc.devRef (τ := τ) .tc main_arg1) = V (Proc.devRef (τ := τ) .tc main_arg1) := by after_results_simp
theorem p0_keep_main_arg2 (V : Valuation τ sig (Elt F)) : StableHlo.after hostOps0 V (Proc.devRef (τ := τ) .tc main_arg2) = V (Proc.devRef (τ := τ) .tc main_arg2) := by after_results_simp
theorem p0_keep_main_arg3 (V : Valuation τ sig (Elt F)) : StableHlo.after hostOps0 V (Proc.devRef (τ := τ) .tc main_arg3) = V (Proc.devRef (τ := τ) .tc main_arg3) := by after_results_simp
theorem p1_keep_main_v0 (V : Valuation τ sig (Elt F)) : StableHlo.after hostOps0_1 V (Proc.devRef (τ := τ) .tc main_v0) = V (Proc.devRef (τ := τ) .tc main_v0) := by after_results_simp

/-- %v1 from what `hostOps0_1` reads: the composition of that stretch's operations leading to it. -/
def pf1_v1 (u_arg1 : (⟨S8192, .i32⟩ : BufTy).Contents (Elt F)) : (⟨S8192x1, .i32⟩ : BufTy).Contents (Elt F) :=
  ((broadcastInDim S8192x1 ![0] bcast_S8192_S8192x1_0 : (⟨S8192, .i32⟩ : BufTy).Contents (Elt F) → (⟨S8192x1, .i32⟩ : BufTy).Contents (Elt F)) u_arg1)
theorem p1_out_main_v1 (V : Valuation τ sig (Elt F)) :
    StableHlo.after hostOps0_1 V (Proc.devRef (τ := τ) .tc main_v1) = pf1_v1 (V (Proc.devRef (τ := τ) .tc main_arg1)) := by
  after_results_simp <;> rfl
theorem p1_keep_main_arg2 (V : Valuation τ sig (Elt F)) : StableHlo.after hostOps0_1 V (Proc.devRef (τ := τ) .tc main_arg2) = V (Proc.devRef (τ := τ) .tc main_arg2) := by after_results_simp
theorem p1_keep_main_arg3 (V : Valuation τ sig (Elt F)) : StableHlo.after hostOps0_1 V (Proc.devRef (τ := τ) .tc main_arg3) = V (Proc.devRef (τ := τ) .tc main_arg3) := by after_results_simp

/-- %v2 from what `hostOps0_2` reads: the composition of that stretch's operations leading to it. -/
def pf2_v2 (u_v1 : (⟨S8192x1, .i32⟩ : BufTy).Contents (Elt F)) (u_v0 : (⟨S8192x3, .f32⟩ : BufTy).Contents (Elt F)) : (⟨S8192x1, .f32⟩ : BufTy).Contents (Elt F) :=
  ((select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) (((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) ((andi : (⟨S8192x1x1, .i1⟩ : BufTy).Contents (Elt F) → (⟨S8192x1x1, .i1⟩ : BufTy).Contents (Elt F) → (⟨S8192x1x1, .i1⟩ : BufTy).Contents (Elt F)) (((cmpi .sge) : (⟨S8192x1x1, .i32⟩ : BufTy).Contents (Elt F) → (⟨S8192x1x1, .i32⟩ : BufTy).Contents (Elt F) → (⟨S8192x1x1, .i1⟩ : BufTy).Contents (Elt F)) (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) u_v1) shapeCasts_S8192x1_S8192x1x1 : (⟨S8192x1x1, .i32⟩ : BufTy).Contents (Elt F)) (((broadcastInDim S8192x1x1 ![] bcast_S_S8192x1x1) : (⟨S_, .i32⟩ : BufTy).Contents (Elt F) → (⟨S8192x1x1, .i32⟩ : BufTy).Contents (Elt F)) (constantI S_ 32 0#32 : (⟨S_, .i32⟩ : BufTy).Contents (Elt F)))) (((cmpi .sle) : (⟨S8192x1x1, .i32⟩ : BufTy).Contents (Elt F) → (⟨S8192x1x1, .i32⟩ : BufTy).Contents (Elt F) → (⟨S8192x1x1, .i1⟩ : BufTy).Contents (Elt F)) (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) u_v1) shapeCasts_S8192x1_S8192x1x1 : (⟨S8192x1x1, .i32⟩ : BufTy).Contents (Elt F)) (((broadcastInDim S8192x1x1 ![0, 1, 2] bcast_S1x1x1_S8192x1x1_0_1_2) : (⟨S1x1x1, .i32⟩ : BufTy).Contents (Elt F) → (⟨S8192x1x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) (constantI S1 32 2#32 : (⟨S1, .i32⟩ : BufTy).Contents (Elt F)))))) (constantI S_ 1 1#1 : (⟨S_, .i1⟩ : BufTy).Contents (Elt F))) (((fun x i => Host.gather gather_S8192x3_S8192x1x1_S8192x1_n_1_0_0_1_2_11 x i) : (⟨S8192x3, .f32⟩ : BufTy).Contents (Elt F) → (⟨S8192x1x1, .i32⟩ : BufTy).Contents (Elt F) → (⟨S8192x1, .f32⟩ : BufTy).Contents (Elt F)) u_v0 (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) u_v1) shapeCasts_S8192x1_S8192x1x1 : (⟨S8192x1x1, .i32⟩ : BufTy).Contents (Elt F))) (((broadcastInDim S8192x1 ![] bcast_S_S8192x1) : (⟨S_, .f32⟩ : BufTy).Contents (Elt F) → (⟨S8192x1, .f32⟩ : BufTy).Contents (Elt F)) (constant S_ .f32 0x7FC00000#32 : (⟨S_, .f32⟩ : BufTy).Contents (Elt F))))
theorem p2_out_main_v2 (V : Valuation τ sig (Elt F)) :
    StableHlo.after hostOps0_2 V (Proc.devRef (τ := τ) .tc main_v2) = pf2_v2 (V (Proc.devRef (τ := τ) .tc main_v1)) (V (Proc.devRef (τ := τ) .tc main_v0)) := by
  after_results_simp <;> rfl
theorem p2_keep_main_arg2 (V : Valuation τ sig (Elt F)) : StableHlo.after hostOps0_2 V (Proc.devRef (τ := τ) .tc main_arg2) = V (Proc.devRef (τ := τ) .tc main_arg2) := by after_results_simp
theorem p2_keep_main_arg3 (V : Valuation τ sig (Elt F)) : StableHlo.after hostOps0_2 V (Proc.devRef (τ := τ) .tc main_arg3) = V (Proc.devRef (τ := τ) .tc main_arg3) := by after_results_simp

/-- %v5 from what `hostOps0_3` reads: the composition of that stretch's operations leading to it. -/
def pf3_v5 (u_v2 : (⟨S8192x1, .f32⟩ : BufTy).Contents (Elt F)) : (⟨S_, .f32⟩ : BufTy).Contents (Elt F) :=
  ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)) u_v2 (constant S_ .f32 0x00000000#32 : (⟨S_, .f32⟩ : BufTy).Contents (Elt F))) (constant S_ .f32 0x46000000#32 : (⟨S_, .f32⟩ : BufTy).Contents (Elt F))))
theorem p3_out_main_v5 (V : Valuation τ sig (Elt F)) :
    StableHlo.after hostOps0_3 V (Proc.devRef (τ := τ) .tc main_v5) = pf3_v5 (V (Proc.devRef (τ := τ) .tc main_v2)) := by
  after_results_simp <;> rfl
theorem p3_keep_main_arg2 (V : Valuation τ sig (Elt F)) : StableHlo.after hostOps0_3 V (Proc.devRef (τ := τ) .tc main_arg2) = V (Proc.devRef (τ := τ) .tc main_arg2) := by after_results_simp

/-- %v8 from what `hostOps0_3` reads: the composition of that stretch's operations leading to it. -/
def pf3_v8 (u_arg2 : (⟨S8192x8, .f32⟩ : BufTy).Contents (Elt F)) : (⟨S8, .f32⟩ : BufTy).Contents (Elt F) :=
  ((Host.divf : (⟨S8, .f32⟩ : BufTy).Contents (Elt F) → (⟨S8, .f32⟩ : BufTy).Contents (Elt F) → (⟨S8, .f32⟩ : BufTy).Contents (Elt F)) (((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)) u_arg2 (constant S_ .f32 0x00000000#32 : (⟨S_, .f32⟩ : BufTy).Contents (Elt F))) ((broadcastInDim S8 ![] bcast_S_S8 : (⟨S_, .f32⟩ : BufTy).Contents (Elt F) → (⟨S8, .f32⟩ : BufTy).Contents (Elt F)) (constant S_ .f32 0x46000000#32 : (⟨S_, .f32⟩ : BufTy).Contents (Elt F))))
theorem p3_out_main_v8 (V : Valuation τ sig (Elt F)) :
    StableHlo.after hostOps0_3 V (Proc.devRef (τ := τ) .tc main_v8) = pf3_v8 (V (Proc.devRef (τ := τ) .tc main_arg2)) := by
  after_results_simp <;> rfl

/-- %c from what `hostOps0_3` reads: the composition of that stretch's operations leading to it. -/
def pf3_c  : (⟨S_, .i32⟩ : BufTy).Contents (Elt F) :=
  (constantI S_ 32 1#32 : (⟨S_, .i32⟩ : BufTy).Contents (Elt F))
theorem p3_out_main_c (V : Valuation τ sig (Elt F)) :
    StableHlo.after hostOps0_3 V (Proc.devRef (τ := τ) .tc main_c) = pf3_c := by
  after_results_simp <;> rfl
theorem p3_keep_main_arg3 (V : Valuation τ sig (Elt F)) : StableHlo.after hostOps0_3 V (Proc.devRef (τ := τ) .tc main_arg3) = V (Proc.devRef (τ := τ) .tc main_arg3) := by after_results_simp
theorem p4_keep_main_v5 (V : Valuation τ sig (Elt F)) : StableHlo.after hostOps0_4 V (Proc.devRef (τ := τ) .tc main_v5) = V (Proc.devRef (τ := τ) .tc main_v5) := by after_results_simp
theorem p4_keep_main_arg2 (V : Valuation τ sig (Elt F)) : StableHlo.after hostOps0_4 V (Proc.devRef (τ := τ) .tc main_arg2) = V (Proc.devRef (τ := τ) .tc main_arg2) := by after_results_simp

/-- %v9 from what `hostOps0_4` reads: the composition of that stretch's operations leading to it. -/
def pf4_v9 (u_c : (⟨S_, .i32⟩ : BufTy).Contents (Elt F)) (u_v8 : (⟨S8, .f32⟩ : BufTy).Contents (Elt F)) : (⟨S_, .f32⟩ : BufTy).Contents (Elt F) :=
  ((select : (⟨S_, .i1⟩ : BufTy).Contents (Elt F) → (⟨S_, .f32⟩ : BufTy).Contents (Elt F) → (⟨S_, .f32⟩ : BufTy).Contents (Elt F) → (⟨S_, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x41000000#32 : (⟨S_, .f32⟩ : BufTy).Contents (Elt F)) (((sitofp .f32) : (⟨S_, .i32⟩ : BufTy).Contents (Elt F) → (⟨S_, .f32⟩ : BufTy).Contents (Elt F)) u_c)) (constant S_ .f32 0x00000000#32 : (⟨S_, .f32⟩ : BufTy).Contents (Elt F))) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ((mulf : (⟨S8, .f32⟩ : BufTy).Contents (Elt F) → (⟨S8, .f32⟩ : BufTy).Contents (Elt F) → (⟨S8, .f32⟩ : BufTy).Contents (Elt F)) ((subf : (⟨S8, .f32⟩ : BufTy).Contents (Elt F) → (⟨S8, .f32⟩ : BufTy).Contents (Elt F) → (⟨S8, .f32⟩ : BufTy).Contents (Elt F)) u_v8 (((broadcastInDim S8 ![0] bcast_S1_S8_0) : (⟨S1, .f32⟩ : BufTy).Contents (Elt F) → (⟨S8, .f32⟩ : BufTy).Contents (Elt F)) ((Host.divf : (⟨S1, .f32⟩ : BufTy).Contents (Elt F) → (⟨S1, .f32⟩ : BufTy).Contents (Elt F) → (⟨S1, .f32⟩ : BufTy).Contents (Elt F)) (((broadcastInDim S1 ![] bcast_S_S1) : (⟨S_, .f32⟩ : BufTy).Contents (Elt F) → (⟨S1, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) u_v8 (constant S_ .f32 0x00000000#32 : (⟨S_, .f32⟩ : BufTy).Contents (Elt F)))) (((broadcastInDim S1 ![] bcast_S_S1) : (⟨S_, .f32⟩ : BufTy).Contents (Elt F) → (⟨S1, .f32⟩ : BufTy).Contents (Elt F)) (constant S_ .f32 0x41000000#32 : (⟨S_, .f32⟩ : BufTy).Contents (Elt F)))))) ((subf : (⟨S8, .f32⟩ : BufTy).Contents (Elt F) → (⟨S8, .f32⟩ : BufTy).Contents (Elt F) → (⟨S8, .f32⟩ : BufTy).Contents (Elt F)) u_v8 (((broadcastInDim S8 ![0] bcast_S1_S8_0) : (⟨S1, .f32⟩ : BufTy).Contents (Elt F) → (⟨S8, .f32⟩ : BufTy).Contents (Elt F)) ((Host.divf : (⟨S1, .f32⟩ : BufTy).Contents (Elt F) → (⟨S1, .f32⟩ : BufTy).Contents (Elt F) → (⟨S1, .f32⟩ : BufTy).Contents (Elt F)) (((broadcastInDim S1 ![] bcast_S_S1) : (⟨S_, .f32⟩ : BufTy).Contents (Elt F) → (⟨S1, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) u_v8 (constant S_ .f32 0x00000000#32 : (⟨S_, .f32⟩ : BufTy).Contents (Elt F)))) (((broadcastInDim S1 ![] bcast_S_S1) : (⟨S_, .f32⟩ : BufTy).Contents (Elt F) → (⟨S1, .f32⟩ : BufTy).Contents (Elt F)) (constant S_ .f32 0x41000000#32 : (⟨S_, .f32⟩ : BufTy).Contents (Elt F))))))) (constant S_ .f32 0x00000000#32 : (⟨S_, .f32⟩ : BufTy).Contents (Elt F))) ((subf : (⟨S_, .f32⟩ : BufTy).Contents (Elt F) → (⟨S_, .f32⟩ : BufTy).Contents (Elt F) → (⟨S_, .f32⟩ : BufTy).Contents (Elt F)) (constant S_ .f32 0x41000000#32 : (⟨S_, .f32⟩ : BufTy).Contents (Elt F)) (((sitofp .f32) : (⟨S_, .i32⟩ : BufTy).Contents (Elt F) → (⟨S_, .f32⟩ : BufTy).Contents (Elt F)) u_c))) ((id : (⟨S_, .f32⟩ : BufTy).Contents (Elt F) → (⟨S_, .f32⟩ : BufTy).Contents (Elt F)) (constant S_ .f32 0x7FC00000#32 : (⟨S_, .f32⟩ : BufTy).Contents (Elt F))))
theorem p4_out_main_v9 (V : Valuation τ sig (Elt F)) :
    StableHlo.after hostOps0_4 V (Proc.devRef (τ := τ) .tc main_v9) = pf4_v9 (V (Proc.devRef (τ := τ) .tc main_c)) (V (Proc.devRef (τ := τ) .tc main_v8)) := by
  after_results_simp <;> rfl
theorem p4_keep_main_arg3 (V : Valuation τ sig (Elt F)) : StableHlo.after hostOps0_4 V (Proc.devRef (τ := τ) .tc main_arg3) = V (Proc.devRef (τ := τ) .tc main_arg3) := by after_results_simp
theorem p5_keep_main_v5 (V : Valuation τ sig (Elt F)) : StableHlo.after hostOps0_5 V (Proc.devRef (τ := τ) .tc main_v5) = V (Proc.devRef (τ := τ) .tc main_v5) := by after_results_simp
theorem p5_keep_main_arg2 (V : Valuation τ sig (Elt F)) : StableHlo.after hostOps0_5 V (Proc.devRef (τ := τ) .tc main_arg2) = V (Proc.devRef (τ := τ) .tc main_arg2) := by after_results_simp

/-- %v11 from what `hostOps0_5` reads: the composition of that stretch's operations leading to it. -/
def pf5_v11 (u_v9 : (⟨S_, .f32⟩ : BufTy).Contents (Elt F)) : (⟨S_, .f32⟩ : BufTy).Contents (Elt F) :=
  ((mulf : (⟨S_, .f32⟩ : BufTy).Contents (Elt F) → (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) u_v9) (constant S_ .f32 0x42800000#32 : (⟨S_, .f32⟩ : BufTy).Contents (Elt F)))
theorem p5_out_main_v11 (V : Valuation τ sig (Elt F)) :
    StableHlo.after hostOps0_5 V (Proc.devRef (τ := τ) .tc main_v11) = pf5_v11 (V (Proc.devRef (τ := τ) .tc main_v9)) := by
  after_results_simp <;> rfl

/-- %v13 from what `hostOps0_5` reads: the composition of that stretch's operations leading to it. -/
def pf5_v13 (u_arg2 : (⟨S8192x8, .f32⟩ : BufTy).Contents (Elt F)) : (⟨S8192x8, .i1⟩ : BufTy).Contents (Elt F) :=
  ((cmpf .olt : (⟨S8192x8, .f32⟩ : BufTy).Contents (Elt F) → (⟨S8192x8, .f32⟩ : BufTy).Contents (Elt F) → (⟨S8192x8, .i1⟩ : BufTy).Contents (Elt F)) u_arg2 ((broadcastInDim S8192x8 ![] bcast_S_S8192x8 : (⟨S_, .f32⟩ : BufTy).Contents (Elt F) → (⟨S8192x8, .f32⟩ : BufTy).Contents (Elt F)) (constant S_ .f32 0x3DCCCCCD#32 : (⟨S_, .f32⟩ : BufTy).Contents (Elt F))))
theorem p5_out_main_v13 (V : Valuation τ sig (Elt F)) :
    StableHlo.after hostOps0_5 V (Proc.devRef (τ := τ) .tc main_v13) = pf5_v13 (V (Proc.devRef (τ := τ) .tc main_arg2)) := by
  after_results_simp <;> rfl

/-- %cst_6 from what `hostOps0_5` reads: the composition of that stretch's operations leading to it. -/
def pf5_cst_6  : (⟨S_, .f32⟩ : BufTy).Contents (Elt F) :=
  (constant S_ .f32 0x00000000#32 : (⟨S_, .f32⟩ : BufTy).Contents (Elt F))
theorem p5_out_main_cst_6 (V : Valuation τ sig (Elt F)) :
    StableHlo.after hostOps0_5 V (Proc.devRef (τ := τ) .tc main_cst_6) = pf5_cst_6 := by
  after_results_simp <;> rfl
theorem p5_keep_main_arg3 (V : Valuation τ sig (Elt F)) : StableHlo.after hostOps0_5 V (Proc.devRef (τ := τ) .tc main_arg3) = V (Proc.devRef (τ := τ) .tc main_arg3) := by after_results_simp
theorem p6_keep_main_v5 (V : Valuation τ sig (Elt F)) : StableHlo.after hostOps0_6 V (Proc.devRef (τ := τ) .tc main_v5) = V (Proc.devRef (τ := τ) .tc main_v5) := by after_results_simp
theorem p6_keep_main_arg2 (V : Valuation τ sig (Elt F)) : StableHlo.after hostOps0_6 V (Proc.devRef (τ := τ) .tc main_arg2) = V (Proc.devRef (τ := τ) .tc main_arg2) := by after_results_simp
theorem p6_keep_main_v11 (V : Valuation τ sig (Elt F)) : StableHlo.after hostOps0_6 V (Proc.devRef (τ := τ) .tc main_v11) = V (Proc.devRef (τ := τ) .tc main_v11) := by after_results_simp

/-- %v14 from what `hostOps0_6` reads: the composition of that stretch's operations leading to it. -/
def pf6_v14 (u_v13 : (⟨S8192x8, .i1⟩ : BufTy).Contents (Elt F)) (u_arg2 : (⟨S8192x8, .f32⟩ : BufTy).Contents (Elt F)) (u_cst_6 : (⟨S_, .f32⟩ : BufTy).Contents (Elt F)) : (⟨S8192x8, .f32⟩ : BufTy).Contents (Elt F) :=
  ((select : (⟨S8192x8, .i1⟩ : BufTy).Contents (Elt F) → (⟨S8192x8, .f32⟩ : BufTy).Contents (Elt F) → (⟨S8192x8, .f32⟩ : BufTy).Contents (Elt F) → (⟨S8192x8, .f32⟩ : BufTy).Contents (Elt F)) u_v13 u_arg2 (((broadcastInDim S8192x8 ![] bcast_S_S8192x8) : (⟨S_, .f32⟩ : BufTy).Contents (Elt F) → (⟨S8192x8, .f32⟩ : BufTy).Contents (Elt F)) ((id : (⟨S_, .f32⟩ : BufTy).Contents (Elt F) → (⟨S_, .f32⟩ : BufTy).Contents (Elt F)) u_cst_6)))
theorem p6_out_main_v14 (V : Valuation τ sig (Elt F)) :
    StableHlo.after hostOps0_6 V (Proc.devRef (τ := τ) .tc main_v14) = pf6_v14 (V (Proc.devRef (τ := τ) .tc main_v13)) (V (Proc.devRef (τ := τ) .tc main_arg2)) (V (Proc.devRef (τ := τ) .tc main_cst_6)) := by
  after_results_simp <;> rfl
theorem p6_keep_main_arg3 (V : Valuation τ sig (Elt F)) : StableHlo.after hostOps0_6 V (Proc.devRef (τ := τ) .tc main_arg3) = V (Proc.devRef (τ := τ) .tc main_arg3) := by after_results_simp
theorem p7_keep_main_v5 (V : Valuation τ sig (Elt F)) : StableHlo.after hostOps0_7 V (Proc.devRef (τ := τ) .tc main_v5) = V (Proc.devRef (τ := τ) .tc main_v5) := by after_results_simp
theorem p7_keep_main_arg2 (V : Valuation τ sig (Elt F)) : StableHlo.after hostOps0_7 V (Proc.devRef (τ := τ) .tc main_arg2) = V (Proc.devRef (τ := τ) .tc main_arg2) := by after_results_simp
theorem p7_keep_main_v11 (V : Valuation τ sig (Elt F)) : StableHlo.after hostOps0_7 V (Proc.devRef (τ := τ) .tc main_v11) = V (Proc.devRef (τ := τ) .tc main_v11) := by after_results_simp

/-- %v18 from what `hostOps0_7` reads: the composition of that stretch's operations leading to it. -/
def pf7_v18 (u_v14 : (⟨S8192x8, .f32⟩ : BufTy).Contents (Elt F)) : (⟨S_, .f32⟩ : BufTy).Contents (Elt F) :=
  ((mulf : (⟨S_, .f32⟩ : BufTy).Contents (Elt F) → (⟨S_, .f32⟩ : BufTy).Contents (Elt F) → (⟨S_, .f32⟩ : BufTy).Contents (Elt F)) (constant S_ .f32 0x3D4CCCCD#32 : (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) u_v14 (constant S_ .f32 0x00000000#32 : (⟨S_, .f32⟩ : BufTy).Contents (Elt F))) (constant S_ .f32 0x00000000#32 : (⟨S_, .f32⟩ : BufTy).Contents (Elt F))) (constant S_ .f32 0x46000000#32 : (⟨S_, .f32⟩ : BufTy).Contents (Elt F))))
theorem p7_out_main_v18 (V : Valuation τ sig (Elt F)) :
    StableHlo.after hostOps0_7 V (Proc.devRef (τ := τ) .tc main_v18) = pf7_v18 (V (Proc.devRef (τ := τ) .tc main_v14)) := by
  after_results_simp <;> rfl
theorem p7_keep_main_arg3 (V : Valuation τ sig (Elt F)) : StableHlo.after hostOps0_7 V (Proc.devRef (τ := τ) .tc main_arg3) = V (Proc.devRef (τ := τ) .tc main_arg3) := by after_results_simp
theorem p8_keep_main_v5 (V : Valuation τ sig (Elt F)) : StableHlo.after hostOps0_8 V (Proc.devRef (τ := τ) .tc main_v5) = V (Proc.devRef (τ := τ) .tc main_v5) := by after_results_simp
theorem p8_keep_main_arg2 (V : Valuation τ sig (Elt F)) : StableHlo.after hostOps0_8 V (Proc.devRef (τ := τ) .tc main_arg2) = V (Proc.devRef (τ := τ) .tc main_arg2) := by after_results_simp
theorem p8_keep_main_v11 (V : Valuation τ sig (Elt F)) : StableHlo.after hostOps0_8 V (Proc.devRef (τ := τ) .tc main_v11) = V (Proc.devRef (τ := τ) .tc main_v11) := by after_results_simp
theorem p8_keep_main_v18 (V : Valuation τ sig (Elt F)) : StableHlo.after hostOps0_8 V (Proc.devRef (τ := τ) .tc main_v18) = V (Proc.devRef (τ := τ) .tc main_v18) := by after_results_simp
theorem p8_keep_main_arg3 (V : Valuation τ sig (Elt F)) : StableHlo.after hostOps0_8 V (Proc.devRef (τ := τ) .tc main_arg3) = V (Proc.devRef (τ := τ) .tc main_arg3) := by after_results_simp

/-- %v19 from what `hostOps0_8` reads: the composition of that stretch's operations leading to it. -/
def pf8_v19 (u_arg3 : (⟨S8192x128, .f32⟩ : BufTy).Contents (Elt F)) : (⟨S8192x1, .f32⟩ : BufTy).Contents (Elt F) :=
  ((Host.sqrt : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)) ((mulf : (⟨S8192x128, .f32⟩ : BufTy).Contents (Elt F) → (⟨S8192x128, .f32⟩ : BufTy).Contents (Elt F) → (⟨S8192x128, .f32⟩ : BufTy).Contents (Elt F)) u_arg3 u_arg3) (constant S_ .f32 0x00000000#32 : (⟨S_, .f32⟩ : BufTy).Contents (Elt F)))))
theorem p8_out_main_v19 (V : Valuation τ sig (Elt F)) :
    StableHlo.after hostOps0_8 V (Proc.devRef (τ := τ) .tc main_v19) = pf8_v19 (V (Proc.devRef (τ := τ) .tc main_arg3)) := by
  after_results_simp <;> rfl
theorem p9_keep_main_v5 (V : Valuation τ sig (Elt F)) : StableHlo.after hostOps0_9 V (Proc.devRef (τ := τ) .tc main_v5) = V (Proc.devRef (τ := τ) .tc main_v5) := by after_results_simp
theorem p9_keep_main_arg2 (V : Valuation τ sig (Elt F)) : StableHlo.after hostOps0_9 V (Proc.devRef (τ := τ) .tc main_arg2) = V (Proc.devRef (τ := τ) .tc main_arg2) := by after_results_simp
theorem p9_keep_main_v11 (V : Valuation τ sig (Elt F)) : StableHlo.after hostOps0_9 V (Proc.devRef (τ := τ) .tc main_v11) = V (Proc.devRef (τ := τ) .tc main_v11) := by after_results_simp
theorem p9_keep_main_v18 (V : Valuation τ sig (Elt F)) : StableHlo.after hostOps0_9 V (Proc.devRef (τ := τ) .tc main_v18) = V (Proc.devRef (τ := τ) .tc main_v18) := by after_results_simp

/-- %v21 from what `hostOps0_9` reads: the composition of that stretch's operations leading to it. -/
def pf9_v21 (u_arg3 : (⟨S8192x128, .f32⟩ : BufTy).Contents (Elt F)) (u_v19 : (⟨S8192x1, .f32⟩ : BufTy).Contents (Elt F)) : (⟨S8192x128, .f32⟩ : BufTy).Contents (Elt F) :=
  ((Host.divf : (⟨S8192x128, .f32⟩ : BufTy).Contents (Elt F) → (⟨S8192x128, .f32⟩ : BufTy).Contents (Elt F) → (⟨S8192x128, .f32⟩ : BufTy).Contents (Elt F)) u_arg3 ((broadcastInDim S8192x128 ![0, 1] bcast_S8192x1_S8192x128_0_1 : (⟨S8192x1, .f32⟩ : BufTy).Contents (Elt F) → (⟨S8192x128, .f32⟩ : BufTy).Contents (Elt F)) u_v19))
theorem p9_out_main_v21 (V : Valuation τ sig (Elt F)) :
    StableHlo.after hostOps0_9 V (Proc.devRef (τ := τ) .tc main_v21) = pf9_v21 (V (Proc.devRef (τ := τ) .tc main_arg3)) (V (Proc.devRef (τ := τ) .tc main_v19)) := by
  after_results_simp <;> rfl
theorem p10_keep_main_v5 (V : Valuation τ sig (Elt F)) : StableHlo.after hostOps0_10 V (Proc.devRef (τ := τ) .tc main_v5) = V (Proc.devRef (τ := τ) .tc main_v5) := by after_results_simp
theorem p10_keep_main_v11 (V : Valuation τ sig (Elt F)) : StableHlo.after hostOps0_10 V (Proc.devRef (τ := τ) .tc main_v11) = V (Proc.devRef (τ := τ) .tc main_v11) := by after_results_simp
theorem p10_keep_main_v18 (V : Valuation τ sig (Elt F)) : StableHlo.after hostOps0_10 V (Proc.devRef (τ := τ) .tc main_v18) = V (Proc.devRef (τ := τ) .tc main_v18) := by after_results_simp
theorem p10_keep_main_v21 (V : Valuation τ sig (Elt F)) : StableHlo.after hostOps0_10 V (Proc.devRef (τ := τ) .tc main_v21) = V (Proc.devRef (τ := τ) .tc main_v21) := by after_results_simp

/-- %v22 from what `hostOps0_10` reads: the composition of that stretch's operations leading to it. -/
def pf10_v22 (u_arg2 : (⟨S8192x8, .f32⟩ : BufTy).Contents (Elt F)) : (⟨S8192x8, .f32⟩ : BufTy).Contents (Elt F) :=
  ((subf : (⟨S8192x8, .f32⟩ : BufTy).Contents (Elt F) → (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) u_arg2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) u_arg2 (constant S_ .f32 0xFF800000#32 : (⟨S_, .f32⟩ : BufTy).Contents (Elt F))))))) (((broadcastInDim S8192x8 ![0, 1] bcast_S8192x1_S8192x8_0_1) : (⟨S8192x1, .f32⟩ : BufTy).Contents (Elt F) → (⟨S8192x8, .f32⟩ : BufTy).Contents (Elt F)) ((Host.log : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((Host.exp : (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) u_arg2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) u_arg2 (constant S_ .f32 0xFF800000#32 : (⟨S_, .f32⟩ : BufTy).Contents (Elt F)))))))) (constant S_ .f32 0x00000000#32 : (⟨S_, .f32⟩ : BufTy).Contents (Elt F)))))))
theorem p10_out_main_v22 (V : Valuation τ sig (Elt F)) :
    StableHlo.after hostOps0_10 V (Proc.devRef (τ := τ) .tc main_v22) = pf10_v22 (V (Proc.devRef (τ := τ) .tc main_arg2)) := by
  after_results_simp <;> rfl
theorem p11_keep_main_v5 (V : Valuation τ sig (Elt F)) : StableHlo.after hostOps0_11 V (Proc.devRef (τ := τ) .tc main_v5) = V (Proc.devRef (τ := τ) .tc main_v5) := by after_results_simp
theorem p11_keep_main_v11 (V : Valuation τ sig (Elt F)) : StableHlo.after hostOps0_11 V (Proc.devRef (τ := τ) .tc main_v11) = V (Proc.devRef (τ := τ) .tc main_v11) := by after_results_simp
theorem p11_keep_main_v18 (V : Valuation τ sig (Elt F)) : StableHlo.after hostOps0_11 V (Proc.devRef (τ := τ) .tc main_v18) = V (Proc.devRef (τ := τ) .tc main_v18) := by after_results_simp
theorem p11_keep_main_v21 (V : Valuation τ sig (Elt F)) : StableHlo.after hostOps0_11 V (Proc.devRef (τ := τ) .tc main_v21) = V (Proc.devRef (τ := τ) .tc main_v21) := by after_results_simp
theorem p11_keep_main_v22 (V : Valuation τ sig (Elt F)) : StableHlo.after hostOps0_11 V (Proc.devRef (τ := τ) .tc main_v22) = V (Proc.devRef (τ := τ) .tc main_v22) := by after_results_simp

/-- %v23 from what `hostOps0_11` reads: the composition of that stretch's operations leading to it. -/
def pf11_v23 (u_v22 : (⟨S8192x8, .f32⟩ : BufTy).Contents (Elt F)) : (⟨S8192x8, .f32⟩ : BufTy).Contents (Elt F) :=
  ((Host.exp : (⟨S8192x8, .f32⟩ : BufTy).Contents (Elt F) → (⟨S8192x8, .f32⟩ : BufTy).Contents (Elt F)) u_v22)
theorem p11_out_main_v23 (V : Valuation τ sig (Elt F)) :
    StableHlo.after hostOps0_11 V (Proc.devRef (τ := τ) .tc main_v23) = pf11_v23 (V (Proc.devRef (τ := τ) .tc main_v22)) := by
  after_results_simp <;> rfl

/-- %v26 from what `hostOps0_11` reads: the composition of that stretch's operations leading to it. -/
def pf11_v26 (u_v22 : (⟨S8192x8, .f32⟩ : BufTy).Contents (Elt F)) : (⟨S1x8192, .f32⟩ : BufTy).Contents (Elt F) :=
  (shapeCast S1x8192 (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) ((Host.exp : (⟨S8192x8, .f32⟩ : BufTy).Contents (Elt F) → (⟨S8192x8, .f32⟩ : BufTy).Contents (Elt F)) u_v22) u_v22) (constant S_ .f32 0x00000000#32 : (⟨S_, .f32⟩ : BufTy).Contents (Elt F))) shapeCasts_S8192_S1x8192 : (⟨S1x8192, .f32⟩ : BufTy).Contents (Elt F))
theorem p11_out_main_v26 (V : Valuation τ sig (Elt F)) :
    StableHlo.after hostOps0_11 V (Proc.devRef (τ := τ) .tc main_v26) = pf11_v26 (V (Proc.devRef (τ := τ) .tc main_v22)) := by
  after_results_simp <;> rfl

/-- %v30 from what `hostOps1` reads: the composition of that stretch's operations leading to it. -/
def tf0_v30 (u_v27_1 : (⟨S1x1, .f32⟩ : BufTy).Contents (Elt F)) : (⟨S_, .i1⟩ : BufTy).Contents (Elt F) :=
  ((cmpf .ogt : (⟨S_, .f32⟩ : BufTy).Contents (Elt F) → (⟨S_, .f32⟩ : BufTy).Contents (Elt F) → (⟨S_, .i1⟩ : BufTy).Contents (Elt F)) (shapeCast S_ u_v27_1 shapeCasts_S1x1_S_ : (⟨S_, .f32⟩ : BufTy).Contents (Elt F)) (constant S_ .f32 0x00000000#32 : (⟨S_, .f32⟩ : BufTy).Contents (Elt F)))
theorem t0_out_main_v30 (V : Valuation τ sig (Elt F)) :
    StableHlo.after hostOps1 V (Proc.devRef (τ := τ) .tc main_v30) = tf0_v30 (V (Proc.devRef (τ := τ) .tc main_v27_1)) := by
  after_results_simp <;> rfl

/-- %v32 from what `hostOps1` reads: the composition of that stretch's operations leading to it. -/
def tf0_v32 (u_v27_0 : (⟨S1x1, .f32⟩ : BufTy).Contents (Elt F)) (u_v27_1 : (⟨S1x1, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (shapeCast S_ u_v27_0 shapeCasts_S1x1_S_ : (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (shapeCast S_ u_v27_1 shapeCasts_S1x1_S_ : (⟨S_, .f32⟩ : BufTy).Contents (Elt F)) (constant S_ .f32 0x3F800000#32 : (⟨S_, .f32⟩ : BufTy).Contents (Elt F))))
theorem t0_out_main_v32 (V : Valuation τ sig (Elt F)) :
    StableHlo.after hostOps1 V (Proc.devRef (τ := τ) .tc main_v32) = tf0_v32 (V (Proc.devRef (τ := τ) .tc main_v27_0)) (V (Proc.devRef (τ := τ) .tc main_v27_1)) := by
  after_results_simp <;> rfl

/-- %cst_14 from what `hostOps1` reads: the composition of that stretch's operations leading to it. -/
def tf0_cst_14  : (⟨S_, .f32⟩ : BufTy).Contents (Elt F) :=
  (constant S_ .f32 0x00000000#32 : (⟨S_, .f32⟩ : BufTy).Contents (Elt F))
theorem t0_out_main_cst_14 (V : Valuation τ sig (Elt F)) :
    StableHlo.after hostOps1 V (Proc.devRef (τ := τ) .tc main_cst_14) = tf0_cst_14 := by
  after_results_simp <;> rfl
theorem t0_keep_main_arg2 (V : Valuation τ sig (Elt F)) : StableHlo.after hostOps1 V (Proc.devRef (τ := τ) .tc main_arg2) = V (Proc.devRef (τ := τ) .tc main_arg2) := by after_results_simp
theorem t0_keep_main_arg4 (V : Valuation τ sig (Elt F)) : StableHlo.after hostOps1 V (Proc.devRef (τ := τ) .tc main_arg4) = V (Proc.devRef (τ := τ) .tc main_arg4) := by after_results_simp
theorem t0_keep_main_v5 (V : Valuation τ sig (Elt F)) : StableHlo.after hostOps1 V (Proc.devRef (τ := τ) .tc main_v5) = V (Proc.devRef (τ := τ) .tc main_v5) := by after_results_simp
theorem t0_keep_main_v11 (V : Valuation τ sig (Elt F)) : StableHlo.after hostOps1 V (Proc.devRef (τ := τ) .tc main_v11) = V (Proc.devRef (τ := τ) .tc main_v11) := by after_results_simp
theorem t0_keep_main_v18 (V : Valuation τ sig (Elt F)) : StableHlo.after hostOps1 V (Proc.devRef (τ := τ) .tc main_v18) = V (Proc.devRef (τ := τ) .tc main_v18) := by after_results_simp

/-- %v33 from what `hostOps1_1` reads: the composition of that stretch's operations leading to it. -/
def tf1_v33 (u_v30 : (⟨S_, .i1⟩ : BufTy).Contents (Elt F)) (u_v32 : (⟨S_, .f32⟩ : BufTy).Contents (Elt F)) (u_cst_14 : (⟨S_, .f32⟩ : BufTy).Contents (Elt F)) : (⟨S_, .f32⟩ : BufTy).Contents (Elt F) :=
  ((select : (⟨S_, .i1⟩ : BufTy).Contents (Elt F) → (⟨S_, .f32⟩ : BufTy).Contents (Elt F) → (⟨S_, .f32⟩ : BufTy).Contents (Elt F) → (⟨S_, .f32⟩ : BufTy).Contents (Elt F)) u_v30 u_v32 ((id : (⟨S_, .f32⟩ : BufTy).Contents (Elt F) → (⟨S_, .f32⟩ : BufTy).Contents (Elt F)) u_cst_14))
theorem t1_out_main_v33 (V : Valuation τ sig (Elt F)) :
    StableHlo.after hostOps1_1 V (Proc.devRef (τ := τ) .tc main_v33) = tf1_v33 (V (Proc.devRef (τ := τ) .tc main_v30)) (V (Proc.devRef (τ := τ) .tc main_v32)) (V (Proc.devRef (τ := τ) .tc main_cst_14)) := by
  after_results_simp <;> rfl
theorem t1_keep_main_arg2 (V : Valuation τ sig (Elt F)) : StableHlo.after hostOps1_1 V (Proc.devRef (τ := τ) .tc main_arg2) = V (Proc.devRef (τ := τ) .tc main_arg2) := by after_results_simp
theorem t1_keep_main_arg4 (V : Valuation τ sig (Elt F)) : StableHlo.after hostOps1_1 V (Proc.devRef (τ := τ) .tc main_arg4) = V (Proc.devRef (τ := τ) .tc main_arg4) := by after_results_simp
theorem t1_keep_main_v5 (V : Valuation τ sig (Elt F)) : StableHlo.after hostOps1_1 V (Proc.devRef (τ := τ) .tc main_v5) = V (Proc.devRef (τ := τ) .tc main_v5) := by after_results_simp
theorem t1_keep_main_v11 (V : Valuation τ sig (Elt F)) : StableHlo.after hostOps1_1 V (Proc.devRef (τ := τ) .tc main_v11) = V (Proc.devRef (τ := τ) .tc main_v11) := by after_results_simp
theorem t1_keep_main_v18 (V : Valuation τ sig (Elt F)) : StableHlo.after hostOps1_1 V (Proc.devRef (τ := τ) .tc main_v18) = V (Proc.devRef (τ := τ) .tc main_v18) := by after_results_simp

/-- %v55 from what `hostOps1_2` reads: the composition of that stretch's operations leading to it. -/
def tf2_v55 (u_v5 : (⟨S_, .f32⟩ : BufTy).Contents (Elt F)) (u_v11 : (⟨S_, .f32⟩ : BufTy).Contents (Elt F)) (u_v18 : (⟨S_, .f32⟩ : BufTy).Contents (Elt F)) (u_v33 : (⟨S_, .f32⟩ : BufTy).Contents (Elt F)) (u_arg2 : (⟨S8192x8, .f32⟩ : BufTy).Contents (Elt F)) (u_arg4 : (⟨S1, .f32⟩ : BufTy).Contents (Elt F)) : (⟨S_, .f32⟩ : BufTy).Contents (Elt F) :=
  ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) u_v5 u_v11) u_v18) ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) u_v33)) ((mulf : (⟨S_, .f32⟩ : BufTy).Contents (Elt F) → (⟨S_, .f32⟩ : BufTy).Contents (Elt F) → (⟨S_, .f32⟩ : BufTy).Contents (Elt F)) (constant S_ .f32 0x3C23D70A#32 : (⟨S_, .f32⟩ : BufTy).Contents (Elt F)) ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ((Host.negf : (⟨S8192, .f32⟩ : BufTy).Contents (Elt F) → (⟨S8192, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) u_arg2 ((Host.log : (⟨S8192x8, .f32⟩ : BufTy).Contents (Elt F) → (⟨S8192x8, .f32⟩ : BufTy).Contents (Elt F)) ((addf : (⟨S8192x8, .f32⟩ : BufTy).Contents (Elt F) → (⟨S8192x8, .f32⟩ : BufTy).Contents (Elt F) → (⟨S8192x8, .f32⟩ : BufTy).Contents (Elt F)) u_arg2 ((broadcastInDim S8192x8 ![] bcast_S_S8192x8 : (⟨S_, .f32⟩ : BufTy).Contents (Elt F) → (⟨S8192x8, .f32⟩ : BufTy).Contents (Elt F)) (constant S_ .f32 0x322BCC77#32 : (⟨S_, .f32⟩ : BufTy).Contents (Elt F)))))) (constant S_ .f32 0x00000000#32 : (⟨S_, .f32⟩ : BufTy).Contents (Elt F)))) (constant S_ .f32 0x00000000#32 : (⟨S_, .f32⟩ : BufTy).Contents (Elt F))) (constant S_ .f32 0x46000000#32 : (⟨S_, .f32⟩ : BufTy).Contents (Elt F)))))) ((mulf : (⟨S_, .f32⟩ : BufTy).Contents (Elt F) → (⟨S_, .f32⟩ : BufTy).Contents (Elt F) → (⟨S_, .f32⟩ : BufTy).Contents (Elt F)) (constant S_ .f32 0x3C23D70A#32 : (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)) ((mulf : (⟨S1, .f32⟩ : BufTy).Contents (Elt F) → (⟨S1, .f32⟩ : BufTy).Contents (Elt F) → (⟨S1, .f32⟩ : BufTy).Contents (Elt F)) ((subf : (⟨S1, .f32⟩ : BufTy).Contents (Elt F) → (⟨S1, .f32⟩ : BufTy).Contents (Elt F) → (⟨S1, .f32⟩ : BufTy).Contents (Elt F)) u_arg4 ((broadcastInDim S1 ![] bcast_S_S1 : (⟨S_, .f32⟩ : BufTy).Contents (Elt F) → (⟨S1, .f32⟩ : BufTy).Contents (Elt F)) (constant S_ .f32 0x3F800000#32 : (⟨S_, .f32⟩ : BufTy).Contents (Elt F)))) ((subf : (⟨S1, .f32⟩ : BufTy).Contents (Elt F) → (⟨S1, .f32⟩ : BufTy).Contents (Elt F) → (⟨S1, .f32⟩ : BufTy).Contents (Elt F)) u_arg4 ((broadcastInDim S1 ![] bcast_S_S1 : (⟨S_, .f32⟩ : BufTy).Contents (Elt F) → (⟨S1, .f32⟩ : BufTy).Contents (Elt F)) (constant S_ .f32 0x3F800000#32 : (⟨S_, .f32⟩ : BufTy).Contents (Elt F))))) (constant S_ .f32 0x00000000#32 : (⟨S_, .f32⟩ : BufTy).Contents (Elt F))) (constant S_ .f32 0x3F800000#32 : (⟨S_, .f32⟩ : BufTy).Contents (Elt F)))))
theorem t2_out_main_v55 (V : Valuation τ sig (Elt F)) :
    StableHlo.after hostOps1_2 V (Proc.devRef (τ := τ) .tc main_v55) = tf2_v55 (V (Proc.devRef (τ := τ) .tc main_v5)) (V (Proc.devRef (τ := τ) .tc main_v11)) (V (Proc.devRef (τ := τ) .tc main_v18)) (V (Proc.devRef (τ := τ) .tc main_v33)) (V (Proc.devRef (τ := τ) .tc main_arg2)) (V (Proc.devRef (τ := τ) .tc main_arg4)) := by
  after_results_simp <;> rfl

end Generic

/-- `aKF` at the ideal floats. -/
def aK (x2 : FVec Ideal S8192x8 .f32) : FVec Ideal S1x8192 .f32 := aKF (F := Ideal) x2
/-- `consKF` at the ideal floats. -/
def consK (kl11 np11 : FVec Ideal S1x1 .f32) : FVec Ideal S_ .f32 := consKF (F := Ideal) kl11 np11

/-! ## Before the region: what the live buffers hold after stretches 0 … K -/
theorem pst0_main_v0 (V0 : Valuation τ sig (Elt Ideal)) :
    (StableHlo.after hostOps0 V0) (Proc.devRef (τ := τ) .tc main_v0) = (pf0_v0 (F := Ideal) (V0 (Proc.devRef (τ := τ) .tc main_arg0))) := by
  rw [p0_out_main_v0] <;> rfl
theorem pst0_main_arg1 (V0 : Valuation τ sig (Elt Ideal)) :
    (StableHlo.after hostOps0 V0) (Proc.devRef (τ := τ) .tc main_arg1) = (V0 (Proc.devRef (τ := τ) .tc main_arg1)) :=
  p0_keep_main_arg1 (F := Ideal) V0
theorem pst0_main_arg2 (V0 : Valuation τ sig (Elt Ideal)) :
    (StableHlo.after hostOps0 V0) (Proc.devRef (τ := τ) .tc main_arg2) = (V0 (Proc.devRef (τ := τ) .tc main_arg2)) :=
  p0_keep_main_arg2 (F := Ideal) V0
theorem pst0_main_arg3 (V0 : Valuation τ sig (Elt Ideal)) :
    (StableHlo.after hostOps0 V0) (Proc.devRef (τ := τ) .tc main_arg3) = (V0 (Proc.devRef (τ := τ) .tc main_arg3)) :=
  p0_keep_main_arg3 (F := Ideal) V0
theorem pst1_main_v0 (V0 : Valuation τ sig (Elt Ideal)) :
    (StableHlo.after hostOps0_1 (StableHlo.after hostOps0 V0)) (Proc.devRef (τ := τ) .tc main_v0) = (pf0_v0 (F := Ideal) (V0 (Proc.devRef (τ := τ) .tc main_arg0))) :=
  (p1_keep_main_v0 (F := Ideal) _).trans (pst0_main_v0 V0)
theorem pst1_main_v1 (V0 : Valuation τ sig (Elt Ideal)) :
    (StableHlo.after hostOps0_1 (StableHlo.after hostOps0 V0)) (Proc.devRef (τ := τ) .tc main_v1) = (pf1_v1 (F := Ideal) (V0 (Proc.devRef (τ := τ) .tc main_arg1))) := by
  rw [p1_out_main_v1, pst0_main_arg1] <;> rfl
theorem pst1_main_arg2 (V0 : Valuation τ sig (Elt Ideal)) :
    (StableHlo.after hostOps0_1 (StableHlo.after hostOps0 V0)) (Proc.devRef (τ := τ) .tc main_arg2) = (V0 (Proc.devRef (τ := τ) .tc main_arg2)) :=
  (p1_keep_main_arg2 (F := Ideal) _).trans (pst0_main_arg2 V0)
theorem pst1_main_arg3 (V0 : Valuation τ sig (Elt Ideal)) :
    (StableHlo.after hostOps0_1 (StableHlo.after hostOps0 V0)) (Proc.devRef (τ := τ) .tc main_arg3) = (V0 (Proc.devRef (τ := τ) .tc main_arg3)) :=
  (p1_keep_main_arg3 (F := Ideal) _).trans (pst0_main_arg3 V0)
theorem pst2_main_v2 (V0 : Valuation τ sig (Elt Ideal)) :
    (StableHlo.after hostOps0_2 (StableHlo.after hostOps0_1 (StableHlo.after hostOps0 V0))) (Proc.devRef (τ := τ) .tc main_v2) = (pf2_v2 (F := Ideal) (pf1_v1 (F := Ideal) (V0 (Proc.devRef (τ := τ) .tc main_arg1))) (pf0_v0 (F := Ideal) (V0 (Proc.devRef (τ := τ) .tc main_arg0)))) := by
  rw [p2_out_main_v2, pst1_main_v1, pst1_main_v0] <;> rfl
theorem pst2_main_arg2 (V0 : Valuation τ sig (Elt Ideal)) :
    (StableHlo.after hostOps0_2 (StableHlo.after hostOps0_1 (StableHlo.after hostOps0 V0))) (Proc.devRef (τ := τ) .tc main_arg2) = (V0 (Proc.devRef (τ := τ) .tc main_arg2)) :=
  (p2_keep_main_arg2 (F := Ideal) _).trans (pst1_main_arg2 V0)
theorem pst2_main_arg3 (V0 : Valuation τ sig (Elt Ideal)) :
    (StableHlo.after hostOps0_2 (StableHlo.after hostOps0_1 (StableHlo.after hostOps0 V0))) (Proc.devRef (τ := τ) .tc main_arg3) = (V0 (Proc.devRef (τ := τ) .tc main_arg3)) :=
  (p2_keep_main_arg3 (F := Ideal) _).trans (pst1_main_arg3 V0)
theorem pst3_main_v5 (V0 : Valuation τ sig (Elt Ideal)) :
    (StableHlo.after hostOps0_3 (StableHlo.after hostOps0_2 (StableHlo.after hostOps0_1 (StableHlo.after hostOps0 V0)))) (Proc.devRef (τ := τ) .tc main_v5) = (Cert.ReferenceIdeal.RefVal.taskT (V0 (Proc.devRef (τ := τ) .tc main_arg0)) (V0 (Proc.devRef (τ := τ) .tc main_arg1))) := by
  rw [p3_out_main_v5, pst2_main_v2] <;> rfl
theorem pst3_main_arg2 (V0 : Valuation τ sig (Elt Ideal)) :
    (StableHlo.after hostOps0_3 (StableHlo.after hostOps0_2 (StableHlo.after hostOps0_1 (StableHlo.after hostOps0 V0)))) (Proc.devRef (τ := τ) .tc main_arg2) = (V0 (Proc.devRef (τ := τ) .tc main_arg2)) :=
  (p3_keep_main_arg2 (F := Ideal) _).trans (pst2_main_arg2 V0)
theorem pst3_main_v8 (V0 : Valuation τ sig (Elt Ideal)) :
    (StableHlo.after hostOps0_3 (StableHlo.after hostOps0_2 (StableHlo.after hostOps0_1 (StableHlo.after hostOps0 V0)))) (Proc.devRef (τ := τ) .tc main_v8) = (pf3_v8 (F := Ideal) (V0 (Proc.devRef (τ := τ) .tc main_arg2))) := by
  rw [p3_out_main_v8, pst2_main_arg2] <;> rfl
theorem pst3_main_c (V0 : Valuation τ sig (Elt Ideal)) :
    (StableHlo.after hostOps0_3 (StableHlo.after hostOps0_2 (StableHlo.after hostOps0_1 (StableHlo.after hostOps0 V0)))) (Proc.devRef (τ := τ) .tc main_c) = (pf3_c (F := Ideal)) := by
  rw [p3_out_main_c] <;> rfl
theorem pst3_main_arg3 (V0 : Valuation τ sig (Elt Ideal)) :
    (StableHlo.after hostOps0_3 (StableHlo.after hostOps0_2 (StableHlo.after hostOps0_1 (StableHlo.after hostOps0 V0)))) (Proc.devRef (τ := τ) .tc main_arg3) = (V0 (Proc.devRef (τ := τ) .tc main_arg3)) :=
  (p3_keep_main_arg3 (F := Ideal) _).trans (pst2_main_arg3 V0)
theorem pst4_main_v5 (V0 : Valuation τ sig (Elt Ideal)) :
    (StableHlo.after hostOps0_4 (StableHlo.after hostOps0_3 (StableHlo.after hostOps0_2 (StableHlo.after hostOps0_1 (StableHlo.after hostOps0 V0))))) (Proc.devRef (τ := τ) .tc main_v5) = (Cert.ReferenceIdeal.RefVal.taskT (V0 (Proc.devRef (τ := τ) .tc main_arg0)) (V0 (Proc.devRef (τ := τ) .tc main_arg1))) :=
  (p4_keep_main_v5 (F := Ideal) _).trans (pst3_main_v5 V0)
theorem pst4_main_arg2 (V0 : Valuation τ sig (Elt Ideal)) :
    (StableHlo.after hostOps0_4 (StableHlo.after hostOps0_3 (StableHlo.after hostOps0_2 (StableHlo.after hostOps0_1 (StableHlo.after hostOps0 V0))))) (Proc.devRef (τ := τ) .tc main_arg2) = (V0 (Proc.devRef (τ := τ) .tc main_arg2)) :=
  (p4_keep_main_arg2 (F := Ideal) _).trans (pst3_main_arg2 V0)
theorem pst4_main_v9 (V0 : Valuation τ sig (Elt Ideal)) :
    (StableHlo.after hostOps0_4 (StableHlo.after hostOps0_3 (StableHlo.after hostOps0_2 (StableHlo.after hostOps0_1 (StableHlo.after hostOps0 V0))))) (Proc.devRef (τ := τ) .tc main_v9) = (pf4_v9 (F := Ideal) (pf3_c (F := Ideal)) (pf3_v8 (F := Ideal) (V0 (Proc.devRef (τ := τ) .tc main_arg2)))) := by
  rw [p4_out_main_v9, pst3_main_c, pst3_main_v8] <;> rfl
theorem pst4_main_arg3 (V0 : Valuation τ sig (Elt Ideal)) :
    (StableHlo.after hostOps0_4 (StableHlo.after hostOps0_3 (StableHlo.after hostOps0_2 (StableHlo.after hostOps0_1 (StableHlo.after hostOps0 V0))))) (Proc.devRef (τ := τ) .tc main_arg3) = (V0 (Proc.devRef (τ := τ) .tc main_arg3)) :=
  (p4_keep_main_arg3 (F := Ideal) _).trans (pst3_main_arg3 V0)
theorem pst5_main_v5 (V0 : Valuation τ sig (Elt Ideal)) :
    (StableHlo.after hostOps0_5 (StableHlo.after hostOps0_4 (StableHlo.after hostOps0_3 (StableHlo.after hostOps0_2 (StableHlo.after hostOps0_1 (StableHlo.after hostOps0 V0)))))) (Proc.devRef (τ := τ) .tc main_v5) = (Cert.ReferenceIdeal.RefVal.taskT (V0 (Proc.devRef (τ := τ) .tc main_arg0)) (V0 (Proc.devRef (τ := τ) .tc main_arg1))) :=
  (p5_keep_main_v5 (F := Ideal) _).trans (pst4_main_v5 V0)
theorem pst5_main_arg2 (V0 : Valuation τ sig (Elt Ideal)) :
    (StableHlo.after hostOps0_5 (StableHlo.after hostOps0_4 (StableHlo.after hostOps0_3 (StableHlo.after hostOps0_2 (StableHlo.after hostOps0_1 (StableHlo.after hostOps0 V0)))))) (Proc.devRef (τ := τ) .tc main_arg2) = (V0 (Proc.devRef (τ := τ) .tc main_arg2)) :=
  (p5_keep_main_arg2 (F := Ideal) _).trans (pst4_main_arg2 V0)
theorem pst5_main_v11 (V0 : Valuation τ sig (Elt Ideal)) :
    (StableHlo.after hostOps0_5 (StableHlo.after hostOps0_4 (StableHlo.after hostOps0_3 (StableHlo.after hostOps0_2 (StableHlo.after hostOps0_1 (StableHlo.after hostOps0 V0)))))) (Proc.devRef (τ := τ) .tc main_v11) = (Cert.ReferenceIdeal.RefVal.lbT (V0 (Proc.devRef (τ := τ) .tc main_arg2))) := by
  rw [p5_out_main_v11, pst4_main_v9] <;> rfl
theorem pst5_main_v13 (V0 : Valuation τ sig (Elt Ideal)) :
    (StableHlo.after hostOps0_5 (StableHlo.after hostOps0_4 (StableHlo.after hostOps0_3 (StableHlo.after hostOps0_2 (StableHlo.after hostOps0_1 (StableHlo.after hostOps0 V0)))))) (Proc.devRef (τ := τ) .tc main_v13) = (pf5_v13 (F := Ideal) (V0 (Proc.devRef (τ := τ) .tc main_arg2))) := by
  rw [p5_out_main_v13, pst4_main_arg2] <;> rfl
theorem pst5_main_cst_6 (V0 : Valuation τ sig (Elt Ideal)) :
    (StableHlo.after hostOps0_5 (StableHlo.after hostOps0_4 (StableHlo.after hostOps0_3 (StableHlo.after hostOps0_2 (StableHlo.after hostOps0_1 (StableHlo.after hostOps0 V0)))))) (Proc.devRef (τ := τ) .tc main_cst_6) = (pf5_cst_6 (F := Ideal)) := by
  rw [p5_out_main_cst_6] <;> rfl
theorem pst5_main_arg3 (V0 : Valuation τ sig (Elt Ideal)) :
    (StableHlo.after hostOps0_5 (StableHlo.after hostOps0_4 (StableHlo.after hostOps0_3 (StableHlo.after hostOps0_2 (StableHlo.after hostOps0_1 (StableHlo.after hostOps0 V0)))))) (Proc.devRef (τ := τ) .tc main_arg3) = (V0 (Proc.devRef (τ := τ) .tc main_arg3)) :=
  (p5_keep_main_arg3 (F := Ideal) _).trans (pst4_main_arg3 V0)
theorem pst6_main_v5 (V0 : Valuation τ sig (Elt Ideal)) :
    (StableHlo.after hostOps0_6 (StableHlo.after hostOps0_5 (StableHlo.after hostOps0_4 (StableHlo.after hostOps0_3 (StableHlo.after hostOps0_2 (StableHlo.after hostOps0_1 (StableHlo.after hostOps0 V0))))))) (Proc.devRef (τ := τ) .tc main_v5) = (Cert.ReferenceIdeal.RefVal.taskT (V0 (Proc.devRef (τ := τ) .tc main_arg0)) (V0 (Proc.devRef (τ := τ) .tc main_arg1))) :=
  (p6_keep_main_v5 (F := Ideal) _).trans (pst5_main_v5 V0)
theorem pst6_main_arg2 (V0 : Valuation τ sig (Elt Ideal)) :
    (StableHlo.after hostOps0_6 (StableHlo.after hostOps0_5 (StableHlo.after hostOps0_4 (StableHlo.after hostOps0_3 (StableHlo.after hostOps0_2 (StableHlo.after hostOps0_1 (StableHlo.after hostOps0 V0))))))) (Proc.devRef (τ := τ) .tc main_arg2) = (V0 (Proc.devRef (τ := τ) .tc main_arg2)) :=
  (p6_keep_main_arg2 (F := Ideal) _).trans (pst5_main_arg2 V0)
theorem pst6_main_v11 (V0 : Valuation τ sig (Elt Ideal)) :
    (StableHlo.after hostOps0_6 (StableHlo.after hostOps0_5 (StableHlo.after hostOps0_4 (StableHlo.after hostOps0_3 (StableHlo.after hostOps0_2 (StableHlo.after hostOps0_1 (StableHlo.after hostOps0 V0))))))) (Proc.devRef (τ := τ) .tc main_v11) = (Cert.ReferenceIdeal.RefVal.lbT (V0 (Proc.devRef (τ := τ) .tc main_arg2))) :=
  (p6_keep_main_v11 (F := Ideal) _).trans (pst5_main_v11 V0)
theorem pst6_main_v14 (V0 : Valuation τ sig (Elt Ideal)) :
    (StableHlo.after hostOps0_6 (StableHlo.after hostOps0_5 (StableHlo.after hostOps0_4 (StableHlo.after hostOps0_3 (StableHlo.after hostOps0_2 (StableHlo.after hostOps0_1 (StableHlo.after hostOps0 V0))))))) (Proc.devRef (τ := τ) .tc main_v14) = (pf6_v14 (F := Ideal) (pf5_v13 (F := Ideal) (V0 (Proc.devRef (τ := τ) .tc main_arg2))) (V0 (Proc.devRef (τ := τ) .tc main_arg2)) (pf5_cst_6 (F := Ideal))) := by
  rw [p6_out_main_v14, pst5_main_v13, pst5_main_arg2, pst5_main_cst_6] <;> rfl
theorem pst6_main_arg3 (V0 : Valuation τ sig (Elt Ideal)) :
    (StableHlo.after hostOps0_6 (StableHlo.after hostOps0_5 (StableHlo.after hostOps0_4 (StableHlo.after hostOps0_3 (StableHlo.after hostOps0_2 (StableHlo.after hostOps0_1 (StableHlo.after hostOps0 V0))))))) (Proc.devRef (τ := τ) .tc main_arg3) = (V0 (Proc.devRef (τ := τ) .tc main_arg3)) :=
  (p6_keep_main_arg3 (F := Ideal) _).trans (pst5_main_arg3 V0)
theorem pst7_main_v5 (V0 : Valuation τ sig (Elt Ideal)) :
    (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))) (Proc.devRef (τ := τ) .tc main_v5) = (Cert.ReferenceIdeal.RefVal.taskT (V0 (Proc.devRef (τ := τ) .tc main_arg0)) (V0 (Proc.devRef (τ := τ) .tc main_arg1))) :=
  (p7_keep_main_v5 (F := Ideal) _).trans (pst6_main_v5 V0)
theorem pst7_main_arg2 (V0 : Valuation τ sig (Elt Ideal)) :
    (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))) (Proc.devRef (τ := τ) .tc main_arg2) = (V0 (Proc.devRef (τ := τ) .tc main_arg2)) :=
  (p7_keep_main_arg2 (F := Ideal) _).trans (pst6_main_arg2 V0)
theorem pst7_main_v11 (V0 : Valuation τ sig (Elt Ideal)) :
    (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))) (Proc.devRef (τ := τ) .tc main_v11) = (Cert.ReferenceIdeal.RefVal.lbT (V0 (Proc.devRef (τ := τ) .tc main_arg2))) :=
  (p7_keep_main_v11 (F := Ideal) _).trans (pst6_main_v11 V0)
theorem pst7_main_v18 (V0 : Valuation τ sig (Elt Ideal)) :
    (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))) (Proc.devRef (τ := τ) .tc main_v18) = (Cert.ReferenceIdeal.RefVal.effT (V0 (Proc.devRef (τ := τ) .tc main_arg2))) := by
  rw [p7_out_main_v18, pst6_main_v14] <;> rfl
theorem pst7_main_arg3 (V0 : Valuation τ sig (Elt Ideal)) :
    (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))) (Proc.devRef (τ := τ) .tc main_arg3) = (V0 (Proc.devRef (τ := τ) .tc main_arg3)) :=
  (p7_keep_main_arg3 (F := Ideal) _).trans (pst6_main_arg3 V0)
theorem pst8_main_v5 (V0 : Valuation τ sig (Elt Ideal)) :
    (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))) (Proc.devRef (τ := τ) .tc main_v5) = (Cert.ReferenceIdeal.RefVal.taskT (V0 (Proc.devRef (τ := τ) .tc main_arg0)) (V0 (Proc.devRef (τ := τ) .tc main_arg1))) :=
  (p8_keep_main_v5 (F := Ideal) _).trans (pst7_main_v5 V0)
theorem pst8_main_arg2 (V0 : Valuation τ sig (Elt Ideal)) :
    (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))) (Proc.devRef (τ := τ) .tc main_arg2) = (V0 (Proc.devRef (τ := τ) .tc main_arg2)) :=
  (p8_keep_main_arg2 (F := Ideal) _).trans (pst7_main_arg2 V0)
theorem pst8_main_v11 (V0 : Valuation τ sig (Elt Ideal)) :
    (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))) (Proc.devRef (τ := τ) .tc main_v11) = (Cert.ReferenceIdeal.RefVal.lbT (V0 (Proc.devRef (τ := τ) .tc main_arg2))) :=
  (p8_keep_main_v11 (F := Ideal) _).trans (pst7_main_v11 V0)
theorem pst8_main_v18 (V0 : Valuation τ sig (Elt Ideal)) :
    (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))) (Proc.devRef (τ := τ) .tc main_v18) = (Cert.ReferenceIdeal.RefVal.effT (V0 (Proc.devRef (τ := τ) .tc main_arg2))) :=
  (p8_keep_main_v18 (F := Ideal) _).trans (pst7_main_v18 V0)
theorem pst8_main_arg3 (V0 : Valuation τ sig (Elt Ideal)) :
    (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))) (Proc.devRef (τ := τ) .tc main_arg3) = (V0 (Proc.devRef (τ := τ) .tc main_arg3)) :=
  (p8_keep_main_arg3 (F := Ideal) _).trans (pst7_main_arg3 V0)
theorem pst8_main_v19 (V0 : Valuation τ sig (Elt Ideal)) :
    (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))) (Proc.devRef (τ := τ) .tc main_v19) = (pf8_v19 (F := Ideal) (V0 (Proc.devRef (τ := τ) .tc main_arg3))) := by
  rw [p8_out_main_v19, pst7_main_arg3] <;> rfl
theorem pst9_main_v5 (V0 : Valuation τ sig (Elt Ideal)) :
    (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))) (Proc.devRef (τ := τ) .tc main_v5) = (Cert.ReferenceIdeal.RefVal.taskT (V0 (Proc.devRef (τ := τ) .tc main_arg0)) (V0 (Proc.devRef (τ := τ) .tc main_arg1))) :=
  (p9_keep_main_v5 (F := Ideal) _).trans (pst8_main_v5 V0)
theorem pst9_main_arg2 (V0 : Valuation τ sig (Elt Ideal)) :
    (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))) (Proc.devRef (τ := τ) .tc main_arg2) = (V0 (Proc.devRef (τ := τ) .tc main_arg2)) :=
  (p9_keep_main_arg2 (F := Ideal) _).trans (pst8_main_arg2 V0)
theorem pst9_main_v11 (V0 : Valuation τ sig (Elt Ideal)) :
    (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))) (Proc.devRef (τ := τ) .tc main_v11) = (Cert.ReferenceIdeal.RefVal.lbT (V0 (Proc.devRef (τ := τ) .tc main_arg2))) :=
  (p9_keep_main_v11 (F := Ideal) _).trans (pst8_main_v11 V0)
theorem pst9_main_v18 (V0 : Valuation τ sig (Elt Ideal)) :
    (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))) (Proc.devRef (τ := τ) .tc main_v18) = (Cert.ReferenceIdeal.RefVal.effT (V0 (Proc.devRef (τ := τ) .tc main_arg2))) :=
  (p9_keep_main_v18 (F := Ideal) _).trans (pst8_main_v18 V0)
theorem pst9_main_v21 (V0 : Valuation τ sig (Elt Ideal)) :
    (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))) (Proc.devRef (τ := τ) .tc main_v21) = (Cert.ReferenceIdeal.RefVal.nrmT (V0 (Proc.devRef (τ := τ) .tc main_arg3))) := by
  rw [p9_out_main_v21, pst8_main_arg3, pst8_main_v19] <;> rfl
theorem pst10_main_v5 (V0 : Valuation τ sig (Elt Ideal)) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))))) (Proc.devRef (τ := τ) .tc main_v5) = (Cert.ReferenceIdeal.RefVal.taskT (V0 (Proc.devRef (τ := τ) .tc main_arg0)) (V0 (Proc.devRef (τ := τ) .tc main_arg1))) :=
  (p10_keep_main_v5 (F := Ideal) _).trans (pst9_main_v5 V0)
theorem pst10_main_v11 (V0 : Valuation τ sig (Elt Ideal)) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))))) (Proc.devRef (τ := τ) .tc main_v11) = (Cert.ReferenceIdeal.RefVal.lbT (V0 (Proc.devRef (τ := τ) .tc main_arg2))) :=
  (p10_keep_main_v11 (F := Ideal) _).trans (pst9_main_v11 V0)
theorem pst10_main_v18 (V0 : Valuation τ sig (Elt Ideal)) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))))) (Proc.devRef (τ := τ) .tc main_v18) = (Cert.ReferenceIdeal.RefVal.effT (V0 (Proc.devRef (τ := τ) .tc main_arg2))) :=
  (p10_keep_main_v18 (F := Ideal) _).trans (pst9_main_v18 V0)
theorem pst10_main_v21 (V0 : Valuation τ sig (Elt Ideal)) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))))) (Proc.devRef (τ := τ) .tc main_v21) = (Cert.ReferenceIdeal.RefVal.nrmT (V0 (Proc.devRef (τ := τ) .tc main_arg3))) :=
  (p10_keep_main_v21 (F := Ideal) _).trans (pst9_main_v21 V0)
theorem pst10_main_v22 (V0 : Valuation τ sig (Elt Ideal)) :
    (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0))))))))))) (Proc.devRef (τ := τ) .tc main_v22) = (Cert.ReferenceIdeal.RefVal.logpT (V0 (Proc.devRef (τ := τ) .tc main_arg2))) := by
  rw [p10_out_main_v22, pst9_main_arg2] <;> rfl
theorem pst11_main_v5 (V0 : Valuation τ sig (Elt Ideal)) :
    (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))))) (Proc.devRef (τ := τ) .tc main_v5) = (Cert.ReferenceIdeal.RefVal.taskT (V0 (Proc.devRef (τ := τ) .tc main_arg0)) (V0 (Proc.devRef (τ := τ) .tc main_arg1))) :=
  (p11_keep_main_v5 (F := Ideal) _).trans (pst10_main_v5 V0)
theorem pst11_main_v11 (V0 : Valuation τ sig (Elt Ideal)) :
    (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))))) (Proc.devRef (τ := τ) .tc main_v11) = (Cert.ReferenceIdeal.RefVal.lbT (V0 (Proc.devRef (τ := τ) .tc main_arg2))) :=
  (p11_keep_main_v11 (F := Ideal) _).trans (pst10_main_v11 V0)
theorem pst11_main_v18 (V0 : Valuation τ sig (Elt Ideal)) :
    (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))))) (Proc.devRef (τ := τ) .tc main_v18) = (Cert.ReferenceIdeal.RefVal.effT (V0 (Proc.devRef (τ := τ) .tc main_arg2))) :=
  (p11_keep_main_v18 (F := Ideal) _).trans (pst10_main_v18 V0)
theorem pst11_main_v21 (V0 : Valuation τ sig (Elt Ideal)) :
    (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))))) (Proc.devRef (τ := τ) .tc main_v21) = (Cert.ReferenceIdeal.RefVal.nrmT (V0 (Proc.devRef (τ := τ) .tc main_arg3))) :=
  (p11_keep_main_v21 (F := Ideal) _).trans (pst10_main_v21 V0)
theorem pst11_main_v22 (V0 : Valuation τ sig (Elt Ideal)) :
    (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))))) (Proc.devRef (τ := τ) .tc main_v22) = (Cert.ReferenceIdeal.RefVal.logpT (V0 (Proc.devRef (τ := τ) .tc main_arg2))) :=
  (p11_keep_main_v22 (F := Ideal) _).trans (pst10_main_v22 V0)
theorem pst11_main_v23 (V0 : Valuation τ sig (Elt Ideal)) :
    (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))))) (Proc.devRef (τ := τ) .tc main_v23) = (Cert.ReferenceIdeal.RefVal.pT (V0 (Proc.devRef (τ := τ) .tc main_arg2))) := by
  rw [p11_out_main_v23, pst10_main_v22] <;> rfl
theorem pst11_main_v26 (V0 : Valuation τ sig (Elt Ideal)) :
    (StableHlo.after hostOps0_11 (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 V0)))))))))))) (Proc.devRef (τ := τ) .tc main_v26) = (aK (V0 (Proc.devRef (τ := τ) .tc main_arg2))) := by
  rw [p11_out_main_v26, pst10_main_v22] <;> rfl

/-! ## After the region -/
theorem tst0_main_v30 (VX : Valuation τ sig (Elt Ideal)) :
    (StableHlo.after hostOps1 VX) (Proc.devRef (τ := τ) .tc main_v30) = (tf0_v30 (F := Ideal) (VX (Proc.devRef (τ := τ) .tc main_v27_1))) := by
  rw [t0_out_main_v30] <;> rfl
theorem tst0_main_v32 (VX : Valuation τ sig (Elt Ideal)) :
    (StableHlo.after hostOps1 VX) (Proc.devRef (τ := τ) .tc main_v32) = (tf0_v32 (F := Ideal) (VX (Proc.devRef (τ := τ) .tc main_v27_0)) (VX (Proc.devRef (τ := τ) .tc main_v27_1))) := by
  rw [t0_out_main_v32] <;> rfl
theorem tst0_main_cst_14 (VX : Valuation τ sig (Elt Ideal)) :
    (StableHlo.after hostOps1 VX) (Proc.devRef (τ := τ) .tc main_cst_14) = (tf0_cst_14 (F := Ideal)) := by
  rw [t0_out_main_cst_14] <;> rfl
theorem tst0_main_arg2 (VX : Valuation τ sig (Elt Ideal)) :
    (StableHlo.after hostOps1 VX) (Proc.devRef (τ := τ) .tc main_arg2) = (VX (Proc.devRef (τ := τ) .tc main_arg2)) :=
  t0_keep_main_arg2 (F := Ideal) VX
theorem tst0_main_arg4 (VX : Valuation τ sig (Elt Ideal)) :
    (StableHlo.after hostOps1 VX) (Proc.devRef (τ := τ) .tc main_arg4) = (VX (Proc.devRef (τ := τ) .tc main_arg4)) :=
  t0_keep_main_arg4 (F := Ideal) VX
theorem tst0_main_v5 (VX : Valuation τ sig (Elt Ideal)) :
    (StableHlo.after hostOps1 VX) (Proc.devRef (τ := τ) .tc main_v5) = (VX (Proc.devRef (τ := τ) .tc main_v5)) :=
  t0_keep_main_v5 (F := Ideal) VX
theorem tst0_main_v11 (VX : Valuation τ sig (Elt Ideal)) :
    (StableHlo.after hostOps1 VX) (Proc.devRef (τ := τ) .tc main_v11) = (VX (Proc.devRef (τ := τ) .tc main_v11)) :=
  t0_keep_main_v11 (F := Ideal) VX
theorem tst0_main_v18 (VX : Valuation τ sig (Elt Ideal)) :
    (StableHlo.after hostOps1 VX) (Proc.devRef (τ := τ) .tc main_v18) = (VX (Proc.devRef (τ := τ) .tc main_v18)) :=
  t0_keep_main_v18 (F := Ideal) VX
theorem tst1_main_v33 (VX : Valuation τ sig (Elt Ideal)) :
    (StableHlo.after hostOps1_1 (StableHlo.after hostOps1 VX)) (Proc.devRef (τ := τ) .tc main_v33) = (tf1_v33 (F := Ideal) (tf0_v30 (F := Ideal) (VX (Proc.devRef (τ := τ) .tc main_v27_1))) (tf0_v32 (F := Ideal) (VX (Proc.devRef (τ := τ) .tc main_v27_0)) (VX (Proc.devRef (τ := τ) .tc main_v27_1))) (tf0_cst_14 (F := Ideal))) := by
  rw [t1_out_main_v33, tst0_main_v30, tst0_main_v32, tst0_main_cst_14] <;> rfl
theorem tst1_main_arg2 (VX : Valuation τ sig (Elt Ideal)) :
    (StableHlo.after hostOps1_1 (StableHlo.after hostOps1 VX)) (Proc.devRef (τ := τ) .tc main_arg2) = (VX (Proc.devRef (τ := τ) .tc main_arg2)) :=
  (t1_keep_main_arg2 (F := Ideal) _).trans (tst0_main_arg2 VX)
theorem tst1_main_arg4 (VX : Valuation τ sig (Elt Ideal)) :
    (StableHlo.after hostOps1_1 (StableHlo.after hostOps1 VX)) (Proc.devRef (τ := τ) .tc main_arg4) = (VX (Proc.devRef (τ := τ) .tc main_arg4)) :=
  (t1_keep_main_arg4 (F := Ideal) _).trans (tst0_main_arg4 VX)
theorem tst1_main_v5 (VX : Valuation τ sig (Elt Ideal)) :
    (StableHlo.after hostOps1_1 (StableHlo.after hostOps1 VX)) (Proc.devRef (τ := τ) .tc main_v5) = (VX (Proc.devRef (τ := τ) .tc main_v5)) :=
  (t1_keep_main_v5 (F := Ideal) _).trans (tst0_main_v5 VX)
theorem tst1_main_v11 (VX : Valuation τ sig (Elt Ideal)) :
    (StableHlo.after hostOps1_1 (StableHlo.after hostOps1 VX)) (Proc.devRef (τ := τ) .tc main_v11) = (VX (Proc.devRef (τ := τ) .tc main_v11)) :=
  (t1_keep_main_v11 (F := Ideal) _).trans (tst0_main_v11 VX)
theorem tst1_main_v18 (VX : Valuation τ sig (Elt Ideal)) :
    (StableHlo.after hostOps1_1 (StableHlo.after hostOps1 VX)) (Proc.devRef (τ := τ) .tc main_v18) = (VX (Proc.devRef (τ := τ) .tc main_v18)) :=
  (t1_keep_main_v18 (F := Ideal) _).trans (tst0_main_v18 VX)
theorem tst2_main_v55 (VX : Valuation τ sig (Elt Ideal)) :
    (StableHlo.after hostOps1_2 (StableHlo.after hostOps1_1 (StableHlo.after hostOps1 VX))) (Proc.devRef (τ := τ) .tc main_v55) = (Cert.ReferenceIdeal.RefVal.sum6 (VX (Proc.devRef (τ := τ) .tc main_v5)) (VX (Proc.devRef (τ := τ) .tc main_v11)) (VX (Proc.devRef (τ := τ) .tc main_v18)) (consK (VX (Proc.devRef (τ := τ) .tc main_v27_0)) (VX (Proc.devRef (τ := τ) .tc main_v27_1))) (Cert.ReferenceIdeal.RefVal.entT (VX (Proc.devRef (τ := τ) .tc main_arg2))) (Cert.ReferenceIdeal.RefVal.tempT (VX (Proc.devRef (τ := τ) .tc main_arg4)))) := by
  rw [t2_out_main_v55, tst1_main_v5, tst1_main_v11, tst1_main_v18, tst1_main_v33, tst1_main_arg2, tst1_main_arg4] <;> rfl

end Cert.KernelIdeal.HostVal

end
-- ==== Proof.Ref.Val.lean ====
/- The reference's result as a pure function of the argument arrays, at the ideal floats.

   The operation list is in single-assignment form, so what a buffer holds after the whole list is what it holds after
   the segment that writes it, and a segment's result is the composition of its operations over what its inputs held
   before it. Per segment: each result a later segment reads, as a function of the segment's inputs (`fK_*`, the
   composition of the segment's operation terms; `segK_out_*` says the fold computes it), and that the segment leaves
   alone each earlier result a later segment still reads (`segK_keep_*`). Chained from the first segment to the last
   (`stK_*`: what each live buffer holds after segments 0 … K, in the named functions of Ref/ValDefs.lean and the
   bridge's vocabulary), the last link is the result. The 8192 × 8192 stretch stays folded as the bridge's `refMask`,
   `refKLmat`, `refSel`, `refKL`, `refNP` throughout. -/
import proofs.«137117_j83648783057448_1_alg».proof.Proof.Ref.Side
import proofs.«137117_j83648783057448_1_alg».proof.Proof.Ref.ValDefs
import proofs.«137117_j83648783057448_1_alg».proof.Proof.Val.Defs

noncomputable section

namespace Cert.ReferenceIdeal.RefVal

open Cert.ReferenceIdeal Cert.ReferenceIdeal.Gen Cert.ReferenceIdeal.RefRun Idealize.ShloMosaic Idealize.SL.Sem

-- the whole-array operations are compared as they stand, never opened
attribute [local irreducible] Host.reduceAdd Host.reduce Host.gather transpose broadcastInDim shapeCast iotaInDim

/-! ## Each segment's results, and what it leaves alone -/

section Generic
variable {F : FTy → Type} [FloatOps F]

/-- %v0 from what segment 0 reads: the composition of the segment's operations that lead to it. -/
def f0_v0 (u_arg0 : (⟨S8192x3, .f32⟩ : BufTy).Contents (Elt F)) : (⟨S8192x3, .f32⟩ : BufTy).Contents (Elt F) :=
  ((subf : (⟨S8192x3, .f32⟩ : BufTy).Contents (Elt F) → (⟨S8192x3, .f32⟩ : BufTy).Contents (Elt F) → (⟨S8192x3, .f32⟩ : BufTy).Contents (Elt F)) ((subf : (⟨S8192x3, .f32⟩ : BufTy).Contents (Elt F) → (⟨S8192x3, .f32⟩ : BufTy).Contents (Elt F) → (⟨S8192x3, .f32⟩ : BufTy).Contents (Elt F)) u_arg0 (((broadcastInDim S8192x3 ![0, 1] bcast_S8192x1_S8192x3_0_1) : (⟨S8192x1, .f32⟩ : BufTy).Contents (Elt F) → (⟨S8192x3, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x3_S8192_d1 h_S_) : (⟨S8192x3, .f32⟩ : BufTy).Contents (Elt F) → (⟨S_, .f32⟩ : BufTy).Contents (Elt F) → (⟨S8192, .f32⟩ : BufTy).Contents (Elt F)) u_arg0 (constant S_ .f32 0xFF800000#32 : (⟨S_, .f32⟩ : BufTy).Contents (Elt F))))))) (((broadcastInDim S8192x3 ![0, 1] bcast_S8192x1_S8192x3_0_1) : (⟨S8192x1, .f32⟩ : BufTy).Contents (Elt F) → (⟨S8192x3, .f32⟩ : BufTy).Contents (Elt F)) ((Host.log : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)) ((Host.exp : (⟨S8192x3, .f32⟩ : BufTy).Contents (Elt F) → (⟨S8192x3, .f32⟩ : BufTy).Contents (Elt F)) ((subf : (⟨S8192x3, .f32⟩ : BufTy).Contents (Elt F) → (⟨S8192x3, .f32⟩ : BufTy).Contents (Elt F) → (⟨S8192x3, .f32⟩ : BufTy).Contents (Elt F)) u_arg0 (((broadcastInDim S8192x3 ![0, 1] bcast_S8192x1_S8192x3_0_1) : (⟨S8192x1, .f32⟩ : BufTy).Contents (Elt F) → (⟨S8192x3, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x3_S8192_d1 h_S_) : (⟨S8192x3, .f32⟩ : BufTy).Contents (Elt F) → (⟨S_, .f32⟩ : BufTy).Contents (Elt F) → (⟨S8192, .f32⟩ : BufTy).Contents (Elt F)) u_arg0 (constant S_ .f32 0xFF800000#32 : (⟨S_, .f32⟩ : BufTy).Contents (Elt F)))))))) (constant S_ .f32 0x00000000#32 : (⟨S_, .f32⟩ : BufTy).Contents (Elt F)))))))
theorem seg0_out_main_v0 (V : Valuation τ sig (Elt F)) :
    StableHlo.after seg0 V (Proc.devRef (τ := τ) .tc main_v0) = f0_v0 (V (Proc.devRef (τ := τ) .tc main_arg0)) := by
  after_results_simp <;> rfl

/-- %v1 from what segment 1 reads: the composition of the segment's operations that lead to it. -/
def f1_v1 (u_arg1 : (⟨S8192, .i32⟩ : BufTy).Contents (Elt F)) : (⟨S8192x1, .i32⟩ : BufTy).Contents (Elt F) :=
  ((broadcastInDim S8192x1 ![0] bcast_S8192_S8192x1_0 : (⟨S8192, .i32⟩ : BufTy).Contents (Elt F) → (⟨S8192x1, .i32⟩ : BufTy).Contents (Elt F)) u_arg1)
theorem seg1_out_main_v1 (V : Valuation τ sig (Elt F)) :
    StableHlo.after seg1 V (Proc.devRef (τ := τ) .tc main_v1) = f1_v1 (V (Proc.devRef (τ := τ) .tc main_arg1)) := by
  after_results_simp <;> rfl
theorem seg1_keep_main_v0 (V : Valuation τ sig (Elt F)) : StableHlo.after seg1 V (Proc.devRef (τ := τ) .tc main_v0) = V (Proc.devRef (τ := τ) .tc main_v0) := by after_results_simp

/-- %v2 from what segment 2 reads: the composition of the segment's operations that lead to it. -/
def f2_v2 (u_v1 : (⟨S8192x1, .i32⟩ : BufTy).Contents (Elt F)) (u_v0 : (⟨S8192x3, .f32⟩ : BufTy).Contents (Elt F)) : (⟨S8192x1, .f32⟩ : BufTy).Contents (Elt F) :=
  ((select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)) (((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)) ((andi : (⟨S8192x1x1, .i1⟩ : BufTy).Contents (Elt F) → (⟨S8192x1x1, .i1⟩ : BufTy).Contents (Elt F) → (⟨S8192x1x1, .i1⟩ : BufTy).Contents (Elt F)) (((cmpi .sge) : (⟨S8192x1x1, .i32⟩ : BufTy).Contents (Elt F) → (⟨S8192x1x1, .i32⟩ : BufTy).Contents (Elt F) → (⟨S8192x1x1, .i1⟩ : BufTy).Contents (Elt F)) (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) u_v1) shapeCasts_S8192x1_S8192x1x1 : (⟨S8192x1x1, .i32⟩ : BufTy).Contents (Elt F)) (((broadcastInDim S8192x1x1 ![] bcast_S_S8192x1x1) : (⟨S_, .i32⟩ : BufTy).Contents (Elt F) → (⟨S8192x1x1, .i32⟩ : BufTy).Contents (Elt F)) (constantI S_ 32 0#32 : (⟨S_, .i32⟩ : BufTy).Contents (Elt F)))) (((cmpi .sle) : (⟨S8192x1x1, .i32⟩ : BufTy).Contents (Elt F) → (⟨S8192x1x1, .i32⟩ : BufTy).Contents (Elt F) → (⟨S8192x1x1, .i1⟩ : BufTy).Contents (Elt F)) (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) u_v1) shapeCasts_S8192x1_S8192x1x1 : (⟨S8192x1x1, .i32⟩ : BufTy).Contents (Elt F)) (((broadcastInDim S8192x1x1 ![0, 1, 2] bcast_S1x1x1_S8192x1x1_0_1_2) : (⟨S1x1x1, .i32⟩ : BufTy).Contents (Elt F) → (⟨S8192x1x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) (constantI S1 32 2#32 : (⟨S1, .i32⟩ : BufTy).Contents (Elt F)))))) (constantI S_ 1 1#1 : (⟨S_, .i1⟩ : BufTy).Contents (Elt F))) (((fun x i => Host.gather gather_S8192x3_S8192x1x1_S8192x1_n_1_0_0_1_2_11 x i) : (⟨S8192x3, .f32⟩ : BufTy).Contents (Elt F) → (⟨S8192x1x1, .i32⟩ : BufTy).Contents (Elt F) → (⟨S8192x1, .f32⟩ : BufTy).Contents (Elt F)) u_v0 (shapeCast S8192x1x1 ((select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)) (((cmpi .slt) : (⟨S8192x1, .i32⟩ : BufTy).Contents (Elt F) → (⟨S8192x1, .i32⟩ : BufTy).Contents (Elt F) → (⟨S8192x1, .i1⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 0#32 : (⟨S_, .i32⟩ : BufTy).Contents (Elt F)))) ((addi : (⟨S8192x1, .i32⟩ : BufTy).Contents (Elt F) → (⟨S8192x1, .i32⟩ : BufTy).Contents (Elt F) → (⟨S8192x1, .i32⟩ : BufTy).Contents (Elt F)) u_v1 (((broadcastInDim S8192x1 ![] bcast_S_S8192x1) : (⟨S_, .i32⟩ : BufTy).Contents (Elt F) → (⟨S8192x1, .i32⟩ : BufTy).Contents (Elt F)) (constantI S_ 32 3#32 : (⟨S_, .i32⟩ : BufTy).Contents (Elt F)))) u_v1) shapeCasts_S8192x1_S8192x1x1 : (⟨S8192x1x1, .i32⟩ : BufTy).Contents (Elt F))) (((broadcastInDim S8192x1 ![] bcast_S_S8192x1) : (⟨S_, .f32⟩ : BufTy).Contents (Elt F) → (⟨S8192x1, .f32⟩ : BufTy).Contents (Elt F)) (constant S_ .f32 0x7FC00000#32 : (⟨S_, .f32⟩ : BufTy).Contents (Elt F))))
theorem seg2_out_main_v2 (V : Valuation τ sig (Elt F)) :
    StableHlo.after seg2 V (Proc.devRef (τ := τ) .tc main_v2) = f2_v2 (V (Proc.devRef (τ := τ) .tc main_v1)) (V (Proc.devRef (τ := τ) .tc main_v0)) := by
  after_results_simp <;> rfl

/-- %v5 from what segment 3 reads: the composition of the segment's operations that lead to it. -/
def f3_v5 (u_v2 : (⟨S8192x1, .f32⟩ : BufTy).Contents (Elt F)) : (⟨S_, .f32⟩ : BufTy).Contents (Elt F) :=
  ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)) u_v2 (constant S_ .f32 0x00000000#32 : (⟨S_, .f32⟩ : BufTy).Contents (Elt F))) (constant S_ .f32 0x46000000#32 : (⟨S_, .f32⟩ : BufTy).Contents (Elt F))))
theorem seg3_out_main_v5 (V : Valuation τ sig (Elt F)) :
    StableHlo.after seg3 V (Proc.devRef (τ := τ) .tc main_v5) = f3_v5 (V (Proc.devRef (τ := τ) .tc main_v2)) := by
  after_results_simp <;> rfl

/-- %v8 from what segment 3 reads: the composition of the segment's operations that lead to it. -/
def f3_v8 (u_arg2 : (⟨S8192x8, .f32⟩ : BufTy).Contents (Elt F)) : (⟨S8, .f32⟩ : BufTy).Contents (Elt F) :=
  ((Host.divf : (⟨S8, .f32⟩ : BufTy).Contents (Elt F) → (⟨S8, .f32⟩ : BufTy).Contents (Elt F) → (⟨S8, .f32⟩ : BufTy).Contents (Elt F)) (((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)) u_arg2 (constant S_ .f32 0x00000000#32 : (⟨S_, .f32⟩ : BufTy).Contents (Elt F))) ((broadcastInDim S8 ![] bcast_S_S8 : (⟨S_, .f32⟩ : BufTy).Contents (Elt F) → (⟨S8, .f32⟩ : BufTy).Contents (Elt F)) (constant S_ .f32 0x46000000#32 : (⟨S_, .f32⟩ : BufTy).Contents (Elt F))))
theorem seg3_out_main_v8 (V : Valuation τ sig (Elt F)) :
    StableHlo.after seg3 V (Proc.devRef (τ := τ) .tc main_v8) = f3_v8 (V (Proc.devRef (τ := τ) .tc main_arg2)) := by
  after_results_simp <;> rfl

/-- %c from what segment 3 reads: the composition of the segment's operations that lead to it. -/
def f3_c  : (⟨S_, .i32⟩ : BufTy).Contents (Elt F) :=
  (constantI S_ 32 1#32 : (⟨S_, .i32⟩ : BufTy).Contents (Elt F))
theorem seg3_out_main_c (V : Valuation τ sig (Elt F)) :
    StableHlo.after seg3 V (Proc.devRef (τ := τ) .tc main_c) = f3_c := by
  after_results_simp <;> rfl

/-- %v9 from what segment 4 reads: the composition of the segment's operations that lead to it. -/
def f4_v9 (u_c : (⟨S_, .i32⟩ : BufTy).Contents (Elt F)) (u_v8 : (⟨S8, .f32⟩ : BufTy).Contents (Elt F)) : (⟨S_, .f32⟩ : BufTy).Contents (Elt F) :=
  ((select : (⟨S_, .i1⟩ : BufTy).Contents (Elt F) → (⟨S_, .f32⟩ : BufTy).Contents (Elt F) → (⟨S_, .f32⟩ : BufTy).Contents (Elt F) → (⟨S_, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) (constant S_ .f32 0x41000000#32 : (⟨S_, .f32⟩ : BufTy).Contents (Elt F)) (((sitofp .f32) : (⟨S_, .i32⟩ : BufTy).Contents (Elt F) → (⟨S_, .f32⟩ : BufTy).Contents (Elt F)) u_c)) (constant S_ .f32 0x00000000#32 : (⟨S_, .f32⟩ : BufTy).Contents (Elt F))) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ((mulf : (⟨S8, .f32⟩ : BufTy).Contents (Elt F) → (⟨S8, .f32⟩ : BufTy).Contents (Elt F) → (⟨S8, .f32⟩ : BufTy).Contents (Elt F)) ((subf : (⟨S8, .f32⟩ : BufTy).Contents (Elt F) → (⟨S8, .f32⟩ : BufTy).Contents (Elt F) → (⟨S8, .f32⟩ : BufTy).Contents (Elt F)) u_v8 (((broadcastInDim S8 ![0] bcast_S1_S8_0) : (⟨S1, .f32⟩ : BufTy).Contents (Elt F) → (⟨S8, .f32⟩ : BufTy).Contents (Elt F)) ((Host.divf : (⟨S1, .f32⟩ : BufTy).Contents (Elt F) → (⟨S1, .f32⟩ : BufTy).Contents (Elt F) → (⟨S1, .f32⟩ : BufTy).Contents (Elt F)) (((broadcastInDim S1 ![] bcast_S_S1) : (⟨S_, .f32⟩ : BufTy).Contents (Elt F) → (⟨S1, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) u_v8 (constant S_ .f32 0x00000000#32 : (⟨S_, .f32⟩ : BufTy).Contents (Elt F)))) (((broadcastInDim S1 ![] bcast_S_S1) : (⟨S_, .f32⟩ : BufTy).Contents (Elt F) → (⟨S1, .f32⟩ : BufTy).Contents (Elt F)) (constant S_ .f32 0x41000000#32 : (⟨S_, .f32⟩ : BufTy).Contents (Elt F)))))) ((subf : (⟨S8, .f32⟩ : BufTy).Contents (Elt F) → (⟨S8, .f32⟩ : BufTy).Contents (Elt F) → (⟨S8, .f32⟩ : BufTy).Contents (Elt F)) u_v8 (((broadcastInDim S8 ![0] bcast_S1_S8_0) : (⟨S1, .f32⟩ : BufTy).Contents (Elt F) → (⟨S8, .f32⟩ : BufTy).Contents (Elt F)) ((Host.divf : (⟨S1, .f32⟩ : BufTy).Contents (Elt F) → (⟨S1, .f32⟩ : BufTy).Contents (Elt F) → (⟨S1, .f32⟩ : BufTy).Contents (Elt F)) (((broadcastInDim S1 ![] bcast_S_S1) : (⟨S_, .f32⟩ : BufTy).Contents (Elt F) → (⟨S1, .f32⟩ : BufTy).Contents (Elt F)) (((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) u_v8 (constant S_ .f32 0x00000000#32 : (⟨S_, .f32⟩ : BufTy).Contents (Elt F)))) (((broadcastInDim S1 ![] bcast_S_S1) : (⟨S_, .f32⟩ : BufTy).Contents (Elt F) → (⟨S1, .f32⟩ : BufTy).Contents (Elt F)) (constant S_ .f32 0x41000000#32 : (⟨S_, .f32⟩ : BufTy).Contents (Elt F))))))) (constant S_ .f32 0x00000000#32 : (⟨S_, .f32⟩ : BufTy).Contents (Elt F))) ((subf : (⟨S_, .f32⟩ : BufTy).Contents (Elt F) → (⟨S_, .f32⟩ : BufTy).Contents (Elt F) → (⟨S_, .f32⟩ : BufTy).Contents (Elt F)) (constant S_ .f32 0x41000000#32 : (⟨S_, .f32⟩ : BufTy).Contents (Elt F)) (((sitofp .f32) : (⟨S_, .i32⟩ : BufTy).Contents (Elt F) → (⟨S_, .f32⟩ : BufTy).Contents (Elt F)) u_c))) ((id : (⟨S_, .f32⟩ : BufTy).Contents (Elt F) → (⟨S_, .f32⟩ : BufTy).Contents (Elt F)) (constant S_ .f32 0x7FC00000#32 : (⟨S_, .f32⟩ : BufTy).Contents (Elt F))))
theorem seg4_out_main_v9 (V : Valuation τ sig (Elt F)) :
    StableHlo.after seg4 V (Proc.devRef (τ := τ) .tc main_v9) = f4_v9 (V (Proc.devRef (τ := τ) .tc main_c)) (V (Proc.devRef (τ := τ) .tc main_v8)) := by
  after_results_simp <;> rfl
theorem seg4_keep_main_v5 (V : Valuation τ sig (Elt F)) : StableHlo.after seg4 V (Proc.devRef (τ := τ) .tc main_v5) = V (Proc.devRef (τ := τ) .tc main_v5) := by after_results_simp

/-- %v11 from what segment 5 reads: the composition of the segment's operations that lead to it. -/
def f5_v11 (u_v9 : (⟨S_, .f32⟩ : BufTy).Contents (Elt F)) : (⟨S_, .f32⟩ : BufTy).Contents (Elt F) :=
  ((mulf : (⟨S_, .f32⟩ : BufTy).Contents (Elt F) → (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) u_v9) (constant S_ .f32 0x42800000#32 : (⟨S_, .f32⟩ : BufTy).Contents (Elt F)))
theorem seg5_out_main_v11 (V : Valuation τ sig (Elt F)) :
    StableHlo.after seg5 V (Proc.devRef (τ := τ) .tc main_v11) = f5_v11 (V (Proc.devRef (τ := τ) .tc main_v9)) := by
  after_results_simp <;> rfl

/-- %v13 from what segment 5 reads: the composition of the segment's operations that lead to it. -/
def f5_v13 (u_arg2 : (⟨S8192x8, .f32⟩ : BufTy).Contents (Elt F)) : (⟨S8192x8, .i1⟩ : BufTy).Contents (Elt F) :=
  ((cmpf .olt : (⟨S8192x8, .f32⟩ : BufTy).Contents (Elt F) → (⟨S8192x8, .f32⟩ : BufTy).Contents (Elt F) → (⟨S8192x8, .i1⟩ : BufTy).Contents (Elt F)) u_arg2 ((broadcastInDim S8192x8 ![] bcast_S_S8192x8 : (⟨S_, .f32⟩ : BufTy).Contents (Elt F) → (⟨S8192x8, .f32⟩ : BufTy).Contents (Elt F)) (constant S_ .f32 0x3DCCCCCD#32 : (⟨S_, .f32⟩ : BufTy).Contents (Elt F))))
theorem seg5_out_main_v13 (V : Valuation τ sig (Elt F)) :
    StableHlo.after seg5 V (Proc.devRef (τ := τ) .tc main_v13) = f5_v13 (V (Proc.devRef (τ := τ) .tc main_arg2)) := by
  after_results_simp <;> rfl

/-- %cst_6 from what segment 5 reads: the composition of the segment's operations that lead to it. -/
def f5_cst_6  : (⟨S_, .f32⟩ : BufTy).Contents (Elt F) :=
  (constant S_ .f32 0x00000000#32 : (⟨S_, .f32⟩ : BufTy).Contents (Elt F))
theorem seg5_out_main_cst_6 (V : Valuation τ sig (Elt F)) :
    StableHlo.after seg5 V (Proc.devRef (τ := τ) .tc main_cst_6) = f5_cst_6 := by
  after_results_simp <;> rfl
theorem seg5_keep_main_v5 (V : Valuation τ sig (Elt F)) : StableHlo.after seg5 V (Proc.devRef (τ := τ) .tc main_v5) = V (Proc.devRef (τ := τ) .tc main_v5) := by after_results_simp

/-- %v14 from what segment 6 reads: the composition of the segment's operations that lead to it. -/
def f6_v14 (u_v13 : (⟨S8192x8, .i1⟩ : BufTy).Contents (Elt F)) (u_arg2 : (⟨S8192x8, .f32⟩ : BufTy).Contents (Elt F)) (u_cst_6 : (⟨S_, .f32⟩ : BufTy).Contents (Elt F)) : (⟨S8192x8, .f32⟩ : BufTy).Contents (Elt F) :=
  ((select : (⟨S8192x8, .i1⟩ : BufTy).Contents (Elt F) → (⟨S8192x8, .f32⟩ : BufTy).Contents (Elt F) → (⟨S8192x8, .f32⟩ : BufTy).Contents (Elt F) → (⟨S8192x8, .f32⟩ : BufTy).Contents (Elt F)) u_v13 u_arg2 (((broadcastInDim S8192x8 ![] bcast_S_S8192x8) : (⟨S_, .f32⟩ : BufTy).Contents (Elt F) → (⟨S8192x8, .f32⟩ : BufTy).Contents (Elt F)) ((id : (⟨S_, .f32⟩ : BufTy).Contents (Elt F) → (⟨S_, .f32⟩ : BufTy).Contents (Elt F)) u_cst_6)))
theorem seg6_out_main_v14 (V : Valuation τ sig (Elt F)) :
    StableHlo.after seg6 V (Proc.devRef (τ := τ) .tc main_v14) = f6_v14 (V (Proc.devRef (τ := τ) .tc main_v13)) (V (Proc.devRef (τ := τ) .tc main_arg2)) (V (Proc.devRef (τ := τ) .tc main_cst_6)) := by
  after_results_simp <;> rfl
theorem seg6_keep_main_v5 (V : Valuation τ sig (Elt F)) : StableHlo.after seg6 V (Proc.devRef (τ := τ) .tc main_v5) = V (Proc.devRef (τ := τ) .tc main_v5) := by after_results_simp
theorem seg6_keep_main_v11 (V : Valuation τ sig (Elt F)) : StableHlo.after seg6 V (Proc.devRef (τ := τ) .tc main_v11) = V (Proc.devRef (τ := τ) .tc main_v11) := by after_results_simp

/-- %v18 from what segment 7 reads: the composition of the segment's operations that lead to it. -/
def f7_v18 (u_v14 : (⟨S8192x8, .f32⟩ : BufTy).Contents (Elt F)) : (⟨S_, .f32⟩ : BufTy).Contents (Elt F) :=
  ((mulf : (⟨S_, .f32⟩ : BufTy).Contents (Elt F) → (⟨S_, .f32⟩ : BufTy).Contents (Elt F) → (⟨S_, .f32⟩ : BufTy).Contents (Elt F)) (constant S_ .f32 0x3D4CCCCD#32 : (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) u_v14 (constant S_ .f32 0x00000000#32 : (⟨S_, .f32⟩ : BufTy).Contents (Elt F))) (constant S_ .f32 0x00000000#32 : (⟨S_, .f32⟩ : BufTy).Contents (Elt F))) (constant S_ .f32 0x46000000#32 : (⟨S_, .f32⟩ : BufTy).Contents (Elt F))))
theorem seg7_out_main_v18 (V : Valuation τ sig (Elt F)) :
    StableHlo.after seg7 V (Proc.devRef (τ := τ) .tc main_v18) = f7_v18 (V (Proc.devRef (τ := τ) .tc main_v14)) := by
  after_results_simp <;> rfl
theorem seg7_keep_main_v5 (V : Valuation τ sig (Elt F)) : StableHlo.after seg7 V (Proc.devRef (τ := τ) .tc main_v5) = V (Proc.devRef (τ := τ) .tc main_v5) := by after_results_simp
theorem seg7_keep_main_v11 (V : Valuation τ sig (Elt F)) : StableHlo.after seg7 V (Proc.devRef (τ := τ) .tc main_v11) = V (Proc.devRef (τ := τ) .tc main_v11) := by after_results_simp

/-- %v19 from what segment 8 reads: the composition of the segment's operations that lead to it. -/
def f8_v19 (u_arg3 : (⟨S8192x128, .f32⟩ : BufTy).Contents (Elt F)) : (⟨S8192x1, .f32⟩ : BufTy).Contents (Elt F) :=
  ((Host.sqrt : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)) ((mulf : (⟨S8192x128, .f32⟩ : BufTy).Contents (Elt F) → (⟨S8192x128, .f32⟩ : BufTy).Contents (Elt F) → (⟨S8192x128, .f32⟩ : BufTy).Contents (Elt F)) u_arg3 u_arg3) (constant S_ .f32 0x00000000#32 : (⟨S_, .f32⟩ : BufTy).Contents (Elt F)))))
theorem seg8_out_main_v19 (V : Valuation τ sig (Elt F)) :
    StableHlo.after seg8 V (Proc.devRef (τ := τ) .tc main_v19) = f8_v19 (V (Proc.devRef (τ := τ) .tc main_arg3)) := by
  after_results_simp <;> rfl
theorem seg8_keep_main_v5 (V : Valuation τ sig (Elt F)) : StableHlo.after seg8 V (Proc.devRef (τ := τ) .tc main_v5) = V (Proc.devRef (τ := τ) .tc main_v5) := by after_results_simp
theorem seg8_keep_main_v11 (V : Valuation τ sig (Elt F)) : StableHlo.after seg8 V (Proc.devRef (τ := τ) .tc main_v11) = V (Proc.devRef (τ := τ) .tc main_v11) := by after_results_simp
theorem seg8_keep_main_v18 (V : Valuation τ sig (Elt F)) : StableHlo.after seg8 V (Proc.devRef (τ := τ) .tc main_v18) = V (Proc.devRef (τ := τ) .tc main_v18) := by after_results_simp

/-- %v32 from what segment 9 reads: the composition of the segment's operations that lead to it. -/
def f9_v32 (u_arg3 : (⟨S8192x128, .f32⟩ : BufTy).Contents (Elt F)) (u_v19 : (⟨S8192x1, .f32⟩ : BufTy).Contents (Elt F)) : (⟨S8192x8192, .i1⟩ : BufTy).Contents (Elt F) :=
  ((andi : (⟨S8192x8192, .i1⟩ : BufTy).Contents (Elt F) → (⟨S8192x8192, .i1⟩ : BufTy).Contents (Elt F) → (⟨S8192x8192, .i1⟩ : BufTy).Contents (Elt F)) ((cmpf .ogt : (⟨S8192x8192, .f32⟩ : BufTy).Contents (Elt F) → (⟨S8192x8192, .f32⟩ : BufTy).Contents (Elt F) → (⟨S8192x8192, .i1⟩ : BufTy).Contents (Elt F)) (((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)) ((Host.divf : (⟨S8192x128, .f32⟩ : BufTy).Contents (Elt F) → (⟨S8192x128, .f32⟩ : BufTy).Contents (Elt F) → (⟨S8192x128, .f32⟩ : BufTy).Contents (Elt F)) u_arg3 ((broadcastInDim S8192x128 ![0, 1] bcast_S8192x1_S8192x128_0_1 : (⟨S8192x1, .f32⟩ : BufTy).Contents (Elt F) → (⟨S8192x128, .f32⟩ : BufTy).Contents (Elt F)) u_v19)) (((transpose S128x8192 [1, 0] · transposes_S8192x128_S128x8192_1_0) : (⟨S8192x128, .f32⟩ : BufTy).Contents (Elt F) → (⟨S128x8192, .f32⟩ : BufTy).Contents (Elt F)) ((Host.divf : (⟨S8192x128, .f32⟩ : BufTy).Contents (Elt F) → (⟨S8192x128, .f32⟩ : BufTy).Contents (Elt F) → (⟨S8192x128, .f32⟩ : BufTy).Contents (Elt F)) u_arg3 ((broadcastInDim S8192x128 ![0, 1] bcast_S8192x1_S8192x128_0_1 : (⟨S8192x1, .f32⟩ : BufTy).Contents (Elt F) → (⟨S8192x128, .f32⟩ : BufTy).Contents (Elt F)) u_v19)))) ((broadcastInDim S8192x8192 ![] bcast_S_S8192x8192 : (⟨S_, .f32⟩ : BufTy).Contents (Elt F) → (⟨S8192x8192, .f32⟩ : BufTy).Contents (Elt F)) (constant S_ .f32 0x3F4CCCCD#32 : (⟨S_, .f32⟩ : BufTy).Contents (Elt F)))) ((noti : (⟨S8192x8192, .i1⟩ : BufTy).Contents (Elt F) → (⟨S8192x8192, .i1⟩ : BufTy).Contents (Elt F)) ((cmpi .eq : (⟨S8192x8192, .i32⟩ : BufTy).Contents (Elt F) → (⟨S8192x8192, .i32⟩ : BufTy).Contents (Elt F) → (⟨S8192x8192, .i1⟩ : BufTy).Contents (Elt F)) ((addi : (⟨S8192x8192, .i32⟩ : BufTy).Contents (Elt F) → (⟨S8192x8192, .i32⟩ : BufTy).Contents (Elt F) → (⟨S8192x8192, .i32⟩ : BufTy).Contents (Elt F)) (iotaInDim S8192x8192 32 0 : (⟨S8192x8192, .i32⟩ : BufTy).Contents (Elt F)) ((broadcastInDim S8192x8192 ![] bcast_S_S8192x8192 : (⟨S_, .i32⟩ : BufTy).Contents (Elt F) → (⟨S8192x8192, .i32⟩ : BufTy).Contents (Elt F)) (constantI S_ 32 0#32 : (⟨S_, .i32⟩ : BufTy).Contents (Elt F)))) (iotaInDim S8192x8192 32 1 : (⟨S8192x8192, .i32⟩ : BufTy).Contents (Elt F)))))
theorem seg9_out_main_v32 (V : Valuation τ sig (Elt F)) :
    StableHlo.after seg9 V (Proc.devRef (τ := τ) .tc main_v32) = f9_v32 (V (Proc.devRef (τ := τ) .tc main_arg3)) (V (Proc.devRef (τ := τ) .tc main_v19)) := by
  after_results_simp <;> rfl
theorem seg9_keep_main_v5 (V : Valuation τ sig (Elt F)) : StableHlo.after seg9 V (Proc.devRef (τ := τ) .tc main_v5) = V (Proc.devRef (τ := τ) .tc main_v5) := by after_results_simp
theorem seg9_keep_main_v11 (V : Valuation τ sig (Elt F)) : StableHlo.after seg9 V (Proc.devRef (τ := τ) .tc main_v11) = V (Proc.devRef (τ := τ) .tc main_v11) := by after_results_simp
theorem seg9_keep_main_v18 (V : Valuation τ sig (Elt F)) : StableHlo.after seg9 V (Proc.devRef (τ := τ) .tc main_v18) = V (Proc.devRef (τ := τ) .tc main_v18) := by after_results_simp

/-- %v33 from what segment 10 reads: the composition of the segment's operations that lead to it. -/
def f10_v33 (u_arg2 : (⟨S8192x8, .f32⟩ : BufTy).Contents (Elt F)) : (⟨S8192x8, .f32⟩ : BufTy).Contents (Elt F) :=
  ((subf : (⟨S8192x8, .f32⟩ : BufTy).Contents (Elt F) → (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) u_arg2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) u_arg2 (constant S_ .f32 0xFF800000#32 : (⟨S_, .f32⟩ : BufTy).Contents (Elt F))))))) (((broadcastInDim S8192x8 ![0, 1] bcast_S8192x1_S8192x8_0_1) : (⟨S8192x1, .f32⟩ : BufTy).Contents (Elt F) → (⟨S8192x8, .f32⟩ : BufTy).Contents (Elt F)) ((Host.log : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((Host.exp : (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) u_arg2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) u_arg2 (constant S_ .f32 0xFF800000#32 : (⟨S_, .f32⟩ : BufTy).Contents (Elt F)))))))) (constant S_ .f32 0x00000000#32 : (⟨S_, .f32⟩ : BufTy).Contents (Elt F)))))))
theorem seg10_out_main_v33 (V : Valuation τ sig (Elt F)) :
    StableHlo.after seg10 V (Proc.devRef (τ := τ) .tc main_v33) = f10_v33 (V (Proc.devRef (τ := τ) .tc main_arg2)) := by
  after_results_simp <;> rfl
theorem seg10_keep_main_v5 (V : Valuation τ sig (Elt F)) : StableHlo.after seg10 V (Proc.devRef (τ := τ) .tc main_v5) = V (Proc.devRef (τ := τ) .tc main_v5) := by after_results_simp
theorem seg10_keep_main_v11 (V : Valuation τ sig (Elt F)) : StableHlo.after seg10 V (Proc.devRef (τ := τ) .tc main_v11) = V (Proc.devRef (τ := τ) .tc main_v11) := by after_results_simp
theorem seg10_keep_main_v18 (V : Valuation τ sig (Elt F)) : StableHlo.after seg10 V (Proc.devRef (τ := τ) .tc main_v18) = V (Proc.devRef (τ := τ) .tc main_v18) := by after_results_simp
theorem seg10_keep_main_v32 (V : Valuation τ sig (Elt F)) : StableHlo.after seg10 V (Proc.devRef (τ := τ) .tc main_v32) = V (Proc.devRef (τ := τ) .tc main_v32) := by after_results_simp

/-- %v41 from what segment 11 reads: the composition of the segment's operations that lead to it. -/
def f11_v41 (u_v33 : (⟨S8192x8, .f32⟩ : BufTy).Contents (Elt F)) : (⟨S8192x8192, .f32⟩ : BufTy).Contents (Elt F) :=
  ((subf : (⟨S8192x8192, .f32⟩ : BufTy).Contents (Elt F) → (⟨S8192x8192, .f32⟩ : BufTy).Contents (Elt F) → (⟨S8192x8192, .f32⟩ : BufTy).Contents (Elt F)) ((broadcastInDim S8192x8192 ![0, 1] bcast_S1x8192_S8192x8192_0_1 : (⟨S1x8192, .f32⟩ : BufTy).Contents (Elt F) → (⟨S8192x8192, .f32⟩ : BufTy).Contents (Elt F)) ((broadcastInDim S1x8192 ![1] bcast_S8192_S1x8192_1 : (⟨S8192, .f32⟩ : BufTy).Contents (Elt F) → (⟨S1x8192, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) ((Host.exp : (⟨S8192x8, .f32⟩ : BufTy).Contents (Elt F) → (⟨S8192x8, .f32⟩ : BufTy).Contents (Elt F)) u_v33) u_v33) (constant S_ .f32 0x00000000#32 : (⟨S_, .f32⟩ : BufTy).Contents (Elt F))))) (((fun l r => Host.dotGeneral dot_S8192x8_S8x8192_S8192x8192_1_0_0_1_n_n none l r) : (⟨S8192x8, .f32⟩ : BufTy).Contents (Elt F) → (⟨S8x8192, .f32⟩ : BufTy).Contents (Elt F) → (⟨S8192x8192, .f32⟩ : BufTy).Contents (Elt F)) u_v33 (((transpose S8x8192 [1, 0] · transposes_S8192x8_S8x8192_1_0) : (⟨S8192x8, .f32⟩ : BufTy).Contents (Elt F) → (⟨S8x8192, .f32⟩ : BufTy).Contents (Elt F)) ((Host.exp : (⟨S8192x8, .f32⟩ : BufTy).Contents (Elt F) → (⟨S8192x8, .f32⟩ : BufTy).Contents (Elt F)) u_v33))))
theorem seg11_out_main_v41 (V : Valuation τ sig (Elt F)) :
    StableHlo.after seg11 V (Proc.devRef (τ := τ) .tc main_v41) = f11_v41 (V (Proc.devRef (τ := τ) .tc main_v33)) := by
  after_results_simp <;> rfl

/-- %v42 from what segment 11 reads: the composition of the segment's operations that lead to it. -/
def f11_v42 (u_v32 : (⟨S8192x8192, .i1⟩ : BufTy).Contents (Elt F)) : (⟨S8192x8192, .i32⟩ : BufTy).Contents (Elt F) :=
  (((extui 32 · natLt_1_32) : (⟨S8192x8192, .i1⟩ : BufTy).Contents (Elt F) → (⟨S8192x8192, .i32⟩ : BufTy).Contents (Elt F)) u_v32)
theorem seg11_out_main_v42 (V : Valuation τ sig (Elt F)) :
    StableHlo.after seg11 V (Proc.devRef (τ := τ) .tc main_v42) = f11_v42 (V (Proc.devRef (τ := τ) .tc main_v32)) := by
  after_results_simp <;> rfl

/-- %c_14 from what segment 11 reads: the composition of the segment's operations that lead to it. -/
def f11_c_14  : (⟨S_, .i32⟩ : BufTy).Contents (Elt F) :=
  (constantI S_ 32 0#32 : (⟨S_, .i32⟩ : BufTy).Contents (Elt F))
theorem seg11_out_main_c_14 (V : Valuation τ sig (Elt F)) :
    StableHlo.after seg11 V (Proc.devRef (τ := τ) .tc main_c_14) = f11_c_14 := by
  after_results_simp <;> rfl
theorem seg11_keep_main_v5 (V : Valuation τ sig (Elt F)) : StableHlo.after seg11 V (Proc.devRef (τ := τ) .tc main_v5) = V (Proc.devRef (τ := τ) .tc main_v5) := by after_results_simp
theorem seg11_keep_main_v11 (V : Valuation τ sig (Elt F)) : StableHlo.after seg11 V (Proc.devRef (τ := τ) .tc main_v11) = V (Proc.devRef (τ := τ) .tc main_v11) := by after_results_simp
theorem seg11_keep_main_v18 (V : Valuation τ sig (Elt F)) : StableHlo.after seg11 V (Proc.devRef (τ := τ) .tc main_v18) = V (Proc.devRef (τ := τ) .tc main_v18) := by after_results_simp
theorem seg11_keep_main_v32 (V : Valuation τ sig (Elt F)) : StableHlo.after seg11 V (Proc.devRef (τ := τ) .tc main_v32) = V (Proc.devRef (τ := τ) .tc main_v32) := by after_results_simp

/-- %v43 from what segment 12 reads: the composition of the segment's operations that lead to it. -/
def f12_v43 (u_v42 : (⟨S8192x8192, .i32⟩ : BufTy).Contents (Elt F)) (u_c_14 : (⟨S_, .i32⟩ : BufTy).Contents (Elt F)) : (⟨S_, .i32⟩ : BufTy).Contents (Elt F) :=
  (((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)) u_v42 u_c_14)
theorem seg12_out_main_v43 (V : Valuation τ sig (Elt F)) :
    StableHlo.after seg12 V (Proc.devRef (τ := τ) .tc main_v43) = f12_v43 (V (Proc.devRef (τ := τ) .tc main_v42)) (V (Proc.devRef (τ := τ) .tc main_c_14)) := by
  after_results_simp <;> rfl

/-- %cst_15 from what segment 12 reads: the composition of the segment's operations that lead to it. -/
def f12_cst_15  : (⟨S_, .f32⟩ : BufTy).Contents (Elt F) :=
  (constant S_ .f32 0x00000000#32 : (⟨S_, .f32⟩ : BufTy).Contents (Elt F))
theorem seg12_out_main_cst_15 (V : Valuation τ sig (Elt F)) :
    StableHlo.after seg12 V (Proc.devRef (τ := τ) .tc main_cst_15) = f12_cst_15 := by
  after_results_simp <;> rfl
theorem seg12_keep_main_v5 (V : Valuation τ sig (Elt F)) : StableHlo.after seg12 V (Proc.devRef (τ := τ) .tc main_v5) = V (Proc.devRef (τ := τ) .tc main_v5) := by after_results_simp
theorem seg12_keep_main_v11 (V : Valuation τ sig (Elt F)) : StableHlo.after seg12 V (Proc.devRef (τ := τ) .tc main_v11) = V (Proc.devRef (τ := τ) .tc main_v11) := by after_results_simp
theorem seg12_keep_main_v18 (V : Valuation τ sig (Elt F)) : StableHlo.after seg12 V (Proc.devRef (τ := τ) .tc main_v18) = V (Proc.devRef (τ := τ) .tc main_v18) := by after_results_simp
theorem seg12_keep_main_v32 (V : Valuation τ sig (Elt F)) : StableHlo.after seg12 V (Proc.devRef (τ := τ) .tc main_v32) = V (Proc.devRef (τ := τ) .tc main_v32) := by after_results_simp
theorem seg12_keep_main_v41 (V : Valuation τ sig (Elt F)) : StableHlo.after seg12 V (Proc.devRef (τ := τ) .tc main_v41) = V (Proc.devRef (τ := τ) .tc main_v41) := by after_results_simp

/-- %v44 from what segment 13 reads: the composition of the segment's operations that lead to it. -/
def f13_v44 (u_v32 : (⟨S8192x8192, .i1⟩ : BufTy).Contents (Elt F)) (u_v41 : (⟨S8192x8192, .f32⟩ : BufTy).Contents (Elt F)) (u_cst_15 : (⟨S_, .f32⟩ : BufTy).Contents (Elt F)) : (⟨S8192x8192, .f32⟩ : BufTy).Contents (Elt F) :=
  ((select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) u_v32 u_v41 (((broadcastInDim S8192x8192 ![] bcast_S_S8192x8192) : (⟨S_, .f32⟩ : BufTy).Contents (Elt F) → (⟨S8192x8192, .f32⟩ : BufTy).Contents (Elt F)) ((id : (⟨S_, .f32⟩ : BufTy).Contents (Elt F) → (⟨S_, .f32⟩ : BufTy).Contents (Elt F)) u_cst_15)))
theorem seg13_out_main_v44 (V : Valuation τ sig (Elt F)) :
    StableHlo.after seg13 V (Proc.devRef (τ := τ) .tc main_v44) = f13_v44 (V (Proc.devRef (τ := τ) .tc main_v32)) (V (Proc.devRef (τ := τ) .tc main_v41)) (V (Proc.devRef (τ := τ) .tc main_cst_15)) := by
  after_results_simp <;> rfl
theorem seg13_keep_main_v5 (V : Valuation τ sig (Elt F)) : StableHlo.after seg13 V (Proc.devRef (τ := τ) .tc main_v5) = V (Proc.devRef (τ := τ) .tc main_v5) := by after_results_simp
theorem seg13_keep_main_v11 (V : Valuation τ sig (Elt F)) : StableHlo.after seg13 V (Proc.devRef (τ := τ) .tc main_v11) = V (Proc.devRef (τ := τ) .tc main_v11) := by after_results_simp
theorem seg13_keep_main_v18 (V : Valuation τ sig (Elt F)) : StableHlo.after seg13 V (Proc.devRef (τ := τ) .tc main_v18) = V (Proc.devRef (τ := τ) .tc main_v18) := by after_results_simp
theorem seg13_keep_main_v43 (V : Valuation τ sig (Elt F)) : StableHlo.after seg13 V (Proc.devRef (τ := τ) .tc main_v43) = V (Proc.devRef (τ := τ) .tc main_v43) := by after_results_simp

/-- %v46 from what segment 14 reads: the composition of the segment's operations that lead to it. -/
def f14_v46 (u_v43 : (⟨S_, .i32⟩ : BufTy).Contents (Elt F)) : (⟨S_, .i1⟩ : BufTy).Contents (Elt F) :=
  ((cmpi .sgt : (⟨S_, .i32⟩ : BufTy).Contents (Elt F) → (⟨S_, .i32⟩ : BufTy).Contents (Elt F) → (⟨S_, .i1⟩ : BufTy).Contents (Elt F)) u_v43 (constantI S_ 32 0#32 : (⟨S_, .i32⟩ : BufTy).Contents (Elt F)))
theorem seg14_out_main_v46 (V : Valuation τ sig (Elt F)) :
    StableHlo.after seg14 V (Proc.devRef (τ := τ) .tc main_v46) = f14_v46 (V (Proc.devRef (τ := τ) .tc main_v43)) := by
  after_results_simp <;> rfl

/-- %v49 from what segment 14 reads: the composition of the segment's operations that lead to it. -/
def f14_v49 (u_v44 : (⟨S8192x8192, .f32⟩ : BufTy).Contents (Elt F)) (u_v43 : (⟨S_, .i32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) u_v44 (constant S_ .f32 0x00000000#32 : (⟨S_, .f32⟩ : BufTy).Contents (Elt F))) ((sitofp .f32 : (⟨S_, .i32⟩ : BufTy).Contents (Elt F) → (⟨S_, .f32⟩ : BufTy).Contents (Elt F)) ((maxsi : (⟨S_, .i32⟩ : BufTy).Contents (Elt F) → (⟨S_, .i32⟩ : BufTy).Contents (Elt F) → (⟨S_, .i32⟩ : BufTy).Contents (Elt F)) u_v43 (constantI S_ 32 1#32 : (⟨S_, .i32⟩ : BufTy).Contents (Elt F)))))
theorem seg14_out_main_v49 (V : Valuation τ sig (Elt F)) :
    StableHlo.after seg14 V (Proc.devRef (τ := τ) .tc main_v49) = f14_v49 (V (Proc.devRef (τ := τ) .tc main_v44)) (V (Proc.devRef (τ := τ) .tc main_v43)) := by
  after_results_simp <;> rfl

/-- %cst_19 from what segment 14 reads: the composition of the segment's operations that lead to it. -/
def f14_cst_19  : (⟨S_, .f32⟩ : BufTy).Contents (Elt F) :=
  (constant S_ .f32 0x00000000#32 : (⟨S_, .f32⟩ : BufTy).Contents (Elt F))
theorem seg14_out_main_cst_19 (V : Valuation τ sig (Elt F)) :
    StableHlo.after seg14 V (Proc.devRef (τ := τ) .tc main_cst_19) = f14_cst_19 := by
  after_results_simp <;> rfl
theorem seg14_keep_main_v5 (V : Valuation τ sig (Elt F)) : StableHlo.after seg14 V (Proc.devRef (τ := τ) .tc main_v5) = V (Proc.devRef (τ := τ) .tc main_v5) := by after_results_simp
theorem seg14_keep_main_v11 (V : Valuation τ sig (Elt F)) : StableHlo.after seg14 V (Proc.devRef (τ := τ) .tc main_v11) = V (Proc.devRef (τ := τ) .tc main_v11) := by after_results_simp
theorem seg14_keep_main_v18 (V : Valuation τ sig (Elt F)) : StableHlo.after seg14 V (Proc.devRef (τ := τ) .tc main_v18) = V (Proc.devRef (τ := τ) .tc main_v18) := by after_results_simp

/-- %v50 from what segment 15 reads: the composition of the segment's operations that lead to it. -/
def f15_v50 (u_v46 : (⟨S_, .i1⟩ : BufTy).Contents (Elt F)) (u_v49 : (⟨S_, .f32⟩ : BufTy).Contents (Elt F)) (u_cst_19 : (⟨S_, .f32⟩ : BufTy).Contents (Elt F)) : (⟨S_, .f32⟩ : BufTy).Contents (Elt F) :=
  ((select : (⟨S_, .i1⟩ : BufTy).Contents (Elt F) → (⟨S_, .f32⟩ : BufTy).Contents (Elt F) → (⟨S_, .f32⟩ : BufTy).Contents (Elt F) → (⟨S_, .f32⟩ : BufTy).Contents (Elt F)) u_v46 u_v49 ((id : (⟨S_, .f32⟩ : BufTy).Contents (Elt F) → (⟨S_, .f32⟩ : BufTy).Contents (Elt F)) u_cst_19))
theorem seg15_out_main_v50 (V : Valuation τ sig (Elt F)) :
    StableHlo.after seg15 V (Proc.devRef (τ := τ) .tc main_v50) = f15_v50 (V (Proc.devRef (τ := τ) .tc main_v46)) (V (Proc.devRef (τ := τ) .tc main_v49)) (V (Proc.devRef (τ := τ) .tc main_cst_19)) := by
  after_results_simp <;> rfl
theorem seg15_keep_main_v5 (V : Valuation τ sig (Elt F)) : StableHlo.after seg15 V (Proc.devRef (τ := τ) .tc main_v5) = V (Proc.devRef (τ := τ) .tc main_v5) := by after_results_simp
theorem seg15_keep_main_v11 (V : Valuation τ sig (Elt F)) : StableHlo.after seg15 V (Proc.devRef (τ := τ) .tc main_v11) = V (Proc.devRef (τ := τ) .tc main_v11) := by after_results_simp
theorem seg15_keep_main_v18 (V : Valuation τ sig (Elt F)) : StableHlo.after seg15 V (Proc.devRef (τ := τ) .tc main_v18) = V (Proc.devRef (τ := τ) .tc main_v18) := by after_results_simp

/-- %v72 from what segment 16 reads: the composition of the segment's operations that lead to it. -/
def f16_v72 (u_v5 : (⟨S_, .f32⟩ : BufTy).Contents (Elt F)) (u_v11 : (⟨S_, .f32⟩ : BufTy).Contents (Elt F)) (u_v18 : (⟨S_, .f32⟩ : BufTy).Contents (Elt F)) (u_v50 : (⟨S_, .f32⟩ : BufTy).Contents (Elt F)) (u_arg2 : (⟨S8192x8, .f32⟩ : BufTy).Contents (Elt F)) (u_arg4 : (⟨S1, .f32⟩ : BufTy).Contents (Elt F)) : (⟨S_, .f32⟩ : BufTy).Contents (Elt F) :=
  ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) u_v5 u_v11) u_v18) ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) u_v50)) ((mulf : (⟨S_, .f32⟩ : BufTy).Contents (Elt F) → (⟨S_, .f32⟩ : BufTy).Contents (Elt F) → (⟨S_, .f32⟩ : BufTy).Contents (Elt F)) (constant S_ .f32 0x3C23D70A#32 : (⟨S_, .f32⟩ : BufTy).Contents (Elt F)) ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ((Host.negf : (⟨S8192, .f32⟩ : BufTy).Contents (Elt F) → (⟨S8192, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) u_arg2 ((Host.log : (⟨S8192x8, .f32⟩ : BufTy).Contents (Elt F) → (⟨S8192x8, .f32⟩ : BufTy).Contents (Elt F)) ((addf : (⟨S8192x8, .f32⟩ : BufTy).Contents (Elt F) → (⟨S8192x8, .f32⟩ : BufTy).Contents (Elt F) → (⟨S8192x8, .f32⟩ : BufTy).Contents (Elt F)) u_arg2 ((broadcastInDim S8192x8 ![] bcast_S_S8192x8 : (⟨S_, .f32⟩ : BufTy).Contents (Elt F) → (⟨S8192x8, .f32⟩ : BufTy).Contents (Elt F)) (constant S_ .f32 0x322BCC77#32 : (⟨S_, .f32⟩ : BufTy).Contents (Elt F)))))) (constant S_ .f32 0x00000000#32 : (⟨S_, .f32⟩ : BufTy).Contents (Elt F)))) (constant S_ .f32 0x00000000#32 : (⟨S_, .f32⟩ : BufTy).Contents (Elt F))) (constant S_ .f32 0x46000000#32 : (⟨S_, .f32⟩ : BufTy).Contents (Elt F)))))) ((mulf : (⟨S_, .f32⟩ : BufTy).Contents (Elt F) → (⟨S_, .f32⟩ : BufTy).Contents (Elt F) → (⟨S_, .f32⟩ : BufTy).Contents (Elt F)) (constant S_ .f32 0x3C23D70A#32 : (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S1_S_d0 h_S_) : (⟨S1, .f32⟩ : BufTy).Contents (Elt F) → (⟨S_, .f32⟩ : BufTy).Contents (Elt F) → (⟨S_, .f32⟩ : BufTy).Contents (Elt F)) ((mulf : (⟨S1, .f32⟩ : BufTy).Contents (Elt F) → (⟨S1, .f32⟩ : BufTy).Contents (Elt F) → (⟨S1, .f32⟩ : BufTy).Contents (Elt F)) ((subf : (⟨S1, .f32⟩ : BufTy).Contents (Elt F) → (⟨S1, .f32⟩ : BufTy).Contents (Elt F) → (⟨S1, .f32⟩ : BufTy).Contents (Elt F)) u_arg4 ((broadcastInDim S1 ![] bcast_S_S1 : (⟨S_, .f32⟩ : BufTy).Contents (Elt F) → (⟨S1, .f32⟩ : BufTy).Contents (Elt F)) (constant S_ .f32 0x3F800000#32 : (⟨S_, .f32⟩ : BufTy).Contents (Elt F)))) ((subf : (⟨S1, .f32⟩ : BufTy).Contents (Elt F) → (⟨S1, .f32⟩ : BufTy).Contents (Elt F) → (⟨S1, .f32⟩ : BufTy).Contents (Elt F)) u_arg4 ((broadcastInDim S1 ![] bcast_S_S1 : (⟨S_, .f32⟩ : BufTy).Contents (Elt F) → (⟨S1, .f32⟩ : BufTy).Contents (Elt F)) (constant S_ .f32 0x3F800000#32 : (⟨S_, .f32⟩ : BufTy).Contents (Elt F))))) (constant S_ .f32 0x00000000#32 : (⟨S_, .f32⟩ : BufTy).Contents (Elt F))) (constant S_ .f32 0x3F800000#32 : (⟨S_, .f32⟩ : BufTy).Contents (Elt F)))))
theorem seg16_out_main_v72 (V : Valuation τ sig (Elt F)) :
    StableHlo.after seg16 V (Proc.devRef (τ := τ) .tc main_v72) = f16_v72 (V (Proc.devRef (τ := τ) .tc main_v5)) (V (Proc.devRef (τ := τ) .tc main_v11)) (V (Proc.devRef (τ := τ) .tc main_v18)) (V (Proc.devRef (τ := τ) .tc main_v50)) (V (Proc.devRef (τ := τ) .tc main_arg2)) (V (Proc.devRef (τ := τ) .tc main_arg4)) := by
  after_results_simp <;> rfl

end Generic

/-! ## What each live buffer holds after segments 0 … K, at the ideal floats -/
theorem st0_main_v0 (V : Valuation τ sig (Elt Ideal)) :
    (StableHlo.after seg0 V) (Proc.devRef (τ := τ) .tc main_v0) = (f0_v0 (F := Ideal) (V (Proc.devRef (τ := τ) .tc main_arg0))) := by
  rw [seg0_out_main_v0] <;> rfl
theorem st0_main_arg1 (V : Valuation τ sig (Elt Ideal)) :
    (StableHlo.after seg0 V) (Proc.devRef (τ := τ) .tc main_arg1) = (V (Proc.devRef (τ := τ) .tc main_arg1)) :=
  seg0_arg1 (F := Ideal) V
theorem st0_main_arg2 (V : Valuation τ sig (Elt Ideal)) :
    (StableHlo.after seg0 V) (Proc.devRef (τ := τ) .tc main_arg2) = (V (Proc.devRef (τ := τ) .tc main_arg2)) :=
  seg0_arg2 (F := Ideal) V
theorem st0_main_arg3 (V : Valuation τ sig (Elt Ideal)) :
    (StableHlo.after seg0 V) (Proc.devRef (τ := τ) .tc main_arg3) = (V (Proc.devRef (τ := τ) .tc main_arg3)) :=
  seg0_arg3 (F := Ideal) V
theorem st0_main_arg4 (V : Valuation τ sig (Elt Ideal)) :
    (StableHlo.after seg0 V) (Proc.devRef (τ := τ) .tc main_arg4) = (V (Proc.devRef (τ := τ) .tc main_arg4)) :=
  seg0_arg4 (F := Ideal) V
theorem st1_main_v0 (V : Valuation τ sig (Elt Ideal)) :
    (StableHlo.after seg1 (StableHlo.after seg0 V)) (Proc.devRef (τ := τ) .tc main_v0) = (f0_v0 (F := Ideal) (V (Proc.devRef (τ := τ) .tc main_arg0))) :=
  (seg1_keep_main_v0 _).trans (st0_main_v0 V)
theorem st1_main_v1 (V : Valuation τ sig (Elt Ideal)) :
    (StableHlo.after seg1 (StableHlo.after seg0 V)) (Proc.devRef (τ := τ) .tc main_v1) = (f1_v1 (F := Ideal) (V (Proc.devRef (τ := τ) .tc main_arg1))) := by
  rw [seg1_out_main_v1, st0_main_arg1] <;> rfl
theorem st1_main_arg2 (V : Valuation τ sig (Elt Ideal)) :
    (StableHlo.after seg1 (StableHlo.after seg0 V)) (Proc.devRef (τ := τ) .tc main_arg2) = (V (Proc.devRef (τ := τ) .tc main_arg2)) :=
  (seg1_arg2 (F := Ideal) _).trans (st0_main_arg2 V)
theorem st1_main_arg3 (V : Valuation τ sig (Elt Ideal)) :
    (StableHlo.after seg1 (StableHlo.after seg0 V)) (Proc.devRef (τ := τ) .tc main_arg3) = (V (Proc.devRef (τ := τ) .tc main_arg3)) :=
  (seg1_arg3 (F := Ideal) _).trans (st0_main_arg3 V)
theorem st1_main_arg4 (V : Valuation τ sig (Elt Ideal)) :
    (StableHlo.after seg1 (StableHlo.after seg0 V)) (Proc.devRef (τ := τ) .tc main_arg4) = (V (Proc.devRef (τ := τ) .tc main_arg4)) :=
  (seg1_arg4 (F := Ideal) _).trans (st0_main_arg4 V)
theorem st2_main_v2 (V : Valuation τ sig (Elt Ideal)) :
    (StableHlo.after seg2 (StableHlo.after seg1 (StableHlo.after seg0 V))) (Proc.devRef (τ := τ) .tc main_v2) = (f2_v2 (F := Ideal) (f1_v1 (F := Ideal) (V (Proc.devRef (τ := τ) .tc main_arg1))) (f0_v0 (F := Ideal) (V (Proc.devRef (τ := τ) .tc main_arg0)))) := by
  rw [seg2_out_main_v2, st1_main_v1, st1_main_v0] <;> rfl
theorem st2_main_arg2 (V : Valuation τ sig (Elt Ideal)) :
    (StableHlo.after seg2 (StableHlo.after seg1 (StableHlo.after seg0 V))) (Proc.devRef (τ := τ) .tc main_arg2) = (V (Proc.devRef (τ := τ) .tc main_arg2)) :=
  (seg2_arg2 (F := Ideal) _).trans (st1_main_arg2 V)
theorem st2_main_arg3 (V : Valuation τ sig (Elt Ideal)) :
    (StableHlo.after seg2 (StableHlo.after seg1 (StableHlo.after seg0 V))) (Proc.devRef (τ := τ) .tc main_arg3) = (V (Proc.devRef (τ := τ) .tc main_arg3)) :=
  (seg2_arg3 (F := Ideal) _).trans (st1_main_arg3 V)
theorem st2_main_arg4 (V : Valuation τ sig (Elt Ideal)) :
    (StableHlo.after seg2 (StableHlo.after seg1 (StableHlo.after seg0 V))) (Proc.devRef (τ := τ) .tc main_arg4) = (V (Proc.devRef (τ := τ) .tc main_arg4)) :=
  (seg2_arg4 (F := Ideal) _).trans (st1_main_arg4 V)
theorem st3_main_v5 (V : Valuation τ sig (Elt Ideal)) :
    (StableHlo.after seg3 (StableHlo.after seg2 (StableHlo.after seg1 (StableHlo.after seg0 V)))) (Proc.devRef (τ := τ) .tc main_v5) = (taskT (V (Proc.devRef (τ := τ) .tc main_arg0)) (V (Proc.devRef (τ := τ) .tc main_arg1))) := by
  rw [seg3_out_main_v5, st2_main_v2] <;> rfl
theorem st3_main_arg2 (V : Valuation τ sig (Elt Ideal)) :
    (StableHlo.after seg3 (StableHlo.after seg2 (StableHlo.after seg1 (StableHlo.after seg0 V)))) (Proc.devRef (τ := τ) .tc main_arg2) = (V (Proc.devRef (τ := τ) .tc main_arg2)) :=
  (seg3_arg2 (F := Ideal) _).trans (st2_main_arg2 V)
theorem st3_main_v8 (V : Valuation τ sig (Elt Ideal)) :
    (StableHlo.after seg3 (StableHlo.after seg2 (StableHlo.after seg1 (StableHlo.after seg0 V)))) (Proc.devRef (τ := τ) .tc main_v8) = (f3_v8 (F := Ideal) (V (Proc.devRef (τ := τ) .tc main_arg2))) := by
  rw [seg3_out_main_v8, st2_main_arg2] <;> rfl
theorem st3_main_c (V : Valuation τ sig (Elt Ideal)) :
    (StableHlo.after seg3 (StableHlo.after seg2 (StableHlo.after seg1 (StableHlo.after seg0 V)))) (Proc.devRef (τ := τ) .tc main_c) = (f3_c (F := Ideal)) := by
  rw [seg3_out_main_c] <;> rfl
theorem st3_main_arg3 (V : Valuation τ sig (Elt Ideal)) :
    (StableHlo.after seg3 (StableHlo.after seg2 (StableHlo.after seg1 (StableHlo.after seg0 V)))) (Proc.devRef (τ := τ) .tc main_arg3) = (V (Proc.devRef (τ := τ) .tc main_arg3)) :=
  (seg3_arg3 (F := Ideal) _).trans (st2_main_arg3 V)
theorem st3_main_arg4 (V : Valuation τ sig (Elt Ideal)) :
    (StableHlo.after seg3 (StableHlo.after seg2 (StableHlo.after seg1 (StableHlo.after seg0 V)))) (Proc.devRef (τ := τ) .tc main_arg4) = (V (Proc.devRef (τ := τ) .tc main_arg4)) :=
  (seg3_arg4 (F := Ideal) _).trans (st2_main_arg4 V)
theorem st4_main_v5 (V : Valuation τ sig (Elt Ideal)) :
    (StableHlo.after seg4 (StableHlo.after seg3 (StableHlo.after seg2 (StableHlo.after seg1 (StableHlo.after seg0 V))))) (Proc.devRef (τ := τ) .tc main_v5) = (taskT (V (Proc.devRef (τ := τ) .tc main_arg0)) (V (Proc.devRef (τ := τ) .tc main_arg1))) :=
  (seg4_keep_main_v5 _).trans (st3_main_v5 V)
theorem st4_main_arg2 (V : Valuation τ sig (Elt Ideal)) :
    (StableHlo.after seg4 (StableHlo.after seg3 (StableHlo.after seg2 (StableHlo.after seg1 (StableHlo.after seg0 V))))) (Proc.devRef (τ := τ) .tc main_arg2) = (V (Proc.devRef (τ := τ) .tc main_arg2)) :=
  (seg4_arg2 (F := Ideal) _).trans (st3_main_arg2 V)
theorem st4_main_v9 (V : Valuation τ sig (Elt Ideal)) :
    (StableHlo.after seg4 (StableHlo.after seg3 (StableHlo.after seg2 (StableHlo.after seg1 (StableHlo.after seg0 V))))) (Proc.devRef (τ := τ) .tc main_v9) = (f4_v9 (F := Ideal) (f3_c (F := Ideal)) (f3_v8 (F := Ideal) (V (Proc.devRef (τ := τ) .tc main_arg2)))) := by
  rw [seg4_out_main_v9, st3_main_c, st3_main_v8] <;> rfl
theorem st4_main_arg3 (V : Valuation τ sig (Elt Ideal)) :
    (StableHlo.after seg4 (StableHlo.after seg3 (StableHlo.after seg2 (StableHlo.after seg1 (StableHlo.after seg0 V))))) (Proc.devRef (τ := τ) .tc main_arg3) = (V (Proc.devRef (τ := τ) .tc main_arg3)) :=
  (seg4_arg3 (F := Ideal) _).trans (st3_main_arg3 V)
theorem st4_main_arg4 (V : Valuation τ sig (Elt Ideal)) :
    (StableHlo.after seg4 (StableHlo.after seg3 (StableHlo.after seg2 (StableHlo.after seg1 (StableHlo.after seg0 V))))) (Proc.devRef (τ := τ) .tc main_arg4) = (V (Proc.devRef (τ := τ) .tc main_arg4)) :=
  (seg4_arg4 (F := Ideal) _).trans (st3_main_arg4 V)
theorem st5_main_v5 (V : Valuation τ sig (Elt Ideal)) :
    (StableHlo.after seg5 (StableHlo.after seg4 (StableHlo.after seg3 (StableHlo.after seg2 (StableHlo.after seg1 (StableHlo.after seg0 V)))))) (Proc.devRef (τ := τ) .tc main_v5) = (taskT (V (Proc.devRef (τ := τ) .tc main_arg0)) (V (Proc.devRef (τ := τ) .tc main_arg1))) :=
  (seg5_keep_main_v5 _).trans (st4_main_v5 V)
theorem st5_main_arg2 (V : Valuation τ sig (Elt Ideal)) :
    (StableHlo.after seg5 (StableHlo.after seg4 (StableHlo.after seg3 (StableHlo.after seg2 (StableHlo.after seg1 (StableHlo.after seg0 V)))))) (Proc.devRef (τ := τ) .tc main_arg2) = (V (Proc.devRef (τ := τ) .tc main_arg2)) :=
  (seg5_arg2 (F := Ideal) _).trans (st4_main_arg2 V)
theorem st5_main_v11 (V : Valuation τ sig (Elt Ideal)) :
    (StableHlo.after seg5 (StableHlo.after seg4 (StableHlo.after seg3 (StableHlo.after seg2 (StableHlo.after seg1 (StableHlo.after seg0 V)))))) (Proc.devRef (τ := τ) .tc main_v11) = (lbT (V (Proc.devRef (τ := τ) .tc main_arg2))) := by
  rw [seg5_out_main_v11, st4_main_v9] <;> rfl
theorem st5_main_v13 (V : Valuation τ sig (Elt Ideal)) :
    (StableHlo.after seg5 (StableHlo.after seg4 (StableHlo.after seg3 (StableHlo.after seg2 (StableHlo.after seg1 (StableHlo.after seg0 V)))))) (Proc.devRef (τ := τ) .tc main_v13) = (f5_v13 (F := Ideal) (V (Proc.devRef (τ := τ) .tc main_arg2))) := by
  rw [seg5_out_main_v13, st4_main_arg2] <;> rfl
theorem st5_main_cst_6 (V : Valuation τ sig (Elt Ideal)) :
    (StableHlo.after seg5 (StableHlo.after seg4 (StableHlo.after seg3 (StableHlo.after seg2 (StableHlo.after seg1 (StableHlo.after seg0 V)))))) (Proc.devRef (τ := τ) .tc main_cst_6) = (f5_cst_6 (F := Ideal)) := by
  rw [seg5_out_main_cst_6] <;> rfl
theorem st5_main_arg3 (V : Valuation τ sig (Elt Ideal)) :
    (StableHlo.after seg5 (StableHlo.after seg4 (StableHlo.after seg3 (StableHlo.after seg2 (StableHlo.after seg1 (StableHlo.after seg0 V)))))) (Proc.devRef (τ := τ) .tc main_arg3) = (V (Proc.devRef (τ := τ) .tc main_arg3)) :=
  (seg5_arg3 (F := Ideal) _).trans (st4_main_arg3 V)
theorem st5_main_arg4 (V : Valuation τ sig (Elt Ideal)) :
    (StableHlo.after seg5 (StableHlo.after seg4 (StableHlo.after seg3 (StableHlo.after seg2 (StableHlo.after seg1 (StableHlo.after seg0 V)))))) (Proc.devRef (τ := τ) .tc main_arg4) = (V (Proc.devRef (τ := τ) .tc main_arg4)) :=
  (seg5_arg4 (F := Ideal) _).trans (st4_main_arg4 V)
theorem st6_main_v5 (V : Valuation τ sig (Elt Ideal)) :
    (StableHlo.after seg6 (StableHlo.after seg5 (StableHlo.after seg4 (StableHlo.after seg3 (StableHlo.after seg2 (StableHlo.after seg1 (StableHlo.after seg0 V))))))) (Proc.devRef (τ := τ) .tc main_v5) = (taskT (V (Proc.devRef (τ := τ) .tc main_arg0)) (V (Proc.devRef (τ := τ) .tc main_arg1))) :=
  (seg6_keep_main_v5 _).trans (st5_main_v5 V)
theorem st6_main_arg2 (V : Valuation τ sig (Elt Ideal)) :
    (StableHlo.after seg6 (StableHlo.after seg5 (StableHlo.after seg4 (StableHlo.after seg3 (StableHlo.after seg2 (StableHlo.after seg1 (StableHlo.after seg0 V))))))) (Proc.devRef (τ := τ) .tc main_arg2) = (V (Proc.devRef (τ := τ) .tc main_arg2)) :=
  (seg6_arg2 (F := Ideal) _).trans (st5_main_arg2 V)
theorem st6_main_v11 (V : Valuation τ sig (Elt Ideal)) :
    (StableHlo.after seg6 (StableHlo.after seg5 (StableHlo.after seg4 (StableHlo.after seg3 (StableHlo.after seg2 (StableHlo.after seg1 (StableHlo.after seg0 V))))))) (Proc.devRef (τ := τ) .tc main_v11) = (lbT (V (Proc.devRef (τ := τ) .tc main_arg2))) :=
  (seg6_keep_main_v11 _).trans (st5_main_v11 V)
theorem st6_main_v14 (V : Valuation τ sig (Elt Ideal)) :
    (StableHlo.after seg6 (StableHlo.after seg5 (StableHlo.after seg4 (StableHlo.after seg3 (StableHlo.after seg2 (StableHlo.after seg1 (StableHlo.after seg0 V))))))) (Proc.devRef (τ := τ) .tc main_v14) = (f6_v14 (F := Ideal) (f5_v13 (F := Ideal) (V (Proc.devRef (τ := τ) .tc main_arg2))) (V (Proc.devRef (τ := τ) .tc main_arg2)) (f5_cst_6 (F := Ideal))) := by
  rw [seg6_out_main_v14, st5_main_v13, st5_main_arg2, st5_main_cst_6] <;> rfl
theorem st6_main_arg3 (V : Valuation τ sig (Elt Ideal)) :
    (StableHlo.after seg6 (StableHlo.after seg5 (StableHlo.after seg4 (StableHlo.after seg3 (StableHlo.after seg2 (StableHlo.after seg1 (StableHlo.after seg0 V))))))) (Proc.devRef (τ := τ) .tc main_arg3) = (V (Proc.devRef (τ := τ) .tc main_arg3)) :=
  (seg6_arg3 (F := Ideal) _).trans (st5_main_arg3 V)
theorem st6_main_arg4 (V : Valuation τ sig (Elt Ideal)) :
    (StableHlo.after seg6 (StableHlo.after seg5 (StableHlo.after seg4 (StableHlo.after seg3 (StableHlo.after seg2 (StableHlo.after seg1 (StableHlo.after seg0 V))))))) (Proc.devRef (τ := τ) .tc main_arg4) = (V (Proc.devRef (τ := τ) .tc main_arg4)) :=
  (seg6_arg4 (F := Ideal) _).trans (st5_main_arg4 V)
theorem st7_main_v5 (V : Valuation τ sig (Elt Ideal)) :
    (StableHlo.after seg7 (StableHlo.after seg6 (StableHlo.after seg5 (StableHlo.after seg4 (StableHlo.after seg3 (StableHlo.after seg2 (StableHlo.after seg1 (StableHlo.after seg0 V)))))))) (Proc.devRef (τ := τ) .tc main_v5) = (taskT (V (Proc.devRef (τ := τ) .tc main_arg0)) (V (Proc.devRef (τ := τ) .tc main_arg1))) :=
  (seg7_keep_main_v5 _).trans (st6_main_v5 V)
theorem st7_main_arg2 (V : Valuation τ sig (Elt Ideal)) :
    (StableHlo.after seg7 (StableHlo.after seg6 (StableHlo.after seg5 (StableHlo.after seg4 (StableHlo.after seg3 (StableHlo.after seg2 (StableHlo.after seg1 (StableHlo.after seg0 V)))))))) (Proc.devRef (τ := τ) .tc main_arg2) = (V (Proc.devRef (τ := τ) .tc main_arg2)) :=
  (seg7_arg2 (F := Ideal) _).trans (st6_main_arg2 V)
theorem st7_main_v11 (V : Valuation τ sig (Elt Ideal)) :
    (StableHlo.after seg7 (StableHlo.after seg6 (StableHlo.after seg5 (StableHlo.after seg4 (StableHlo.after seg3 (StableHlo.after seg2 (StableHlo.after seg1 (StableHlo.after seg0 V)))))))) (Proc.devRef (τ := τ) .tc main_v11) = (lbT (V (Proc.devRef (τ := τ) .tc main_arg2))) :=
  (seg7_keep_main_v11 _).trans (st6_main_v11 V)
theorem st7_main_v18 (V : Valuation τ sig (Elt Ideal)) :
    (StableHlo.after seg7 (StableHlo.after seg6 (StableHlo.after seg5 (StableHlo.after seg4 (StableHlo.after seg3 (StableHlo.after seg2 (StableHlo.after seg1 (StableHlo.after seg0 V)))))))) (Proc.devRef (τ := τ) .tc main_v18) = (effT (V (Proc.devRef (τ := τ) .tc main_arg2))) := by
  rw [seg7_out_main_v18, st6_main_v14] <;> rfl
theorem st7_main_arg3 (V : Valuation τ sig (Elt Ideal)) :
    (StableHlo.after seg7 (StableHlo.after seg6 (StableHlo.after seg5 (StableHlo.after seg4 (StableHlo.after seg3 (StableHlo.after seg2 (StableHlo.after seg1 (StableHlo.after seg0 V)))))))) (Proc.devRef (τ := τ) .tc main_arg3) = (V (Proc.devRef (τ := τ) .tc main_arg3)) :=
  (seg7_arg3 (F := Ideal) _).trans (st6_main_arg3 V)
theorem st7_main_arg4 (V : Valuation τ sig (Elt Ideal)) :
    (StableHlo.after seg7 (StableHlo.after seg6 (StableHlo.after seg5 (StableHlo.after seg4 (StableHlo.after seg3 (StableHlo.after seg2 (StableHlo.after seg1 (StableHlo.after seg0 V)))))))) (Proc.devRef (τ := τ) .tc main_arg4) = (V (Proc.devRef (τ := τ) .tc main_arg4)) :=
  (seg7_arg4 (F := Ideal) _).trans (st6_main_arg4 V)
theorem st8_main_v5 (V : Valuation τ sig (Elt Ideal)) :
    (StableHlo.after seg8 (StableHlo.after seg7 (StableHlo.after seg6 (StableHlo.after seg5 (StableHlo.after seg4 (StableHlo.after seg3 (StableHlo.after seg2 (StableHlo.after seg1 (StableHlo.after seg0 V))))))))) (Proc.devRef (τ := τ) .tc main_v5) = (taskT (V (Proc.devRef (τ := τ) .tc main_arg0)) (V (Proc.devRef (τ := τ) .tc main_arg1))) :=
  (seg8_keep_main_v5 _).trans (st7_main_v5 V)
theorem st8_main_arg2 (V : Valuation τ sig (Elt Ideal)) :
    (StableHlo.after seg8 (StableHlo.after seg7 (StableHlo.after seg6 (StableHlo.after seg5 (StableHlo.after seg4 (StableHlo.after seg3 (StableHlo.after seg2 (StableHlo.after seg1 (StableHlo.after seg0 V))))))))) (Proc.devRef (τ := τ) .tc main_arg2) = (V (Proc.devRef (τ := τ) .tc main_arg2)) :=
  (seg8_arg2 (F := Ideal) _).trans (st7_main_arg2 V)
theorem st8_main_v11 (V : Valuation τ sig (Elt Ideal)) :
    (StableHlo.after seg8 (StableHlo.after seg7 (StableHlo.after seg6 (StableHlo.after seg5 (StableHlo.after seg4 (StableHlo.after seg3 (StableHlo.after seg2 (StableHlo.after seg1 (StableHlo.after seg0 V))))))))) (Proc.devRef (τ := τ) .tc main_v11) = (lbT (V (Proc.devRef (τ := τ) .tc main_arg2))) :=
  (seg8_keep_main_v11 _).trans (st7_main_v11 V)
theorem st8_main_v18 (V : Valuation τ sig (Elt Ideal)) :
    (StableHlo.after seg8 (StableHlo.after seg7 (StableHlo.after seg6 (StableHlo.after seg5 (StableHlo.after seg4 (StableHlo.after seg3 (StableHlo.after seg2 (StableHlo.after seg1 (StableHlo.after seg0 V))))))))) (Proc.devRef (τ := τ) .tc main_v18) = (effT (V (Proc.devRef (τ := τ) .tc main_arg2))) :=
  (seg8_keep_main_v18 _).trans (st7_main_v18 V)
theorem st8_main_arg3 (V : Valuation τ sig (Elt Ideal)) :
    (StableHlo.after seg8 (StableHlo.after seg7 (StableHlo.after seg6 (StableHlo.after seg5 (StableHlo.after seg4 (StableHlo.after seg3 (StableHlo.after seg2 (StableHlo.after seg1 (StableHlo.after seg0 V))))))))) (Proc.devRef (τ := τ) .tc main_arg3) = (V (Proc.devRef (τ := τ) .tc main_arg3)) :=
  (seg8_arg3 (F := Ideal) _).trans (st7_main_arg3 V)
theorem st8_main_v19 (V : Valuation τ sig (Elt Ideal)) :
    (StableHlo.after seg8 (StableHlo.after seg7 (StableHlo.after seg6 (StableHlo.after seg5 (StableHlo.after seg4 (StableHlo.after seg3 (StableHlo.after seg2 (StableHlo.after seg1 (StableHlo.after seg0 V))))))))) (Proc.devRef (τ := τ) .tc main_v19) = (f8_v19 (F := Ideal) (V (Proc.devRef (τ := τ) .tc main_arg3))) := by
  rw [seg8_out_main_v19, st7_main_arg3] <;> rfl
theorem st8_main_arg4 (V : Valuation τ sig (Elt Ideal)) :
    (StableHlo.after seg8 (StableHlo.after seg7 (StableHlo.after seg6 (StableHlo.after seg5 (StableHlo.after seg4 (StableHlo.after seg3 (StableHlo.after seg2 (StableHlo.after seg1 (StableHlo.after seg0 V))))))))) (Proc.devRef (τ := τ) .tc main_arg4) = (V (Proc.devRef (τ := τ) .tc main_arg4)) :=
  (seg8_arg4 (F := Ideal) _).trans (st7_main_arg4 V)
theorem st9_main_v5 (V : Valuation τ sig (Elt Ideal)) :
    (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))) (Proc.devRef (τ := τ) .tc main_v5) = (taskT (V (Proc.devRef (τ := τ) .tc main_arg0)) (V (Proc.devRef (τ := τ) .tc main_arg1))) :=
  (seg9_keep_main_v5 _).trans (st8_main_v5 V)
theorem st9_main_arg2 (V : Valuation τ sig (Elt Ideal)) :
    (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))) (Proc.devRef (τ := τ) .tc main_arg2) = (V (Proc.devRef (τ := τ) .tc main_arg2)) :=
  (seg9_arg2 (F := Ideal) _).trans (st8_main_arg2 V)
theorem st9_main_v11 (V : Valuation τ sig (Elt Ideal)) :
    (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))) (Proc.devRef (τ := τ) .tc main_v11) = (lbT (V (Proc.devRef (τ := τ) .tc main_arg2))) :=
  (seg9_keep_main_v11 _).trans (st8_main_v11 V)
theorem st9_main_v18 (V : Valuation τ sig (Elt Ideal)) :
    (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))) (Proc.devRef (τ := τ) .tc main_v18) = (effT (V (Proc.devRef (τ := τ) .tc main_arg2))) :=
  (seg9_keep_main_v18 _).trans (st8_main_v18 V)
theorem st9_main_v32 (V : Valuation τ sig (Elt Ideal)) :
    (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))) (Proc.devRef (τ := τ) .tc main_v32) = (Cert.Bridge.refMask (nrmT (V (Proc.devRef (τ := τ) .tc main_arg3)))) := by
  rw [seg9_out_main_v32, st8_main_arg3, st8_main_v19] <;> rfl
theorem st9_main_arg4 (V : Valuation τ sig (Elt Ideal)) :
    (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))) (Proc.devRef (τ := τ) .tc main_arg4) = (V (Proc.devRef (τ := τ) .tc main_arg4)) :=
  (seg9_arg4 (F := Ideal) _).trans (st8_main_arg4 V)
theorem st10_main_v5 (V : Valuation τ sig (Elt Ideal)) :
    (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))) (Proc.devRef (τ := τ) .tc main_v5) = (taskT (V (Proc.devRef (τ := τ) .tc main_arg0)) (V (Proc.devRef (τ := τ) .tc main_arg1))) :=
  (seg10_keep_main_v5 _).trans (st9_main_v5 V)
theorem st10_main_arg2 (V : Valuation τ sig (Elt Ideal)) :
    (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))) (Proc.devRef (τ := τ) .tc main_arg2) = (V (Proc.devRef (τ := τ) .tc main_arg2)) :=
  (seg10_arg2 (F := Ideal) _).trans (st9_main_arg2 V)
theorem st10_main_v11 (V : Valuation τ sig (Elt Ideal)) :
    (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))) (Proc.devRef (τ := τ) .tc main_v11) = (lbT (V (Proc.devRef (τ := τ) .tc main_arg2))) :=
  (seg10_keep_main_v11 _).trans (st9_main_v11 V)
theorem st10_main_v18 (V : Valuation τ sig (Elt Ideal)) :
    (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))) (Proc.devRef (τ := τ) .tc main_v18) = (effT (V (Proc.devRef (τ := τ) .tc main_arg2))) :=
  (seg10_keep_main_v18 _).trans (st9_main_v18 V)
theorem st10_main_v32 (V : Valuation τ sig (Elt Ideal)) :
    (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))) (Proc.devRef (τ := τ) .tc main_v32) = (Cert.Bridge.refMask (nrmT (V (Proc.devRef (τ := τ) .tc main_arg3)))) :=
  (seg10_keep_main_v32 _).trans (st9_main_v32 V)
theorem st10_main_v33 (V : Valuation τ sig (Elt Ideal)) :
    (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))) (Proc.devRef (τ := τ) .tc main_v33) = (logpT (V (Proc.devRef (τ := τ) .tc main_arg2))) := by
  rw [seg10_out_main_v33, st9_main_arg2] <;> rfl
theorem st10_main_arg4 (V : Valuation τ sig (Elt Ideal)) :
    (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))) (Proc.devRef (τ := τ) .tc main_arg4) = (V (Proc.devRef (τ := τ) .tc main_arg4)) :=
  (seg10_arg4 (F := Ideal) _).trans (st9_main_arg4 V)
theorem st11_main_v5 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_v5) = (taskT (V (Proc.devRef (τ := τ) .tc main_arg0)) (V (Proc.devRef (τ := τ) .tc main_arg1))) :=
  (seg11_keep_main_v5 _).trans (st10_main_v5 V)
theorem st11_main_arg2 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_arg2) = (V (Proc.devRef (τ := τ) .tc main_arg2)) :=
  (seg11_arg2 (F := Ideal) _).trans (st10_main_arg2 V)
theorem st11_main_v11 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_v11) = (lbT (V (Proc.devRef (τ := τ) .tc main_arg2))) :=
  (seg11_keep_main_v11 _).trans (st10_main_v11 V)
theorem st11_main_v18 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_v18) = (effT (V (Proc.devRef (τ := τ) .tc main_arg2))) :=
  (seg11_keep_main_v18 _).trans (st10_main_v18 V)
theorem st11_main_v32 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_v32) = (Cert.Bridge.refMask (nrmT (V (Proc.devRef (τ := τ) .tc main_arg3)))) :=
  (seg11_keep_main_v32 _).trans (st10_main_v32 V)
theorem st11_main_v41 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_v41) = (Cert.Bridge.refKLmat (logpT (V (Proc.devRef (τ := τ) .tc main_arg2))) (pT (V (Proc.devRef (τ := τ) .tc main_arg2))) (aT (V (Proc.devRef (τ := τ) .tc main_arg2)))) := by
  rw [seg11_out_main_v41, st10_main_v33] <;> rfl
theorem st11_main_v42 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_v42) = (f11_v42 (F := Ideal) (Cert.Bridge.refMask (nrmT (V (Proc.devRef (τ := τ) .tc main_arg3))))) := by
  rw [seg11_out_main_v42, st10_main_v32] <;> rfl
theorem st11_main_c_14 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_c_14) = (f11_c_14 (F := Ideal)) := by
  rw [seg11_out_main_c_14] <;> rfl
theorem st11_main_arg4 (V : Valuation τ sig (Elt Ideal)) :
    (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))) (Proc.devRef (τ := τ) .tc main_arg4) = (V (Proc.devRef (τ := τ) .tc main_arg4)) :=
  (seg11_arg4 (F := Ideal) _).trans (st10_main_arg4 V)
theorem st12_main_v5 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_v5) = (taskT (V (Proc.devRef (τ := τ) .tc main_arg0)) (V (Proc.devRef (τ := τ) .tc main_arg1))) :=
  (seg12_keep_main_v5 _).trans (st11_main_v5 V)
theorem st12_main_arg2 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_arg2) = (V (Proc.devRef (τ := τ) .tc main_arg2)) :=
  (seg12_arg2 (F := Ideal) _).trans (st11_main_arg2 V)
theorem st12_main_v11 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_v11) = (lbT (V (Proc.devRef (τ := τ) .tc main_arg2))) :=
  (seg12_keep_main_v11 _).trans (st11_main_v11 V)
theorem st12_main_v18 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_v18) = (effT (V (Proc.devRef (τ := τ) .tc main_arg2))) :=
  (seg12_keep_main_v18 _).trans (st11_main_v18 V)
theorem st12_main_v32 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_v32) = (Cert.Bridge.refMask (nrmT (V (Proc.devRef (τ := τ) .tc main_arg3)))) :=
  (seg12_keep_main_v32 _).trans (st11_main_v32 V)
theorem st12_main_v41 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_v41) = (Cert.Bridge.refKLmat (logpT (V (Proc.devRef (τ := τ) .tc main_arg2))) (pT (V (Proc.devRef (τ := τ) .tc main_arg2))) (aT (V (Proc.devRef (τ := τ) .tc main_arg2)))) :=
  (seg12_keep_main_v41 _).trans (st11_main_v41 V)
theorem st12_main_v43 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_v43) = (Cert.Bridge.refNP (nrmT (V (Proc.devRef (τ := τ) .tc main_arg3)))) := by
  rw [seg12_out_main_v43, st11_main_v42, st11_main_c_14] <;> rfl
theorem st12_main_cst_15 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_cst_15) = (f12_cst_15 (F := Ideal)) := by
  rw [seg12_out_main_cst_15] <;> rfl
theorem st12_main_arg4 (V : Valuation τ sig (Elt Ideal)) :
    (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))) (Proc.devRef (τ := τ) .tc main_arg4) = (V (Proc.devRef (τ := τ) .tc main_arg4)) :=
  (seg12_arg4 (F := Ideal) _).trans (st11_main_arg4 V)
theorem st13_main_v5 (V : Valuation τ sig (Elt Ideal)) :
    (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))) (Proc.devRef (τ := τ) .tc main_v5) = (taskT (V (Proc.devRef (τ := τ) .tc main_arg0)) (V (Proc.devRef (τ := τ) .tc main_arg1))) :=
  (seg13_keep_main_v5 _).trans (st12_main_v5 V)
theorem st13_main_arg2 (V : Valuation τ sig (Elt Ideal)) :
    (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))) (Proc.devRef (τ := τ) .tc main_arg2) = (V (Proc.devRef (τ := τ) .tc main_arg2)) :=
  (seg13_arg2 (F := Ideal) _).trans (st12_main_arg2 V)
theorem st13_main_v11 (V : Valuation τ sig (Elt Ideal)) :
    (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))) (Proc.devRef (τ := τ) .tc main_v11) = (lbT (V (Proc.devRef (τ := τ) .tc main_arg2))) :=
  (seg13_keep_main_v11 _).trans (st12_main_v11 V)
theorem st13_main_v18 (V : Valuation τ sig (Elt Ideal)) :
    (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))) (Proc.devRef (τ := τ) .tc main_v18) = (effT (V (Proc.devRef (τ := τ) .tc main_arg2))) :=
  (seg13_keep_main_v18 _).trans (st12_main_v18 V)
theorem st13_main_v43 (V : Valuation τ sig (Elt Ideal)) :
    (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))) (Proc.devRef (τ := τ) .tc main_v43) = (Cert.Bridge.refNP (nrmT (V (Proc.devRef (τ := τ) .tc main_arg3)))) :=
  (seg13_keep_main_v43 _).trans (st12_main_v43 V)
theorem st13_main_v44 (V : Valuation τ sig (Elt Ideal)) :
    (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))) (Proc.devRef (τ := τ) .tc main_v44) = (Cert.Bridge.refSel (nrmT (V (Proc.devRef (τ := τ) .tc main_arg3))) (logpT (V (Proc.devRef (τ := τ) .tc main_arg2))) (pT (V (Proc.devRef (τ := τ) .tc main_arg2))) (aT (V (Proc.devRef (τ := τ) .tc main_arg2)))) := by
  rw [seg13_out_main_v44, st12_main_v32, st12_main_v41, st12_main_cst_15] <;> rfl
theorem st13_main_arg4 (V : Valuation τ sig (Elt Ideal)) :
    (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))) (Proc.devRef (τ := τ) .tc main_arg4) = (V (Proc.devRef (τ := τ) .tc main_arg4)) :=
  (seg13_arg4 (F := Ideal) _).trans (st12_main_arg4 V)
theorem st14_main_v5 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_v5) = (taskT (V (Proc.devRef (τ := τ) .tc main_arg0)) (V (Proc.devRef (τ := τ) .tc main_arg1))) :=
  (seg14_keep_main_v5 _).trans (st13_main_v5 V)
theorem st14_main_arg2 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_arg2) = (V (Proc.devRef (τ := τ) .tc main_arg2)) :=
  (seg14_arg2 (F := Ideal) _).trans (st13_main_arg2 V)
theorem st14_main_v11 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_v11) = (lbT (V (Proc.devRef (τ := τ) .tc main_arg2))) :=
  (seg14_keep_main_v11 _).trans (st13_main_v11 V)
theorem st14_main_v18 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_v18) = (effT (V (Proc.devRef (τ := τ) .tc main_arg2))) :=
  (seg14_keep_main_v18 _).trans (st13_main_v18 V)
theorem st14_main_v46 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_v46) = (f14_v46 (F := Ideal) (Cert.Bridge.refNP (nrmT (V (Proc.devRef (τ := τ) .tc main_arg3))))) := by
  rw [seg14_out_main_v46, st13_main_v43] <;> rfl
theorem st14_main_v49 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_v49) = (f14_v49 (F := Ideal) (Cert.Bridge.refSel (nrmT (V (Proc.devRef (τ := τ) .tc main_arg3))) (logpT (V (Proc.devRef (τ := τ) .tc main_arg2))) (pT (V (Proc.devRef (τ := τ) .tc main_arg2))) (aT (V (Proc.devRef (τ := τ) .tc main_arg2)))) (Cert.Bridge.refNP (nrmT (V (Proc.devRef (τ := τ) .tc main_arg3))))) := by
  rw [seg14_out_main_v49, st13_main_v44, st13_main_v43] <;> rfl
theorem st14_main_cst_19 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_cst_19) = (f14_cst_19 (F := Ideal)) := by
  rw [seg14_out_main_cst_19] <;> rfl
theorem st14_main_arg4 (V : Valuation τ sig (Elt Ideal)) :
    (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))) (Proc.devRef (τ := τ) .tc main_arg4) = (V (Proc.devRef (τ := τ) .tc main_arg4)) :=
  (seg14_arg4 (F := Ideal) _).trans (st13_main_arg4 V)
theorem st15_main_v5 (V : Valuation τ sig (Elt Ideal)) :
    (StableHlo.after seg15 (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))))) (Proc.devRef (τ := τ) .tc main_v5) = (taskT (V (Proc.devRef (τ := τ) .tc main_arg0)) (V (Proc.devRef (τ := τ) .tc main_arg1))) :=
  (seg15_keep_main_v5 _).trans (st14_main_v5 V)
theorem st15_main_arg2 (V : Valuation τ sig (Elt Ideal)) :
    (StableHlo.after seg15 (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))))) (Proc.devRef (τ := τ) .tc main_arg2) = (V (Proc.devRef (τ := τ) .tc main_arg2)) :=
  (seg15_arg2 (F := Ideal) _).trans (st14_main_arg2 V)
theorem st15_main_v11 (V : Valuation τ sig (Elt Ideal)) :
    (StableHlo.after seg15 (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))))) (Proc.devRef (τ := τ) .tc main_v11) = (lbT (V (Proc.devRef (τ := τ) .tc main_arg2))) :=
  (seg15_keep_main_v11 _).trans (st14_main_v11 V)
theorem st15_main_v18 (V : Valuation τ sig (Elt Ideal)) :
    (StableHlo.after seg15 (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))))) (Proc.devRef (τ := τ) .tc main_v18) = (effT (V (Proc.devRef (τ := τ) .tc main_arg2))) :=
  (seg15_keep_main_v18 _).trans (st14_main_v18 V)
theorem st15_main_v50 (V : Valuation τ sig (Elt Ideal)) :
    (StableHlo.after seg15 (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))))) (Proc.devRef (τ := τ) .tc main_v50) = (f15_v50 (F := Ideal) (f14_v46 (F := Ideal) (Cert.Bridge.refNP (nrmT (V (Proc.devRef (τ := τ) .tc main_arg3))))) (f14_v49 (F := Ideal) (Cert.Bridge.refSel (nrmT (V (Proc.devRef (τ := τ) .tc main_arg3))) (logpT (V (Proc.devRef (τ := τ) .tc main_arg2))) (pT (V (Proc.devRef (τ := τ) .tc main_arg2))) (aT (V (Proc.devRef (τ := τ) .tc main_arg2)))) (Cert.Bridge.refNP (nrmT (V (Proc.devRef (τ := τ) .tc main_arg3))))) (f14_cst_19 (F := Ideal))) := by
  rw [seg15_out_main_v50, st14_main_v46, st14_main_v49, st14_main_cst_19] <;> rfl
theorem st15_main_arg4 (V : Valuation τ sig (Elt Ideal)) :
    (StableHlo.after seg15 (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V)))))))))))))))) (Proc.devRef (τ := τ) .tc main_arg4) = (V (Proc.devRef (τ := τ) .tc main_arg4)) :=
  (seg15_arg4 (F := Ideal) _).trans (st14_main_arg4 V)
theorem st16_main_v72 (V : Valuation τ sig (Elt Ideal)) :
    (StableHlo.after seg16 (StableHlo.after seg15 (StableHlo.after seg14 (StableHlo.after seg13 (StableHlo.after seg12 (StableHlo.after seg11 (StableHlo.after seg10 (StableHlo.after seg9 (StableHlo.after seg8 (StableHlo.after seg7 (StableHlo.after seg6 (StableHlo.after seg5 (StableHlo.after seg4 (StableHlo.after seg3 (StableHlo.after seg2 (StableHlo.after seg1 (StableHlo.after seg0 V))))))))))))))))) (Proc.devRef (τ := τ) .tc main_v72) = (total (V (Proc.devRef (τ := τ) .tc main_arg0)) (V (Proc.devRef (τ := τ) .tc main_arg1)) (V (Proc.devRef (τ := τ) .tc main_arg2)) (V (Proc.devRef (τ := τ) .tc main_arg4)) (consR (Cert.Bridge.refKL (nrmT (V (Proc.devRef (τ := τ) .tc main_arg3))) (logpT (V (Proc.devRef (τ := τ) .tc main_arg2))) (pT (V (Proc.devRef (τ := τ) .tc main_arg2))) (aT (V (Proc.devRef (τ := τ) .tc main_arg2)))) (Cert.Bridge.refNP (nrmT (V (Proc.devRef (τ := τ) .tc main_arg3)))))) := by
  rw [seg16_out_main_v72, st15_main_v5, st15_main_v11, st15_main_v18, st15_main_v50, st15_main_arg2, st15_main_arg4] <;> rfl

/-- The result buffer after the whole list: `total` of the arguments, its fourth term `consR` of the bridge's sum of
    masked pair terms and integer count of pairs, both at `nrmT` of %arg3 and `logpT`, `pT`, `aT` of %arg2. -/
theorem result_eq (V : Valuation τ sig (Elt Ideal)) :
    StableHlo.after ops V (Proc.devRef (τ := τ) .tc main_v72)
      = total (V (Proc.devRef (τ := τ) .tc main_arg0)) (V (Proc.devRef (τ := τ) .tc main_arg1)) (V (Proc.devRef (τ := τ) .tc main_arg2)) (V (Proc.devRef (τ := τ) .tc main_arg4))
          (consR (Cert.Bridge.refKL (nrmT (V (Proc.devRef (τ := τ) .tc main_arg3))) (logpT (V (Proc.devRef (τ := τ) .tc main_arg2))) (pT (V (Proc.devRef (τ := τ) .tc main_arg2))) (aT (V (Proc.devRef (τ := τ) .tc main_arg2))))
            (Cert.Bridge.refNP (nrmT (V (Proc.devRef (τ := τ) .tc main_arg3))))) := by
  simp only [ops, ops0, ops1, after_append]
  exact st16_main_v72 V

end Cert.ReferenceIdeal.RefVal

end
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.Val.Spec.lean ====
/-
  The pair matrix, entry by entry.

  For rows `x` and `y` of the 8192 samples: the similarity is the inner product of the two normalised embeddings, the
  pair counts when the similarity exceeds the threshold and `x ≠ y`, and a counted pair contributes the self term of
  `y` minus the inner product of the log probabilities of `x` with the probabilities of `y`. Both programs compute
  exactly these entries; they differ only in how they walk over them. Also here: two numbers below 2^13 are different
  exactly when their 32-bit words are, whichever way the words were formed.
-/
import Idealize.ShloMosaic.PureOps.Ideal.Laws
import Idealize.ShloMosaic.Lib.ValueIdx
import proofs.«137117_j83648783057448_1_alg».proof.Proof.LibTileSum

noncomputable section

namespace Cert.Bridge

open Idealize.ShloMosaic Idealize.ShloMosaic.ValueIdx

/-- Row `r` of block `i` of the 8192 rows cut into 16 blocks of 512. -/
abbrev blk (i : Fin 16) (r : Fin 512) : Fin 8192 := Cert.LibTileSum.blk (A := 16) (B := 512) (N := 8192) rfl i r

theorem blk_val (i : Fin 16) (r : Fin 512) : (blk i r).val = 512 * i.val + r.val := rfl

/-- The similarity of samples `x` and `y`. -/
def simAt (nrm : (⟨2, ![8192, 128]⟩ : Shape).Idx → EReal) (x y : Fin 8192) : EReal :=
  ∑ k : Fin 128, nrm (ix2 x k) * nrm (ix2 y k)

/-- The cross term of samples `x` and `y`. -/
def crossAt (logp p : (⟨2, ![8192, 8]⟩ : Shape).Idx → EReal) (x y : Fin 8192) : EReal :=
  ∑ e : Fin 8, logp (ix2 x e) * p (ix2 y e)

/-- The bit "x and y are different samples". -/
def neBit (x y : Fin 8192) : BitVec 1 := if x = y then 0#1 else 1#1

/-- The pair mask at `(x, y)`. -/
def maskAt (nrm : (⟨2, ![8192, 128]⟩ : Shape).Idx → EReal) (x y : Fin 8192) : BitVec 1 :=
  IntOp.andi (Ideal.cmp .ogt (simAt nrm x y) (Ideal.ofBits .f32 0x3F4CCCCD#32)) (neBit x y)

/-- The masked pair term at `(x, y)`. -/
def termAt (nrm : (⟨2, ![8192, 128]⟩ : Shape).Idx → EReal) (logp p : (⟨2, ![8192, 8]⟩ : Shape).Idx → EReal)
    (a : (⟨2, ![1, 8192]⟩ : Shape).Idx → EReal) (x y : Fin 8192) : EReal :=
  Scalar.select (maskAt nrm x y) (a (ix2 (0 : Fin 1) y) - crossAt logp p x y) (Ideal.ofBits .f32 0x00000000#32)

/-- The pair mask at `(x, y)` read as the number 0 or 1. -/
def bitAt (nrm : (⟨2, ![8192, 128]⟩ : Shape).Idx → EReal) (x y : Fin 8192) : EReal :=
  ((((maskAt nrm x y).setWidth 32).toInt : ℝ) : EReal)

/-! ## Words -/

/-- Below 2^32 two numbers have the same 32-bit word only if they are equal. -/
theorem ofNat_eq_iff {n m : ℕ} (hn : n < 2 ^ 32) (hm : m < 2 ^ 32) : BitVec.ofNat 32 n = BitVec.ofNat 32 m ↔ n = m := by
  constructor
  · intro h
    have h' := congrArg BitVec.toNat h
    rw [BitVec.toNat_ofNat, BitVec.toNat_ofNat, Nat.mod_eq_of_lt hn, Nat.mod_eq_of_lt hm] at h'
    exact h'
  · rintro rfl; rfl

/-- The kernel's test "global row ≠ global column", formed as `block · 512 + offset` in wrapping 32-bit arithmetic. -/
theorem ne_word (i j : Fin 16) (r c : Fin 512) :
    IntOp.cmpi .ne (IntOp.addi (IntOp.muli (BitVec.ofNat 32 i.val) 512#32) (BitVec.ofNat 32 r.val))
        (IntOp.addi (IntOp.muli (BitVec.ofNat 32 j.val) 512#32) (BitVec.ofNat 32 c.val))
      = neBit (blk i r) (blk j c) := by
  have e : ∀ (i : Fin 16) (r : Fin 512), IntOp.addi (IntOp.muli (BitVec.ofNat 32 i.val) 512#32) (BitVec.ofNat 32 r.val)
      = BitVec.ofNat 32 (blk i r).val := by
    intro i r
    show BitVec.ofNat 32 i.val * BitVec.ofNat 32 512 + BitVec.ofNat 32 r.val = BitVec.ofNat 32 (512 * i.val + r.val)
    rw [← BitVec.ofNat_mul, ← BitVec.ofNat_add, Nat.mul_comm]
  rw [e i r, e j c]
  unfold IntOp.cmpi neBit
  have hx := (blk i r).isLt
  have hy := (blk j c).isLt
  by_cases h : blk i r = blk j c
  · rw [h, if_pos rfl]; simp
  · rw [if_neg h]
    have hne : BitVec.ofNat 32 (blk i r).val ≠ BitVec.ofNat 32 (blk j c).val := fun hw =>
      h (Fin.ext ((ofNat_eq_iff (by omega) (by omega)).mp hw))
    have hb : (BitVec.ofNat 32 (blk i r).val != BitVec.ofNat 32 (blk j c).val) = true := bne_iff_ne.mpr hne
    show BitVec.ofBool (BitVec.ofNat 32 (blk i r).val != BitVec.ofNat 32 (blk j c).val) = 1#1
    rw [hb]; rfl

/-- The reference's test "not (row + 0 = column)" on the coordinates' 32-bit words. -/
theorem eq_word (x y : Fin 8192) :
    ~~~(IntOp.cmpi .eq (IntOp.addi (BitVec.ofNat 32 x.val) 0#32) (BitVec.ofNat 32 y.val)) = neBit x y := by
  have e : IntOp.addi (BitVec.ofNat 32 x.val) 0#32 = BitVec.ofNat 32 x.val := by
    show BitVec.ofNat 32 x.val + 0#32 = _
    rw [BitVec.add_zero]
  rw [e]
  unfold IntOp.cmpi neBit
  have hx := x.isLt
  have hy := y.isLt
  by_cases h : x = y
  · rw [h, if_pos rfl]; simp
  · rw [if_neg h]
    have hne : BitVec.ofNat 32 x.val ≠ BitVec.ofNat 32 y.val := fun hw =>
      h (Fin.ext ((ofNat_eq_iff (by omega) (by omega)).mp hw))
    have hb : (BitVec.ofNat 32 x.val == BitVec.ofNat 32 y.val) = false := beq_eq_false_iff_ne.mpr hne
    show ~~~(BitVec.ofBool (BitVec.ofNat 32 x.val == BitVec.ofNat 32 y.val)) = 1#1
    rw [hb]; rfl

end Cert.Bridge

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.LibIdxLayout.lean ====
/-
  Two small facts about arrays indexed by coordinates.

  A column `[a, 1]` broadcast along a new second axis to `[a, b]` reads, at `(p, c)`, the column at `p`. And a sum over
  the index set of a `[1, a, b]` array is the double sum over its last two coordinates, the first being always `0`.
-/
import Idealize.ShloMosaic.Lib.ValueIdx
import Idealize.ShloMosaic.Lib.Pipeline.Value

namespace Cert.LibIdxLayout

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index set of a `[1, a, b]` array is the product of its last two coordinate ranges … -/
def idxEquiv3_1 {a b : ℕ} : (⟨3, ![1, a, b]⟩ : Shape).Idx ≃ Fin a × Fin b where
  toFun i := (i 1, i 2)
  invFun p := ix3 (0 : Fin 1) p.1 p.2
  left_inv i := by
    have h0 : i 0 = (0 : Fin 1) := Fin.ext (Nat.lt_one_iff.mp (i 0).isLt)
    have := eq_ix3 i
    rw [h0] at this
    exact this.symm
  right_inv _ := rfl

/-- … so a sum over it is the double sum over those coordinates. -/
theorem sum_idx3_1 {M : Type*} [AddCommMonoid M] {a b : ℕ} (f : (⟨3, ![1, a, b]⟩ : Shape).Idx → M) :
    ∑ i, f i = ∑ r : Fin a, ∑ c : Fin b, f (ix3 (0 : Fin 1) r c) := by
  rw [← Equiv.sum_comp (idxEquiv3_1 (a := a) (b := b)).symm f, Fintype.sum_prod_type]
  rfl

end Cert.LibIdxLayout
-- ==== Proof.Val.KernelAt.lean ====
/-
  The kernel's tile payloads read at an entry.

  At a grid point with row block `i` and column block `j`, entry `(r, c)` of the tile mask is the pair mask at rows
  `512·i + r` and `512·j + c`, and entry `(r, c)` of the tile of masked terms is the masked pair term there: the tile's
  matrix products contract the same 128 (resp. 8) coordinates as the whole-array ones, the row and column numbers the
  kernel forms in 32-bit words are the global row and column, and the broadcast row of self terms is read at the column.
-/
import proofs.«137117_j83648783057448_1_alg».proof.Proof.Val.Defs
import proofs.«137117_j83648783057448_1_alg».proof.Proof.Val.Spec
import proofs.«137117_j83648783057448_1_alg».proof.Proof.LibPlainDot
import proofs.«137117_j83648783057448_1_alg».proof.Proof.LibIdxLayout
import Idealize.ShloMosaic.Lib.ValueLayout

noncomputable section

namespace Cert.Bridge

open Idealize.ShloMosaic Idealize.ShloMosaic.ValueIdx

/-! ## Pointwise integer operations at an index -/

theorem andi_apply {s : Shape} {w : ℕ} (a b : IVec s w) (i : s.Idx) : andi a b i = IntOp.andi (a i) (b i) := rfl
theorem cmpi_apply {s : Shape} {w : ℕ} (p : CmpIPredicate) (a b : IVec s w) (i : s.Idx) :
    cmpi p a b i = IntOp.cmpi p (a i) (b i) := rfl
theorem addi_apply {s : Shape} {w : ℕ} (a b : IVec s w) (i : s.Idx) : addi a b i = IntOp.addi (a i) (b i) := rfl
/-- A comparison against a broadcast constant, at an index. -/
theorem cmpf_bcast_apply {s : Shape} (p : CmpFPredicate) (M : FVec Ideal s .f32) (w : BitVec 32) (i : s.Idx) :
    cmpf p M (broadcast s (FloatOps.ofBits (F := Ideal) .f32 w)) i = Ideal.cmp p (M i) (Ideal.ofBits .f32 w) := rfl

/-! ## The stages of the mask -/

/-- The similarity tile at `(r, c)`: the inner product of row `r` of the first block with row `c` of the second. -/
theorem simTile_at (v5 v7 : FVec Ideal Cert.KernelIdeal.S512x128 .f32) (r cc : Fin 512) :
    matmul Cert.KernelIdeal.dot_S512x128_S128x512_S512x512_1_0_0_1_n_n none
        (shapeCast Cert.KernelIdeal.S512x128 v5 Cert.KernelIdeal.Gen.shapeCasts_S512x128_S512x128 : FVec Ideal Cert.KernelIdeal.S512x128 .f32)
        (transpose Cert.KernelIdeal.S128x512 [1, 0]
          (shapeCast Cert.KernelIdeal.S512x128 v7 Cert.KernelIdeal.Gen.shapeCasts_S512x128_S512x128 : FVec Ideal Cert.KernelIdeal.S512x128 .f32)
          Cert.KernelIdeal.Gen.transposes_S512x128_p1_0_S128x512 : FVec Ideal Cert.KernelIdeal.S128x512 .f32)
        (constant (F := Ideal) Cert.KernelIdeal.S512x512 .f32 0x00000000#32) (ix2 r cc)
      = ∑ k : Fin 128, v5 (ix2 r k) * v7 (ix2 cc k) := by
  rw [shapeCast_self, shapeCast_self]
  exact Cert.LibPlainDot.matmul_plain_transposed_apply none v5 v7 _ r cc

/-- The cross tile at `(r, c)`. -/
theorem crossTile_at (v25 v27 : FVec Ideal Cert.KernelIdeal.S512x8 .f32) (r cc : Fin 512) :
    matmul Cert.KernelIdeal.dot_S512x8_S8x512_S512x512_1_0_0_1_n_n none
        (shapeCast Cert.KernelIdeal.S512x8 v25 Cert.KernelIdeal.Gen.shapeCasts_S512x8_S512x8 : FVec Ideal Cert.KernelIdeal.S512x8 .f32)
        (transpose Cert.KernelIdeal.S8x512 [1, 0]
          (shapeCast Cert.KernelIdeal.S512x8 v27 Cert.KernelIdeal.Gen.shapeCasts_S512x8_S512x8 : FVec Ideal Cert.KernelIdeal.S512x8 .f32)
          Cert.KernelIdeal.Gen.transposes_S512x8_p1_0_S8x512 : FVec Ideal Cert.KernelIdeal.S8x512 .f32)
        (constant (F := Ideal) Cert.KernelIdeal.S512x512 .f32 0x00000000#32) (ix2 r cc)
      = ∑ e : Fin 8, v25 (ix2 r e) * v27 (ix2 cc e) := by
  rw [shapeCast_self, shapeCast_self]
  exact Cert.LibPlainDot.matmul_plain_transposed_apply none v25 v27 _ r cc

/-- The global row number the kernel forms, at `(r, c)`: the block's first row plus `r`, in 32-bit words. -/
theorem rowWord_at (a : BitVec 32) (r cc : Fin 512) :
    broadcastTo Cert.KernelIdeal.S512x512
        (addi (broadcast Cert.KernelIdeal.S512x1 a)
          (iota .tc Cert.KernelIdeal.S512x1 32 [0] Cert.KernelIdeal.Gen.iota_S512x1_d0_w32))
        Cert.KernelIdeal.Gen.broadcasts_S512x1_S512x512 (ix2 r cc)
      = IntOp.addi a (BitVec.ofNat 32 r.val) := by
  refine (Cert.LibIdxLayout.broadcastTo_a1_ab_apply _ _ r cc).trans ?_
  refine (addi_apply _ _ _).trans (congrArg (IntOp.addi a) ?_)
  exact iota_single_apply .tc Cert.KernelIdeal.S512x1 32 0 _ (ix2 r (0 : Fin 1))

/-- The global column number the kernel forms, at `(r, c)`. -/
theorem colWord_at (b : BitVec 32) (r cc : Fin 512) :
    broadcastTo Cert.KernelIdeal.S512x512
        (addi (broadcast Cert.KernelIdeal.S1x512 b)
          (iota .tc Cert.KernelIdeal.S1x512 32 [1] Cert.KernelIdeal.Gen.iota_S1x512_d1_w32))
        Cert.KernelIdeal.Gen.broadcasts_S1x512_S512x512 (ix2 r cc)
      = IntOp.addi b (BitVec.ofNat 32 cc.val) := by
  refine (broadcastTo_1b_ab_apply _ _ r cc).trans ?_
  refine (addi_apply _ _ _).trans (congrArg (IntOp.addi b) ?_)
  exact iota_single_apply .tc Cert.KernelIdeal.S1x512 32 1 _ (ix2 (0 : Fin 1) cc)

/-! ## The payloads at an entry -/

/-- The mask payload at `(r, c)`, over any two blocks and grid coordinates. -/
theorem pay5_at (c : Cert.KernelIdeal.grid0.Coords) (v5 v7 : Vec Ideal Cert.KernelIdeal.S512x128 .f32) (r cc : Fin 512) :
    Cert.KernelIdeal.Gen.k0_pay5 (F := Ideal) c v5 v7 (ix2 r cc)
      = IntOp.andi (Ideal.cmp .ogt (∑ k : Fin 128, v5 (ix2 r k) * v7 (ix2 cc k)) (Ideal.ofBits .f32 0x3F4CCCCD#32))
          (IntOp.cmpi .ne (IntOp.addi (Scalar.muli (BitVec.ofNat 32 (c 0).val) 512#32) (BitVec.ofNat 32 r.val))
            (IntOp.addi (Scalar.muli (BitVec.ofNat 32 (c 1).val) 512#32) (BitVec.ofNat 32 cc.val))) := by
  unfold Cert.KernelIdeal.Gen.k0_pay5
  refine (andi_apply _ _ _).trans (congrArg₂ IntOp.andi ?_ ?_)
  · exact (cmpf_bcast_apply _ _ _ _).trans
      (congrArg (fun z => Ideal.cmp .ogt z (Ideal.ofBits .f32 0x3F4CCCCD#32)) (simTile_at v5 v7 r cc))
  · exact (cmpi_apply _ _ _ _).trans (congrArg₂ (IntOp.cmpi .ne) (rowWord_at _ r cc) (colWord_at _ r cc))

/-- The masked-terms payload at `(0, r, c)`, over any blocks and grid coordinates. -/
theorem pay6_at (c : Cert.KernelIdeal.grid0.Coords) (v5 v7 : Vec Ideal Cert.KernelIdeal.S512x128 .f32)
    (v25 v27 : Vec Ideal Cert.KernelIdeal.S512x8 .f32) (v29 : Vec Ideal Cert.KernelIdeal.S1x512 .f32)
    (u : Fin 1) (r cc : Fin 512) :
    Cert.KernelIdeal.Gen.k0_pay6 (F := Ideal) c v5 v7 v25 v27 v29 (ix3 u r cc)
      = Scalar.select (Cert.KernelIdeal.Gen.k0_pay5 (F := Ideal) c v5 v7 (ix2 r cc))
          (v29 (ix2 (0 : Fin 1) cc) - ∑ e : Fin 8, v25 (ix2 r e) * v27 (ix2 cc e))
          (Ideal.ofBits .f32 0x00000000#32) := by
  unfold Cert.KernelIdeal.Gen.k0_pay6
  refine (shapeCast_ab_1ab_apply _ _ u r cc).trans ?_
  refine (select_apply _ _ _ _).trans ?_
  refine congrArg₂ (Scalar.select (Cert.KernelIdeal.Gen.k0_pay5 (F := Ideal) c v5 v7 (ix2 r cc))) ?_ rfl
  refine (subf_apply _ _ _).trans (congrArg₂ (· - ·) ?_ (crossTile_at v25 v27 r cc))
  rw [shapeCast_self]
  exact broadcastTo_1b_ab_apply v29 _ r cc

/-! ## At the blocks of the arrays -/

/-- Entry `(r, c)` of the tile mask at a grid point is the pair mask at the global rows. -/
theorem tileMask_at (nrm : FVec Ideal Cert.KernelIdeal.S8192x128 .f32) (t : Pt) (r cc : Fin 512) :
    tileMask nrm t (ix2 r cc) = maskAt nrm (blk (ptI t) r) (blk (ptJ t) cc) := by
  unfold tileMask
  refine (pay5_at _ _ _ r cc).trans ?_
  unfold maskAt
  exact congrArg₂ IntOp.andi (congrArg (fun z => Ideal.cmp .ogt z (Ideal.ofBits .f32 0x3F4CCCCD#32)) rfl)
    (ne_word (ptI t) (ptJ t) r cc)

/-- Entry `(0, r, c)` of the tile of masked terms at a grid point is the masked pair term at the global rows. -/
theorem tileTerms_at (nrm : FVec Ideal Cert.KernelIdeal.S8192x128 .f32) (logp p : FVec Ideal Cert.KernelIdeal.S8192x8 .f32)
    (a : FVec Ideal Cert.KernelIdeal.S1x8192 .f32) (t : Pt) (r cc : Fin 512) :
    tileTerms nrm logp p a t (ix3 (0 : Fin 1) r cc) = termAt nrm logp p a (blk (ptI t) r) (blk (ptJ t) cc) := by
  unfold tileTerms
  refine (pay6_at _ _ _ _ _ _ (0 : Fin 1) r cc).trans ?_
  unfold termAt
  exact congrArg₂ (fun m v => Scalar.select m v (Ideal.ofBits .f32 0x00000000#32)) (tileMask_at nrm t r cc) rfl

end Cert.Bridge

end
-- ==== Proof.Val.LaneSum.lean ====
/-
  The kernel's two lane sums as double sums over the tile.

  Reducing both tile axes of a `[1, 512, 512]` array and extracting the one remaining element gives the sum of all its
  entries, that is the double sum over `(r, c)` of the entry `(0, r, c)`. For the mask the entries are first widened
  to 32 bits and converted to floats, exactly.
-/
import proofs.«137117_j83648783057448_1_alg».proof.Proof.Val.Defs
import proofs.«137117_j83648783057448_1_alg».proof.Proof.LibIdxLayout
import Idealize.ShloMosaic.PureOps.Ideal.Laws
import Idealize.ShloMosaic.Lib.ValueLayout

noncomputable section

namespace Cert.Bridge

open Idealize.ShloMosaic Idealize.ShloMosaic.ValueIdx

/-- The lane sum of a tile of terms is the double sum of its entries. -/
theorem laneSumKL_eq (v : FVec Ideal Cert.KernelIdeal.S1x512x512 .f32) :
    laneSumKL v = ∑ r : Fin 512, ∑ c : Fin 512, v (ix3 (0 : Fin 1) r c) := by
  unfold laneSumKL extractAt shapeCast
  exact (Ideal.multiReduction_add_total v _ _ (fun b => match b with | ⟨0, _⟩ => rfl) _ _ _).trans
    (Cert.LibIdxLayout.sum_idx3_1 v)

/-- The lane sum of a tile mask is the double sum of its bits read as 0 or 1. -/
theorem laneSumNP_eq (v24 : IVec Cert.KernelIdeal.S512x512 1) :
    laneSumNP v24 = ∑ r : Fin 512, ∑ c : Fin 512, (((((v24 (ix2 r c)).setWidth 32).toInt : ℤ) : ℝ) : EReal) := by
  unfold laneSumNP extractAt
  refine (congrFun (rfl : shapeCast Cert.KernelIdeal.S1x1x1 _ _ = fun j => _) _).trans ?_
  refine (Ideal.multiReduction_add_total _ _ _ (fun b => match b with | ⟨0, _⟩ => rfl) _ _ _).trans ?_
  refine (Cert.LibIdxLayout.sum_idx3_1 _).trans ?_
  refine Finset.sum_congr rfl fun r _ => Finset.sum_congr rfl fun c _ => ?_
  exact shapeCast_ab_1ab_apply _ _ (0 : Fin 1) r c

end Cert.Bridge

end
-- ==== Proof.Val.Grid.lean ====
/-
  The grid's points enumerate the tiles.

  The pipeline visits the 256 points of the 16 × 16 grid row by row: point `t` has row block `t / 16` and column block
  `t mod 16`. So a sum over the points of a function of the two block numbers is the double sum over the block numbers.
-/
import proofs.«137117_j83648783057448_1_alg».proof.Proof.Val.Defs
import proofs.«137117_j83648783057448_1_alg».proof.Proof.LibTileSum

noncomputable section

namespace Cert.Bridge

open Idealize.ShloMosaic

/-- The row block number of point `t` is `t / 16` (mod 16). -/
theorem ptI_val (t : Pt) : (ptI t).val = t.val / 16 % 16 := by
  show t.val / Cert.KernelIdeal.grid0.stride 0 % 16 = t.val / 16 % 16
  rw [show Cert.KernelIdeal.grid0.stride 0 = 16 from by decide]

/-- The column block number of point `t` is `t mod 16`. -/
theorem ptJ_val (t : Pt) : (ptJ t).val = t.val % 16 := by
  show t.val / Cert.KernelIdeal.grid0.stride 1 % 16 = t.val % 16
  rw [show Cert.KernelIdeal.grid0.stride 1 = 1 from by decide, Nat.div_one]

/-- A sum over the grid's points of a function of the block numbers is the double sum over the block numbers. -/
theorem sum_points {M : Type*} [AddCommMonoid M] (g : Fin 16 → Fin 16 → M) :
    ∑ t : Pt, g (ptI t) (ptJ t) = ∑ i : Fin 16, ∑ j : Fin 16, g i j := by
  rw [← Cert.LibTileSum.sum_rowMajor (A := 16) (B := 16) (N := Cert.KernelIdeal.grid0.N) (by decide) (by decide) (by decide) g]
  exact Finset.sum_congr rfl fun t _ => congrArg₂ g (Fin.ext (ptI_val t)) (Fin.ext (ptJ_val t))

end Cert.Bridge

end
-- ==== Proof.LibIntCount.lean ====
/-
  Counting by a 32-bit sum.

  A count of the true entries of an array of one-bit words can be taken in two ways: widen each word to 32 bits and add
  them up as machine integers (wrapping), then read the total as a signed integer; or read each word as the real number
  0 or 1 and add those up exactly. The two agree as long as there are fewer than 2^31 entries, since the machine sum of
  at most that many ones never wraps and never reaches the sign bit. Stated over a list that enumerates the index type.
-/
import Mathlib
import Idealize.ShloMosaic.PureOps.Ideal

namespace Idealize.ShloMosaic.LibIntCount

/-- A one-bit word is 0 or 1. -/
theorem bit_cases (v : BitVec 1) : v = 0#1 ∨ v = 1#1 := by
  revert v; decide

/-- A one-bit word widened to 32 bits is the numeral 0 or 1. -/
theorem setWidth_bit (v : BitVec 1) : v.setWidth 32 = BitVec.ofNat 32 (if v = 1#1 then 1 else 0) := by
  rcases bit_cases v with rfl | rfl <;> decide

/-- The machine sum of widened bits over a list, from any start, is the start plus the number of ones. -/
theorem foldl_addi_bits {ι : Type} (b : ι → BitVec 1) :
    ∀ (l : List ι) (acc : BitVec 32),
      l.foldl (fun r i => IntOp.addi r ((b i).setWidth 32)) acc = acc + BitVec.ofNat 32 (l.countP fun i => b i = 1#1)
  | [], acc => by simp
  | a :: l, acc => by
    rw [List.foldl_cons, foldl_addi_bits b l, List.countP_cons, setWidth_bit]
    unfold IntOp.addi
    by_cases h : b a = 1#1
    · simp only [h, if_true, decide_true]
      rw [BitVec.add_assoc, ← BitVec.ofNat_add, Nat.add_comm]
    · simp only [h, if_false, decide_false]
      simp

/-- A numeral below 2^31 reads back as itself, signed. -/
theorem toInt_ofNat_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The exact sum of the bits read as 0 / 1 over a list is the number of ones. -/
theorem sum_map_bits {ι : Type} (b : ι → BitVec 1) :
    ∀ l : List ι, (l.map fun i => (((((b i).setWidth 32).toInt : ℤ) : ℝ) : EReal)).sum = ((l.countP fun i => b i = 1#1 : ℕ) : EReal)
  | [] => by simp
  | a :: l => by
    rw [List.map_cons, List.sum_cons, sum_map_bits b l, List.countP_cons]
    rcases bit_cases (b a) with h | h
    · rw [h]; simp
    · rw [h]
      have : ((1#1 : BitVec 1).setWidth 32).toInt = 1 := by decide
      rw [this]; simp [add_comm]

/-- THE COUNT: over a list that enumerates a finite index type with fewer than 2^31 entries, the machine sum of the widened
    bits read as a signed integer is the exact sum of the bits read as 0 / 1. -/
theorem toInt_foldl_eq_sum {ι : Type} [Fintype ι] [DecidableEq ι] (b : ι → BitVec 1) (l : List ι) (hnd : l.Nodup)
    (hall : ∀ i, i ∈ l) (hlen : l.length < 2 ^ 31) :
    ((((l.foldl (fun r i => IntOp.addi r ((b i).setWidth 32)) 0#32).toInt : ℤ) : ℝ) : EReal)
      = ∑ i : ι, (((((b i).setWidth 32).toInt : ℤ) : ℝ) : EReal) := by
  have hfin : (Finset.univ : Finset ι) = l.toFinset := by
    ext i; simp [hall i]
  rw [foldl_addi_bits, BitVec.zero_add, toInt_ofNat_small _ (lt_of_le_of_lt (List.countP_le_length) hlen), hfin,
    List.sum_toFinset _ hnd, sum_map_bits]
  simp

/-- The same for any fold whose summand at each index is the widened bit and whose start is zero, however spelt. -/
theorem toInt_foldl_eq_sum_of {ι : Type} [Fintype ι] [DecidableEq ι] (b : ι → BitVec 1) (g : ι → BitVec 32)
    (hg : ∀ i, g i = (b i).setWidth 32) (init : BitVec 32) (hinit : init = 0#32) (l : List ι) (hnd : l.Nodup)
    (hall : ∀ i, i ∈ l) (hlen : l.length < 2 ^ 31) :
    ((((l.foldl (fun r i => IntOp.addi r (g i)) init).toInt : ℤ) : ℝ) : EReal)
      = ∑ i : ι, (((((b i).setWidth 32).toInt : ℤ) : ℝ) : EReal) := by
  have e : g = fun i => (b i).setWidth 32 := funext hg
  subst e
  subst hinit
  exact toInt_foldl_eq_sum b l hnd hall hlen

end Idealize.ShloMosaic.LibIntCount
-- ==== Proof.Val.RefAt.lean ====
/-
  The reference's whole-array terms read at an entry, and its two reductions as double sums.

  Entry `(x, y)` of the reference's mask is the pair mask at `(x, y)`: its product contracts the same 128 coordinates,
  its threshold is the same word, and "not (row + 0 = column)" on the coordinates' words is `x ≠ y`. Entry `(x, y)` of
  its masked matrix is the masked pair term. Its float reduction over both axes is, from the zero it starts at, the
  double sum of the entries; its wrapping 32-bit count of the mask, read back as an integer, is the double sum of the
  mask bits read as 0 or 1, because 8192 · 8192 = 2^26 entries cannot wrap a 32-bit sum.
-/
import proofs.«137117_j83648783057448_1_alg».proof.Proof.Val.Defs
import proofs.«137117_j83648783057448_1_alg».proof.Proof.Val.Spec
import proofs.«137117_j83648783057448_1_alg».proof.Proof.LibPlainDot
import proofs.«137117_j83648783057448_1_alg».proof.Proof.LibIntCount
import Idealize.ShloMosaic.Lib.IdealHost
import Idealize.ShloMosaic.Lib.KernelVsHost
import Idealize.ShloMosaic.PureOps.Reduce

noncomputable section

namespace Cert.Bridge

open Idealize.ShloMosaic Idealize.ShloMosaic.ValueIdx

/-- Entry `(x, y)` of the reference's mask. -/
theorem refMask_at (nrm : FVec Ideal Cert.ReferenceIdeal.S8192x128 .f32) (x y : Fin 8192) :
    refMask nrm (ix2 x y) = maskAt nrm x y := by
  unfold refMask maskAt
  refine congrArg₂ IntOp.andi ?_ ?_
  · refine (cmpf_apply _ _ _ _).trans ((Ideal.cmpf_def _ _ _).trans (congrArg₂ (Ideal.cmp .ogt) ?_ ?_))
    · exact Cert.LibPlainDot.dotGeneral_plain_transposed_apply none nrm nrm _ x y
    · exact broadcastInDim_scalar_apply _ _ _
  · show ~~~(IntOp.cmpi .eq (IntOp.addi (BitVec.ofNat 32 x.val) 0#32) (BitVec.ofNat 32 y.val)) = _
    exact eq_word x y

/-- Entry `(x, y)` of the reference's matrix of pair terms. -/
theorem refKLmat_at (logp p : FVec Ideal Cert.ReferenceIdeal.S8192x8 .f32) (a : FVec Ideal Cert.ReferenceIdeal.S1x8192 .f32)
    (x y : Fin 8192) : refKLmat logp p a (ix2 x y) = a (ix2 (0 : Fin 1) y) - crossAt logp p x y := by
  unfold refKLmat crossAt
  refine (subf_apply _ _ _).trans (congrArg₂ (· - ·) ?_ ?_)
  · exact broadcastInDim_oneRow_apply _ a x y
  · exact Cert.LibPlainDot.dotGeneral_plain_transposed_apply none logp p _ x y

/-- Entry `(x, y)` of the reference's masked matrix. -/
theorem refSel_at (nrm : FVec Ideal Cert.ReferenceIdeal.S8192x128 .f32) (logp p : FVec Ideal Cert.ReferenceIdeal.S8192x8 .f32)
    (a : FVec Ideal Cert.ReferenceIdeal.S1x8192 .f32) (x y : Fin 8192) :
    refSel nrm logp p a (ix2 x y) = termAt nrm logp p a x y := by
  unfold refSel termAt
  refine (select_apply _ _ _ _).trans ?_
  rw [refMask_at, refKLmat_at]
  exact congrArg (Scalar.select (maskAt nrm x y) (a (ix2 (0 : Fin 1) y) - crossAt logp p x y))
    (broadcastInDim_scalar_apply _ _ _)

/-- The reference's float reduction is the double sum of the masked pair terms. -/
theorem refKL_eq (nrm : FVec Ideal Cert.ReferenceIdeal.S8192x128 .f32) (logp p : FVec Ideal Cert.ReferenceIdeal.S8192x8 .f32)
    (a : FVec Ideal Cert.ReferenceIdeal.S1x8192 .f32) :
    refKL nrm logp p a ix0 = ∑ x : Fin 8192, ∑ y : Fin 8192, termAt nrm logp p a x y := by
  unfold refKL
  refine (hostReduceAdd_apply _ _ _ _ _).trans ?_
  refine (Ideal.hostReduceAdd_total _ (fun b => b.elim0) _ _ _).trans ?_
  rw [sum_idx2]
  show Ideal.ofBits .f32 0x00000000#32 + _ = _
  rw [Ideal.ofBits_zero_f32, zero_add]
  exact Finset.sum_congr rfl fun x _ => Finset.sum_congr rfl fun y _ => refSel_at nrm logp p a x y

/-- The number of entries of the pair matrix is below 2^31. -/
theorem numel_pairs_lt : Cert.ReferenceIdeal.S8192x8192.numel < 2 ^ 31 := by decide

/-- The reference's wrapping integer count, read back as an integer, is the double sum of the mask bits. -/
theorem refNP_eq (nrm : FVec Ideal Cert.ReferenceIdeal.S8192x128 .f32) :
    ((((refNP nrm ix0).toInt : ℤ) : ℝ) : EReal) = ∑ x : Fin 8192, ∑ y : Fin 8192, bitAt nrm x y := by
  unfold refNP
  rw [Host.reduce_eq_foldl,
    List.filter_eq_self.2 (fun i _ => decide_eq_true (funext fun b => b.elim0))]
  have hnd : ((List.finRange Cert.ReferenceIdeal.S8192x8192.numel).map Cert.ReferenceIdeal.S8192x8192.rowMajor.symm).Nodup :=
    (List.nodup_finRange _).map Cert.ReferenceIdeal.S8192x8192.rowMajor.symm.injective
  have hall : ∀ i : Cert.ReferenceIdeal.S8192x8192.Idx,
      i ∈ (List.finRange Cert.ReferenceIdeal.S8192x8192.numel).map Cert.ReferenceIdeal.S8192x8192.rowMajor.symm :=
    fun i => List.mem_map.2 ⟨Cert.ReferenceIdeal.S8192x8192.rowMajor i, List.mem_finRange _, Equiv.symm_apply_apply _ i⟩
  have hlen : ((List.finRange Cert.ReferenceIdeal.S8192x8192.numel).map Cert.ReferenceIdeal.S8192x8192.rowMajor.symm).length < 2 ^ 31 := by
    rw [List.length_map, List.length_finRange]; exact numel_pairs_lt
  refine (Idealize.ShloMosaic.LibIntCount.toInt_foldl_eq_sum_of (fun i => refMask nrm i) _ (fun i => rfl) _ rfl _ hnd hall hlen).trans ?_
  rw [sum_idx2]
  refine Finset.sum_congr rfl fun x _ => Finset.sum_congr rfl fun y _ => ?_
  unfold bitAt
  rw [refMask_at]

end Cert.Bridge

end
-- ==== Proof.Val.Bridge.lean ====
/-
  The value bridge: what the kernel accumulates over its grid is what the reference reduces at once.

  Each grid point adds the double sum of its tile's entries; the points enumerate the 16 × 16 tiles; the tiles cut the
  8192 × 8192 pair matrix; and the reference's reductions are the double sums over the whole matrix. Sums on the
  extended reals may be regrouped freely, so the two totals are equal with no finiteness assumption.
-/
import proofs.«137117_j83648783057448_1_alg».proof.Proof.Val.KernelAt
import proofs.«137117_j83648783057448_1_alg».proof.Proof.Val.LaneSum
import proofs.«137117_j83648783057448_1_alg».proof.Proof.Val.Grid
import proofs.«137117_j83648783057448_1_alg».proof.Proof.Val.RefAt

noncomputable section

namespace Cert.Bridge

open Idealize.ShloMosaic Idealize.ShloMosaic.ValueIdx

/-- What one grid point adds to the sum of masked terms: the double sum over its tile. -/
theorem tileKL_eq (nrm : FVec Ideal Cert.KernelIdeal.S8192x128 .f32) (logp p : FVec Ideal Cert.KernelIdeal.S8192x8 .f32)
    (a : FVec Ideal Cert.KernelIdeal.S1x8192 .f32) (t : Pt) :
    tileKL nrm logp p a t
      = ∑ r : Fin 512, ∑ c : Fin 512, termAt nrm logp p a (blk (ptI t) r) (blk (ptJ t) c) := by
  unfold tileKL
  refine (laneSumKL_eq _).trans ?_
  exact Finset.sum_congr rfl fun r _ => Finset.sum_congr rfl fun c _ => tileTerms_at nrm logp p a t r c

/-- What one grid point adds to the count of pairs: the double sum over its tile of the mask bits. -/
theorem tileNP_eq (nrm : FVec Ideal Cert.KernelIdeal.S8192x128 .f32) (t : Pt) :
    tileNP nrm t = ∑ r : Fin 512, ∑ c : Fin 512, bitAt nrm (blk (ptI t) r) (blk (ptJ t) c) := by
  unfold tileNP
  refine (laneSumNP_eq _).trans ?_
  refine Finset.sum_congr rfl fun r _ => Finset.sum_congr rfl fun c _ => ?_
  unfold bitAt
  rw [tileMask_at]

/-- THE SUM OF MASKED TERMS: over all grid points the kernel adds up the reference's reduction. -/
theorem sum_tileKL (nrm : FVec Ideal Cert.KernelIdeal.S8192x128 .f32) (logp p : FVec Ideal Cert.KernelIdeal.S8192x8 .f32)
    (a : FVec Ideal Cert.KernelIdeal.S1x8192 .f32) :
    ∑ t : Pt, tileKL nrm logp p a t = refKL nrm logp p a ix0 := by
  calc ∑ t : Pt, tileKL nrm logp p a t
      = ∑ t : Pt, ∑ r : Fin 512, ∑ c : Fin 512, termAt nrm logp p a (blk (ptI t) r) (blk (ptJ t) c) :=
        Finset.sum_congr rfl fun t _ => tileKL_eq nrm logp p a t
    _ = ∑ i : Fin 16, ∑ j : Fin 16, ∑ r : Fin 512, ∑ c : Fin 512, termAt nrm logp p a (blk i r) (blk j c) :=
        sum_points fun i j => ∑ r : Fin 512, ∑ c : Fin 512, termAt nrm logp p a (blk i r) (blk j c)
    _ = ∑ x : Fin 8192, ∑ y : Fin 8192, termAt nrm logp p a x y :=
        (Cert.LibTileSum.sum_tiles (A := 16) (B := 512) (N := 8192) rfl fun x y => termAt nrm logp p a x y).symm
    _ = refKL nrm logp p a ix0 := (refKL_eq nrm logp p a).symm

/-- THE COUNT OF PAIRS: over all grid points the kernel adds up the reference's integer count, read as a number. -/
theorem sum_tileNP (nrm : FVec Ideal Cert.KernelIdeal.S8192x128 .f32) :
    ∑ t : Pt, tileNP nrm t = ((((refNP nrm ix0).toInt : ℤ) : ℝ) : EReal) := by
  calc ∑ t : Pt, tileNP nrm t
      = ∑ t : Pt, ∑ r : Fin 512, ∑ c : Fin 512, bitAt nrm (blk (ptI t) r) (blk (ptJ t) c) :=
        Finset.sum_congr rfl fun t _ => tileNP_eq nrm t
    _ = ∑ i : Fin 16, ∑ j : Fin 16, ∑ r : Fin 512, ∑ c : Fin 512, bitAt nrm (blk i r) (blk j c) :=
        sum_points fun i j => ∑ r : Fin 512, ∑ c : Fin 512, bitAt nrm (blk i r) (blk j c)
    _ = ∑ x : Fin 8192, ∑ y : Fin 8192, bitAt nrm x y :=
        (Cert.LibTileSum.sum_tiles (A := 16) (B := 512) (N := 8192) rfl fun x y => bitAt nrm x y).symm
    _ = ((((refNP nrm ix0).toInt : ℤ) : ℝ) : EReal) := (refNP_eq nrm).symm

/-- The same, with the reference's conversion of the count to a float written as the operation it is. -/
theorem sum_tileNP_sitofp (nrm : FVec Ideal Cert.KernelIdeal.S8192x128 .f32) :
    ∑ t : Pt, tileNP nrm t = (sitofp (F := Ideal) .f32 (refNP nrm) : FVec Ideal Cert.ReferenceIdeal.S_ .f32) ix0 :=
  sum_tileNP nrm

end Cert.Bridge

end
-- ==== Proof.LibIntTail.lean ====
/-
  A 32-bit integer and the real number it denotes: the sign test and the maximum with one.

  Reading a 32-bit word as a signed integer and then as a real number is monotone, so "the integer is positive" and
  "its real value is positive" are the same statement, and taking the larger of the integer and 1 before the reading
  is taking the larger of the real value and 1 after it. Stated on the extended reals, where the float side lives.
-/
import Mathlib
import Idealize.ShloMosaic.PureOps.Ideal

namespace Cert.LibIntTail

open Idealize.ShloMosaic

/-- A signed 32-bit integer is positive exactly when the real number it denotes is. -/
theorem cmpi_sgt_zero (n : BitVec 32) :
    IntOp.cmpi .sgt n 0#32 = Ideal.cmp .ogt (((n.toInt : ℤ) : ℝ) : EReal) 0 := by
  unfold IntOp.cmpi Ideal.cmp
  congr 1
  show (0#32).slt n = decide ((0 : EReal) < (((n.toInt : ℤ) : ℝ) : EReal))
  rw [BitVec.slt_eq_decide]
  have h0 : (0#32 : BitVec 32).toInt = 0 := by decide
  rw [h0]
  have e : ((0 : EReal) < (((n.toInt : ℤ) : ℝ) : EReal)) ↔ (0 : ℤ) < n.toInt := by
    rw [← EReal.coe_zero, EReal.coe_lt_coe_iff]
    exact_mod_cast Iff.rfl
  exact (decide_eq_decide.mpr e).symm

/-- The larger of a signed 32-bit integer and 1 denotes the larger of the integer's real value and 1. -/
theorem toInt_maxsi_one (n : BitVec 32) :
    ((((IntOp.maxsi n 1#32).toInt : ℤ) : ℝ) : EReal) = max (((n.toInt : ℤ) : ℝ) : EReal) 1 := by
  unfold IntOp.maxsi
  have h1 : (1#32 : BitVec 32).toInt = 1 := by decide
  by_cases h : (1#32 : BitVec 32).slt n = true
  · rw [if_pos h]
    rw [BitVec.slt_eq_decide, decide_eq_true_eq, h1] at h
    have : (1 : EReal) ≤ (((n.toInt : ℤ) : ℝ) : EReal) := by
      rw [← EReal.coe_one, EReal.coe_le_coe_iff]; exact_mod_cast h.le
    exact (max_eq_left this).symm
  · rw [if_neg h]
    rw [BitVec.slt_eq_decide, decide_eq_true_eq, h1, not_lt] at h
    have : (((n.toInt : ℤ) : ℝ) : EReal) ≤ 1 := by
      rw [← EReal.coe_one, EReal.coe_le_coe_iff]; exact_mod_cast h
    rw [h1, max_eq_right this]
    norm_num

end Cert.LibIntTail
-- ==== Proof.Val.Tail.lean ====
/-
  The scalar tail: the pair count as an integer and as a float.

  The reference keeps the pair count as a 32-bit integer, tests it against 0 and takes its maximum with 1 as integers,
  and only then converts it to a float; the kernel's side has the count as a float from the start, tests it against 0.0
  and takes its maximum with 1.0. Since the float is the exact value of the integer, the two tests and the two maxima
  agree.
-/
import proofs.«137117_j83648783057448_1_alg».proof.Proof.Val.Bridge
import proofs.«137117_j83648783057448_1_alg».proof.Proof.LibIntTail
import Idealize.ShloMosaic.Lib.IdealHost

noncomputable section

namespace Cert.Bridge

open Idealize.ShloMosaic Idealize.ShloMosaic.ValueIdx

/-- "The integer count is positive" is "the float count is above 0.0", for any scalar float array holding the kernel's total. -/
theorem tail_pos (nrm : FVec Ideal Cert.KernelIdeal.S8192x128 .f32) (np : FVec Ideal Cert.ReferenceIdeal.S_ .f32)
    (hnp : np ix0 = ∑ t : Pt, tileNP nrm t) :
    cmpi .sgt (refNP nrm) (constantI Cert.ReferenceIdeal.S_ 32 0#32)
      = cmpf .ogt np (constant (F := Ideal) Cert.ReferenceIdeal.S_ .f32 0x00000000#32) := by
  funext j
  obtain rfl : j = ix0 := eq_ix0 j
  show IntOp.cmpi .sgt (refNP nrm ix0) 0#32 = Ideal.cmp .ogt (np ix0) (Ideal.ofBits .f32 0x00000000#32)
  rw [Ideal.ofBits_zero_f32, hnp, sum_tileNP, Cert.LibIntTail.cmpi_sgt_zero]

/-- "The integer count, at least 1, as a float" is "the float count, at least 1.0". -/
theorem tail_max (nrm : FVec Ideal Cert.KernelIdeal.S8192x128 .f32) (np : FVec Ideal Cert.ReferenceIdeal.S_ .f32)
    (hnp : np ix0 = ∑ t : Pt, tileNP nrm t) :
    (sitofp (F := Ideal) .f32 (maxsi (refNP nrm) (constantI Cert.ReferenceIdeal.S_ 32 1#32)) : FVec Ideal Cert.ReferenceIdeal.S_ .f32)
      = maximumf np (constant (F := Ideal) Cert.ReferenceIdeal.S_ .f32 0x3F800000#32) := by
  funext j
  obtain rfl : j = ix0 := eq_ix0 j
  show ((((IntOp.maxsi (refNP nrm ix0) 1#32).toInt : ℤ) : ℝ) : EReal) = max (np ix0) (Ideal.ofBits .f32 0x3F800000#32)
  rw [Ideal.ofBits_one_f32, hnp, sum_tileNP, Cert.LibIntTail.toInt_maxsi_one]

end Cert.Bridge

end
-- ==== Proof.Val.KTail.lean ====
/-
  The kernel program's host arithmetic around its grid, as pure functions, and its agreement with the reference's.

  Before the grid the kernel program forms the row of self terms with the same operations as the reference and then
  RESHAPES the 8192 values to one row, where the reference BROADCASTS them along a new leading axis of size one: the
  same row. After the grid it reads the two accumulated scalars, tests the count against 0.0, takes its maximum with
  1.0, divides, selects and scales; the reference does the same with the count kept as an integer until the division.
  Since the kernel's two scalars are the reference's two reductions, the two results agree.
-/
import proofs.«137117_j83648783057448_1_alg».proof.Proof.Val.Tail
import proofs.«137117_j83648783057448_1_alg».proof.Proof.Ref.ValDefs
import Idealize.ShloMosaic.Lib.ValueLayout

noncomputable section

namespace Cert.Bridge

section Generic
open Cert.KernelIdeal Cert.KernelIdeal.Gen Idealize.ShloMosaic Idealize.SL.Sem
variable {F : FTy → Type} [FloatOps F]

/-- The kernel program's %22 as a function of %arg2: the composition of @log_softmax_1's operations. -/
def logpKF (x2 : FVec F S8192x8 .f32) : FVec F S8192x8 .f32 :=
  ((subf : (⟨S8192x8, .f32⟩ : BufTy).Contents (Elt F) → (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) x2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) x2 (constant S_ .f32 0xFF800000#32 : (⟨S_, .f32⟩ : BufTy).Contents (Elt F))))))) (((broadcastInDim S8192x8 ![0, 1] bcast_S8192x1_S8192x8_0_1) : (⟨S8192x1, .f32⟩ : BufTy).Contents (Elt F) → (⟨S8192x8, .f32⟩ : BufTy).Contents (Elt F)) ((Host.log : (⟨S8192x1, .f32⟩ : BufTy).Contents (Elt F) → (⟨S8192x1, .f32⟩ : BufTy).Contents (Elt F)) (((broadcastInDim S8192x1 ![0] bcast_S8192_S8192x1_0) : (⟨S8192, .f32⟩ : BufTy).Contents (Elt F) → (⟨S8192x1, .f32⟩ : BufTy).Contents (Elt F)) (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((Host.exp : (⟨S8192x8, .f32⟩ : BufTy).Contents (Elt F) → (⟨S8192x8, .f32⟩ : BufTy).Contents (Elt F)) ((subf : (⟨S8192x8, .f32⟩ : BufTy).Contents (Elt F) → (⟨S8192x8, .f32⟩ : BufTy).Contents (Elt F) → (⟨S8192x8, .f32⟩ : BufTy).Contents (Elt F)) x2 (((broadcastInDim S8192x8 ![0, 1] bcast_S8192x1_S8192x8_0_1) : (⟨S8192x1, .f32⟩ : BufTy).Contents (Elt F) → (⟨S8192x8, .f32⟩ : BufTy).Contents (Elt F)) (((broadcastInDim S8192x1 ![0] bcast_S8192_S8192x1_0) : (⟨S8192, .f32⟩ : BufTy).Contents (Elt F) → (⟨S8192x1, .f32⟩ : BufTy).Contents (Elt F)) ((maximumf : (⟨S8192, .f32⟩ : BufTy).Contents (Elt F) → (⟨S8192, .f32⟩ : BufTy).Contents (Elt F) → (⟨S8192, .f32⟩ : BufTy).Contents (Elt F)) (((broadcastInDim S8192 ![] bcast_S_S8192) : (⟨S_, .f32⟩ : BufTy).Contents (Elt F) → (⟨S8192, .f32⟩ : BufTy).Contents (Elt F)) (constant S_ .f32 0xFF800000#32 : (⟨S_, .f32⟩ : BufTy).Contents (Elt F))) (((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) x2 (constant S_ .f32 0xFF800000#32 : (⟨S_, .f32⟩ : BufTy).Contents (Elt F)))))))) (constant S_ .f32 0x00000000#32 : (⟨S_, .f32⟩ : BufTy).Contents (Elt F)))))))

/-- The kernel program's %23 as a function of %arg2: one operation on %22. -/
def pKF (x2 : FVec F S8192x8 .f32) : FVec F S8192x8 .f32 :=
  ((Host.exp : (⟨S8192x8, .f32⟩ : BufTy).Contents (Elt F) → (⟨S8192x8, .f32⟩ : BufTy).Contents (Elt F)) (logpKF x2))

/-- The kernel program's reshape of 8192 values to one row of 8192 (its %26 from its %25). -/
def rowKF (y : FVec F S8192 .f32) : FVec F S1x8192 .f32 :=
  shapeCast S1x8192 y shapeCasts_S8192_S1x8192

/-- The kernel program's %26 (shape [1, 8192]) as a function of %arg2: the composition of %24, %25, %26 over %22 and %23. -/
def aKF (x2 : FVec F S8192x8 .f32) : FVec F S1x8192 .f32 :=
  rowKF (((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) ((mulf : (⟨S8192x8, .f32⟩ : BufTy).Contents (Elt F) → (⟨S8192x8, .f32⟩ : BufTy).Contents (Elt F) → (⟨S8192x8, .f32⟩ : BufTy).Contents (Elt F)) (pKF x2) (logpKF x2)) (constant S_ .f32 0x00000000#32 : (⟨S_, .f32⟩ : BufTy).Contents (Elt F)))

/-- The kernel program's %34 as a function of the grid's two [1, 1] results: the composition of %28 … %32, @_where and %34. -/
def consKF (kl11 np11 : FVec F S1x1 .f32) : FVec F S_ .f32 :=
  ((mulf : (⟨S_, .f32⟩ : BufTy).Contents (Elt F) → (⟨S_, .f32⟩ : BufTy).Contents (Elt F) → (⟨S_, .f32⟩ : BufTy).Contents (Elt F)) (constant S_ .f32 0x3DCCCCCD#32 : (⟨S_, .f32⟩ : BufTy).Contents (Elt F)) ((select : (⟨S_, .i1⟩ : BufTy).Contents (Elt F) → (⟨S_, .f32⟩ : BufTy).Contents (Elt F) → (⟨S_, .f32⟩ : BufTy).Contents (Elt F) → (⟨S_, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) (shapeCast S_ np11 shapeCasts_S1x1_S_ : (⟨S_, .f32⟩ : BufTy).Contents (Elt F)) (constant S_ .f32 0x00000000#32 : (⟨S_, .f32⟩ : BufTy).Contents (Elt F))) ((Host.divf : (⟨S_, .f32⟩ : BufTy).Contents (Elt F) → (⟨S_, .f32⟩ : BufTy).Contents (Elt F) → (⟨S_, .f32⟩ : BufTy).Contents (Elt F)) (shapeCast S_ kl11 shapeCasts_S1x1_S_ : (⟨S_, .f32⟩ : BufTy).Contents (Elt F)) ((maximumf : (⟨S_, .f32⟩ : BufTy).Contents (Elt F) → (⟨S_, .f32⟩ : BufTy).Contents (Elt F) → (⟨S_, .f32⟩ : BufTy).Contents (Elt F)) (shapeCast S_ np11 shapeCasts_S1x1_S_ : (⟨S_, .f32⟩ : BufTy).Contents (Elt F)) (constant S_ .f32 0x3F800000#32 : (⟨S_, .f32⟩ : BufTy).Contents (Elt F)))) ((id : (⟨S_, .f32⟩ : BufTy).Contents (Elt F) → (⟨S_, .f32⟩ : BufTy).Contents (Elt F)) (constant S_ .f32 0x00000000#32 : (⟨S_, .f32⟩ : BufTy).Contents (Elt F)))))

end Generic

open Idealize.ShloMosaic Idealize.ShloMosaic.ValueIdx

/-! ## At the ideal floats -/

/-- `logpKF` at the ideal floats. -/
def logpK (x2 : FVec Ideal Cert.KernelIdeal.S8192x8 .f32) : FVec Ideal Cert.KernelIdeal.S8192x8 .f32 := logpKF (F := Ideal) x2
/-- `pKF` at the ideal floats. -/
def pK (x2 : FVec Ideal Cert.KernelIdeal.S8192x8 .f32) : FVec Ideal Cert.KernelIdeal.S8192x8 .f32 := pKF (F := Ideal) x2
/-- `rowKF` at the ideal floats. -/
def rowK (y : FVec Ideal Cert.KernelIdeal.S8192 .f32) : FVec Ideal Cert.KernelIdeal.S1x8192 .f32 := rowKF (F := Ideal) y
/-- `aKF` at the ideal floats. -/
def aK (x2 : FVec Ideal Cert.KernelIdeal.S8192x8 .f32) : FVec Ideal Cert.KernelIdeal.S1x8192 .f32 := aKF (F := Ideal) x2
/-- `consKF` at the ideal floats. -/
def consK (kl11 np11 : FVec Ideal Cert.KernelIdeal.S1x1 .f32) : FVec Ideal Cert.KernelIdeal.S_ .f32 := consKF (F := Ideal) kl11 np11

/-! ## The row of self terms -/

/-- Reshaping 8192 values to one row is broadcasting them along a new leading axis of size one. -/
theorem rowK_eq_broadcastInDim (y : FVec Ideal Cert.KernelIdeal.S8192 .f32) :
    shapeCast Cert.KernelIdeal.S1x8192 y Cert.KernelIdeal.Gen.shapeCasts_S8192_S1x8192
      = broadcastInDim Cert.ReferenceIdeal.S1x8192 ![1] Cert.ReferenceIdeal.Gen.bcast_S8192_S1x8192_1 y := by
  funext j
  obtain ⟨u, i, rfl⟩ : ∃ (u : Fin 1) (i : Fin 8192), j = ix2 u i := ⟨j 0, j 1, eq_ix2 j⟩
  refine (shapeCast_a_1a_apply y _ u i).trans (Eq.symm ?_)
  refine broadcastInDim_apply ![1] _ y (ix2 u i) (ix1 i) fun a => ?_
  match a with
  | ⟨0, _⟩ => rfl

/-- The kernel program's log probabilities are the reference's: the same operations. -/
theorem logpK_eq (x2 : FVec Ideal Cert.KernelIdeal.S8192x8 .f32) : logpK x2 = Cert.ReferenceIdeal.RefVal.logpT x2 := rfl

/-- The kernel program's probabilities are the reference's: the same operations. -/
theorem pK_eq (x2 : FVec Ideal Cert.KernelIdeal.S8192x8 .f32) : pK x2 = Cert.ReferenceIdeal.RefVal.pT x2 := rfl

/-- The kernel program's row of self terms is the reference's. -/
theorem aK_eq (x2 : FVec Ideal Cert.KernelIdeal.S8192x8 .f32) : aK x2 = Cert.ReferenceIdeal.RefVal.aT x2 := by
  show shapeCast Cert.KernelIdeal.S1x8192 _ Cert.KernelIdeal.Gen.shapeCasts_S8192_S1x8192 = _
  rw [rowK_eq_broadcastInDim]
  rfl

/-! ## The scalar tail -/

/-- THE TAIL: from the kernel's two accumulated totals the kernel program's tail computes what the reference's tail
    computes from its two reductions. -/
theorem consK_eq (nrm : FVec Ideal Cert.KernelIdeal.S8192x128 .f32) (logp p : FVec Ideal Cert.KernelIdeal.S8192x8 .f32)
    (a : FVec Ideal Cert.KernelIdeal.S1x8192 .f32) (kl11 np11 : FVec Ideal Cert.KernelIdeal.S1x1 .f32)
    (hkl : kl11 = fun _ => ∑ t : Pt, tileKL nrm logp p a t) (hnp : np11 = fun _ => ∑ t : Pt, tileNP nrm t) :
    consK kl11 np11 = Cert.ReferenceIdeal.RefVal.consR (refKL nrm logp p a) (refNP nrm) := by
  subst hkl hnp
  have hnp0 : (shapeCast Cert.KernelIdeal.S_ (fun _ => ∑ t : Pt, tileNP nrm t) Cert.KernelIdeal.Gen.shapeCasts_S1x1_S_
      : FVec Ideal Cert.ReferenceIdeal.S_ .f32) ix0 = ∑ t : Pt, tileNP nrm t := rfl
  have e1 := tail_pos nrm _ hnp0
  have e2 := tail_max nrm _ hnp0
  have e3 : (shapeCast Cert.KernelIdeal.S_ (fun _ => ∑ t : Pt, tileKL nrm logp p a t) Cert.KernelIdeal.Gen.shapeCasts_S1x1_S_
      : FVec Ideal Cert.ReferenceIdeal.S_ .f32) = refKL nrm logp p a := by
    funext j
    obtain rfl : j = ix0 := eq_ix0 j
    exact sum_tileKL nrm logp p a
  unfold consK consKF Cert.ReferenceIdeal.RefVal.consR Cert.ReferenceIdeal.RefVal.consRF
  rw [e1, e2, ← e3]

end Cert.Bridge

end
-- ==== Proof.Val.KJoin.lean ====
/-
  The kernel program's host arithmetic, under the names its run is stated with, agrees with the reference's.

  The run of the kernel program's host operations is read back through definitions of its own for the row of self terms
  and for the scalar tail. They are the same compositions of the same operations as the ones the value bridge is stated
  with, so the bridge's two facts hold of them.
-/
import proofs.«137117_j83648783057448_1_alg».proof.Proof.Val.KTail
import proofs.«137117_j83648783057448_1_alg».proof.Proof.KI.HostVal

noncomputable section

namespace Cert.Bridge

open Idealize.ShloMosaic Idealize.ShloMosaic.ValueIdx

/-- The kernel program's row of self terms is the reference's. -/
theorem hostval_aK_eq (x2 : FVec Ideal Cert.KernelIdeal.S8192x8 .f32) :
    Cert.KernelIdeal.HostVal.aK x2 = Cert.ReferenceIdeal.RefVal.aT x2 := by
  show shapeCast Cert.KernelIdeal.S1x8192 _ Cert.KernelIdeal.Gen.shapeCasts_S8192_S1x8192 = _
  rw [rowK_eq_broadcastInDim]
  rfl

/-- The kernel program's scalar tail is the one the bridge is stated with. -/
theorem hostval_consK (kl11 np11 : FVec Ideal Cert.KernelIdeal.S1x1 .f32) :
    Cert.KernelIdeal.HostVal.consK kl11 np11 = consK kl11 np11 := rfl

/-- THE TAIL, under the run's names: from the kernel's two accumulated totals the kernel program's tail computes what
    the reference's tail computes from its two reductions. -/
theorem hostval_consK_eq (nrm : FVec Ideal Cert.KernelIdeal.S8192x128 .f32) (logp p : FVec Ideal Cert.KernelIdeal.S8192x8 .f32)
    (a : FVec Ideal Cert.KernelIdeal.S1x8192 .f32) (kl11 np11 : FVec Ideal Cert.KernelIdeal.S1x1 .f32)
    (hkl : kl11 = fun _ => ∑ t : Pt, tileKL nrm logp p a t) (hnp : np11 = fun _ => ∑ t : Pt, tileNP nrm t) :
    Cert.KernelIdeal.HostVal.consK kl11 np11 = Cert.ReferenceIdeal.RefVal.consR (refKL nrm logp p a) (refNP nrm) :=
  (hostval_consK kl11 np11).trans (consK_eq nrm logp p a kl11 np11 hkl hnp)

end Cert.Bridge

end
-- ==== Proof.Alg.lean ====
/-
  The two idealized programs end with the same number.

  Both add six scalar terms in the same order. Five of them — the cross-entropy of the classifier, the variance of the
  mean expert usage, the mass of the small routing probabilities, the entropy regulariser and the temperature
  regulariser — are the same host operations of the same arguments in both programs. The fourth term is
  0.1 · where(n > 0, s / max(n, 1), 0), with s the sum over all ordered pairs (i, j), i ≠ j, of rows whose cosine
  similarity exceeds 0.8, of a_j − ⟨log p_i, p_j⟩, and n the number of such pairs. The reference computes s and n on
  whole 8192 × 8192 arrays (n as a 32-bit integer count, at most 2^26, which does not wrap); the kernel program's region
  accumulates both over a 16 × 16 grid of 512 × 512 tiles into two [1, 1] results, n as a float sum of the flags. On the
  extended reals a sum may be regrouped freely, so the tiled totals are the whole-array totals, and the float count is
  the integer count; the comparison with 0 and the maximum with 1 then read the same on both sides.
-/
import proofs.«137117_j83648783057448_1_alg».proof.Defs
import proofs.«137117_j83648783057448_1_alg».proof.Proof.KI.Frame
import proofs.«137117_j83648783057448_1_alg».proof.Proof.KI.OutVal
import proofs.«137117_j83648783057448_1_alg».proof.Proof.KI.HostVal
import proofs.«137117_j83648783057448_1_alg».proof.Proof.Ref.Run
import proofs.«137117_j83648783057448_1_alg».proof.Proof.Ref.Val
import proofs.«137117_j83648783057448_1_alg».proof.Proof.Ref.ValSum
import proofs.«137117_j83648783057448_1_alg».proof.Proof.Val.KJoin

noncomputable section

namespace Cert.Proof.Alg

open Idealize.ShloMosaic Idealize.ShloMosaic.TcCoe Idealize.SL.Sem
open Cert.ReferenceIdeal.RefVal (nrmT logpT pT aT taskT lbT effT entT tempT consR sum6)

/-- The value both programs end with, as the kernel program's run computes it: what its last host operation leaves. -/
def v0 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v55) :=
  Cert.KernelIdeal.Hand.WT3 m (Cert.KernelIdeal.Hand.dats m) c (Proc.devRef .tc Cert.KernelIdeal.main_v55)

/-- Six sums of equal terms are equal. -/
theorem sum6_congr {a b c d e f a' b' c' d' e' f' : FVec Ideal Cert.ReferenceIdeal.S_ .f32}
    (ha : a = a') (hb : b = b') (hc : c = c') (hd : d = d') (he : e = e') (hf : f = f') : sum6 a b c d e f = sum6 a' b' c' d' e' f' := by
  subst ha hb hc hd he hf; rfl

section Kernel

open Cert.KernelIdeal Cert.KernelIdeal.Gen Cert.KernelIdeal.Hand

variable (m : (ℓ : Loc Cert.KernelIdeal.nD Cert.KernelIdeal.τ Cert.KernelIdeal.sig) → Buf (Elt Ideal) ℓ) (c : Dev Cert.KernelIdeal.nD)

/-- The region's first result is the total of the tiles' masked sums, over the four arrays the host stretches before
    the region compute from the arguments. -/
theorem out5_eq :
    out5 (dats m) c = fun _ => ∑ t : Cert.Bridge.Pt, Cert.Bridge.tileKL (nrmT (m ((c.tc : Thread Cert.KernelIdeal.nD Cert.KernelIdeal.τ).loc Cert.KernelIdeal.main_arg3))) (logpT (m ((c.tc : Thread Cert.KernelIdeal.nD Cert.KernelIdeal.τ).loc Cert.KernelIdeal.main_arg2)))
      (pT (m ((c.tc : Thread Cert.KernelIdeal.nD Cert.KernelIdeal.τ).loc Cert.KernelIdeal.main_arg2))) (aT (m ((c.tc : Thread Cert.KernelIdeal.nD Cert.KernelIdeal.τ).loc Cert.KernelIdeal.main_arg2))) t := by
  have e0 : Aent m c 0 = nrmT (m ((c.tc : Thread Cert.KernelIdeal.nD Cert.KernelIdeal.τ).loc Cert.KernelIdeal.main_arg3)) := Cert.KernelIdeal.HostVal.pst11_main_v21 (W0 m c)
  have e2 : Aent m c 2 = logpT (m ((c.tc : Thread Cert.KernelIdeal.nD Cert.KernelIdeal.τ).loc Cert.KernelIdeal.main_arg2)) := Cert.KernelIdeal.HostVal.pst11_main_v22 (W0 m c)
  have e3 : Aent m c 3 = pT (m ((c.tc : Thread Cert.KernelIdeal.nD Cert.KernelIdeal.τ).loc Cert.KernelIdeal.main_arg2)) := Cert.KernelIdeal.HostVal.pst11_main_v23 (W0 m c)
  have e4 : Aent m c 4 = aT (m ((c.tc : Thread Cert.KernelIdeal.nD Cert.KernelIdeal.τ).loc Cert.KernelIdeal.main_arg2)) :=
    (Cert.KernelIdeal.HostVal.pst11_main_v26 (W0 m c)).trans (Cert.Bridge.hostval_aK_eq _)
  exact (out5_val c (Aent m c) qsh rfl).trans
    (congr (congr (congr (congrArg (fun (n : FVec Ideal S8192x128 .f32) (l p : FVec Ideal S8192x8 .f32) (a : FVec Ideal S1x8192 .f32) =>
      ((fun _ => (∑ t : Cert.Bridge.Pt, Cert.Bridge.tileKL n l p a t : EReal)) : FVec Ideal S1x1 .f32)) e0) e2) e3) e4)

/-- The region's second result is the total of the tiles' flag counts. -/
theorem out6_eq :
    out6 (dats m) c = fun _ => ∑ t : Cert.Bridge.Pt, Cert.Bridge.tileNP (nrmT (m ((c.tc : Thread Cert.KernelIdeal.nD Cert.KernelIdeal.τ).loc Cert.KernelIdeal.main_arg3))) t := by
  have e0 : Aent m c 0 = nrmT (m ((c.tc : Thread Cert.KernelIdeal.nD Cert.KernelIdeal.τ).loc Cert.KernelIdeal.main_arg3)) := Cert.KernelIdeal.HostVal.pst11_main_v21 (W0 m c)
  exact (out6_val c (Aent m c) qsh rfl).trans
    (congrArg (fun (n : FVec Ideal S8192x128 .f32) =>
      ((fun _ => (∑ t : Cert.Bridge.Pt, Cert.Bridge.tileNP n t : EReal)) : FVec Ideal S1x1 .f32)) e0)

/-- The kernel program's result as the six-term sum over the reference's own functions of the arguments. -/
theorem kernel_val :
    v0 m c = sum6 (taskT (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (lbT (m ((c.tc : Thread Cert.KernelIdeal.nD Cert.KernelIdeal.τ).loc Cert.KernelIdeal.main_arg2))) (effT (m ((c.tc : Thread Cert.KernelIdeal.nD Cert.KernelIdeal.τ).loc Cert.KernelIdeal.main_arg2)))
      (consR (Cert.Bridge.refKL (nrmT (m ((c.tc : Thread Cert.KernelIdeal.nD Cert.KernelIdeal.τ).loc Cert.KernelIdeal.main_arg3))) (logpT (m ((c.tc : Thread Cert.KernelIdeal.nD Cert.KernelIdeal.τ).loc Cert.KernelIdeal.main_arg2))) (pT (m ((c.tc : Thread Cert.KernelIdeal.nD Cert.KernelIdeal.τ).loc Cert.KernelIdeal.main_arg2))) (aT (m ((c.tc : Thread Cert.KernelIdeal.nD Cert.KernelIdeal.τ).loc Cert.KernelIdeal.main_arg2))))
        (Cert.Bridge.refNP (nrmT (m ((c.tc : Thread Cert.KernelIdeal.nD Cert.KernelIdeal.τ).loc Cert.KernelIdeal.main_arg3)))))
      (entT (m ((c.tc : Thread Cert.KernelIdeal.nD Cert.KernelIdeal.τ).loc Cert.KernelIdeal.main_arg2))) (tempT (m ((c.tc : Thread Cert.KernelIdeal.nD Cert.KernelIdeal.τ).loc Cert.KernelIdeal.main_arg4))) := by
  refine (Cert.KernelIdeal.HostVal.tst2_main_v55 (WX m (dats m) c)).trans (sum6_congr ?_ ?_ ?_ ?_ ?_ ?_)
  · exact (WX_of_ne c main_v5 (by decide) (by decide)).trans (Cert.KernelIdeal.HostVal.pst11_main_v5 (W0 m c))
  · exact (WX_of_ne c main_v11 (by decide) (by decide)).trans (Cert.KernelIdeal.HostVal.pst11_main_v11 (W0 m c))
  · exact (WX_of_ne c main_v18 (by decide) (by decide)).trans (Cert.KernelIdeal.HostVal.pst11_main_v18 (W0 m c))
  · rw [WX_270, WX_271]
    exact Cert.Bridge.hostval_consK_eq _ _ _ _ _ _ (out5_eq m c) (out6_eq m c)
  · exact congrArg entT ((WX_of_ne c main_arg2 (by decide) (by decide)).trans (pre_keep2 (W0 m c)))
  · exact congrArg tempT ((WX_of_ne c main_arg4 (by decide) (by decide)).trans (pre_keep4 (W0 m c)))

end Kernel

/-- The reference's result from memories that agree with the kernel program's on the five arguments is the kernel
    program's result. -/
theorem hval (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    StableHlo.after Cert.ReferenceIdeal.RefRun.ops (StableHlo.launchContents m' c) (Proc.devRef .tc Cert.ReferenceIdeal.main_v72) = v0 m c := by
  obtain ⟨h0, h1, h2, h3, h4⟩ := hag
  have e0 : StableHlo.launchContents m' c (Proc.devRef .tc Cert.ReferenceIdeal.main_arg0) = m ((c.tc : Thread Cert.KernelIdeal.nD Cert.KernelIdeal.τ).loc Cert.KernelIdeal.main_arg0) := h0
  have e1 : StableHlo.launchContents m' c (Proc.devRef .tc Cert.ReferenceIdeal.main_arg1) = m ((c.tc : Thread Cert.KernelIdeal.nD Cert.KernelIdeal.τ).loc Cert.KernelIdeal.main_arg1) := h1
  have e2 : StableHlo.launchContents m' c (Proc.devRef .tc Cert.ReferenceIdeal.main_arg2) = m ((c.tc : Thread Cert.KernelIdeal.nD Cert.KernelIdeal.τ).loc Cert.KernelIdeal.main_arg2) := h2
  have e3 : StableHlo.launchContents m' c (Proc.devRef .tc Cert.ReferenceIdeal.main_arg3) = m ((c.tc : Thread Cert.KernelIdeal.nD Cert.KernelIdeal.τ).loc Cert.KernelIdeal.main_arg3) := h3
  have e4 : StableHlo.launchContents m' c (Proc.devRef .tc Cert.ReferenceIdeal.main_arg4) = m ((c.tc : Thread Cert.KernelIdeal.nD Cert.KernelIdeal.τ).loc Cert.KernelIdeal.main_arg4) := h4
  rw [Cert.ReferenceIdeal.RefVal.result_eq, Cert.ReferenceIdeal.RefVal.total_eq_sum6, e0, e1, e2, e3, e4]
  exact (kernel_val m c).symm

/-- The kernel program's run, read at its result and at the five arguments. -/
theorem kernel_side (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun r h c =>
    ⟨h c (Proc.devRef .tc Cert.KernelIdeal.main_v55) (by decide),
     (h c (Proc.devRef .tc Cert.KernelIdeal.main_arg0) (by decide)).trans (Cert.KernelIdeal.Hand.WT3_arg0 m c),
     (h c (Proc.devRef .tc Cert.KernelIdeal.main_arg1) (by decide)).trans (Cert.KernelIdeal.Hand.WT3_arg1 m c),
     (h c (Proc.devRef .tc Cert.KernelIdeal.main_arg2) (by decide)).trans (Cert.KernelIdeal.Hand.WT3_arg2 m c),
     (h c (Proc.devRef .tc Cert.KernelIdeal.main_arg3) (by decide)).trans (Cert.KernelIdeal.Hand.WT3_arg3 m c),
     (h c (Proc.devRef .tc Cert.KernelIdeal.main_arg4) (by decide)).trans (Cert.KernelIdeal.Hand.WT3_arg4 m c)⟩) (Cert.KernelIdeal.Hand.run (F := Ideal) m g)

/-- Both idealized programs, from memories agreeing on the arguments, run to the end with equal results and unchanged
    arguments. The precondition is not used: every step of the comparison holds for all extended reals. -/
theorem algebraic :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' _ hagree
  refine ⟨v0 m, kernel_side m g, ?_⟩
  refine (θ_run Cert.ReferenceIdeal.defs _ _).mono (fun r h c => ?_) (Cert.ReferenceIdeal.RefRun.run (F := Ideal) m' g')
  refine ⟨(h c Cert.ReferenceIdeal.main_v72).trans (hval m m' c (hagree c)), ?_⟩
  exact ⟨(h c Cert.ReferenceIdeal.main_arg0).trans (Cert.ReferenceIdeal.RefRun.ops_arg0 _), (h c Cert.ReferenceIdeal.main_arg1).trans (Cert.ReferenceIdeal.RefRun.ops_arg1 _),
    (h c Cert.ReferenceIdeal.main_arg2).trans (Cert.ReferenceIdeal.RefRun.ops_arg2 _), (h c Cert.ReferenceIdeal.main_arg3).trans (Cert.ReferenceIdeal.RefRun.ops_arg3 _),
    (h c Cert.ReferenceIdeal.main_arg4).trans (Cert.ReferenceIdeal.RefRun.ops_arg4 _)⟩

end Cert.Proof.Alg

end
-- ==== Proof.lean ====
/-
  The certificate's five claims.

  The kernel program — host arithmetic, one tiled pairwise kernel over a 16 × 16 grid whose two input windows on the
  normalised embeddings share that array, host arithmetic again — runs to the end at the word level and at the ideal
  floats with its arguments unchanged (the two frames: one text, read at both instances); the reference, host
  arithmetic only, does too; the idealization rewrote nothing, so it is preserved trivially; and at the ideal floats
  the two programs end with the same number (Proof/Alg.lean).
-/
import proofs.«137117_j83648783057448_1_alg».proof.Defs
import proofs.«137117_j83648783057448_1_alg».proof.Proof.Gen.Kernel
import proofs.«137117_j83648783057448_1_alg».proof.Proof.Gen.KernelIdeal
import proofs.«137117_j83648783057448_1_alg».proof.Proof.Gen.ReferenceIdeal
import proofs.«137117_j83648783057448_1_alg».proof.Proof.Gen.Pre_finite_inputs
import proofs.«137117_j83648783057448_1_alg».proof.Proof.K.Frame
import proofs.«137117_j83648783057448_1_alg».proof.Proof.KI.Frame
import proofs.«137117_j83648783057448_1_alg».proof.Proof.Ref.Run
import proofs.«137117_j83648783057448_1_alg».proof.Proof.Alg

noncomputable section

namespace Cert.Proof

open Idealize.ShloMosaic Idealize.SL.Sem

/-- The word-level kernel program's frame. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel program's frame. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame, trivial, Cert.Proof.Alg.algebraic⟩

end Cert.Proof

end
